-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v251)) (v1 : (c : Dev Cert.KernelIdeal.nD) → Buf (Elt Ideal) ((c.tc : Thread Cert.KernelIdeal.nD Cert.KernelIdeal.τ).loc Cert.KernelIdeal.main_v256)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v251) = v0 c
          ∧ r.2.mem ((c.tc : Thread Cert.KernelIdeal.nD Cert.KernelIdeal.τ).loc Cert.KernelIdeal.main_v256) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v496) = v0 c
          ∧ r.2.mem ((c.tc : Thread Cert.ReferenceIdeal.nD Cert.ReferenceIdeal.τ).loc Cert.ReferenceIdeal.main_v501) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S2x4x128x128 : Shape := ⟨4, ![2, 4, 128, 128]⟩
abbrev S2x4x128 : Shape := ⟨3, ![2, 4, 128]⟩
abbrev S64x128 : Shape := ⟨2, ![64, 128]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S2x4x128x128 : S_.BroadcastsInDim S2x4x128x128 (![] : Fin 0 → Fin S2x4x128x128.rank)
  reducesTo_S2x4x128x128_S_d0_1_2_3 : S2x4x128x128.ReducesTo [0, 1, 2, 3] S_
  bcast_S_S2x4x128 : S_.BroadcastsInDim S2x4x128 (![] : Fin 0 → Fin S2x4x128.rank)
  reducesTo_S2x4x128_S_d0_1_2 : S2x4x128.ReducesTo [0, 1, 2] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg8 : FVec F S64x128 .f32) (main_arg9 : FVec F S64 .f32) (main_v13 : IVec S_ 1) (main_v16 : IVec S2x4x128 1) : IVec S_ 1 :=
  let main_c_5 : IVec S_ 1 := constantI S_ 1 1#1
  let main_v17 : IVec S_ 1 := (fun x v => Host.reduce IntOp.andi x v reducesTo_S2x4x128_S_d0_1_2 h_S_) main_v16 main_c_5
  let main_v18 : IVec S_ 1 := andi main_v13 main_v17
  let main_v19 : FVec F S64x128 .f32 := Host.absf main_arg8
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg9
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S50000x128 .f32) (main_arg1 : FVec F S50000x128 .f32) (main_arg2 : IVec S2x800000 32) (main_arg3 : IVec S2x800000 32) (main_arg4 : IVec S2x800000 32) (main_arg5 : IVec S2x800000 32) (main_arg6 : FVec F S2x4x128x128 .f32) (main_arg7 : FVec F S2x4x128 .f32) (main_arg8 : FVec F S64x128 .f32) (main_arg9 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S2x4x128x128 .f32 := Host.absf main_arg6
  let main_cst_2 : FVec F S_ .f32 := constant S_ .f32 0x7F800000#32
  let main_v10 : FVec F S2x4x128x128 .f32 := broadcastInDim S2x4x128x128 ![] bcast_S_S2x4x128x128 main_cst_2
  let main_v11 : IVec S2x4x128x128 1 := cmpf .olt main_v9 main_v10
  let main_c_3 : IVec S_ 1 := constantI S_ 1 1#1
  let main_v12 : IVec S_ 1 := (fun x v => Host.reduce IntOp.andi x v reducesTo_S2x4x128x128_S_d0_1_2_3 h_S_) main_v11 main_c_3
  let main_v13 : IVec S_ 1 := andi main_v8 main_v12
  let main_v14 : FVec F S2x4x128 .f32 := Host.absf main_arg7
  let main_cst_4 : FVec F S_ .f32 := constant S_ .f32 0x7F800000#32
  let main_v15 : FVec F S2x4x128 .f32 := broadcastInDim S2x4x128 ![] bcast_S_S2x4x128 main_cst_4
  let main_v16 : IVec S2x4x128 1 := cmpf .olt main_v14 main_v15
  fn_part1 (F := F) main_arg8 main_arg9 main_v13 main_v16
-- ==== Kernel.lean ====
abbrev S50000x128 : Shape := ⟨2, ![50000, 128]⟩
abbrev S2x800000 : Shape := ⟨2, ![2, 800000]⟩
abbrev S2x4x128x128 : Shape := ⟨4, ![2, 4, 128, 128]⟩
abbrev S2x4x128 : Shape := ⟨3, ![2, 4, 128]⟩
abbrev S64x128 : Shape := ⟨2, ![64, 128]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S800000x1 : Shape := ⟨2, ![800000, 1]⟩
abbrev S128x64 : Shape := ⟨2, ![128, 64]⟩
abbrev S1x1x128x128 : Shape := ⟨4, ![1, 1, 128, 128]⟩
abbrev S128x128 : Shape := ⟨2, ![128, 128]⟩
abbrev S128x256 : Shape := ⟨2, ![128, 256]⟩
abbrev S50000x1 : Shape := ⟨2, ![50000, 1]⟩
abbrev S50000x256 : Shape := ⟨2, ![50000, 256]⟩
abbrev S5000x128 : Shape := ⟨2, ![5000, 128]⟩
abbrev S5000x1 : Shape := ⟨2, ![5000, 1]⟩
abbrev S5000x256 : Shape := ⟨2, ![5000, 256]⟩
abbrev S850000x128 : Shape := ⟨2, ![850000, 128]⟩
abbrev S800000x128 : Shape := ⟨2, ![800000, 128]⟩
abbrev S1x1x128 : Shape := ⟨3, ![1, 1, 128]⟩
abbrev S128 : Shape := ⟨1, ![128]⟩
abbrev S1x128 : Shape := ⟨2, ![1, 128]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 343
  | .vmem => 84
  | .smem => 0
  | _ => 0

abbrev hbmTy0_0 (i : Nat) : BufTy := match i % 128 with
  | 0 => ⟨S50000x128, .f32⟩
  | 1 => ⟨S50000x128, .f32⟩
  | 2 => ⟨S2x800000, .i32⟩
  | 3 => ⟨S2x800000, .i32⟩
  | 4 => ⟨S2x800000, .i32⟩
  | 5 => ⟨S2x800000, .i32⟩
  | 6 => ⟨S2x4x128x128, .f32⟩
  | 7 => ⟨S2x4x128, .f32⟩
  | 8 => ⟨S64x128, .f32⟩
  | 9 => ⟨S64, .f32⟩
  | 10 => ⟨S50000, .i32⟩
  | 11 => ⟨S50000, .i32⟩
  | 12 => ⟨S1x800000, .i32⟩
  | 13 => ⟨S800000, .i32⟩
  | 14 => ⟨S850000, .i32⟩
  | 15 => ⟨S1x800000, .i32⟩
  | 16 => ⟨S800000, .i32⟩
  | 17 => ⟨S850000, .i32⟩
  | 18 => ⟨S1x800000, .i32⟩
  | 19 => ⟨S800000, .i32⟩
  | 20 => ⟨S850000, .i32⟩
  | 21 => ⟨S1x800000, .i32⟩
  | 22 => ⟨S800000, .i32⟩
  | 23 => ⟨S850000, .i32⟩
  | 24 => ⟨S1x800000, .i32⟩
  | 25 => ⟨S800000, .i32⟩
  | 26 => ⟨S1x800000, .i32⟩
  | 27 => ⟨S800000, .i32⟩
  | 28 => ⟨S1x800000, .i32⟩
  | 29 => ⟨S800000, .i32⟩
  | 30 => ⟨S1x800000, .i32⟩
  | 31 => ⟨S800000, .i32⟩
  | 32 => ⟨S_, .f32⟩
  | 33 => ⟨S850000, .f32⟩
  | 34 => ⟨S_, .f32⟩
  | 35 => ⟨S50000, .f32⟩
  | 36 => ⟨S850000x1, .i32⟩
  | 37 => ⟨S50000, .f32⟩
  | 38 => ⟨S_, .f32⟩
  | 39 => ⟨S50000, .f32⟩
  | 40 => ⟨S850000x1, .i32⟩
  | 41 => ⟨S50000, .f32⟩
  | 42 => ⟨S_, .f32⟩
  | 43 => ⟨S50000, .f32⟩
  | 44 => ⟨S50000, .i1⟩
  | 45 => ⟨S_, .f32⟩
  | 46 => ⟨S50000, .f32⟩
  | 47 => ⟨S50000, .f32⟩
  | 48 => ⟨S50000, .f32⟩
  | 49 => ⟨S_, .f32⟩
  | 50 => ⟨S_, .f32⟩
  | 51 => ⟨S50000, .f32⟩
  | 52 => ⟨S50000, .f32⟩
  | 53 => ⟨S_, .f32⟩
  | 54 => ⟨S50000, .f32⟩
  | 55 => ⟨S50000, .i1⟩
  | 56 => ⟨S_, .f32⟩
  | 57 => ⟨S50000, .f32⟩
  | 58 => ⟨S50000, .f32⟩
  | 59 => ⟨S50000, .f32⟩
  | 60 => ⟨S_, .f32⟩
  | 61 => ⟨S_, .f32⟩
  | 62 => ⟨S50000, .f32⟩
  | 63 => ⟨S50000, .f32⟩
  | 64 => ⟨S_, .f32⟩
  | 65 => ⟨S850000, .f32⟩
  | 66 => ⟨S_, .f32⟩
  | 67 => ⟨S50000, .f32⟩
  | 68 => ⟨S850000x1, .i32⟩
  | 69 => ⟨S50000, .f32⟩
  | 70 => ⟨S_, .f32⟩
  | 71 => ⟨S50000, .f32⟩
  | 72 => ⟨S850000x1, .i32⟩
  | 73 => ⟨S50000, .f32⟩
  | 74 => ⟨S_, .f32⟩
  | 75 => ⟨S50000, .f32⟩
  | 76 => ⟨S50000, .i1⟩
  | 77 => ⟨S_, .f32⟩
  | 78 => ⟨S50000, .f32⟩
  | 79 => ⟨S50000, .f32⟩
  | 80 => ⟨S50000, .f32⟩
  | 81 => ⟨S_, .f32⟩
  | 82 => ⟨S_, .f32⟩
  | 83 => ⟨S50000, .f32⟩
  | 84 => ⟨S50000, .f32⟩
  | 85 => ⟨S_, .f32⟩
  | 86 => ⟨S50000, .f32⟩
  | 87 => ⟨S50000, .i1⟩
  | 88 => ⟨S_, .f32⟩
  | 89 => ⟨S50000, .f32⟩
  | 90 => ⟨S50000, .f32⟩
  | 91 => ⟨S50000, .f32⟩
  | 92 => ⟨S_, .f32⟩
  | 93 => ⟨S_, .f32⟩
  | 94 => ⟨S50000, .f32⟩
  | 95 => ⟨S50000, .f32⟩
  | 96 => ⟨S_, .f32⟩
  | 97 => ⟨S800000, .f32⟩
  | 98 => ⟨S_, .f32⟩
  | 99 => ⟨S50000, .f32⟩
  | 100 => ⟨S800000x1, .i32⟩
  | 101 => ⟨S50000, .f32⟩
  | 102 => ⟨S_, .f32⟩
  | 103 => ⟨S50000, .f32⟩
  | 104 => ⟨S800000x1, .i32⟩
  | 105 => ⟨S50000, .f32⟩
  | 106 => ⟨S_, .f32⟩
  | 107 => ⟨S50000, .f32⟩
  | 108 => ⟨S50000, .i1⟩
  | 109 => ⟨S_, .f32⟩
  | 110 => ⟨S50000, .f32⟩
  | 111 => ⟨S50000, .f32⟩
  | 112 => ⟨S50000, .f32⟩
  | 113 => ⟨S_, .f32⟩
  | 114 => ⟨S_, .f32⟩
  | 115 => ⟨S50000, .f32⟩
  | 116 => ⟨S50000, .f32⟩
  | 117 => ⟨S_, .f32⟩
  | 118 => ⟨S50000, .f32⟩
  | 119 => ⟨S50000, .i1⟩
  | 120 => ⟨S_, .f32⟩
  | 121 => ⟨S50000, .f32⟩
  | 122 => ⟨S50000, .f32⟩
  | 123 => ⟨S50000, .f32⟩
  | 124 => ⟨S_, .f32⟩
  | 125 => ⟨S_, .f32⟩
  | 126 => ⟨S50000, .f32⟩
  | 127 => ⟨S50000, .f32⟩
  | _ => ⟨S50000x128, .f32⟩

abbrev hbmTy0_1 (i : Nat) : BufTy := match i % 128 with
  | 0 => ⟨S_, .f32⟩
  | 1 => ⟨S800000, .f32⟩
  | 2 => ⟨S_, .f32⟩
  | 3 => ⟨S50000, .f32⟩
  | 4 => ⟨S800000x1, .i32⟩
  | 5 => ⟨S50000, .f32⟩
  | 6 => ⟨S_, .f32⟩
  | 7 => ⟨S50000, .f32⟩
  | 8 => ⟨S800000x1, .i32⟩
  | 9 => ⟨S50000, .f32⟩
  | 10 => ⟨S_, .f32⟩
  | 11 => ⟨S50000, .f32⟩
  | 12 => ⟨S50000, .i1⟩
  | 13 => ⟨S_, .f32⟩
  | 14 => ⟨S50000, .f32⟩
  | 15 => ⟨S50000, .f32⟩
  | 16 => ⟨S50000, .f32⟩
  | 17 => ⟨S_, .f32⟩
  | 18 => ⟨S_, .f32⟩
  | 19 => ⟨S50000, .f32⟩
  | 20 => ⟨S50000, .f32⟩
  | 21 => ⟨S_, .f32⟩
  | 22 => ⟨S50000, .f32⟩
  | 23 => ⟨S50000, .i1⟩
  | 24 => ⟨S_, .f32⟩
  | 25 => ⟨S50000, .f32⟩
  | 26 => ⟨S50000, .f32⟩
  | 27 => ⟨S50000, .f32⟩
  | 28 => ⟨S_, .f32⟩
  | 29 => ⟨S_, .f32⟩
  | 30 => ⟨S50000, .f32⟩
  | 31 => ⟨S50000, .f32⟩
  | 32 => ⟨S128x64, .f32⟩
  | 33 => ⟨S1x1x128x128, .f32⟩
  | 34 => ⟨S128x128, .f32⟩
  | 35 => ⟨S1x1x128x128, .f32⟩
  | 36 => ⟨S128x128, .f32⟩
  | 37 => ⟨S128x256, .f32⟩
  | 38 => ⟨S1x1x128x128, .f32⟩
  | 39 => ⟨S128x128, .f32⟩
  | 40 => ⟨S1x1x128x128, .f32⟩
  | 41 => ⟨S128x128, .f32⟩
  | 42 => ⟨S128x256, .f32⟩
  | 43 => ⟨S50000x1, .f32⟩
  | 44 => ⟨S50000x1, .f32⟩
  | 45 => ⟨S50000x256, .f32⟩
  | 46 => ⟨S50000x1, .f32⟩
  | 47 => ⟨S50000x1, .f32⟩
  | 48 => ⟨S50000x256, .f32⟩
  | 49 => ⟨S50000x128, .f32⟩
  | 50 => ⟨S50000x128, .f32⟩
  | 51 => ⟨S50000x128, .f32⟩
  | 52 => ⟨S50000x128, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000x128, .f32⟩
  | 62 => ⟨S_, .f32⟩
  | 63 => ⟨S50000x128, .f32⟩
  | 64 => ⟨S850000x1, .i32⟩
  | 65 => ⟨S50000x128, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000x128, .f32⟩
  | 75 => ⟨S_, .f32⟩
  | 76 => ⟨S50000x128, .f32⟩
  | 77 => ⟨S800000x1, .i32⟩
  | 78 => ⟨S50000x128, .f32⟩
  | 79 => ⟨S_, .i32⟩
  | 80 => ⟨S850000, .i32⟩
  | 81 => ⟨S850000, .i1⟩
  | 82 => ⟨S_, .i32⟩
  | 83 => ⟨S850000, .i32⟩
  | 84 => ⟨S850000, .i32⟩
  | 85 => ⟨S850000, .i32⟩
  | 86 => ⟨S850000x1, .i32⟩
  | 87 => ⟨S850000x128, .f32⟩
  | 88 => ⟨S_, .f32⟩
  | 89 => ⟨S50000x128, .f32⟩
  | 90 => ⟨S850000x1, .i32⟩
  | 91 => ⟨S50000x128, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000x128, .f32⟩
  | 101 => ⟨S_, .f32⟩
  | 102 => ⟨S50000x128, .f32⟩
  | 103 => ⟨S800000x1, .i32⟩
  | 104 => ⟨S50000x128, .f32⟩
  | 105 => ⟨S1x1x128, .f32⟩
  | 106 => ⟨S128, .f32⟩
  | 107 => ⟨S1x1x128, .f32⟩
  | 108 => ⟨S128, .f32⟩
  | 109 => ⟨S128, .f32⟩
  | 110 => ⟨S1x1x128, .f32⟩
  | 111 => ⟨S128, .f32⟩
  | 112 => ⟨S1x1x128, .f32⟩
  | 113 => ⟨S128, .f32⟩
  | 114 => ⟨S128, .f32⟩
  | 115 => ⟨S50000x1, .f32⟩
  | 116 => ⟨S50000x1, .f32⟩
  | 117 => ⟨S1x128, .f32⟩
  | 118 => ⟨S50000x128, .f32⟩
  | 119 => ⟨S50000x1, .f32⟩
  | 120 => ⟨S50000x1, .f32⟩
  | 121 => ⟨S1x128, .f32⟩
  | 122 => ⟨S50000x128, .f32⟩
  | 123 => ⟨S1x1x128x128, .f32⟩
  | 124 => ⟨S128x128, .f32⟩
  | 125 => ⟨S1x1x128x128, .f32⟩
  | 126 => ⟨S128x128, .f32⟩
  | 127 => ⟨S128x256, .f32⟩
  | _ => ⟨S50000x128, .f32⟩

abbrev hbmTy0_2 (i : Nat) : BufTy := match i % 128 with
  | 0 => ⟨S1x1x128x128, .f32⟩
  | 1 => ⟨S128x128, .f32⟩
  | 2 => ⟨S1x1x128x128, .f32⟩
  | 3 => ⟨S128x128, .f32⟩
  | 4 => ⟨S128x256, .f32⟩
  | 5 => ⟨S50000x1, .f32⟩
  | 6 => ⟨S50000x1, .f32⟩
  | 7 => ⟨S50000x256, .f32⟩
  | 8 => ⟨S50000x1, .f32⟩
  | 9 => ⟨S50000x1, .f32⟩
  | 10 => ⟨S50000x256, .f32⟩
  | 11 => ⟨S50000x128, .f32⟩
  | 12 => ⟨S50000x128, .f32⟩
  | 13 => ⟨S50000x128, .f32⟩
  | 14 => ⟨S50000x128, .f32⟩
  | 15 => ⟨S_, .i32⟩
  | 16 => ⟨S850000, .i32⟩
  | 17 => ⟨S850000, .i1⟩
  | 18 => ⟨S_, .i32⟩
  | 19 => ⟨S850000, .i32⟩
  | 20 => ⟨S850000, .i32⟩
  | 21 => ⟨S850000, .i32⟩
  | 22 => ⟨S850000x1, .i32⟩
  | 23 => ⟨S850000x128, .f32⟩
  | 24 => ⟨S_, .f32⟩
  | 25 => ⟨S50000x128, .f32⟩
  | 26 => ⟨S850000x1, .i32⟩
  | 27 => ⟨S50000x128, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x128, .f32⟩
  | 37 => ⟨S_, .f32⟩
  | 38 => ⟨S50000x128, .f32⟩
  | 39 => ⟨S800000x1, .i32⟩
  | 40 => ⟨S50000x128, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000x128, .f32⟩
  | 50 => ⟨S_, .f32⟩
  | 51 => ⟨S50000x128, .f32⟩
  | 52 => ⟨S850000x1, .i32⟩
  | 53 => ⟨S50000x128, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000x128, .f32⟩
  | 63 => ⟨S_, .f32⟩
  | 64 => ⟨S50000x128, .f32⟩
  | 65 => ⟨S800000x1, .i32⟩
  | 66 => ⟨S50000x128, .f32⟩
  | 67 => ⟨S1x1x128, .f32⟩
  | 68 => ⟨S128, .f32⟩
  | 69 => ⟨S1x1x128, .f32⟩
  | 70 => ⟨S128, .f32⟩
  | 71 => ⟨S128, .f32⟩
  | 72 => ⟨S1x1x128, .f32⟩
  | 73 => ⟨S128, .f32⟩
  | 74 => ⟨S1x1x128, .f32⟩
  | 75 => ⟨S128, .f32⟩
  | 76 => ⟨S128, .f32⟩
  | 77 => ⟨S50000x1, .f32⟩
  | 78 => ⟨S50000x1, .f32⟩
  | 79 => ⟨S1x128, .f32⟩
  | 80 => ⟨S1x64, .f32⟩
  | 81 => ⟨S50000x64, .f32⟩
  | 82 => ⟨S50000x1, .f32⟩
  | 83 => ⟨S50000x1, .f32⟩
  | 84 => ⟨S1x128, .f32⟩
  | 85 => ⟨S1x64, .f32⟩
  | 86 => ⟨S50000x64, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x1, .f32⟩
  | .local _ .vmem, ⟨4, _⟩ => ⟨S5000x1, .f32⟩
  | .local _ .vmem, ⟨5, _⟩ => ⟨S5000x1, .f32⟩
  | .local _ .vmem, ⟨6, _⟩ => ⟨S5000x1, .f32⟩
  | .local _ .vmem, ⟨7, _⟩ => ⟨S5000x256, .f32⟩
  | .local _ .vmem, ⟨8, _⟩ => ⟨S5000x256, .f32⟩
  | .local _ .vmem, ⟨9, _⟩ => ⟨S5000x128, .f32⟩
  | .local _ .vmem, ⟨10, _⟩ => ⟨S5000x128, .f32⟩
  | .local _ .vmem, ⟨11, _⟩ => ⟨S128x256, .f32⟩
  | .local _ .vmem, ⟨12, _⟩ => ⟨S5000x1, .f32⟩
  | .local _ .vmem, ⟨13, _⟩ => ⟨S5000x1, .f32⟩
  | .local _ .vmem, ⟨14, _⟩ => ⟨S5000x1, .f32⟩
  | .local _ .vmem, ⟨15, _⟩ => ⟨S5000x1, .f32⟩
  | .local _ .vmem, ⟨16, _⟩ => ⟨S5000x256, .f32⟩
  | .local _ .vmem, ⟨17, _⟩ => ⟨S5000x256, .f32⟩
  | .local _ .vmem, ⟨18, _⟩ => ⟨S5000x128, .f32⟩
  | .local _ .vmem, ⟨19, _⟩ => ⟨S5000x128, .f32⟩
  | .local _ .vmem, ⟨20, _⟩ => ⟨S5000x1, .f32⟩
  | .local _ .vmem, ⟨21, _⟩ => ⟨S5000x1, .f32⟩
  | .local _ .vmem, ⟨22, _⟩ => ⟨S5000x128, .f32⟩
  | .local _ .vmem, ⟨23, _⟩ => ⟨S5000x128, .f32⟩
  | .local _ .vmem, ⟨24, _⟩ => ⟨S5000x1, .f32⟩
  | .local _ .vmem, ⟨25, _⟩ => ⟨S5000x1, .f32⟩
  | .local _ .vmem, ⟨26, _⟩ => ⟨S1x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x1, .f32⟩
  | .local _ .vmem, ⟨32, _⟩ => ⟨S5000x1, .f32⟩
  | .local _ .vmem, ⟨33, _⟩ => ⟨S5000x128, .f32⟩
  | .local _ .vmem, ⟨34, _⟩ => ⟨S5000x128, .f32⟩
  | .local _ .vmem, ⟨35, _⟩ => ⟨S5000x1, .f32⟩
  | .local _ .vmem, ⟨36, _⟩ => ⟨S5000x1, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S128x256, .f32⟩
  | .local _ .vmem, ⟨43, _⟩ => ⟨S5000x1, .f32⟩
  | .local _ .vmem, ⟨44, _⟩ => ⟨S5000x1, .f32⟩
  | .local _ .vmem, ⟨45, _⟩ => ⟨S5000x1, .f32⟩
  | .local _ .vmem, ⟨46, _⟩ => ⟨S5000x1, .f32⟩
  | .local _ .vmem, ⟨47, _⟩ => ⟨S5000x256, .f32⟩
  | .local _ .vmem, ⟨48, _⟩ => ⟨S5000x256, .f32⟩
  | .local _ .vmem, ⟨49, _⟩ => ⟨S5000x128, .f32⟩
  | .local _ .vmem, ⟨50, _⟩ => ⟨S5000x128, .f32⟩
  | .local _ .vmem, ⟨51, _⟩ => ⟨S128x256, .f32⟩
  | .local _ .vmem, ⟨52, _⟩ => ⟨S5000x1, .f32⟩
  | .local _ .vmem, ⟨53, _⟩ => ⟨S5000x1, .f32⟩
  | .local _ .vmem, ⟨54, _⟩ => ⟨S5000x1, .f32⟩
  | .local _ .vmem, ⟨55, _⟩ => ⟨S5000x1, .f32⟩
  | .local _ .vmem, ⟨56, _⟩ => ⟨S5000x256, .f32⟩
  | .local _ .vmem, ⟨57, _⟩ => ⟨S5000x256, .f32⟩
  | .local _ .vmem, ⟨58, _⟩ => ⟨S5000x128, .f32⟩
  | .local _ .vmem, ⟨59, _⟩ => ⟨S5000x128, .f32⟩
  | .local _ .vmem, ⟨60, _⟩ => ⟨S5000x1, .f32⟩
  | .local _ .vmem, ⟨61, _⟩ => ⟨S5000x1, .f32⟩
  | .local _ .vmem, ⟨62, _⟩ => ⟨S5000x128, .f32⟩
  | .local _ .vmem, ⟨63, _⟩ => ⟨S5000x128, .f32⟩
  | .local _ .vmem, ⟨64, _⟩ => ⟨S5000x1, .f32⟩
  | .local _ .vmem, ⟨65, _⟩ => ⟨S5000x1, .f32⟩
  | .local _ .vmem, ⟨66, _⟩ => ⟨S1x128, .f32⟩
  | .local _ .vmem, ⟨67, _⟩ => ⟨S128x64, .f32⟩
  | .local _ .vmem, ⟨68, _⟩ => ⟨S1x64, .f32⟩
  | .local _ .vmem, ⟨69, _⟩ => ⟨S5000x64, .f32⟩
  | .local _ .vmem, ⟨70, _⟩ => ⟨S5000x64, .f32⟩
  | .local _ .vmem, ⟨71, _⟩ => ⟨S5000x128, .f32⟩
  | .local _ .vmem, ⟨72, _⟩ => ⟨S5000x128, .f32⟩
  | .local _ .vmem, ⟨73, _⟩ => ⟨S5000x1, .f32⟩
  | .local _ .vmem, ⟨74, _⟩ => ⟨S5000x1, .f32⟩
  | .local _ .vmem, ⟨75, _⟩ => ⟨S5000x128, .f32⟩
  | .local _ .vmem, ⟨76, _⟩ => ⟨S5000x128, .f32⟩
  | .local _ .vmem, ⟨77, _⟩ => ⟨S5000x1, .f32⟩
  | .local _ .vmem, ⟨78, _⟩ => ⟨S5000x1, .f32⟩
  | .local _ .vmem, ⟨79, _⟩ => ⟨S1x128, .f32⟩
  | .local _ .vmem, ⟨80, _⟩ => ⟨S128x64, .f32⟩
  | .local _ .vmem, ⟨81, _⟩ => ⟨S1x64, .f32⟩
  | .local _ .vmem, ⟨82, _⟩ => ⟨S5000x64, .f32⟩
  | .local _ .vmem, ⟨83, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | _, _ => false

abbrev semScoped : Fin 0 → Bool
  | ⟨_, h⟩ => absurd h (Nat.not_lt_zero _)

abbrev dmaSemScoped : Fin 84 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | _ => false

abbrev sig : RefSig :=
  ofTc nBuf bufTy 0 84 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst : Ref sig .tc := ⟨.hbm, 32, rfl⟩
abbrev main_v22 : Ref sig .tc := ⟨.hbm, 33, rfl⟩
abbrev main_cst_0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_1 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_call0_v0 : Ref sig .tc := ⟨.hbm, 50, rfl⟩
abbrev main_call0_v1 : Ref sig .tc := ⟨.hbm, 51, rfl⟩
abbrev main_v34 : Ref sig .tc := ⟨.hbm, 52, rfl⟩
abbrev main_cst_5 : Ref sig .tc := ⟨.hbm, 53, rfl⟩
abbrev main_v35 : Ref sig .tc := ⟨.hbm, 54, rfl⟩
abbrev main_v36 : Ref sig .tc := ⟨.hbm, 55, rfl⟩
abbrev main_cst_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_call1_v0 : Ref sig .tc := ⟨.hbm, 61, rfl⟩
abbrev main_call1_v1 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_10 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_11 : Ref sig .tc := ⟨.hbm, 74, rfl⟩
abbrev main_v48 : Ref sig .tc := ⟨.hbm, 75, rfl⟩
abbrev main_v49 : Ref sig .tc := ⟨.hbm, 76, rfl⟩
abbrev main_cst_12 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_13 : Ref sig .tc := ⟨.hbm, 81, rfl⟩
abbrev main_call2_v0 : Ref sig .tc := ⟨.hbm, 82, rfl⟩
abbrev main_call2_v1 : Ref sig .tc := ⟨.hbm, 83, rfl⟩
abbrev main_v53 : Ref sig .tc := ⟨.hbm, 84, rfl⟩
abbrev main_cst_14 : Ref sig .tc := ⟨.hbm, 85, rfl⟩
abbrev main_v54 : Ref sig .tc := ⟨.hbm, 86, rfl⟩
abbrev main_v55 : Ref sig .tc := ⟨.hbm, 87, rfl⟩
abbrev main_cst_15 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_16 : Ref sig .tc := ⟨.hbm, 92, rfl⟩
abbrev main_call3_v0 : Ref sig .tc := ⟨.hbm, 93, rfl⟩
abbrev main_call3_v1 : Ref sig .tc := ⟨.hbm, 94, rfl⟩
abbrev main_v59 : Ref sig .tc := ⟨.hbm, 95, rfl⟩
abbrev main_cst_17 : Ref sig .tc := ⟨.hbm, 96, rfl⟩
abbrev main_v60 : Ref sig .tc := ⟨.hbm, 97, rfl⟩
abbrev main_cst_18 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_cst_19 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_cst_20 : Ref sig .tc := ⟨.hbm, 106, rfl⟩
abbrev main_v67 : Ref sig .tc := ⟨.hbm, 107, rfl⟩
abbrev main_v68 : Ref sig .tc := ⟨.hbm, 108, rfl⟩
abbrev main_cst_21 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_cst_22 : Ref sig .tc := ⟨.hbm, 113, rfl⟩
abbrev main_call4_v0 : Ref sig .tc := ⟨.hbm, 114, rfl⟩
abbrev main_call4_v1 : Ref sig .tc := ⟨.hbm, 115, rfl⟩
abbrev main_v72 : Ref sig .tc := ⟨.hbm, 116, rfl⟩
abbrev main_cst_23 : Ref sig .tc := ⟨.hbm, 117, rfl⟩
abbrev main_v73 : Ref sig .tc := ⟨.hbm, 118, rfl⟩
abbrev main_v74 : Ref sig .tc := ⟨.hbm, 119, rfl⟩
abbrev main_cst_24 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_cst_25 : Ref sig .tc := ⟨.hbm, 124, rfl⟩
abbrev main_call5_v0 : Ref sig .tc := ⟨.hbm, 125, rfl⟩
abbrev main_call5_v1 : Ref sig .tc := ⟨.hbm, 126, rfl⟩
abbrev main_v78 : Ref sig .tc := ⟨.hbm, 127, rfl⟩
abbrev main_cst_26 : Ref sig .tc := ⟨.hbm, 128, rfl⟩
abbrev main_v79 : Ref sig .tc := ⟨.hbm, 129, rfl⟩
abbrev main_cst_27 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_cst_28 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_cst_29 : Ref sig .tc := ⟨.hbm, 138, rfl⟩
abbrev main_v86 : Ref sig .tc := ⟨.hbm, 139, rfl⟩
abbrev main_v87 : Ref sig .tc := ⟨.hbm, 140, rfl⟩
abbrev main_cst_30 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_cst_31 : Ref sig .tc := ⟨.hbm, 145, rfl⟩
abbrev main_call6_v0 : Ref sig .tc := ⟨.hbm, 146, rfl⟩
abbrev main_call6_v1 : Ref sig .tc := ⟨.hbm, 147, rfl⟩
abbrev main_v91 : Ref sig .tc := ⟨.hbm, 148, rfl⟩
abbrev main_cst_32 : Ref sig .tc := ⟨.hbm, 149, rfl⟩
abbrev main_v92 : Ref sig .tc := ⟨.hbm, 150, rfl⟩
abbrev main_v93 : Ref sig .tc := ⟨.hbm, 151, rfl⟩
abbrev main_cst_33 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_cst_34 : Ref sig .tc := ⟨.hbm, 156, rfl⟩
abbrev main_call7_v0 : Ref sig .tc := ⟨.hbm, 157, rfl⟩
abbrev main_call7_v1 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_c : Ref sig .tc := ⟨.hbm, 181, rfl⟩
abbrev main_v119 : Ref sig .tc := ⟨.hbm, 182, rfl⟩
abbrev main_v120 : Ref sig .tc := ⟨.hbm, 183, rfl⟩
abbrev main_c_35 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_cst_36 : Ref sig .tc := ⟨.hbm, 190, rfl⟩
abbrev main_v126 : Ref sig .tc := ⟨.hbm, 191, rfl⟩
abbrev main_v127 : Ref sig .tc := ⟨.hbm, 192, rfl⟩
abbrev main_v128 : Ref sig .tc := ⟨.hbm, 193, rfl⟩
abbrev main_c_37 : Ref sig .tc := ⟨.hbm, 194, rfl⟩
abbrev main_v129 : Ref sig .tc := ⟨.hbm, 195, rfl⟩
abbrev main_v130 : Ref sig .tc := ⟨.hbm, 196, rfl⟩
abbrev main_c_38 : Ref sig .tc := ⟨.hbm, 197, rfl⟩
abbrev main_v131 : Ref sig .tc := ⟨.hbm, 198, rfl⟩
abbrev main_v132 : Ref sig .tc := ⟨.hbm, 199, rfl⟩
abbrev main_v133 : Ref sig .tc := ⟨.hbm, 200, rfl⟩
abbrev main_v134 : Ref sig .tc := ⟨.hbm, 201, rfl⟩
abbrev main_v135 : Ref sig .tc := ⟨.hbm, 202, rfl⟩
abbrev main_cst_39 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩
abbrev main_c_40 : Ref sig .tc := ⟨.hbm, 207, rfl⟩
abbrev main_v139 : Ref sig .tc := ⟨.hbm, 208, rfl⟩
abbrev main_v140 : Ref sig .tc := ⟨.hbm, 209, rfl⟩
abbrev main_c_41 : Ref sig .tc := ⟨.hbm, 210, rfl⟩
abbrev main_v141 : Ref sig .tc := ⟨.hbm, 211, rfl⟩
abbrev main_v142 : Ref sig .tc := ⟨.hbm, 212, rfl⟩
abbrev main_v143 : Ref sig .tc := ⟨.hbm, 213, rfl⟩
abbrev main_v144 : Ref sig .tc := ⟨.hbm, 214, rfl⟩
abbrev main_v145 : Ref sig .tc := ⟨.hbm, 215, rfl⟩
abbrev main_cst_42 : Ref sig .tc := ⟨.hbm, 216, rfl⟩
abbrev main_v146 : Ref sig .tc := ⟨.hbm, 217, rfl⟩
abbrev main_v147 : Ref sig .tc := ⟨.hbm, 218, rfl⟩
abbrev main_v148 : Ref sig .tc := ⟨.hbm, 219, rfl⟩
abbrev main_c_43 : Ref sig .tc := ⟨.hbm, 220, rfl⟩
abbrev main_v149 : Ref sig .tc := ⟨.hbm, 221, rfl⟩
abbrev main_v150 : Ref sig .tc := ⟨.hbm, 222, rfl⟩
abbrev main_c_44 : Ref sig .tc := ⟨.hbm, 223, rfl⟩
abbrev main_v151 : Ref sig .tc := ⟨.hbm, 224, rfl⟩
abbrev main_v152 : Ref sig .tc := ⟨.hbm, 225, rfl⟩
abbrev main_v153 : Ref sig .tc := ⟨.hbm, 226, rfl⟩
abbrev main_v154 : Ref sig .tc := ⟨.hbm, 227, rfl⟩
abbrev main_v155 : Ref sig .tc := ⟨.hbm, 228, rfl⟩
abbrev main_cst_45 : Ref sig .tc := ⟨.hbm, 229, rfl⟩
abbrev main_v156 : Ref sig .tc := ⟨.hbm, 230, rfl⟩
abbrev main_v157 : Ref sig .tc := ⟨.hbm, 231, rfl⟩
abbrev main_v158 : Ref sig .tc := ⟨.hbm, 232, rfl⟩
abbrev main_v159 : Ref sig .tc := ⟨.hbm, 233, rfl⟩
abbrev main_v160 : Ref sig .tc := ⟨.hbm, 234, rfl⟩
abbrev main_v161 : Ref sig .tc := ⟨.hbm, 235, rfl⟩
abbrev main_v162 : Ref sig .tc := ⟨.hbm, 236, rfl⟩
abbrev main_v163 : Ref sig .tc := ⟨.hbm, 237, rfl⟩
abbrev main_v164 : Ref sig .tc := ⟨.hbm, 238, rfl⟩
abbrev main_v165 : Ref sig .tc := ⟨.hbm, 239, rfl⟩
abbrev main_v166 : Ref sig .tc := ⟨.hbm, 240, rfl⟩
abbrev main_v167 : Ref sig .tc := ⟨.hbm, 241, rfl⟩
abbrev main_v168 : Ref sig .tc := ⟨.hbm, 242, rfl⟩
abbrev main_v169 : Ref sig .tc := ⟨.hbm, 243, rfl⟩
abbrev main_v170 : Ref sig .tc := ⟨.hbm, 244, rfl⟩
abbrev main_v171 : Ref sig .tc := ⟨.hbm, 245, rfl⟩
abbrev main_v172 : Ref sig .tc := ⟨.hbm, 246, rfl⟩
abbrev main_v173 : Ref sig .tc := ⟨.hbm, 247, rfl⟩
abbrev main_v174 : Ref sig .tc := ⟨.hbm, 248, rfl⟩
abbrev main_v175 : Ref sig .tc := ⟨.hbm, 249, rfl⟩
abbrev main_v176 : Ref sig .tc := ⟨.hbm, 250, rfl⟩
abbrev main_v177 : Ref sig .tc := ⟨.hbm, 251, rfl⟩
abbrev main_v178 : Ref sig .tc := ⟨.hbm, 252, rfl⟩
abbrev main_v179 : Ref sig .tc := ⟨.hbm, 253, rfl⟩
abbrev main_v180 : Ref sig .tc := ⟨.hbm, 254, rfl⟩
abbrev main_v181 : Ref sig .tc := ⟨.hbm, 255, rfl⟩
abbrev main_v182 : Ref sig .tc := ⟨.hbm, 256, rfl⟩
abbrev main_v183 : Ref sig .tc := ⟨.hbm, 257, rfl⟩
abbrev main_v184 : Ref sig .tc := ⟨.hbm, 258, rfl⟩
abbrev main_v185 : Ref sig .tc := ⟨.hbm, 259, rfl⟩
abbrev main_v186 : Ref sig .tc := ⟨.hbm, 260, rfl⟩
abbrev main_v187 : Ref sig .tc := ⟨.hbm, 261, rfl⟩
abbrev main_v188 : Ref sig .tc := ⟨.hbm, 262, rfl⟩
abbrev main_v189 : Ref sig .tc := ⟨.hbm, 263, rfl⟩
abbrev main_v190 : Ref sig .tc := ⟨.hbm, 264, rfl⟩
abbrev main_v191 : Ref sig .tc := ⟨.hbm, 265, rfl⟩
abbrev main_v192 : Ref sig .tc := ⟨.hbm, 266, rfl⟩
abbrev main_v193 : Ref sig .tc := ⟨.hbm, 267, rfl⟩
abbrev main_v194 : Ref sig .tc := ⟨.hbm, 268, rfl⟩
abbrev main_v195 : Ref sig .tc := ⟨.hbm, 269, rfl⟩
abbrev main_v196 : Ref sig .tc := ⟨.hbm, 270, rfl⟩
abbrev main_c_46 : Ref sig .tc := ⟨.hbm, 271, rfl⟩
abbrev main_v197 : Ref sig .tc := ⟨.hbm, 272, rfl⟩
abbrev main_v198 : Ref sig .tc := ⟨.hbm, 273, rfl⟩
abbrev main_c_47 : Ref sig .tc := ⟨.hbm, 274, rfl⟩
abbrev main_v199 : Ref sig .tc := ⟨.hbm, 275, rfl⟩
abbrev main_v200 : Ref sig .tc := ⟨.hbm, 276, rfl⟩
abbrev main_v201 : Ref sig .tc := ⟨.hbm, 277, rfl⟩
abbrev main_v202 : Ref sig .tc := ⟨.hbm, 278, rfl⟩
abbrev main_v203 : Ref sig .tc := ⟨.hbm, 279, rfl⟩
abbrev main_cst_48 : Ref sig .tc := ⟨.hbm, 280, rfl⟩
abbrev main_v204 : Ref sig .tc := ⟨.hbm, 281, rfl⟩
abbrev main_v205 : Ref sig .tc := ⟨.hbm, 282, rfl⟩
abbrev main_v206 : Ref sig .tc := ⟨.hbm, 283, rfl⟩
abbrev main_c_49 : Ref sig .tc := ⟨.hbm, 284, rfl⟩
abbrev main_v207 : Ref sig .tc := ⟨.hbm, 285, rfl⟩
abbrev main_v208 : Ref sig .tc := ⟨.hbm, 286, rfl⟩
abbrev main_c_50 : Ref sig .tc := ⟨.hbm, 287, rfl⟩
abbrev main_v209 : Ref sig .tc := ⟨.hbm, 288, rfl⟩
abbrev main_v210 : Ref sig .tc := ⟨.hbm, 289, rfl⟩
abbrev main_v211 : Ref sig .tc := ⟨.hbm, 290, rfl⟩
abbrev main_v212 : Ref sig .tc := ⟨.hbm, 291, rfl⟩
abbrev main_v213 : Ref sig .tc := ⟨.hbm, 292, rfl⟩
abbrev main_cst_51 : Ref sig .tc := ⟨.hbm, 293, rfl⟩
abbrev main_v214 : Ref sig .tc := ⟨.hbm, 294, rfl⟩
abbrev main_v215 : Ref sig .tc := ⟨.hbm, 295, rfl⟩
abbrev main_v216 : Ref sig .tc := ⟨.hbm, 296, rfl⟩
abbrev main_c_52 : Ref sig .tc := ⟨.hbm, 297, rfl⟩
abbrev main_v217 : Ref sig .tc := ⟨.hbm, 298, rfl⟩
abbrev main_v218 : Ref sig .tc := ⟨.hbm, 299, rfl⟩
abbrev main_c_53 : Ref sig .tc := ⟨.hbm, 300, rfl⟩
abbrev main_v219 : Ref sig .tc := ⟨.hbm, 301, rfl⟩
abbrev main_v220 : Ref sig .tc := ⟨.hbm, 302, rfl⟩
abbrev main_v221 : Ref sig .tc := ⟨.hbm, 303, rfl⟩
abbrev main_v222 : Ref sig .tc := ⟨.hbm, 304, rfl⟩
abbrev main_v223 : Ref sig .tc := ⟨.hbm, 305, rfl⟩
abbrev main_cst_54 : Ref sig .tc := ⟨.hbm, 306, rfl⟩
abbrev main_v224 : Ref sig .tc := ⟨.hbm, 307, rfl⟩
abbrev main_v225 : Ref sig .tc := ⟨.hbm, 308, rfl⟩
abbrev main_v226 : Ref sig .tc := ⟨.hbm, 309, rfl⟩
abbrev main_c_55 : Ref sig .tc := ⟨.hbm, 310, rfl⟩
abbrev main_v227 : Ref sig .tc := ⟨.hbm, 311, rfl⟩
abbrev main_v228 : Ref sig .tc := ⟨.hbm, 312, rfl⟩
abbrev main_c_56 : Ref sig .tc := ⟨.hbm, 313, rfl⟩
abbrev main_v229 : Ref sig .tc := ⟨.hbm, 314, rfl⟩
abbrev main_v230 : Ref sig .tc := ⟨.hbm, 315, rfl⟩
abbrev main_v231 : Ref sig .tc := ⟨.hbm, 316, rfl⟩
abbrev main_v232 : Ref sig .tc := ⟨.hbm, 317, rfl⟩
abbrev main_v233 : Ref sig .tc := ⟨.hbm, 318, rfl⟩
abbrev main_cst_57 : Ref sig .tc := ⟨.hbm, 319, rfl⟩
abbrev main_v234 : Ref sig .tc := ⟨.hbm, 320, rfl⟩
abbrev main_v235 : Ref sig .tc := ⟨.hbm, 321, rfl⟩
abbrev main_v236 : Ref sig .tc := ⟨.hbm, 322, rfl⟩
abbrev main_v237 : Ref sig .tc := ⟨.hbm, 323, rfl⟩
abbrev main_v238 : Ref sig .tc := ⟨.hbm, 324, rfl⟩
abbrev main_v239 : Ref sig .tc := ⟨.hbm, 325, rfl⟩
abbrev main_v240 : Ref sig .tc := ⟨.hbm, 326, rfl⟩
abbrev main_v241 : Ref sig .tc := ⟨.hbm, 327, rfl⟩
abbrev main_v242 : Ref sig .tc := ⟨.hbm, 328, rfl⟩
abbrev main_v243 : Ref sig .tc := ⟨.hbm, 329, rfl⟩
abbrev main_v244 : Ref sig .tc := ⟨.hbm, 330, rfl⟩
abbrev main_v245 : Ref sig .tc := ⟨.hbm, 331, rfl⟩
abbrev main_v246 : Ref sig .tc := ⟨.hbm, 332, rfl⟩
abbrev main_v247 : Ref sig .tc := ⟨.hbm, 333, rfl⟩
abbrev main_v248 : Ref sig .tc := ⟨.hbm, 334, rfl⟩
abbrev main_v249 : Ref sig .tc := ⟨.hbm, 335, rfl⟩
abbrev main_v250 : Ref sig .tc := ⟨.hbm, 336, rfl⟩
abbrev main_v251 : Ref sig .tc := ⟨.hbm, 337, rfl⟩
abbrev main_v252 : Ref sig .tc := ⟨.hbm, 338, rfl⟩
abbrev main_v253 : Ref sig .tc := ⟨.hbm, 339, rfl⟩
abbrev main_v254 : Ref sig .tc := ⟨.hbm, 340, rfl⟩
abbrev main_v255 : Ref sig .tc := ⟨.hbm, 341, rfl⟩
abbrev main_v256 : Ref sig .tc := ⟨.hbm, 342, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg5_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg2_1 : Ref sig .tc := ⟨.vmem, 34, rfl⟩
abbrev cc3_stg3_0 : Ref sig .tc := ⟨.vmem, 35, rfl⟩
abbrev cc3_stg3_1 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg2_0 : Ref sig .tc := ⟨.vmem, 43, rfl⟩
abbrev cc4_stg2_1 : Ref sig .tc := ⟨.vmem, 44, rfl⟩
abbrev cc4_stg3_0 : Ref sig .tc := ⟨.vmem, 45, rfl⟩
abbrev cc4_stg3_1 : Ref sig .tc := ⟨.vmem, 46, rfl⟩
abbrev cc4_stg4_0 : Ref sig .tc := ⟨.vmem, 47, rfl⟩
abbrev cc4_stg4_1 : Ref sig .tc := ⟨.vmem, 48, rfl⟩
abbrev cc5_stg0_0 : Ref sig .tc := ⟨.vmem, 49, rfl⟩
abbrev cc5_stg0_1 : Ref sig .tc := ⟨.vmem, 50, rfl⟩
abbrev cc5_stg1_0 : Ref sig .tc := ⟨.vmem, 51, rfl⟩
abbrev cc5_stg2_0 : Ref sig .tc := ⟨.vmem, 52, rfl⟩
abbrev cc5_stg2_1 : Ref sig .tc := ⟨.vmem, 53, rfl⟩
abbrev cc5_stg3_0 : Ref sig .tc := ⟨.vmem, 54, rfl⟩
abbrev cc5_stg3_1 : Ref sig .tc := ⟨.vmem, 55, rfl⟩
abbrev cc5_stg4_0 : Ref sig .tc := ⟨.vmem, 56, rfl⟩
abbrev cc5_stg4_1 : Ref sig .tc := ⟨.vmem, 57, rfl⟩
abbrev cc6_stg0_0 : Ref sig .tc := ⟨.vmem, 58, rfl⟩
abbrev cc6_stg0_1 : Ref sig .tc := ⟨.vmem, 59, rfl⟩
abbrev cc6_stg1_0 : Ref sig .tc := ⟨.vmem, 60, rfl⟩
abbrev cc6_stg1_1 : Ref sig .tc := ⟨.vmem, 61, rfl⟩
abbrev cc6_stg2_0 : Ref sig .tc := ⟨.vmem, 62, rfl⟩
abbrev cc6_stg2_1 : Ref sig .tc := ⟨.vmem, 63, rfl⟩
abbrev cc6_stg3_0 : Ref sig .tc := ⟨.vmem, 64, rfl⟩
abbrev cc6_stg3_1 : Ref sig .tc := ⟨.vmem, 65, rfl⟩
abbrev cc6_stg4_0 : Ref sig .tc := ⟨.vmem, 66, rfl⟩
abbrev cc6_stg5_0 : Ref sig .tc := ⟨.vmem, 67, rfl⟩
abbrev cc6_stg6_0 : Ref sig .tc := ⟨.vmem, 68, rfl⟩
abbrev cc6_stg7_0 : Ref sig .tc := ⟨.vmem, 69, rfl⟩
abbrev cc6_stg7_1 : Ref sig .tc := ⟨.vmem, 70, rfl⟩
abbrev cc7_stg0_0 : Ref sig .tc := ⟨.vmem, 71, rfl⟩
abbrev cc7_stg0_1 : Ref sig .tc := ⟨.vmem, 72, rfl⟩
abbrev cc7_stg1_0 : Ref sig .tc := ⟨.vmem, 73, rfl⟩
abbrev cc7_stg1_1 : Ref sig .tc := ⟨.vmem, 74, rfl⟩
abbrev cc7_stg2_0 : Ref sig .tc := ⟨.vmem, 75, rfl⟩
abbrev cc7_stg2_1 : Ref sig .tc := ⟨.vmem, 76, rfl⟩
abbrev cc7_stg3_0 : Ref sig .tc := ⟨.vmem, 77, rfl⟩
abbrev cc7_stg3_1 : Ref sig .tc := ⟨.vmem, 78, rfl⟩
abbrev cc7_stg4_0 : Ref sig .tc := ⟨.vmem, 79, rfl⟩
abbrev cc7_stg5_0 : Ref sig .tc := ⟨.vmem, 80, rfl⟩
abbrev cc7_stg6_0 : Ref sig .tc := ⟨.vmem, 81, rfl⟩
abbrev cc7_stg7_0 : Ref sig .tc := ⟨.vmem, 82, rfl⟩
abbrev cc7_stg7_1 : Ref sig .tc := ⟨.vmem, 83, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem5_0 : DmaSem sig := 27
abbrev cc2_sem5_1 : DmaSem sig := 28
abbrev cc3_sem0_0 : DmaSem sig := 29
abbrev cc3_sem0_1 : DmaSem sig := 30
abbrev cc3_sem1_0 : DmaSem sig := 31
abbrev cc3_sem1_1 : DmaSem sig := 32
abbrev cc3_sem2_0 : DmaSem sig := 33
abbrev cc3_sem2_1 : DmaSem sig := 34
abbrev cc3_sem3_0 : DmaSem sig := 35
abbrev cc3_sem3_1 : DmaSem sig := 36
abbrev cc3_sem4_0 : DmaSem sig := 37
abbrev cc3_sem5_0 : DmaSem sig := 38
abbrev cc3_sem5_1 : DmaSem sig := 39
abbrev cc4_sem0_0 : DmaSem sig := 40
abbrev cc4_sem0_1 : DmaSem sig := 41
abbrev cc4_sem1_0 : DmaSem sig := 42
abbrev cc4_sem2_0 : DmaSem sig := 43
abbrev cc4_sem2_1 : DmaSem sig := 44
abbrev cc4_sem3_0 : DmaSem sig := 45
abbrev cc4_sem3_1 : DmaSem sig := 46
abbrev cc4_sem4_0 : DmaSem sig := 47
abbrev cc4_sem4_1 : DmaSem sig := 48
abbrev cc5_sem0_0 : DmaSem sig := 49
abbrev cc5_sem0_1 : DmaSem sig := 50
abbrev cc5_sem1_0 : DmaSem sig := 51
abbrev cc5_sem2_0 : DmaSem sig := 52
abbrev cc5_sem2_1 : DmaSem sig := 53
abbrev cc5_sem3_0 : DmaSem sig := 54
abbrev cc5_sem3_1 : DmaSem sig := 55
abbrev cc5_sem4_0 : DmaSem sig := 56
abbrev cc5_sem4_1 : DmaSem sig := 57
abbrev cc6_sem0_0 : DmaSem sig := 58
abbrev cc6_sem0_1 : DmaSem sig := 59
abbrev cc6_sem1_0 : DmaSem sig := 60
abbrev cc6_sem1_1 : DmaSem sig := 61
abbrev cc6_sem2_0 : DmaSem sig := 62
abbrev cc6_sem2_1 : DmaSem sig := 63
abbrev cc6_sem3_0 : DmaSem sig := 64
abbrev cc6_sem3_1 : DmaSem sig := 65
abbrev cc6_sem4_0 : DmaSem sig := 66
abbrev cc6_sem5_0 : DmaSem sig := 67
abbrev cc6_sem6_0 : DmaSem sig := 68
abbrev cc6_sem7_0 : DmaSem sig := 69
abbrev cc6_sem7_1 : DmaSem sig := 70
abbrev cc7_sem0_0 : DmaSem sig := 71
abbrev cc7_sem0_1 : DmaSem sig := 72
abbrev cc7_sem1_0 : DmaSem sig := 73
abbrev cc7_sem1_1 : DmaSem sig := 74
abbrev cc7_sem2_0 : DmaSem sig := 75
abbrev cc7_sem2_1 : DmaSem sig := 76
abbrev cc7_sem3_0 : DmaSem sig := 77
abbrev cc7_sem3_1 : DmaSem sig := 78
abbrev cc7_sem4_0 : DmaSem sig := 79
abbrev cc7_sem5_0 : DmaSem sig := 80
abbrev cc7_sem6_0 : DmaSem sig := 81
abbrev cc7_sem7_0 : DmaSem sig := 82
abbrev cc7_sem7_1 : DmaSem sig := 83

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S5000x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S5000x1 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S5000x256 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S5000x1 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x64 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S5000x64 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S5000x1 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S128x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x64 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S5000x64 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S_S800000 : S_.BroadcastsInDim S800000 (![] : Fin 0 → Fin S800000.rank)
  bcast_S800000_S800000x1_0 : S800000.BroadcastsInDim S800000x1 (![0] : Fin 1 → Fin S800000x1.rank)
  transposes_S64x128_S128x64_1_0 : S64x128.Transposes [1, 0] S128x64
  slices_S2x4x128x128_S1x1x128x128_0_0_0_0 : S2x4x128x128.Slices ![0, 0, 0, 0] S1x1x128x128
  shapeCasts_S1x1x128x128_S128x128 : S1x1x128x128.ShapeCasts S128x128
  slices_S2x4x128x128_S1x1x128x128_0_2_0_0 : S2x4x128x128.Slices ![0, 2, 0, 0] S1x1x128x128
  concatenates_S128x128_S128x128_S128x256_d1 : Shape.Concatenates [S128x128, S128x128] S128x256 1
  slices_S2x4x128x128_S1x1x128x128_0_3_0_0 : S2x4x128x128.Slices ![0, 3, 0, 0] S1x1x128x128
  slices_S2x4x128x128_S1x1x128x128_0_1_0_0 : S2x4x128x128.Slices ![0, 1, 0, 0] S1x1x128x128
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  slices_S5000x256_o0_0_S5000x128 : S5000x256.Slices ![0, 0] S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x256_S5000x128_0_0 : ∀ a, (![0, 0] : Fin 2 → Nat) a + S5000x128.size a ≤ S5000x256.size a
  slices_S5000x256_o0_128_S5000x128 : S5000x256.Slices ![0, 128] S5000x128
  inb_S5000x256_S5000x128_0_128 : ∀ a, (![0, 128] : Fin 2 → Nat) a + S5000x128.size a ≤ S5000x256.size a
  slices_S50000x256_S50000x128_0_0 : S50000x256.Slices ![0, 0] S50000x128
  slices_S50000x256_S50000x128_0_128 : S50000x256.Slices ![0, 128] S50000x128
  bcast_S_S50000x128 : S_.BroadcastsInDim S50000x128 (![] : Fin 0 → Fin S50000x128.rank)
  slices_S2x4x128_S1x1x128_0_0_0 : S2x4x128.Slices ![0, 0, 0] S1x1x128
  shapeCasts_S1x1x128_S128 : S1x1x128.ShapeCasts S128
  slices_S2x4x128_S1x1x128_0_3_0 : S2x4x128.Slices ![0, 3, 0] S1x1x128
  slices_S2x4x128_S1x1x128_0_1_0 : S2x4x128.Slices ![0, 1, 0] S1x1x128
  slices_S2x4x128_S1x1x128_0_2_0 : S2x4x128.Slices ![0, 2, 0] S1x1x128
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S2x4x128x128_S1x1x128x128_1_0_0_0 : S2x4x128x128.Slices ![1, 0, 0, 0] S1x1x128x128
  slices_S2x4x128x128_S1x1x128x128_1_2_0_0 : S2x4x128x128.Slices ![1, 2, 0, 0] S1x1x128x128
  slices_S2x4x128x128_S1x1x128x128_1_3_0_0 : S2x4x128x128.Slices ![1, 3, 0, 0] S1x1x128x128
  slices_S2x4x128x128_S1x1x128x128_1_1_0_0 : S2x4x128x128.Slices ![1, 1, 0, 0] S1x1x128x128
  slices_S2x4x128_S1x1x128_1_0_0 : S2x4x128.Slices ![1, 0, 0] S1x1x128
  slices_S2x4x128_S1x1x128_1_3_0 : S2x4x128.Slices ![1, 3, 0] S1x1x128
  slices_S2x4x128_S1x1x128_1_1_0 : S2x4x128.Slices ![1, 1, 0] S1x1x128
  slices_S2x4x128_S1x1x128_1_2_0 : S2x4x128.Slices ![1, 2, 0] S1x1x128
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S850000x1_S850000_n_0_0_1_wf : ScatterDims.WF S50000 S850000x1 S850000 [] [0] [0] 1
  scatter_S50000_S800000x1_S800000_n_0_0_1_wf : ScatterDims.WF S50000 S800000x1 S800000 [] [0] [0] 1
  dot_S5000x128_S128x256_S5000x256_1_0_0_1_n_n_wf : DotDims.WF S5000x128 S128x256 S5000x256 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S50000x1.size a
  hwx0_3 : ∀ i : grid0.Coords, EltTy.bits .f32 = 32 ∨ (Rect.block (s := S50000x1) S5000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x256.size a ≤ S50000x256.size a
  hwx0_4 : ∀ i : grid0.Coords, EltTy.bits .f32 = 32 ∨ (Rect.block (s := S50000x256) S5000x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .f32 = 32 ∨ (Rect.block (s := S128x256) S128x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S50000x1.size a
  hwx1_3 : ∀ i : grid1.Coords, EltTy.bits .f32 = 32 ∨ (Rect.block (s := S50000x1) S5000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x256.size a ≤ S50000x256.size a
  hwx1_4 : ∀ i : grid1.Coords, EltTy.bits .f32 = 32 ∨ (Rect.block (s := S50000x256) S5000x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S50000x1.size a
  hwx2_3 : ∀ i : grid2.Coords, EltTy.bits .f32 = 32 ∨ (Rect.block (s := S50000x1) S5000x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x1.size a ≤ S50000x1.size a
  hwx3_3 : ∀ i : grid3.Coords, EltTy.bits .f32 = 32 ∨ (Rect.block (s := S50000x1) S5000x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x256.size a ≤ S128x256.size a
  hwx4_1 : ∀ i : grid4.Coords, EltTy.bits .f32 = 32 ∨ (Rect.block (s := S128x256) S128x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S50000x1.size a
  hwx4_2 : ∀ i : grid4.Coords, EltTy.bits .f32 = 32 ∨ (Rect.block (s := S50000x1) S5000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x1.size a ≤ S50000x1.size a
  hwx4_3 : ∀ i : grid4.Coords, EltTy.bits .f32 = 32 ∨ (Rect.block (s := S50000x1) S5000x1.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x256.size a ≤ S50000x256.size a
  hwx4_4 : ∀ i : grid4.Coords, EltTy.bits .f32 = 32 ∨ (Rect.block (s := S50000x256) S5000x256.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x256.size a ≤ S128x256.size a
  hwx5_1 : ∀ i : grid5.Coords, EltTy.bits .f32 = 32 ∨ (Rect.block (s := S128x256) S128x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S50000x1.size a
  hwx5_2 : ∀ i : grid5.Coords, EltTy.bits .f32 = 32 ∨ (Rect.block (s := S50000x1) S5000x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x1.size a ≤ S50000x1.size a
  hwx5_3 : ∀ i : grid5.Coords, EltTy.bits .f32 = 32 ∨ (Rect.block (s := S50000x1) S5000x1.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x256.size a ≤ S50000x256.size a
  hwx5_4 : ∀ i : grid5.Coords, EltTy.bits .f32 = 32 ∨ (Rect.block (s := S50000x256) S5000x256.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x1.size a ≤ S50000x1.size a
  hwx6_1 : ∀ i : grid6.Coords, EltTy.bits .f32 = 32 ∨ (Rect.block (s := S50000x1) S5000x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S50000x128.size a
  hwx6_2 : ∀ i : grid6.Coords, EltTy.bits .f32 = 32 ∨ (Rect.block (s := S50000x128) S5000x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x1.size a ≤ S50000x1.size a
  hwx6_3 : ∀ i : grid6.Coords, EltTy.bits .f32 = 32 ∨ (Rect.block (s := S50000x1) S5000x1.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x64.size a ≤ S128x64.size a
  hwx6_5 : ∀ i : grid6.Coords, EltTy.bits .f32 = 32 ∨ (Rect.block (s := S128x64) S128x64.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x64.size a ≤ S1x64.size a
  hwx6_6 : ∀ i : grid6.Coords, EltTy.bits .f32 = 32 ∨ (Rect.block (s := S1x64) S1x64.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S5000x64.size a ≤ S50000x64.size a
  hwx6_7 : ∀ i : grid6.Coords, EltTy.bits .f32 = 32 ∨ (Rect.block (s := S50000x64) S5000x64.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x1.size a ≤ S50000x1.size a
  hwx7_1 : ∀ i : grid7.Coords, EltTy.bits .f32 = 32 ∨ (Rect.block (s := S50000x1) S5000x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x128.size a ≤ S50000x128.size a
  hwx7_2 : ∀ i : grid7.Coords, EltTy.bits .f32 = 32 ∨ (Rect.block (s := S50000x128) S5000x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x1.size a ≤ S50000x1.size a
  hwx7_3 : ∀ i : grid7.Coords, EltTy.bits .f32 = 32 ∨ (Rect.block (s := S50000x1) S5000x1.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S128x64.size a ≤ S128x64.size a
  hwx7_5 : ∀ i : grid7.Coords, EltTy.bits .f32 = 32 ∨ (Rect.block (s := S128x64) S128x64.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x64.size a ≤ S1x64.size a
  hwx7_6 : ∀ i : grid7.Coords, EltTy.bits .f32 = 32 ∨ (Rect.block (s := S1x64) S1x64.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S5000x64.size a ≤ S50000x64.size a
  hwx7_7 : ∀ i : grid7.Coords, EltTy.bits .f32 = 32 ∨ (Rect.block (s := S50000x64) S5000x64.size (cc7_transform_7 i) (hinb7_7 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v103) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v109) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v110) S5000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v111) S5000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v108) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v112) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v113) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v114) S5000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v128) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v169) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v138) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v170) S5000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v171) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v172) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v148) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v173) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v158) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v174) S5000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v175) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v176) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v172) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v181) S128x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v187) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v188) S5000x1.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v189) S5000x256.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v176) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v186) S128x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v190) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v191) S5000x1.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v192) S5000x256.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v206) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v247) S5000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v216) S5000x128.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v248) S5000x1.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v249) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v98) S128x64.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v250) S1x64.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v251) S5000x64.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v226) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v252) S5000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v236) S5000x128.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v253) S5000x1.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_v254) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v98) S128x64.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v255) S1x64.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v256) S5000x64.size cc7_transform_7 reads7_7 true false 2 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S2x4x128x128 : Shape := ⟨4, ![2, 4, 128, 128]⟩
abbrev S2x4x128 : Shape := ⟨3, ![2, 4, 128]⟩
abbrev S64x128 : Shape := ⟨2, ![64, 128]⟩
abbrev S64 : Shape := ⟨1, ![64]⟩
abbrev S1x1x128x128 : Shape := ⟨4, ![1, 1, 128, 128]⟩
abbrev S128x128 : Shape := ⟨2, ![128, 128]⟩
abbrev S1x1x128 : Shape := ⟨3, ![1, 1, 128]⟩
abbrev S128 : Shape := ⟨1, ![128]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S800000x1 : Shape := ⟨2, ![800000, 1]⟩
abbrev S800000x128 : Shape := ⟨2, ![800000, 128]⟩
abbrev S128x64 : Shape := ⟨2, ![128, 64]⟩
abbrev S50000x64 : Shape := ⟨2, ![50000, 64]⟩
abbrev S1x64 : Shape := ⟨2, ![1, 64]⟩

abbrev nBuf : Space → Nat
  | .hbm => 680
  | .vmem => 0
  | .smem => 0
  | _ => 0

abbrev hbmTy0_0 (i : Nat) : BufTy := match i % 128 with
  | 0 => ⟨S50000x128, .f32⟩
  | 1 => ⟨S50000x128, .f32⟩
  | 2 => ⟨S2x800000, .i32⟩
  | 3 => ⟨S2x800000, .i32⟩
  | 4 => ⟨S2x800000, .i32⟩
  | 5 => ⟨S2x800000, .i32⟩
  | 6 => ⟨S2x4x128x128, .f32⟩
  | 7 => ⟨S2x4x128, .f32⟩
  | 8 => ⟨S64x128, .f32⟩
  | 9 => ⟨S64, .f32⟩
  | 10 => ⟨S1x1x128x128, .f32⟩
  | 11 => ⟨S128x128, .f32⟩
  | 12 => ⟨S1x1x128, .f32⟩
  | 13 => ⟨S128, .f32⟩
  | 14 => ⟨S1x800000, .i32⟩
  | 15 => ⟨S800000, .i32⟩
  | 16 => ⟨S1x800000, .i32⟩
  | 17 => ⟨S800000, .i32⟩
  | 18 => ⟨S50000, .i32⟩
  | 19 => ⟨S850000, .i32⟩
  | 20 => ⟨S850000, .i32⟩
  | 21 => ⟨S_, .f32⟩
  | 22 => ⟨S850000, .f32⟩
  | 23 => ⟨S_, .f32⟩
  | 24 => ⟨S50000, .f32⟩
  | 25 => ⟨S850000x1, .i32⟩
  | 26 => ⟨S50000, .f32⟩
  | 27 => ⟨S_, .f32⟩
  | 28 => ⟨S50000, .f32⟩
  | 29 => ⟨S850000x1, .i32⟩
  | 30 => ⟨S50000, .f32⟩
  | 31 => ⟨S_, .f32⟩
  | 32 => ⟨S50000, .f32⟩
  | 33 => ⟨S50000, .i1⟩
  | 34 => ⟨S_, .f32⟩
  | 35 => ⟨S50000, .f32⟩
  | 36 => ⟨S50000, .f32⟩
  | 37 => ⟨S50000, .f32⟩
  | 38 => ⟨S_, .f32⟩
  | 39 => ⟨S_, .f32⟩
  | 40 => ⟨S50000, .f32⟩
  | 41 => ⟨S50000, .f32⟩
  | 42 => ⟨S_, .f32⟩
  | 43 => ⟨S50000, .f32⟩
  | 44 => ⟨S50000, .i1⟩
  | 45 => ⟨S_, .f32⟩
  | 46 => ⟨S50000, .f32⟩
  | 47 => ⟨S50000, .f32⟩
  | 48 => ⟨S50000, .f32⟩
  | 49 => ⟨S_, .f32⟩
  | 50 => ⟨S_, .f32⟩
  | 51 => ⟨S50000, .f32⟩
  | 52 => ⟨S50000, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000, .f32⟩
  | 62 => ⟨S_, .i32⟩
  | 63 => ⟨S850000, .i32⟩
  | 64 => ⟨S850000, .i1⟩
  | 65 => ⟨S_, .i32⟩
  | 66 => ⟨S850000, .i32⟩
  | 67 => ⟨S850000, .i32⟩
  | 68 => ⟨S850000, .i32⟩
  | 69 => ⟨S850000x1, .i32⟩
  | 70 => ⟨S850000, .f32⟩
  | 71 => ⟨S850000, .f32⟩
  | 72 => ⟨S50000x128, .f32⟩
  | 73 => ⟨S_, .i32⟩
  | 74 => ⟨S850000, .i32⟩
  | 75 => ⟨S850000, .i1⟩
  | 76 => ⟨S_, .i32⟩
  | 77 => ⟨S850000, .i32⟩
  | 78 => ⟨S850000, .i32⟩
  | 79 => ⟨S850000, .i32⟩
  | 80 => ⟨S850000x1, .i32⟩
  | 81 => ⟨S850000x128, .f32⟩
  | 82 => ⟨S850000x1, .f32⟩
  | 83 => ⟨S850000x128, .f32⟩
  | 84 => ⟨S850000x128, .f32⟩
  | 85 => ⟨S_, .f32⟩
  | 86 => ⟨S50000x128, .f32⟩
  | 87 => ⟨S850000x1, .i32⟩
  | 88 => ⟨S50000x128, .f32⟩
  | 89 => ⟨S1x128, .f32⟩
  | 90 => ⟨S50000x128, .f32⟩
  | 91 => ⟨S50000x128, .f32⟩
  | 92 => ⟨S1x1x128x128, .f32⟩
  | 93 => ⟨S128x128, .f32⟩
  | 94 => ⟨S1x1x128, .f32⟩
  | 95 => ⟨S128, .f32⟩
  | 96 => ⟨S1x800000, .i32⟩
  | 97 => ⟨S800000, .i32⟩
  | 98 => ⟨S1x800000, .i32⟩
  | 99 => ⟨S800000, .i32⟩
  | 100 => ⟨S_, .f32⟩
  | 101 => ⟨S800000, .f32⟩
  | 102 => ⟨S_, .f32⟩
  | 103 => ⟨S50000, .f32⟩
  | 104 => ⟨S800000x1, .i32⟩
  | 105 => ⟨S50000, .f32⟩
  | 106 => ⟨S_, .f32⟩
  | 107 => ⟨S50000, .f32⟩
  | 108 => ⟨S800000x1, .i32⟩
  | 109 => ⟨S50000, .f32⟩
  | 110 => ⟨S_, .f32⟩
  | 111 => ⟨S50000, .f32⟩
  | 112 => ⟨S50000, .i1⟩
  | 113 => ⟨S_, .f32⟩
  | 114 => ⟨S50000, .f32⟩
  | 115 => ⟨S50000, .f32⟩
  | 116 => ⟨S50000, .f32⟩
  | 117 => ⟨S_, .f32⟩
  | 118 => ⟨S_, .f32⟩
  | 119 => ⟨S50000, .f32⟩
  | 120 => ⟨S50000, .f32⟩
  | 121 => ⟨S_, .f32⟩
  | 122 => ⟨S50000, .f32⟩
  | 123 => ⟨S50000, .i1⟩
  | 124 => ⟨S_, .f32⟩
  | 125 => ⟨S50000, .f32⟩
  | 126 => ⟨S50000, .f32⟩
  | 127 => ⟨S50000, .f32⟩
  | _ => ⟨S50000x128, .f32⟩

abbrev hbmTy0_1 (i : Nat) : BufTy := match i % 128 with
  | 0 => ⟨S_, .f32⟩
  | 1 => ⟨S_, .f32⟩
  | 2 => ⟨S50000, .f32⟩
  | 3 => ⟨S50000, .f32⟩
  | 4 => ⟨S_, .i32⟩
  | 5 => ⟨S800000, .i32⟩
  | 6 => ⟨S800000, .i1⟩
  | 7 => ⟨S_, .i32⟩
  | 8 => ⟨S800000, .i32⟩
  | 9 => ⟨S800000, .i32⟩
  | 10 => ⟨S800000, .i32⟩
  | 11 => ⟨S800000x1, .i32⟩
  | 12 => ⟨S800000, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000, .f32⟩
  | 22 => ⟨S800000, .f32⟩
  | 23 => ⟨S50000x128, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x128, .f32⟩
  | 33 => ⟨S800000x1, .f32⟩
  | 34 => ⟨S800000x128, .f32⟩
  | 35 => ⟨S800000x128, .f32⟩
  | 36 => ⟨S_, .f32⟩
  | 37 => ⟨S50000x128, .f32⟩
  | 38 => ⟨S800000x1, .i32⟩
  | 39 => ⟨S50000x128, .f32⟩
  | 40 => ⟨S1x128, .f32⟩
  | 41 => ⟨S50000x128, .f32⟩
  | 42 => ⟨S50000x128, .f32⟩
  | 43 => ⟨S50000x128, .f32⟩
  | 44 => ⟨S1x1x128x128, .f32⟩
  | 45 => ⟨S128x128, .f32⟩
  | 46 => ⟨S1x1x128, .f32⟩
  | 47 => ⟨S128, .f32⟩
  | 48 => ⟨S1x800000, .i32⟩
  | 49 => ⟨S800000, .i32⟩
  | 50 => ⟨S1x800000, .i32⟩
  | 51 => ⟨S800000, .i32⟩
  | 52 => ⟨S50000, .i32⟩
  | 53 => ⟨S850000, .i32⟩
  | 54 => ⟨S850000, .i32⟩
  | 55 => ⟨S_, .f32⟩
  | 56 => ⟨S850000, .f32⟩
  | 57 => ⟨S_, .f32⟩
  | 58 => ⟨S50000, .f32⟩
  | 59 => ⟨S850000x1, .i32⟩
  | 60 => ⟨S50000, .f32⟩
  | 61 => ⟨S_, .f32⟩
  | 62 => ⟨S50000, .f32⟩
  | 63 => ⟨S850000x1, .i32⟩
  | 64 => ⟨S50000, .f32⟩
  | 65 => ⟨S_, .f32⟩
  | 66 => ⟨S50000, .f32⟩
  | 67 => ⟨S50000, .i1⟩
  | 68 => ⟨S_, .f32⟩
  | 69 => ⟨S50000, .f32⟩
  | 70 => ⟨S50000, .f32⟩
  | 71 => ⟨S50000, .f32⟩
  | 72 => ⟨S_, .f32⟩
  | 73 => ⟨S_, .f32⟩
  | 74 => ⟨S50000, .f32⟩
  | 75 => ⟨S50000, .f32⟩
  | 76 => ⟨S_, .f32⟩
  | 77 => ⟨S50000, .f32⟩
  | 78 => ⟨S50000, .i1⟩
  | 79 => ⟨S_, .f32⟩
  | 80 => ⟨S50000, .f32⟩
  | 81 => ⟨S50000, .f32⟩
  | 82 => ⟨S50000, .f32⟩
  | 83 => ⟨S_, .f32⟩
  | 84 => ⟨S_, .f32⟩
  | 85 => ⟨S50000, .f32⟩
  | 86 => ⟨S50000, .f32⟩
  | 87 => ⟨S_, .i32⟩
  | 88 => ⟨S850000, .i32⟩
  | 89 => ⟨S850000, .i1⟩
  | 90 => ⟨S_, .i32⟩
  | 91 => ⟨S850000, .i32⟩
  | 92 => ⟨S850000, .i32⟩
  | 93 => ⟨S850000, .i32⟩
  | 94 => ⟨S850000x1, .i32⟩
  | 95 => ⟨S850000, .f32⟩
  | 96 => ⟨S_, .i32⟩
  | 97 => ⟨S850000, .i32⟩
  | 98 => ⟨S850000, .i1⟩
  | 99 => ⟨S_, .i32⟩
  | 100 => ⟨S850000, .i32⟩
  | 101 => ⟨S850000, .i32⟩
  | 102 => ⟨S850000, .i32⟩
  | 103 => ⟨S850000x1, .i32⟩
  | 104 => ⟨S850000, .f32⟩
  | 105 => ⟨S850000, .f32⟩
  | 106 => ⟨S50000x128, .f32⟩
  | 107 => ⟨S_, .i32⟩
  | 108 => ⟨S850000, .i32⟩
  | 109 => ⟨S850000, .i1⟩
  | 110 => ⟨S_, .i32⟩
  | 111 => ⟨S850000, .i32⟩
  | 112 => ⟨S850000, .i32⟩
  | 113 => ⟨S850000, .i32⟩
  | 114 => ⟨S850000x1, .i32⟩
  | 115 => ⟨S850000x128, .f32⟩
  | 116 => ⟨S850000x1, .f32⟩
  | 117 => ⟨S850000x128, .f32⟩
  | 118 => ⟨S850000x128, .f32⟩
  | 119 => ⟨S_, .f32⟩
  | 120 => ⟨S50000x128, .f32⟩
  | 121 => ⟨S850000x1, .i32⟩
  | 122 => ⟨S50000x128, .f32⟩
  | 123 => ⟨S1x128, .f32⟩
  | 124 => ⟨S50000x128, .f32⟩
  | 125 => ⟨S50000x128, .f32⟩
  | 126 => ⟨S1x1x128x128, .f32⟩
  | 127 => ⟨S128x128, .f32⟩
  | _ => ⟨S50000x128, .f32⟩

abbrev hbmTy0_2 (i : Nat) : BufTy := match i % 128 with
  | 0 => ⟨S1x1x128, .f32⟩
  | 1 => ⟨S128, .f32⟩
  | 2 => ⟨S1x800000, .i32⟩
  | 3 => ⟨S800000, .i32⟩
  | 4 => ⟨S1x800000, .i32⟩
  | 5 => ⟨S800000, .i32⟩
  | 6 => ⟨S_, .f32⟩
  | 7 => ⟨S800000, .f32⟩
  | 8 => ⟨S_, .f32⟩
  | 9 => ⟨S50000, .f32⟩
  | 10 => ⟨S800000x1, .i32⟩
  | 11 => ⟨S50000, .f32⟩
  | 12 => ⟨S_, .f32⟩
  | 13 => ⟨S50000, .f32⟩
  | 14 => ⟨S800000x1, .i32⟩
  | 15 => ⟨S50000, .f32⟩
  | 16 => ⟨S_, .f32⟩
  | 17 => ⟨S50000, .f32⟩
  | 18 => ⟨S50000, .i1⟩
  | 19 => ⟨S_, .f32⟩
  | 20 => ⟨S50000, .f32⟩
  | 21 => ⟨S50000, .f32⟩
  | 22 => ⟨S50000, .f32⟩
  | 23 => ⟨S_, .f32⟩
  | 24 => ⟨S_, .f32⟩
  | 25 => ⟨S50000, .f32⟩
  | 26 => ⟨S50000, .f32⟩
  | 27 => ⟨S_, .f32⟩
  | 28 => ⟨S50000, .f32⟩
  | 29 => ⟨S50000, .i1⟩
  | 30 => ⟨S_, .f32⟩
  | 31 => ⟨S50000, .f32⟩
  | 32 => ⟨S50000, .f32⟩
  | 33 => ⟨S50000, .f32⟩
  | 34 => ⟨S_, .f32⟩
  | 35 => ⟨S_, .f32⟩
  | 36 => ⟨S50000, .f32⟩
  | 37 => ⟨S50000, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000, .f32⟩
  | 56 => ⟨S800000, .f32⟩
  | 57 => ⟨S50000x128, .f32⟩
  | 58 => ⟨S_, .i32⟩
  | 59 => ⟨S800000, .i32⟩
  | 60 => ⟨S800000, .i1⟩
  | 61 => ⟨S_, .i32⟩
  | 62 => ⟨S800000, .i32⟩
  | 63 => ⟨S800000, .i32⟩
  | 64 => ⟨S800000, .i32⟩
  | 65 => ⟨S800000x1, .i32⟩
  | 66 => ⟨S800000x128, .f32⟩
  | 67 => ⟨S800000x1, .f32⟩
  | 68 => ⟨S800000x128, .f32⟩
  | 69 => ⟨S800000x128, .f32⟩
  | 70 => ⟨S_, .f32⟩
  | 71 => ⟨S50000x128, .f32⟩
  | 72 => ⟨S800000x1, .i32⟩
  | 73 => ⟨S50000x128, .f32⟩
  | 74 => ⟨S1x128, .f32⟩
  | 75 => ⟨S50000x128, .f32⟩
  | 76 => ⟨S50000x128, .f32⟩
  | 77 => ⟨S50000x128, .f32⟩
  | 78 => ⟨S_, .f32⟩
  | 79 => ⟨S50000x128, .f32⟩
  | 80 => ⟨S50000x128, .f32⟩
  | 81 => ⟨S_, .f32⟩
  | 82 => ⟨S50000x128, .f32⟩
  | 83 => ⟨S50000x128, .f32⟩
  | 84 => ⟨S1x1x128x128, .f32⟩
  | 85 => ⟨S128x128, .f32⟩
  | 86 => ⟨S1x1x128, .f32⟩
  | 87 => ⟨S128, .f32⟩
  | 88 => ⟨S1x800000, .i32⟩
  | 89 => ⟨S800000, .i32⟩
  | 90 => ⟨S1x800000, .i32⟩
  | 91 => ⟨S800000, .i32⟩
  | 92 => ⟨S50000, .i32⟩
  | 93 => ⟨S850000, .i32⟩
  | 94 => ⟨S850000, .i32⟩
  | 95 => ⟨S_, .f32⟩
  | 96 => ⟨S850000, .f32⟩
  | 97 => ⟨S_, .f32⟩
  | 98 => ⟨S50000, .f32⟩
  | 99 => ⟨S850000x1, .i32⟩
  | 100 => ⟨S50000, .f32⟩
  | 101 => ⟨S_, .f32⟩
  | 102 => ⟨S50000, .f32⟩
  | 103 => ⟨S850000x1, .i32⟩
  | 104 => ⟨S50000, .f32⟩
  | 105 => ⟨S_, .f32⟩
  | 106 => ⟨S50000, .f32⟩
  | 107 => ⟨S50000, .i1⟩
  | 108 => ⟨S_, .f32⟩
  | 109 => ⟨S50000, .f32⟩
  | 110 => ⟨S50000, .f32⟩
  | 111 => ⟨S50000, .f32⟩
  | 112 => ⟨S_, .f32⟩
  | 113 => ⟨S_, .f32⟩
  | 114 => ⟨S50000, .f32⟩
  | 115 => ⟨S50000, .f32⟩
  | 116 => ⟨S_, .f32⟩
  | 117 => ⟨S50000, .f32⟩
  | 118 => ⟨S50000, .i1⟩
  | 119 => ⟨S_, .f32⟩
  | 120 => ⟨S50000, .f32⟩
  | 121 => ⟨S50000, .f32⟩
  | 122 => ⟨S50000, .f32⟩
  | 123 => ⟨S_, .f32⟩
  | 124 => ⟨S_, .f32⟩
  | 125 => ⟨S50000, .f32⟩
  | 126 => ⟨S50000, .f32⟩
  | 127 => ⟨S_, .i32⟩
  | _ => ⟨S50000x128, .f32⟩

abbrev hbmTy0_3 (i : Nat) : BufTy := match i % 128 with
  | 0 => ⟨S850000, .i32⟩
  | 1 => ⟨S850000, .i1⟩
  | 2 => ⟨S_, .i32⟩
  | 3 => ⟨S850000, .i32⟩
  | 4 => ⟨S850000, .i32⟩
  | 5 => ⟨S850000, .i32⟩
  | 6 => ⟨S850000x1, .i32⟩
  | 7 => ⟨S850000, .f32⟩
  | 8 => ⟨S_, .i32⟩
  | 9 => ⟨S850000, .i32⟩
  | 10 => ⟨S850000, .i1⟩
  | 11 => ⟨S_, .i32⟩
  | 12 => ⟨S850000, .i32⟩
  | 13 => ⟨S850000, .i32⟩
  | 14 => ⟨S850000, .i32⟩
  | 15 => ⟨S850000x1, .i32⟩
  | 16 => ⟨S850000, .f32⟩
  | 17 => ⟨S850000, .f32⟩
  | 18 => ⟨S50000x128, .f32⟩
  | 19 => ⟨S_, .i32⟩
  | 20 => ⟨S850000, .i32⟩
  | 21 => ⟨S850000, .i1⟩
  | 22 => ⟨S_, .i32⟩
  | 23 => ⟨S850000, .i32⟩
  | 24 => ⟨S850000, .i32⟩
  | 25 => ⟨S850000, .i32⟩
  | 26 => ⟨S850000x1, .i32⟩
  | 27 => ⟨S850000x128, .f32⟩
  | 28 => ⟨S850000x1, .f32⟩
  | 29 => ⟨S850000x128, .f32⟩
  | 30 => ⟨S850000x128, .f32⟩
  | 31 => ⟨S_, .f32⟩
  | 32 => ⟨S50000x128, .f32⟩
  | 33 => ⟨S850000x1, .i32⟩
  | 34 => ⟨S50000x128, .f32⟩
  | 35 => ⟨S1x128, .f32⟩
  | 36 => ⟨S50000x128, .f32⟩
  | 37 => ⟨S50000x128, .f32⟩
  | 38 => ⟨S1x1x128x128, .f32⟩
  | 39 => ⟨S128x128, .f32⟩
  | 40 => ⟨S1x1x128, .f32⟩
  | 41 => ⟨S128, .f32⟩
  | 42 => ⟨S1x800000, .i32⟩
  | 43 => ⟨S800000, .i32⟩
  | 44 => ⟨S1x800000, .i32⟩
  | 45 => ⟨S800000, .i32⟩
  | 46 => ⟨S_, .f32⟩
  | 47 => ⟨S800000, .f32⟩
  | 48 => ⟨S_, .f32⟩
  | 49 => ⟨S50000, .f32⟩
  | 50 => ⟨S800000x1, .i32⟩
  | 51 => ⟨S50000, .f32⟩
  | 52 => ⟨S_, .f32⟩
  | 53 => ⟨S50000, .f32⟩
  | 54 => ⟨S800000x1, .i32⟩
  | 55 => ⟨S50000, .f32⟩
  | 56 => ⟨S_, .f32⟩
  | 57 => ⟨S50000, .f32⟩
  | 58 => ⟨S50000, .i1⟩
  | 59 => ⟨S_, .f32⟩
  | 60 => ⟨S50000, .f32⟩
  | 61 => ⟨S50000, .f32⟩
  | 62 => ⟨S50000, .f32⟩
  | 63 => ⟨S_, .f32⟩
  | 64 => ⟨S_, .f32⟩
  | 65 => ⟨S50000, .f32⟩
  | 66 => ⟨S50000, .f32⟩
  | 67 => ⟨S_, .f32⟩
  | 68 => ⟨S50000, .f32⟩
  | 69 => ⟨S50000, .i1⟩
  | 70 => ⟨S_, .f32⟩
  | 71 => ⟨S50000, .f32⟩
  | 72 => ⟨S50000, .f32⟩
  | 73 => ⟨S50000, .f32⟩
  | 74 => ⟨S_, .f32⟩
  | 75 => ⟨S_, .f32⟩
  | 76 => ⟨S50000, .f32⟩
  | 77 => ⟨S50000, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000, .f32⟩
  | 96 => ⟨S800000, .f32⟩
  | 97 => ⟨S50000x128, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000x128, .f32⟩
  | 107 => ⟨S800000x1, .f32⟩
  | 108 => ⟨S800000x128, .f32⟩
  | 109 => ⟨S800000x128, .f32⟩
  | 110 => ⟨S_, .f32⟩
  | 111 => ⟨S50000x128, .f32⟩
  | 112 => ⟨S800000x1, .i32⟩
  | 113 => ⟨S50000x128, .f32⟩
  | 114 => ⟨S1x128, .f32⟩
  | 115 => ⟨S50000x128, .f32⟩
  | 116 => ⟨S50000x128, .f32⟩
  | 117 => ⟨S50000x128, .f32⟩
  | 118 => ⟨S1x1x128x128, .f32⟩
  | 119 => ⟨S128x128, .f32⟩
  | 120 => ⟨S1x1x128, .f32⟩
  | 121 => ⟨S128, .f32⟩
  | 122 => ⟨S1x800000, .i32⟩
  | 123 => ⟨S800000, .i32⟩
  | 124 => ⟨S1x800000, .i32⟩
  | 125 => ⟨S800000, .i32⟩
  | 126 => ⟨S50000, .i32⟩
  | 127 => ⟨S850000, .i32⟩
  | _ => ⟨S50000x128, .f32⟩

abbrev hbmTy0_4 (i : Nat) : BufTy := match i % 128 with
  | 0 => ⟨S850000, .i32⟩
  | 1 => ⟨S_, .f32⟩
  | 2 => ⟨S850000, .f32⟩
  | 3 => ⟨S_, .f32⟩
  | 4 => ⟨S50000, .f32⟩
  | 5 => ⟨S850000x1, .i32⟩
  | 6 => ⟨S50000, .f32⟩
  | 7 => ⟨S_, .f32⟩
  | 8 => ⟨S50000, .f32⟩
  | 9 => ⟨S850000x1, .i32⟩
  | 10 => ⟨S50000, .f32⟩
  | 11 => ⟨S_, .f32⟩
  | 12 => ⟨S50000, .f32⟩
  | 13 => ⟨S50000, .i1⟩
  | 14 => ⟨S_, .f32⟩
  | 15 => ⟨S50000, .f32⟩
  | 16 => ⟨S50000, .f32⟩
  | 17 => ⟨S50000, .f32⟩
  | 18 => ⟨S_, .f32⟩
  | 19 => ⟨S_, .f32⟩
  | 20 => ⟨S50000, .f32⟩
  | 21 => ⟨S50000, .f32⟩
  | 22 => ⟨S_, .f32⟩
  | 23 => ⟨S50000, .f32⟩
  | 24 => ⟨S50000, .i1⟩
  | 25 => ⟨S_, .f32⟩
  | 26 => ⟨S50000, .f32⟩
  | 27 => ⟨S50000, .f32⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S850000, .f32⟩
  | 52 => ⟨S50000x128, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000x128, .f32⟩
  | 62 => ⟨S850000x1, .f32⟩
  | 63 => ⟨S850000x128, .f32⟩
  | 64 => ⟨S850000x128, .f32⟩
  | 65 => ⟨S_, .f32⟩
  | 66 => ⟨S50000x128, .f32⟩
  | 67 => ⟨S850000x1, .i32⟩
  | 68 => ⟨S50000x128, .f32⟩
  | 69 => ⟨S1x128, .f32⟩
  | 70 => ⟨S50000x128, .f32⟩
  | 71 => ⟨S50000x128, .f32⟩
  | 72 => ⟨S1x1x128x128, .f32⟩
  | 73 => ⟨S128x128, .f32⟩
  | 74 => ⟨S1x1x128, .f32⟩
  | 75 => ⟨S128, .f32⟩
  | 76 => ⟨S1x800000, .i32⟩
  | 77 => ⟨S800000, .i32⟩
  | 78 => ⟨S1x800000, .i32⟩
  | 79 => ⟨S800000, .i32⟩
  | 80 => ⟨S_, .f32⟩
  | 81 => ⟨S800000, .f32⟩
  | 82 => ⟨S_, .f32⟩
  | 83 => ⟨S50000, .f32⟩
  | 84 => ⟨S800000x1, .i32⟩
  | 85 => ⟨S50000, .f32⟩
  | 86 => ⟨S_, .f32⟩
  | 87 => ⟨S50000, .f32⟩
  | 88 => ⟨S800000x1, .i32⟩
  | 89 => ⟨S50000, .f32⟩
  | 90 => ⟨S_, .f32⟩
  | 91 => ⟨S50000, .f32⟩
  | 92 => ⟨S50000, .i1⟩
  | 93 => ⟨S_, .f32⟩
  | 94 => ⟨S50000, .f32⟩
  | 95 => ⟨S50000, .f32⟩
  | 96 => ⟨S50000, .f32⟩
  | 97 => ⟨S_, .f32⟩
  | 98 => ⟨S_, .f32⟩
  | 99 => ⟨S50000, .f32⟩
  | 100 => ⟨S50000, .f32⟩
  | 101 => ⟨S_, .f32⟩
  | 102 => ⟨S50000, .f32⟩
  | 103 => ⟨S50000, .i1⟩
  | 104 => ⟨S_, .f32⟩
  | 105 => ⟨S50000, .f32⟩
  | 106 => ⟨S50000, .f32⟩
  | 107 => ⟨S50000, .f32⟩
  | 108 => ⟨S_, .f32⟩
  | 109 => ⟨S_, .f32⟩
  | 110 => ⟨S50000, .f32⟩
  | 111 => ⟨S50000, .f32⟩
  | 112 => ⟨S_, .i32⟩
  | 113 => ⟨S800000, .i32⟩
  | 114 => ⟨S800000, .i1⟩
  | 115 => ⟨S_, .i32⟩
  | 116 => ⟨S800000, .i32⟩
  | 117 => ⟨S800000, .i32⟩
  | 118 => ⟨S800000, .i32⟩
  | 119 => ⟨S800000x1, .i32⟩
  | 120 => ⟨S800000, .f32⟩
  | 121 => ⟨S_, .i32⟩
  | 122 => ⟨S800000, .i32⟩
  | 123 => ⟨S800000, .i1⟩
  | 124 => ⟨S_, .i32⟩
  | 125 => ⟨S800000, .i32⟩
  | 126 => ⟨S800000, .i32⟩
  | 127 => ⟨S800000, .i32⟩
  | _ => ⟨S50000x128, .f32⟩

abbrev hbmTy0_5 (i : Nat) : BufTy := match i % 128 with
  | 0 => ⟨S800000x1, .i32⟩
  | 1 => ⟨S800000, .f32⟩
  | 2 => ⟨S800000, .f32⟩
  | 3 => ⟨S50000x128, .f32⟩
  | 4 => ⟨S_, .i32⟩
  | 5 => ⟨S800000, .i32⟩
  | 6 => ⟨S800000, .i1⟩
  | 7 => ⟨S_, .i32⟩
  | 8 => ⟨S800000, .i32⟩
  | 9 => ⟨S800000, .i32⟩
  | 10 => ⟨S800000, .i32⟩
  | 11 => ⟨S800000x1, .i32⟩
  | 12 => ⟨S800000x128, .f32⟩
  | 13 => ⟨S800000x1, .f32⟩
  | 14 => ⟨S800000x128, .f32⟩
  | 15 => ⟨S800000x128, .f32⟩
  | 16 => ⟨S_, .f32⟩
  | 17 => ⟨S50000x128, .f32⟩
  | 18 => ⟨S800000x1, .i32⟩
  | 19 => ⟨S50000x128, .f32⟩
  | 20 => ⟨S1x128, .f32⟩
  | 21 => ⟨S50000x128, .f32⟩
  | 22 => ⟨S50000x128, .f32⟩
  | 23 => ⟨S50000x128, .f32⟩
  | 24 => ⟨S_, .f32⟩
  | 25 => ⟨S50000x128, .f32⟩
  | 26 => ⟨S50000x128, .f32⟩
  | 27 => ⟨S_, .f32⟩
  | 28 => ⟨S50000x128, .f32⟩
  | 29 => ⟨S50000x128, .f32⟩
  | 30 => ⟨S128x64, .f32⟩
  | 31 => ⟨S50000x64, .f32⟩
  | 32 => ⟨S1x64, .f32⟩
  | 33 => ⟨S50000x64, .f32⟩
  | 34 => ⟨S50000x64, .f32⟩
  | 35 => ⟨S128x64, .f32⟩
  | 36 => ⟨S50000x64, .f32⟩
  | 37 => ⟨S1x64, .f32⟩
  | 38 => ⟨S50000x64, .f32⟩
  | 39 => ⟨S50000x64, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_call0_v0 : Ref sig .tc := ⟨.hbm, 39, rfl⟩
abbrev main_call0_v1 : Ref sig .tc := ⟨.hbm, 40, rfl⟩
abbrev main_v23 : Ref sig .tc := ⟨.hbm, 41, rfl⟩
abbrev main_cst_5 : Ref sig .tc := ⟨.hbm, 42, rfl⟩
abbrev main_v24 : Ref sig .tc := ⟨.hbm, 43, rfl⟩
abbrev main_v25 : Ref sig .tc := ⟨.hbm, 44, rfl⟩
abbrev main_cst_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_7 : Ref sig .tc := ⟨.hbm, 49, rfl⟩
abbrev main_call1_v0 : Ref sig .tc := ⟨.hbm, 50, rfl⟩
abbrev main_call1_v1 : Ref sig .tc := ⟨.hbm, 51, rfl⟩
abbrev main_v29 : Ref sig .tc := ⟨.hbm, 52, rfl⟩
abbrev main_c : Ref sig .tc := ⟨.hbm, 53, rfl⟩
abbrev main_v30 : Ref sig .tc := ⟨.hbm, 54, rfl⟩
abbrev main_v31 : Ref sig .tc := ⟨.hbm, 55, rfl⟩
abbrev main_c_8 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_c_9 : Ref sig .tc := ⟨.hbm, 62, rfl⟩
abbrev main_v37 : Ref sig .tc := ⟨.hbm, 63, rfl⟩
abbrev main_v38 : Ref sig .tc := ⟨.hbm, 64, rfl⟩
abbrev main_c_10 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_c_11 : Ref sig .tc := ⟨.hbm, 73, rfl⟩
abbrev main_v46 : Ref sig .tc := ⟨.hbm, 74, rfl⟩
abbrev main_v47 : Ref sig .tc := ⟨.hbm, 75, rfl⟩
abbrev main_c_12 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_13 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_14 : Ref sig .tc := ⟨.hbm, 100, rfl⟩
abbrev main_v70 : Ref sig .tc := ⟨.hbm, 101, rfl⟩
abbrev main_cst_15 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_16 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_17 : Ref sig .tc := ⟨.hbm, 110, rfl⟩
abbrev main_v77 : Ref sig .tc := ⟨.hbm, 111, rfl⟩
abbrev main_v78 : Ref sig .tc := ⟨.hbm, 112, rfl⟩
abbrev main_cst_18 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_19 : Ref sig .tc := ⟨.hbm, 117, rfl⟩
abbrev main_call2_v0 : Ref sig .tc := ⟨.hbm, 118, rfl⟩
abbrev main_call2_v1 : Ref sig .tc := ⟨.hbm, 119, rfl⟩
abbrev main_v82 : Ref sig .tc := ⟨.hbm, 120, rfl⟩
abbrev main_cst_20 : Ref sig .tc := ⟨.hbm, 121, rfl⟩
abbrev main_v83 : Ref sig .tc := ⟨.hbm, 122, rfl⟩
abbrev main_v84 : Ref sig .tc := ⟨.hbm, 123, rfl⟩
abbrev main_cst_21 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_cst_22 : Ref sig .tc := ⟨.hbm, 128, rfl⟩
abbrev main_call3_v0 : Ref sig .tc := ⟨.hbm, 129, rfl⟩
abbrev main_call3_v1 : Ref sig .tc := ⟨.hbm, 130, rfl⟩
abbrev main_v88 : Ref sig .tc := ⟨.hbm, 131, rfl⟩
abbrev main_c_23 : Ref sig .tc := ⟨.hbm, 132, rfl⟩
abbrev main_v89 : Ref sig .tc := ⟨.hbm, 133, rfl⟩
abbrev main_v90 : Ref sig .tc := ⟨.hbm, 134, rfl⟩
abbrev main_c_24 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_c_25 : Ref sig .tc := ⟨.hbm, 141, rfl⟩
abbrev main_v96 : Ref sig .tc := ⟨.hbm, 142, rfl⟩
abbrev main_v97 : Ref sig .tc := ⟨.hbm, 143, rfl⟩
abbrev main_c_26 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_c_27 : Ref sig .tc := ⟨.hbm, 152, rfl⟩
abbrev main_v105 : Ref sig .tc := ⟨.hbm, 153, rfl⟩
abbrev main_v106 : Ref sig .tc := ⟨.hbm, 154, rfl⟩
abbrev main_c_28 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_cst_29 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_cst_30 : Ref sig .tc := ⟨.hbm, 183, rfl⟩
abbrev main_v133 : Ref sig .tc := ⟨.hbm, 184, rfl⟩
abbrev main_cst_31 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_cst_32 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_cst_33 : Ref sig .tc := ⟨.hbm, 193, rfl⟩
abbrev main_v140 : Ref sig .tc := ⟨.hbm, 194, rfl⟩
abbrev main_v141 : Ref sig .tc := ⟨.hbm, 195, rfl⟩
abbrev main_cst_34 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_cst_35 : Ref sig .tc := ⟨.hbm, 200, rfl⟩
abbrev main_call4_v0 : Ref sig .tc := ⟨.hbm, 201, rfl⟩
abbrev main_call4_v1 : Ref sig .tc := ⟨.hbm, 202, rfl⟩
abbrev main_v145 : Ref sig .tc := ⟨.hbm, 203, rfl⟩
abbrev main_cst_36 : Ref sig .tc := ⟨.hbm, 204, rfl⟩
abbrev main_v146 : Ref sig .tc := ⟨.hbm, 205, rfl⟩
abbrev main_v147 : Ref sig .tc := ⟨.hbm, 206, rfl⟩
abbrev main_cst_37 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_cst_38 : Ref sig .tc := ⟨.hbm, 211, rfl⟩
abbrev main_call5_v0 : Ref sig .tc := ⟨.hbm, 212, rfl⟩
abbrev main_call5_v1 : Ref sig .tc := ⟨.hbm, 213, rfl⟩
abbrev main_v151 : Ref sig .tc := ⟨.hbm, 214, rfl⟩
abbrev main_c_39 : Ref sig .tc := ⟨.hbm, 215, rfl⟩
abbrev main_v152 : Ref sig .tc := ⟨.hbm, 216, rfl⟩
abbrev main_v153 : Ref sig .tc := ⟨.hbm, 217, rfl⟩
abbrev main_c_40 : Ref sig .tc := ⟨.hbm, 218, rfl⟩
abbrev main_v154 : Ref sig .tc := ⟨.hbm, 219, rfl⟩
abbrev main_v155 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_c_41 : Ref sig .tc := ⟨.hbm, 224, rfl⟩
abbrev main_v159 : Ref sig .tc := ⟨.hbm, 225, rfl⟩
abbrev main_v160 : Ref sig .tc := ⟨.hbm, 226, rfl⟩
abbrev main_c_42 : Ref sig .tc := ⟨.hbm, 227, rfl⟩
abbrev main_v161 : Ref sig .tc := ⟨.hbm, 228, rfl⟩
abbrev main_v162 : Ref sig .tc := ⟨.hbm, 229, rfl⟩
abbrev main_v163 : Ref sig .tc := ⟨.hbm, 230, rfl⟩
abbrev main_v164 : Ref sig .tc := ⟨.hbm, 231, rfl⟩
abbrev main_v165 : Ref sig .tc := ⟨.hbm, 232, rfl⟩
abbrev main_v166 : Ref sig .tc := ⟨.hbm, 233, rfl⟩
abbrev main_v167 : Ref sig .tc := ⟨.hbm, 234, rfl⟩
abbrev main_c_43 : Ref sig .tc := ⟨.hbm, 235, rfl⟩
abbrev main_v168 : Ref sig .tc := ⟨.hbm, 236, rfl⟩
abbrev main_v169 : Ref sig .tc := ⟨.hbm, 237, rfl⟩
abbrev main_c_44 : Ref sig .tc := ⟨.hbm, 238, rfl⟩
abbrev main_v170 : Ref sig .tc := ⟨.hbm, 239, rfl⟩
abbrev main_v171 : Ref sig .tc := ⟨.hbm, 240, rfl⟩
abbrev main_v172 : Ref sig .tc := ⟨.hbm, 241, rfl⟩
abbrev main_v173 : Ref sig .tc := ⟨.hbm, 242, rfl⟩
abbrev main_v174 : Ref sig .tc := ⟨.hbm, 243, rfl⟩
abbrev main_v175 : Ref sig .tc := ⟨.hbm, 244, rfl⟩
abbrev main_v176 : Ref sig .tc := ⟨.hbm, 245, rfl⟩
abbrev main_v177 : Ref sig .tc := ⟨.hbm, 246, rfl⟩
abbrev main_cst_45 : Ref sig .tc := ⟨.hbm, 247, rfl⟩
abbrev main_v178 : Ref sig .tc := ⟨.hbm, 248, rfl⟩
abbrev main_v179 : Ref sig .tc := ⟨.hbm, 249, rfl⟩
abbrev main_v180 : Ref sig .tc := ⟨.hbm, 250, rfl⟩
abbrev main_v181 : Ref sig .tc := ⟨.hbm, 251, rfl⟩
abbrev main_v182 : Ref sig .tc := ⟨.hbm, 252, rfl⟩
abbrev main_v183 : Ref sig .tc := ⟨.hbm, 253, rfl⟩
abbrev main_v184 : Ref sig .tc := ⟨.hbm, 254, rfl⟩
abbrev main_v185 : Ref sig .tc := ⟨.hbm, 255, rfl⟩
abbrev main_v186 : Ref sig .tc := ⟨.hbm, 256, rfl⟩
abbrev main_v187 : Ref sig .tc := ⟨.hbm, 257, rfl⟩
abbrev main_v188 : Ref sig .tc := ⟨.hbm, 258, rfl⟩
abbrev main_v189 : Ref sig .tc := ⟨.hbm, 259, rfl⟩
abbrev main_v190 : Ref sig .tc := ⟨.hbm, 260, rfl⟩
abbrev main_v191 : Ref sig .tc := ⟨.hbm, 261, rfl⟩
abbrev main_cst_46 : Ref sig .tc := ⟨.hbm, 262, rfl⟩
abbrev main_v192 : Ref sig .tc := ⟨.hbm, 263, rfl⟩
abbrev main_cst_47 : Ref sig .tc := ⟨.hbm, 264, rfl⟩
abbrev main_v193 : Ref sig .tc := ⟨.hbm, 265, rfl⟩
abbrev main_v194 : Ref sig .tc := ⟨.hbm, 266, rfl⟩
abbrev main_v195 : Ref sig .tc := ⟨.hbm, 267, rfl⟩
abbrev main_cst_48 : Ref sig .tc := ⟨.hbm, 268, rfl⟩
abbrev main_v196 : Ref sig .tc := ⟨.hbm, 269, rfl⟩
abbrev main_v197 : Ref sig .tc := ⟨.hbm, 270, rfl⟩
abbrev main_v198 : Ref sig .tc := ⟨.hbm, 271, rfl⟩
abbrev main_cst_49 : Ref sig .tc := ⟨.hbm, 272, rfl⟩
abbrev main_v199 : Ref sig .tc := ⟨.hbm, 273, rfl⟩
abbrev main_v200 : Ref sig .tc := ⟨.hbm, 274, rfl⟩
abbrev main_cst_50 : Ref sig .tc := ⟨.hbm, 275, rfl⟩
abbrev main_v201 : Ref sig .tc := ⟨.hbm, 276, rfl⟩
abbrev main_v202 : Ref sig .tc := ⟨.hbm, 277, rfl⟩
abbrev main_v203 : Ref sig .tc := ⟨.hbm, 278, rfl⟩
abbrev main_cst_51 : Ref sig .tc := ⟨.hbm, 279, rfl⟩
abbrev main_call6_v0 : Ref sig .tc := ⟨.hbm, 280, rfl⟩
abbrev main_call6_v1 : Ref sig .tc := ⟨.hbm, 281, rfl⟩
abbrev main_v204 : Ref sig .tc := ⟨.hbm, 282, rfl⟩
abbrev main_cst_52 : Ref sig .tc := ⟨.hbm, 283, rfl⟩
abbrev main_v205 : Ref sig .tc := ⟨.hbm, 284, rfl⟩
abbrev main_v206 : Ref sig .tc := ⟨.hbm, 285, rfl⟩
abbrev main_cst_53 : Ref sig .tc := ⟨.hbm, 286, rfl⟩
abbrev main_v207 : Ref sig .tc := ⟨.hbm, 287, rfl⟩
abbrev main_v208 : Ref sig .tc := ⟨.hbm, 288, rfl⟩
abbrev main_v209 : Ref sig .tc := ⟨.hbm, 289, rfl⟩
abbrev main_cst_54 : Ref sig .tc := ⟨.hbm, 290, rfl⟩
abbrev main_call7_v0 : Ref sig .tc := ⟨.hbm, 291, rfl⟩
abbrev main_call7_v1 : Ref sig .tc := ⟨.hbm, 292, rfl⟩
abbrev main_v210 : Ref sig .tc := ⟨.hbm, 293, rfl⟩
abbrev main_c_55 : Ref sig .tc := ⟨.hbm, 294, rfl⟩
abbrev main_v211 : Ref sig .tc := ⟨.hbm, 295, rfl⟩
abbrev main_v212 : Ref sig .tc := ⟨.hbm, 296, rfl⟩
abbrev main_c_56 : Ref sig .tc := ⟨.hbm, 297, rfl⟩
abbrev main_v213 : Ref sig .tc := ⟨.hbm, 298, rfl⟩
abbrev main_v214 : Ref sig .tc := ⟨.hbm, 299, rfl⟩
abbrev main_v215 : Ref sig .tc := ⟨.hbm, 300, rfl⟩
abbrev main_v216 : Ref sig .tc := ⟨.hbm, 301, rfl⟩
abbrev main_v217 : Ref sig .tc := ⟨.hbm, 302, rfl⟩
abbrev main_c_57 : Ref sig .tc := ⟨.hbm, 303, rfl⟩
abbrev main_v218 : Ref sig .tc := ⟨.hbm, 304, rfl⟩
abbrev main_v219 : Ref sig .tc := ⟨.hbm, 305, rfl⟩
abbrev main_c_58 : Ref sig .tc := ⟨.hbm, 306, rfl⟩
abbrev main_v220 : Ref sig .tc := ⟨.hbm, 307, rfl⟩
abbrev main_v221 : Ref sig .tc := ⟨.hbm, 308, rfl⟩
abbrev main_v222 : Ref sig .tc := ⟨.hbm, 309, rfl⟩
abbrev main_v223 : Ref sig .tc := ⟨.hbm, 310, rfl⟩
abbrev main_v224 : Ref sig .tc := ⟨.hbm, 311, rfl⟩
abbrev main_v225 : Ref sig .tc := ⟨.hbm, 312, rfl⟩
abbrev main_v226 : Ref sig .tc := ⟨.hbm, 313, rfl⟩
abbrev main_c_59 : Ref sig .tc := ⟨.hbm, 314, rfl⟩
abbrev main_v227 : Ref sig .tc := ⟨.hbm, 315, rfl⟩
abbrev main_v228 : Ref sig .tc := ⟨.hbm, 316, rfl⟩
abbrev main_c_60 : Ref sig .tc := ⟨.hbm, 317, rfl⟩
abbrev main_v229 : Ref sig .tc := ⟨.hbm, 318, rfl⟩
abbrev main_v230 : Ref sig .tc := ⟨.hbm, 319, rfl⟩
abbrev main_v231 : Ref sig .tc := ⟨.hbm, 320, rfl⟩
abbrev main_v232 : Ref sig .tc := ⟨.hbm, 321, rfl⟩
abbrev main_v233 : Ref sig .tc := ⟨.hbm, 322, rfl⟩
abbrev main_v234 : Ref sig .tc := ⟨.hbm, 323, rfl⟩
abbrev main_v235 : Ref sig .tc := ⟨.hbm, 324, rfl⟩
abbrev main_v236 : Ref sig .tc := ⟨.hbm, 325, rfl⟩
abbrev main_cst_61 : Ref sig .tc := ⟨.hbm, 326, rfl⟩
abbrev main_v237 : Ref sig .tc := ⟨.hbm, 327, rfl⟩
abbrev main_v238 : Ref sig .tc := ⟨.hbm, 328, rfl⟩
abbrev main_v239 : Ref sig .tc := ⟨.hbm, 329, rfl⟩
abbrev main_v240 : Ref sig .tc := ⟨.hbm, 330, rfl⟩
abbrev main_v241 : Ref sig .tc := ⟨.hbm, 331, rfl⟩
abbrev main_v242 : Ref sig .tc := ⟨.hbm, 332, rfl⟩
abbrev main_v243 : Ref sig .tc := ⟨.hbm, 333, rfl⟩
abbrev main_call8_cst : Ref sig .tc := ⟨.hbm, 334, rfl⟩
abbrev main_call8_v0 : Ref sig .tc := ⟨.hbm, 335, rfl⟩
abbrev main_v244 : Ref sig .tc := ⟨.hbm, 336, rfl⟩
abbrev main_call9_cst : Ref sig .tc := ⟨.hbm, 337, rfl⟩
abbrev main_call9_v0 : Ref sig .tc := ⟨.hbm, 338, rfl⟩
abbrev main_v245 : Ref sig .tc := ⟨.hbm, 339, rfl⟩
abbrev main_v246 : Ref sig .tc := ⟨.hbm, 340, rfl⟩
abbrev main_v247 : Ref sig .tc := ⟨.hbm, 341, rfl⟩
abbrev main_v248 : Ref sig .tc := ⟨.hbm, 342, rfl⟩
abbrev main_v249 : Ref sig .tc := ⟨.hbm, 343, rfl⟩
abbrev main_v250 : Ref sig .tc := ⟨.hbm, 344, rfl⟩
abbrev main_v251 : Ref sig .tc := ⟨.hbm, 345, rfl⟩
abbrev main_v252 : Ref sig .tc := ⟨.hbm, 346, rfl⟩
abbrev main_v253 : Ref sig .tc := ⟨.hbm, 347, rfl⟩
abbrev main_v254 : Ref sig .tc := ⟨.hbm, 348, rfl⟩
abbrev main_v255 : Ref sig .tc := ⟨.hbm, 349, rfl⟩
abbrev main_v256 : Ref sig .tc := ⟨.hbm, 350, rfl⟩
abbrev main_cst_62 : Ref sig .tc := ⟨.hbm, 351, rfl⟩
abbrev main_v257 : Ref sig .tc := ⟨.hbm, 352, rfl⟩
abbrev main_cst_63 : Ref sig .tc := ⟨.hbm, 353, rfl⟩
abbrev main_v258 : Ref sig .tc := ⟨.hbm, 354, rfl⟩
abbrev main_v259 : Ref sig .tc := ⟨.hbm, 355, rfl⟩
abbrev main_v260 : Ref sig .tc := ⟨.hbm, 356, rfl⟩
abbrev main_cst_64 : Ref sig .tc := ⟨.hbm, 357, rfl⟩
abbrev main_v261 : Ref sig .tc := ⟨.hbm, 358, rfl⟩
abbrev main_v262 : Ref sig .tc := ⟨.hbm, 359, rfl⟩
abbrev main_v263 : Ref sig .tc := ⟨.hbm, 360, rfl⟩
abbrev main_cst_65 : Ref sig .tc := ⟨.hbm, 361, rfl⟩
abbrev main_v264 : Ref sig .tc := ⟨.hbm, 362, rfl⟩
abbrev main_v265 : Ref sig .tc := ⟨.hbm, 363, rfl⟩
abbrev main_cst_66 : Ref sig .tc := ⟨.hbm, 364, rfl⟩
abbrev main_v266 : Ref sig .tc := ⟨.hbm, 365, rfl⟩
abbrev main_v267 : Ref sig .tc := ⟨.hbm, 366, rfl⟩
abbrev main_v268 : Ref sig .tc := ⟨.hbm, 367, rfl⟩
abbrev main_cst_67 : Ref sig .tc := ⟨.hbm, 368, rfl⟩
abbrev main_call10_v0 : Ref sig .tc := ⟨.hbm, 369, rfl⟩
abbrev main_call10_v1 : Ref sig .tc := ⟨.hbm, 370, rfl⟩
abbrev main_v269 : Ref sig .tc := ⟨.hbm, 371, rfl⟩
abbrev main_cst_68 : Ref sig .tc := ⟨.hbm, 372, rfl⟩
abbrev main_v270 : Ref sig .tc := ⟨.hbm, 373, rfl⟩
abbrev main_v271 : Ref sig .tc := ⟨.hbm, 374, rfl⟩
abbrev main_cst_69 : Ref sig .tc := ⟨.hbm, 375, rfl⟩
abbrev main_v272 : Ref sig .tc := ⟨.hbm, 376, rfl⟩
abbrev main_v273 : Ref sig .tc := ⟨.hbm, 377, rfl⟩
abbrev main_v274 : Ref sig .tc := ⟨.hbm, 378, rfl⟩
abbrev main_cst_70 : Ref sig .tc := ⟨.hbm, 379, rfl⟩
abbrev main_call11_v0 : Ref sig .tc := ⟨.hbm, 380, rfl⟩
abbrev main_call11_v1 : Ref sig .tc := ⟨.hbm, 381, rfl⟩
abbrev main_v275 : Ref sig .tc := ⟨.hbm, 382, rfl⟩
abbrev main_c_71 : Ref sig .tc := ⟨.hbm, 383, rfl⟩
abbrev main_v276 : Ref sig .tc := ⟨.hbm, 384, rfl⟩
abbrev main_v277 : Ref sig .tc := ⟨.hbm, 385, rfl⟩
abbrev main_c_72 : Ref sig .tc := ⟨.hbm, 386, rfl⟩
abbrev main_v278 : Ref sig .tc := ⟨.hbm, 387, rfl⟩
abbrev main_v279 : Ref sig .tc := ⟨.hbm, 388, rfl⟩
abbrev main_v280 : Ref sig .tc := ⟨.hbm, 389, rfl⟩
abbrev main_v281 : Ref sig .tc := ⟨.hbm, 390, rfl⟩
abbrev main_v282 : Ref sig .tc := ⟨.hbm, 391, rfl⟩
abbrev main_c_73 : Ref sig .tc := ⟨.hbm, 392, rfl⟩
abbrev main_v283 : Ref sig .tc := ⟨.hbm, 393, rfl⟩
abbrev main_v284 : Ref sig .tc := ⟨.hbm, 394, rfl⟩
abbrev main_c_74 : Ref sig .tc := ⟨.hbm, 395, rfl⟩
abbrev main_v285 : Ref sig .tc := ⟨.hbm, 396, rfl⟩
abbrev main_v286 : Ref sig .tc := ⟨.hbm, 397, rfl⟩
abbrev main_v287 : Ref sig .tc := ⟨.hbm, 398, rfl⟩
abbrev main_v288 : Ref sig .tc := ⟨.hbm, 399, rfl⟩
abbrev main_v289 : Ref sig .tc := ⟨.hbm, 400, rfl⟩
abbrev main_v290 : Ref sig .tc := ⟨.hbm, 401, rfl⟩
abbrev main_v291 : Ref sig .tc := ⟨.hbm, 402, rfl⟩
abbrev main_c_75 : Ref sig .tc := ⟨.hbm, 403, rfl⟩
abbrev main_v292 : Ref sig .tc := ⟨.hbm, 404, rfl⟩
abbrev main_v293 : Ref sig .tc := ⟨.hbm, 405, rfl⟩
abbrev main_c_76 : Ref sig .tc := ⟨.hbm, 406, rfl⟩
abbrev main_v294 : Ref sig .tc := ⟨.hbm, 407, rfl⟩
abbrev main_v295 : Ref sig .tc := ⟨.hbm, 408, rfl⟩
abbrev main_v296 : Ref sig .tc := ⟨.hbm, 409, rfl⟩
abbrev main_v297 : Ref sig .tc := ⟨.hbm, 410, rfl⟩
abbrev main_v298 : Ref sig .tc := ⟨.hbm, 411, rfl⟩
abbrev main_v299 : Ref sig .tc := ⟨.hbm, 412, rfl⟩
abbrev main_v300 : Ref sig .tc := ⟨.hbm, 413, rfl⟩
abbrev main_v301 : Ref sig .tc := ⟨.hbm, 414, rfl⟩
abbrev main_cst_77 : Ref sig .tc := ⟨.hbm, 415, rfl⟩
abbrev main_v302 : Ref sig .tc := ⟨.hbm, 416, rfl⟩
abbrev main_v303 : Ref sig .tc := ⟨.hbm, 417, rfl⟩
abbrev main_v304 : Ref sig .tc := ⟨.hbm, 418, rfl⟩
abbrev main_v305 : Ref sig .tc := ⟨.hbm, 419, rfl⟩
abbrev main_v306 : Ref sig .tc := ⟨.hbm, 420, rfl⟩
abbrev main_v307 : Ref sig .tc := ⟨.hbm, 421, rfl⟩
abbrev main_v308 : Ref sig .tc := ⟨.hbm, 422, rfl⟩
abbrev main_v309 : Ref sig .tc := ⟨.hbm, 423, rfl⟩
abbrev main_v310 : Ref sig .tc := ⟨.hbm, 424, rfl⟩
abbrev main_v311 : Ref sig .tc := ⟨.hbm, 425, rfl⟩
abbrev main_v312 : Ref sig .tc := ⟨.hbm, 426, rfl⟩
abbrev main_v313 : Ref sig .tc := ⟨.hbm, 427, rfl⟩
abbrev main_v314 : Ref sig .tc := ⟨.hbm, 428, rfl⟩
abbrev main_v315 : Ref sig .tc := ⟨.hbm, 429, rfl⟩
abbrev main_cst_78 : Ref sig .tc := ⟨.hbm, 430, rfl⟩
abbrev main_v316 : Ref sig .tc := ⟨.hbm, 431, rfl⟩
abbrev main_cst_79 : Ref sig .tc := ⟨.hbm, 432, rfl⟩
abbrev main_v317 : Ref sig .tc := ⟨.hbm, 433, rfl⟩
abbrev main_v318 : Ref sig .tc := ⟨.hbm, 434, rfl⟩
abbrev main_v319 : Ref sig .tc := ⟨.hbm, 435, rfl⟩
abbrev main_cst_80 : Ref sig .tc := ⟨.hbm, 436, rfl⟩
abbrev main_v320 : Ref sig .tc := ⟨.hbm, 437, rfl⟩
abbrev main_v321 : Ref sig .tc := ⟨.hbm, 438, rfl⟩
abbrev main_v322 : Ref sig .tc := ⟨.hbm, 439, rfl⟩
abbrev main_cst_81 : Ref sig .tc := ⟨.hbm, 440, rfl⟩
abbrev main_v323 : Ref sig .tc := ⟨.hbm, 441, rfl⟩
abbrev main_v324 : Ref sig .tc := ⟨.hbm, 442, rfl⟩
abbrev main_cst_82 : Ref sig .tc := ⟨.hbm, 443, rfl⟩
abbrev main_v325 : Ref sig .tc := ⟨.hbm, 444, rfl⟩
abbrev main_v326 : Ref sig .tc := ⟨.hbm, 445, rfl⟩
abbrev main_v327 : Ref sig .tc := ⟨.hbm, 446, rfl⟩
abbrev main_cst_83 : Ref sig .tc := ⟨.hbm, 447, rfl⟩
abbrev main_call12_v0 : Ref sig .tc := ⟨.hbm, 448, rfl⟩
abbrev main_call12_v1 : Ref sig .tc := ⟨.hbm, 449, rfl⟩
abbrev main_v328 : Ref sig .tc := ⟨.hbm, 450, rfl⟩
abbrev main_cst_84 : Ref sig .tc := ⟨.hbm, 451, rfl⟩
abbrev main_v329 : Ref sig .tc := ⟨.hbm, 452, rfl⟩
abbrev main_v330 : Ref sig .tc := ⟨.hbm, 453, rfl⟩
abbrev main_cst_85 : Ref sig .tc := ⟨.hbm, 454, rfl⟩
abbrev main_v331 : Ref sig .tc := ⟨.hbm, 455, rfl⟩
abbrev main_v332 : Ref sig .tc := ⟨.hbm, 456, rfl⟩
abbrev main_v333 : Ref sig .tc := ⟨.hbm, 457, rfl⟩
abbrev main_cst_86 : Ref sig .tc := ⟨.hbm, 458, rfl⟩
abbrev main_call13_v0 : Ref sig .tc := ⟨.hbm, 459, rfl⟩
abbrev main_call13_v1 : Ref sig .tc := ⟨.hbm, 460, rfl⟩
abbrev main_v334 : Ref sig .tc := ⟨.hbm, 461, rfl⟩
abbrev main_c_87 : Ref sig .tc := ⟨.hbm, 462, rfl⟩
abbrev main_v335 : Ref sig .tc := ⟨.hbm, 463, rfl⟩
abbrev main_v336 : Ref sig .tc := ⟨.hbm, 464, rfl⟩
abbrev main_c_88 : Ref sig .tc := ⟨.hbm, 465, rfl⟩
abbrev main_v337 : Ref sig .tc := ⟨.hbm, 466, rfl⟩
abbrev main_v338 : Ref sig .tc := ⟨.hbm, 467, rfl⟩
abbrev main_v339 : Ref sig .tc := ⟨.hbm, 468, rfl⟩
abbrev main_v340 : Ref sig .tc := ⟨.hbm, 469, rfl⟩
abbrev main_v341 : Ref sig .tc := ⟨.hbm, 470, rfl⟩
abbrev main_c_89 : Ref sig .tc := ⟨.hbm, 471, rfl⟩
abbrev main_v342 : Ref sig .tc := ⟨.hbm, 472, rfl⟩
abbrev main_v343 : Ref sig .tc := ⟨.hbm, 473, rfl⟩
abbrev main_c_90 : Ref sig .tc := ⟨.hbm, 474, rfl⟩
abbrev main_v344 : Ref sig .tc := ⟨.hbm, 475, rfl⟩
abbrev main_v345 : Ref sig .tc := ⟨.hbm, 476, rfl⟩
abbrev main_v346 : Ref sig .tc := ⟨.hbm, 477, rfl⟩
abbrev main_v347 : Ref sig .tc := ⟨.hbm, 478, rfl⟩
abbrev main_v348 : Ref sig .tc := ⟨.hbm, 479, rfl⟩
abbrev main_v349 : Ref sig .tc := ⟨.hbm, 480, rfl⟩
abbrev main_v350 : Ref sig .tc := ⟨.hbm, 481, rfl⟩
abbrev main_c_91 : Ref sig .tc := ⟨.hbm, 482, rfl⟩
abbrev main_v351 : Ref sig .tc := ⟨.hbm, 483, rfl⟩
abbrev main_v352 : Ref sig .tc := ⟨.hbm, 484, rfl⟩
abbrev main_c_92 : Ref sig .tc := ⟨.hbm, 485, rfl⟩
abbrev main_v353 : Ref sig .tc := ⟨.hbm, 486, rfl⟩
abbrev main_v354 : Ref sig .tc := ⟨.hbm, 487, rfl⟩
abbrev main_v355 : Ref sig .tc := ⟨.hbm, 488, rfl⟩
abbrev main_v356 : Ref sig .tc := ⟨.hbm, 489, rfl⟩
abbrev main_v357 : Ref sig .tc := ⟨.hbm, 490, rfl⟩
abbrev main_v358 : Ref sig .tc := ⟨.hbm, 491, rfl⟩
abbrev main_v359 : Ref sig .tc := ⟨.hbm, 492, rfl⟩
abbrev main_v360 : Ref sig .tc := ⟨.hbm, 493, rfl⟩
abbrev main_cst_93 : Ref sig .tc := ⟨.hbm, 494, rfl⟩
abbrev main_v361 : Ref sig .tc := ⟨.hbm, 495, rfl⟩
abbrev main_v362 : Ref sig .tc := ⟨.hbm, 496, rfl⟩
abbrev main_v363 : Ref sig .tc := ⟨.hbm, 497, rfl⟩
abbrev main_v364 : Ref sig .tc := ⟨.hbm, 498, rfl⟩
abbrev main_v365 : Ref sig .tc := ⟨.hbm, 499, rfl⟩
abbrev main_v366 : Ref sig .tc := ⟨.hbm, 500, rfl⟩
abbrev main_v367 : Ref sig .tc := ⟨.hbm, 501, rfl⟩
abbrev main_v368 : Ref sig .tc := ⟨.hbm, 502, rfl⟩
abbrev main_v369 : Ref sig .tc := ⟨.hbm, 503, rfl⟩
abbrev main_v370 : Ref sig .tc := ⟨.hbm, 504, rfl⟩
abbrev main_v371 : Ref sig .tc := ⟨.hbm, 505, rfl⟩
abbrev main_v372 : Ref sig .tc := ⟨.hbm, 506, rfl⟩
abbrev main_v373 : Ref sig .tc := ⟨.hbm, 507, rfl⟩
abbrev main_v374 : Ref sig .tc := ⟨.hbm, 508, rfl⟩
abbrev main_v375 : Ref sig .tc := ⟨.hbm, 509, rfl⟩
abbrev main_v376 : Ref sig .tc := ⟨.hbm, 510, rfl⟩
abbrev main_v377 : Ref sig .tc := ⟨.hbm, 511, rfl⟩
abbrev main_v378 : Ref sig .tc := ⟨.hbm, 512, rfl⟩
abbrev main_cst_94 : Ref sig .tc := ⟨.hbm, 513, rfl⟩
abbrev main_v379 : Ref sig .tc := ⟨.hbm, 514, rfl⟩
abbrev main_cst_95 : Ref sig .tc := ⟨.hbm, 515, rfl⟩
abbrev main_v380 : Ref sig .tc := ⟨.hbm, 516, rfl⟩
abbrev main_v381 : Ref sig .tc := ⟨.hbm, 517, rfl⟩
abbrev main_v382 : Ref sig .tc := ⟨.hbm, 518, rfl⟩
abbrev main_cst_96 : Ref sig .tc := ⟨.hbm, 519, rfl⟩
abbrev main_v383 : Ref sig .tc := ⟨.hbm, 520, rfl⟩
abbrev main_v384 : Ref sig .tc := ⟨.hbm, 521, rfl⟩
abbrev main_v385 : Ref sig .tc := ⟨.hbm, 522, rfl⟩
abbrev main_cst_97 : Ref sig .tc := ⟨.hbm, 523, rfl⟩
abbrev main_v386 : Ref sig .tc := ⟨.hbm, 524, rfl⟩
abbrev main_v387 : Ref sig .tc := ⟨.hbm, 525, rfl⟩
abbrev main_cst_98 : Ref sig .tc := ⟨.hbm, 526, rfl⟩
abbrev main_v388 : Ref sig .tc := ⟨.hbm, 527, rfl⟩
abbrev main_v389 : Ref sig .tc := ⟨.hbm, 528, rfl⟩
abbrev main_v390 : Ref sig .tc := ⟨.hbm, 529, rfl⟩
abbrev main_cst_99 : Ref sig .tc := ⟨.hbm, 530, rfl⟩
abbrev main_call14_v0 : Ref sig .tc := ⟨.hbm, 531, rfl⟩
abbrev main_call14_v1 : Ref sig .tc := ⟨.hbm, 532, rfl⟩
abbrev main_v391 : Ref sig .tc := ⟨.hbm, 533, rfl⟩
abbrev main_cst_100 : Ref sig .tc := ⟨.hbm, 534, rfl⟩
abbrev main_v392 : Ref sig .tc := ⟨.hbm, 535, rfl⟩
abbrev main_v393 : Ref sig .tc := ⟨.hbm, 536, rfl⟩
abbrev main_cst_101 : Ref sig .tc := ⟨.hbm, 537, rfl⟩
abbrev main_v394 : Ref sig .tc := ⟨.hbm, 538, rfl⟩
abbrev main_v395 : Ref sig .tc := ⟨.hbm, 539, rfl⟩
abbrev main_v396 : Ref sig .tc := ⟨.hbm, 540, rfl⟩
abbrev main_cst_102 : Ref sig .tc := ⟨.hbm, 541, rfl⟩
abbrev main_call15_v0 : Ref sig .tc := ⟨.hbm, 542, rfl⟩
abbrev main_call15_v1 : Ref sig .tc := ⟨.hbm, 543, rfl⟩
abbrev main_v397 : Ref sig .tc := ⟨.hbm, 544, rfl⟩
abbrev main_c_103 : Ref sig .tc := ⟨.hbm, 545, rfl⟩
abbrev main_v398 : Ref sig .tc := ⟨.hbm, 546, rfl⟩
abbrev main_v399 : Ref sig .tc := ⟨.hbm, 547, rfl⟩
abbrev main_c_104 : Ref sig .tc := ⟨.hbm, 548, rfl⟩
abbrev main_v400 : Ref sig .tc := ⟨.hbm, 549, rfl⟩
abbrev main_v401 : Ref sig .tc := ⟨.hbm, 550, rfl⟩
abbrev main_v402 : Ref sig .tc := ⟨.hbm, 551, rfl⟩
abbrev main_v403 : Ref sig .tc := ⟨.hbm, 552, rfl⟩
abbrev main_v404 : Ref sig .tc := ⟨.hbm, 553, rfl⟩
abbrev main_c_105 : Ref sig .tc := ⟨.hbm, 554, rfl⟩
abbrev main_v405 : Ref sig .tc := ⟨.hbm, 555, rfl⟩
abbrev main_v406 : Ref sig .tc := ⟨.hbm, 556, rfl⟩
abbrev main_c_106 : Ref sig .tc := ⟨.hbm, 557, rfl⟩
abbrev main_v407 : Ref sig .tc := ⟨.hbm, 558, rfl⟩
abbrev main_v408 : Ref sig .tc := ⟨.hbm, 559, rfl⟩
abbrev main_v409 : Ref sig .tc := ⟨.hbm, 560, rfl⟩
abbrev main_v410 : Ref sig .tc := ⟨.hbm, 561, rfl⟩
abbrev main_v411 : Ref sig .tc := ⟨.hbm, 562, rfl⟩
abbrev main_v412 : Ref sig .tc := ⟨.hbm, 563, rfl⟩
abbrev main_v413 : Ref sig .tc := ⟨.hbm, 564, rfl⟩
abbrev main_c_107 : Ref sig .tc := ⟨.hbm, 565, rfl⟩
abbrev main_v414 : Ref sig .tc := ⟨.hbm, 566, rfl⟩
abbrev main_v415 : Ref sig .tc := ⟨.hbm, 567, rfl⟩
abbrev main_c_108 : Ref sig .tc := ⟨.hbm, 568, rfl⟩
abbrev main_v416 : Ref sig .tc := ⟨.hbm, 569, rfl⟩
abbrev main_v417 : Ref sig .tc := ⟨.hbm, 570, rfl⟩
abbrev main_v418 : Ref sig .tc := ⟨.hbm, 571, rfl⟩
abbrev main_v419 : Ref sig .tc := ⟨.hbm, 572, rfl⟩
abbrev main_v420 : Ref sig .tc := ⟨.hbm, 573, rfl⟩
abbrev main_v421 : Ref sig .tc := ⟨.hbm, 574, rfl⟩
abbrev main_v422 : Ref sig .tc := ⟨.hbm, 575, rfl⟩
abbrev main_v423 : Ref sig .tc := ⟨.hbm, 576, rfl⟩
abbrev main_cst_109 : Ref sig .tc := ⟨.hbm, 577, rfl⟩
abbrev main_v424 : Ref sig .tc := ⟨.hbm, 578, rfl⟩
abbrev main_v425 : Ref sig .tc := ⟨.hbm, 579, rfl⟩
abbrev main_v426 : Ref sig .tc := ⟨.hbm, 580, rfl⟩
abbrev main_v427 : Ref sig .tc := ⟨.hbm, 581, rfl⟩
abbrev main_v428 : Ref sig .tc := ⟨.hbm, 582, rfl⟩
abbrev main_v429 : Ref sig .tc := ⟨.hbm, 583, rfl⟩
abbrev main_v430 : Ref sig .tc := ⟨.hbm, 584, rfl⟩
abbrev main_v431 : Ref sig .tc := ⟨.hbm, 585, rfl⟩
abbrev main_v432 : Ref sig .tc := ⟨.hbm, 586, rfl⟩
abbrev main_v433 : Ref sig .tc := ⟨.hbm, 587, rfl⟩
abbrev main_v434 : Ref sig .tc := ⟨.hbm, 588, rfl⟩
abbrev main_v435 : Ref sig .tc := ⟨.hbm, 589, rfl⟩
abbrev main_v436 : Ref sig .tc := ⟨.hbm, 590, rfl⟩
abbrev main_v437 : Ref sig .tc := ⟨.hbm, 591, rfl⟩
abbrev main_cst_110 : Ref sig .tc := ⟨.hbm, 592, rfl⟩
abbrev main_v438 : Ref sig .tc := ⟨.hbm, 593, rfl⟩
abbrev main_cst_111 : Ref sig .tc := ⟨.hbm, 594, rfl⟩
abbrev main_v439 : Ref sig .tc := ⟨.hbm, 595, rfl⟩
abbrev main_v440 : Ref sig .tc := ⟨.hbm, 596, rfl⟩
abbrev main_v441 : Ref sig .tc := ⟨.hbm, 597, rfl⟩
abbrev main_cst_112 : Ref sig .tc := ⟨.hbm, 598, rfl⟩
abbrev main_v442 : Ref sig .tc := ⟨.hbm, 599, rfl⟩
abbrev main_v443 : Ref sig .tc := ⟨.hbm, 600, rfl⟩
abbrev main_v444 : Ref sig .tc := ⟨.hbm, 601, rfl⟩
abbrev main_cst_113 : Ref sig .tc := ⟨.hbm, 602, rfl⟩
abbrev main_v445 : Ref sig .tc := ⟨.hbm, 603, rfl⟩
abbrev main_v446 : Ref sig .tc := ⟨.hbm, 604, rfl⟩
abbrev main_cst_114 : Ref sig .tc := ⟨.hbm, 605, rfl⟩
abbrev main_v447 : Ref sig .tc := ⟨.hbm, 606, rfl⟩
abbrev main_v448 : Ref sig .tc := ⟨.hbm, 607, rfl⟩
abbrev main_v449 : Ref sig .tc := ⟨.hbm, 608, rfl⟩
abbrev main_cst_115 : Ref sig .tc := ⟨.hbm, 609, rfl⟩
abbrev main_call16_v0 : Ref sig .tc := ⟨.hbm, 610, rfl⟩
abbrev main_call16_v1 : Ref sig .tc := ⟨.hbm, 611, rfl⟩
abbrev main_v450 : Ref sig .tc := ⟨.hbm, 612, rfl⟩
abbrev main_cst_116 : Ref sig .tc := ⟨.hbm, 613, rfl⟩
abbrev main_v451 : Ref sig .tc := ⟨.hbm, 614, rfl⟩
abbrev main_v452 : Ref sig .tc := ⟨.hbm, 615, rfl⟩
abbrev main_cst_117 : Ref sig .tc := ⟨.hbm, 616, rfl⟩
abbrev main_v453 : Ref sig .tc := ⟨.hbm, 617, rfl⟩
abbrev main_v454 : Ref sig .tc := ⟨.hbm, 618, rfl⟩
abbrev main_v455 : Ref sig .tc := ⟨.hbm, 619, rfl⟩
abbrev main_cst_118 : Ref sig .tc := ⟨.hbm, 620, rfl⟩
abbrev main_call17_v0 : Ref sig .tc := ⟨.hbm, 621, rfl⟩
abbrev main_call17_v1 : Ref sig .tc := ⟨.hbm, 622, rfl⟩
abbrev main_v456 : Ref sig .tc := ⟨.hbm, 623, rfl⟩
abbrev main_c_119 : Ref sig .tc := ⟨.hbm, 624, rfl⟩
abbrev main_v457 : Ref sig .tc := ⟨.hbm, 625, rfl⟩
abbrev main_v458 : Ref sig .tc := ⟨.hbm, 626, rfl⟩
abbrev main_c_120 : Ref sig .tc := ⟨.hbm, 627, rfl⟩
abbrev main_v459 : Ref sig .tc := ⟨.hbm, 628, rfl⟩
abbrev main_v460 : Ref sig .tc := ⟨.hbm, 629, rfl⟩
abbrev main_v461 : Ref sig .tc := ⟨.hbm, 630, rfl⟩
abbrev main_v462 : Ref sig .tc := ⟨.hbm, 631, rfl⟩
abbrev main_v463 : Ref sig .tc := ⟨.hbm, 632, rfl⟩
abbrev main_c_121 : Ref sig .tc := ⟨.hbm, 633, rfl⟩
abbrev main_v464 : Ref sig .tc := ⟨.hbm, 634, rfl⟩
abbrev main_v465 : Ref sig .tc := ⟨.hbm, 635, rfl⟩
abbrev main_c_122 : Ref sig .tc := ⟨.hbm, 636, rfl⟩
abbrev main_v466 : Ref sig .tc := ⟨.hbm, 637, rfl⟩
abbrev main_v467 : Ref sig .tc := ⟨.hbm, 638, rfl⟩
abbrev main_v468 : Ref sig .tc := ⟨.hbm, 639, rfl⟩
abbrev main_v469 : Ref sig .tc := ⟨.hbm, 640, rfl⟩
abbrev main_v470 : Ref sig .tc := ⟨.hbm, 641, rfl⟩
abbrev main_v471 : Ref sig .tc := ⟨.hbm, 642, rfl⟩
abbrev main_v472 : Ref sig .tc := ⟨.hbm, 643, rfl⟩
abbrev main_c_123 : Ref sig .tc := ⟨.hbm, 644, rfl⟩
abbrev main_v473 : Ref sig .tc := ⟨.hbm, 645, rfl⟩
abbrev main_v474 : Ref sig .tc := ⟨.hbm, 646, rfl⟩
abbrev main_c_124 : Ref sig .tc := ⟨.hbm, 647, rfl⟩
abbrev main_v475 : Ref sig .tc := ⟨.hbm, 648, rfl⟩
abbrev main_v476 : Ref sig .tc := ⟨.hbm, 649, rfl⟩
abbrev main_v477 : Ref sig .tc := ⟨.hbm, 650, rfl⟩
abbrev main_v478 : Ref sig .tc := ⟨.hbm, 651, rfl⟩
abbrev main_v479 : Ref sig .tc := ⟨.hbm, 652, rfl⟩
abbrev main_v480 : Ref sig .tc := ⟨.hbm, 653, rfl⟩
abbrev main_v481 : Ref sig .tc := ⟨.hbm, 654, rfl⟩
abbrev main_v482 : Ref sig .tc := ⟨.hbm, 655, rfl⟩
abbrev main_cst_125 : Ref sig .tc := ⟨.hbm, 656, rfl⟩
abbrev main_v483 : Ref sig .tc := ⟨.hbm, 657, rfl⟩
abbrev main_v484 : Ref sig .tc := ⟨.hbm, 658, rfl⟩
abbrev main_v485 : Ref sig .tc := ⟨.hbm, 659, rfl⟩
abbrev main_v486 : Ref sig .tc := ⟨.hbm, 660, rfl⟩
abbrev main_v487 : Ref sig .tc := ⟨.hbm, 661, rfl⟩
abbrev main_v488 : Ref sig .tc := ⟨.hbm, 662, rfl⟩
abbrev main_v489 : Ref sig .tc := ⟨.hbm, 663, rfl⟩
abbrev main_call18_cst : Ref sig .tc := ⟨.hbm, 664, rfl⟩
abbrev main_call18_v0 : Ref sig .tc := ⟨.hbm, 665, rfl⟩
abbrev main_v490 : Ref sig .tc := ⟨.hbm, 666, rfl⟩
abbrev main_call19_cst : Ref sig .tc := ⟨.hbm, 667, rfl⟩
abbrev main_call19_v0 : Ref sig .tc := ⟨.hbm, 668, rfl⟩
abbrev main_v491 : Ref sig .tc := ⟨.hbm, 669, rfl⟩
abbrev main_v492 : Ref sig .tc := ⟨.hbm, 670, rfl⟩
abbrev main_v493 : Ref sig .tc := ⟨.hbm, 671, rfl⟩
abbrev main_v494 : Ref sig .tc := ⟨.hbm, 672, rfl⟩
abbrev main_v495 : Ref sig .tc := ⟨.hbm, 673, rfl⟩
abbrev main_v496 : Ref sig .tc := ⟨.hbm, 674, rfl⟩
abbrev main_v497 : Ref sig .tc := ⟨.hbm, 675, rfl⟩
abbrev main_v498 : Ref sig .tc := ⟨.hbm, 676, rfl⟩
abbrev main_v499 : Ref sig .tc := ⟨.hbm, 677, rfl⟩
abbrev main_v500 : Ref sig .tc := ⟨.hbm, 678, rfl⟩
abbrev main_v501 : Ref sig .tc := ⟨.hbm, 679, rfl⟩

abbrev nD : Nat := 1
abbrev τ : Topo := Topo.v7x

variable {F : FTy → Type} [FloatOps F]

class Facts₀ : Prop where
  slices_S2x4x128x128_S1x1x128x128_0_0_0_0 : S2x4x128x128.Slices ![0, 0, 0, 0] S1x1x128x128
  shapeCasts_S1x1x128x128_S128x128 : S1x1x128x128.ShapeCasts S128x128
  slices_S2x4x128_S1x1x128_0_0_0 : S2x4x128.Slices ![0, 0, 0] S1x1x128
  shapeCasts_S1x1x128_S128 : S1x1x128.ShapeCasts S128
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x4x128x128_S1x1x128x128_0_3_0_0 : S2x4x128x128.Slices ![0, 3, 0, 0] S1x1x128x128
  slices_S2x4x128_S1x1x128_0_3_0 : S2x4x128.Slices ![0, 3, 0] S1x1x128
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  slices_S2x4x128x128_S1x1x128x128_0_1_0_0 : S2x4x128x128.Slices ![0, 1, 0, 0] S1x1x128x128
  slices_S2x4x128_S1x1x128_0_1_0 : S2x4x128.Slices ![0, 1, 0] S1x1x128
  slices_S2x4x128x128_S1x1x128x128_0_2_0_0 : S2x4x128x128.Slices ![0, 2, 0, 0] S1x1x128x128
  slices_S2x4x128_S1x1x128_0_2_0 : S2x4x128.Slices ![0, 2, 0] S1x1x128
  slices_S2x4x128x128_S1x1x128x128_1_0_0_0 : S2x4x128x128.Slices ![1, 0, 0, 0] S1x1x128x128
  slices_S2x4x128_S1x1x128_1_0_0 : S2x4x128.Slices ![1, 0, 0] S1x1x128
  slices_S2x4x128x128_S1x1x128x128_1_3_0_0 : S2x4x128x128.Slices ![1, 3, 0, 0] S1x1x128x128
  slices_S2x4x128_S1x1x128_1_3_0 : S2x4x128.Slices ![1, 3, 0] S1x1x128
  slices_S2x4x128x128_S1x1x128x128_1_1_0_0 : S2x4x128x128.Slices ![1, 1, 0, 0] S1x1x128x128
  slices_S2x4x128_S1x1x128_1_1_0 : S2x4x128.Slices ![1, 1, 0] S1x1x128
  slices_S2x4x128x128_S1x1x128x128_1_2_0_0 : S2x4x128x128.Slices ![1, 2, 0, 0] S1x1x128x128
  slices_S2x4x128_S1x1x128_1_2_0 : S2x4x128.Slices ![1, 2, 0] S1x1x128
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The idealized kernel's run with its two results NAMED.

  @main is 32 segments: stretches of host operations and eight kernel regions. The run of the segments ends with every
  buffer that outlives a region at the contents the fold over the segments gives it (the last boundary's valuation, `W32`):
  a stretch rewrites the buffers its operations write, a region rewrites its output array by its blocks' write-backs and
  leaves every other buffer alone. The frame claim reads only the ten arguments off that final state; here the two result
  buffers are read off it as well, each at the fold's value, and the arguments as launched. What those two values ARE, as
  functions of the arguments, is the business of the modules that read the fold back.
-/
import proofs.«122068_j1322849927480_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel terminates without a fault; its two result buffers end at the
    last boundary's contents and its ten arguments as launched. -/
theorem run_named : θ_run defs (onTc (τ := τ) (main (F := F))) ⟨m, fun _ => 0, ρ⟩ (fun r => ∀ c : Dev nD,
      r.2.mem ((c.tc : Thread nD τ).loc main_v251) = W32 m ρ c (Proc.devRef .tc main_v251)
      ∧ r.2.mem ((c.tc : Thread nD τ).loc main_v256) = W32 m ρ c (Proc.devRef .tc main_v256)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W32 m ρ c b)
    (hfin := fun c s' => by
      iintro ⟨⟨Hh, -⟩, HSI⟩
      unfold StableHlo.held
      imodintro
      iapply (pointsTo_read_all (Pipeline.ucRefs τ sig) (fun b => (((c : Thread nD τ)).1, b)) (W32 m ρ c) s')
      isplitl [Hh] <;> iassumption)
    (hQ := fun s h c =>
      ⟨h c _ (mem_uc main_v251 (by decide)),
       h c _ (mem_uc main_v256 (by decide)),
       (h c _ (mem_uc main_arg0 (by decide))).trans (W32_main_arg0 m ρ c),
       (h c _ (mem_uc main_arg1 (by decide))).trans (W32_main_arg1 m ρ c),
       (h c _ (mem_uc main_arg2 (by decide))).trans (W32_main_arg2 m ρ c),
       (h c _ (mem_uc main_arg3 (by decide))).trans (W32_main_arg3 m ρ c),
       (h c _ (mem_uc main_arg4 (by decide))).trans (W32_main_arg4 m ρ c),
       (h c _ (mem_uc main_arg5 (by decide))).trans (W32_main_arg5 m ρ c),
       (h c _ (mem_uc main_arg6 (by decide))).trans (W32_main_arg6 m ρ c),
       (h c _ (mem_uc main_arg7 (by decide))).trans (W32_main_arg7 m ρ c),
       (h c _ (mem_uc main_arg8 (by decide))).trans (W32_main_arg8 m ρ c),
       (h c _ (mem_uc main_arg9 (by decide))).trans (W32_main_arg9 m ρ c)⟩)

end Cert.KernelIdeal.RunValue

end
-- ==== Proof.KernelStages.lean ====
/-
  The kernel's host stages as array functions: each definition is the composition of the host operations that compute
  one array the regions consume, over the arrays it is computed from.

  `words0` / `words1` are the two rows of an edge list (sources, destinations) as flat lists of 800000 words; `looped`
  appends the node numbers (a self loop per node). `deg850` / `deg800` count, per node, the words of a list landing on
  it (a scatter-add of ones into zeros); `norm` turns a degree array into the normalisation array (the reciprocal square
  root of the degree raised to at least one where the degree is positive, zero elsewhere). `wrapped` is a list of start
  words with the negative ones wrapped by the node count; `agg850` / `agg800` gather the rows of a feature array the
  wrapped source words name and scatter-add them to the rows the destination words name. `leftHalf` / `rightHalf` are the
  two column halves of a merged projection; `wcat` the two weight matrices side by side; `col` a per-node array as a
  column; `biasRow` the sum of two bias vectors as a row.
-/
import proofs.«122068_j1322849927480_2_alg».proof.Proof.Gen.KernelIdeal

noncomputable section

namespace Cert.KernelIdeal.Stage

open Idealize.ShloMosaic Cert.KernelIdeal Cert.KernelIdeal.Gen

variable {F : FTy → Type} [FloatOps F]

def words0 (ei : IVec S2x800000 32) : IVec S800000 32 :=
  shapeCast S800000 (extractStridedSlice S1x800000 ![0, 0] ei slices_S2x800000_S1x800000_0_0) shapeCasts_S1x800000_S800000
def words1 (ei : IVec S2x800000 32) : IVec S800000 32 :=
  shapeCast S800000 (extractStridedSlice S1x800000 ![1, 0] ei slices_S2x800000_S1x800000_1_0) shapeCasts_S1x800000_S800000
def looped (w : IVec S800000 32) : IVec S850000 32 :=
  concatenate S850000 0 [⟨S800000, w⟩, ⟨S50000, iotaInDim S50000 32 0⟩] concatenates_S800000_S50000_S850000_d0

def zeros50000 : FVec F S50000 .f32 := broadcastInDim S50000 ![] bcast_S_S50000 (constant S_ .f32 0x00000000#32)
def ones50000 : FVec F S50000 .f32 := broadcastInDim S50000 ![] bcast_S_S50000 (constant S_ .f32 0x3F800000#32)

def deg850 (idx : IVec S850000 32) : FVec F S50000 .f32 :=
  Host.scatterAdd scatter_S50000_S850000x1_S850000_n_0_0_1 zeros50000
    (broadcastInDim S850000x1 ![0] bcast_S850000_S850000x1_0 idx)
    (broadcastInDim S850000 ![] bcast_S_S850000 (constant S_ .f32 0x3F800000#32))
def deg800 (idx : IVec S800000 32) : FVec F S50000 .f32 :=
  Host.scatterAdd scatter_S50000_S800000x1_S800000_n_0_0_1 zeros50000
    (broadcastInDim S800000x1 ![0] bcast_S800000_S800000x1_0 idx)
    (broadcastInDim S800000 ![] bcast_S_S800000 (constant S_ .f32 0x3F800000#32))

def norm (deg : FVec F S50000 .f32) : FVec F S50000 .f32 :=
  select (cmpf .ogt deg zeros50000) (Host.rsqrt (maximumf deg ones50000))
    (broadcastInDim S50000 ![] bcast_S_S50000 (id (constant S_ .f32 0x00000000#32)))

def wrapped850 (r : IVec S850000 32) : IVec S850000 32 :=
  select (cmpi .slt r (broadcastInDim S850000 ![] bcast_S_S850000 (constantI S_ 32 0#32)))
    (addi r (broadcastInDim S850000 ![] bcast_S_S850000 (constantI S_ 32 50000#32))) r
def wrapped800 (r : IVec S800000 32) : IVec S800000 32 :=
  select (cmpi .slt r (broadcastInDim S800000 ![] bcast_S_S800000 (constantI S_ 32 0#32)))
    (addi r (broadcastInDim S800000 ![] bcast_S_S800000 (constantI S_ 32 50000#32))) r

def agg850 (h : FVec F S50000x128 .f32) (r c : IVec S850000 32) : FVec F S50000x128 .f32 :=
  Host.scatterAdd scatter_S50000x128_S850000x1_S850000x128_1_0_0_1
    (broadcastInDim S50000x128 ![] bcast_S_S50000x128 (constant S_ .f32 0x00000000#32))
    (broadcastInDim S850000x1 ![0] bcast_S850000_S850000x1_0 c)
    (Host.gather gather_S50000x128_S850000x1_S850000x128_1_0_n_n_0_1_1128 h
      (broadcastInDim S850000x1 ![0] bcast_S850000_S850000x1_0 (wrapped850 r)))
def agg800 (h : FVec F S50000x128 .f32) (r c : IVec S800000 32) : FVec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 c)
    (Host.gather gather_S50000x128_S800000x1_S800000x128_1_0_n_n_0_1_1128 h
      (broadcastInDim S800000x1 ![0] bcast_S800000_S800000x1_0 (wrapped800 r)))

def leftHalf (H : FVec F S50000x256 .f32) : FVec F S50000x128 .f32 :=
  extractStridedSlice S50000x128 ![0, 0] H slices_S50000x256_S50000x128_0_0
def rightHalf (H : FVec F S50000x256 .f32) : FVec F S50000x128 .f32 :=
  extractStridedSlice S50000x128 ![0, 128] H slices_S50000x256_S50000x128_0_128

end Cert.KernelIdeal.Stage

end
-- ==== Proof.GraphSpec.lean ====
/-
  The mathematics of the two programs, with no program in sight.

  Two node types of 50000 nodes each, features of width 128. A relation is an edge list: two lists of 32-bit words,
  the sources `r` and the destinations `c`. A word reads a node in two ways. As a GATHER's start index it is wrapped
  when negative (`+ 50000`), read signed and clamped into `[0, 49999]`: `row`. As a SCATTER's index it is read signed and
  not clamped, and an update whose word is not a node's number is dropped: `lands`. An update that lands on `v` carries
  a word whose gathered row is `v` again (`row_of_lands`).

  A node's degree in a list is the number of its words landing on it, and its normalisation `dinv` is
  `1 / sqrt (max deg 1)` where the degree is positive and `0` elsewhere: in every case a real number in `[0, 1]`,
  whatever the degree is (`dinvOf_real`).

  One relation's message passing. The reference sums, over the edges landing on `v`, the projected source feature times
  the product of the two normalisations, `h (row r) · (s (row r) · d (row c))`. The kernel scales the projected features by
  the source normalisation first, sums `(h · s) (row r)` over the same edges, and multiplies the sum by `d v` afterwards.
  The two agree because every edge in the sum has `row c = v`, multiplication of extended reals is associative, and a
  NONNEGATIVE REAL factor distributes over a sum of extended reals (a negative one, or an infinite one, need not).
-/
import Idealize.ShloMosaic.PureOps.Ideal

noncomputable section

namespace Cert.GraphSpec

open Idealize.ShloMosaic

abbrev Node := Fin 50000
abbrev Feat := Fin 128
abbrev Outp := Fin 64

/-- The word `0.0` and the word `1.0` of the programs, as the extended reals they encode. -/
abbrev zero32 : EReal := Ideal.ofBits .f32 0x00000000#32
abbrev one32 : EReal := Ideal.ofBits .f32 0x3F800000#32

theorem zero32_eq : zero32 = 0 := by simp [Ideal.ofBits, Ideal.ieee]
theorem one32_eq : one32 = 1 := by simp [Ideal.ofBits, Ideal.ieee, -EReal.coe_mul]; norm_num

/-- A gather's start word, wrapped when negative. -/
def wrap (i : BitVec 32) : BitVec 32 := if i.slt 0#32 then i + 50000#32 else i
/-- The node a gather reads for a start word: wrapped, read signed, clamped into the node range. -/
def row (i : BitVec 32) : Node := ⟨min (wrap i).toInt.toNat 49999, by omega⟩
/-- A scatter's update with index word `i` lands on node `v`: the word read signed IS the node's number. -/
def lands (i : BitVec 32) (v : Node) : Prop := i.toInt = (v.val : Int)
instance (i : BitVec 32) (v : Node) : Decidable (lands i v) := inferInstanceAs (Decidable (_ = _))

theorem row_of_lands {i : BitVec 32} {v : Node} (h : lands i v) : row i = v := by
  -- the word read signed is a node's number, hence not negative: it is not wrapped, and the clamp leaves it alone
  have hv := v.isLt
  unfold lands at h
  have hnn : ¬ (i.slt 0#32 = true) := by
    rw [BitVec.slt_iff_toInt_lt]
    simp only [BitVec.toInt_zero]
    omega
  apply Fin.ext
  simp only [row, wrap, if_neg hnn]
  omega

/-- An edge list with a self loop appended for every node: the 800000 given words, then the node numbers. -/
def withLoops (r : Fin 800000 → BitVec 32) : Fin 850000 → BitVec 32 :=
  fun e => if h : e.val < 800000 then r ⟨e.val, h⟩ else BitVec.ofNat 32 (e.val - 800000)

/-- The edges of a list landing on `v`. -/
def into {E : Nat} (c : Fin E → BitVec 32) (v : Node) : Finset (Fin E) := Finset.univ.filter fun e => lands (c e) v

/-- A node's degree in a list of words. -/
def deg {E : Nat} (idx : Fin E → BitVec 32) (v : Node) : EReal := zero32 + ∑ _e ∈ into idx v, one32
/-- The normalisation of a degree. -/
def dinvOf (x : EReal) : EReal := if zero32 < x then Ideal.rsqrt (max x one32) else zero32
def dinv {E : Nat} (idx : Fin E → BitVec 32) (v : Node) : EReal := dinvOf (deg idx v)

theorem dinvOf_real (x : EReal) : ∃ ρ : ℝ, 0 ≤ ρ ∧ dinvOf x = (ρ : EReal) := by
  unfold dinvOf
  rw [zero32_eq, one32_eq]
  split_ifs with hx
  · induction x using EReal.rec with
    | bot => simp at hx
    | coe r =>
      -- a positive real degree: max r 1 is a real at least 1, and its inverse square root a nonnegative real
      have h1 : (1 : ℝ) ≤ max r 1 := le_max_right _ _
      have hm : max (r : EReal) 1 = ((max r 1 : ℝ) : EReal) := by
        rw [← EReal.coe_one]
        exact (EReal.coe_strictMono.monotone.map_max).symm
      rw [hm, Ideal.rsqrt_coe, if_neg (by linarith), if_neg (by linarith)]
      exact ⟨(Real.sqrt (max r 1))⁻¹, inv_nonneg.mpr (Real.sqrt_nonneg _), rfl⟩
    | top => exact ⟨0, le_refl _, by simp⟩
  · exact ⟨0, le_refl _, by simp⟩

/-- A nonnegative real factor moves out of a finite sum of extended reals. -/
theorem sum_mul_real {ι : Type} (S : Finset ι) (a : ι → EReal) {ρ : ℝ} (hρ : 0 ≤ ρ) :
    ∑ e ∈ S, a e * (ρ : EReal) = (∑ e ∈ S, a e) * (ρ : EReal) := by
  classical
  induction S using Finset.induction_on with
  | empty => simp
  | insert x s hx ih =>
    rw [Finset.sum_insert hx, Finset.sum_insert hx, ih,
      EReal.right_distrib_of_nonneg_of_ne_top (by exact_mod_cast hρ) (EReal.coe_ne_top ρ)]

/-- The projection of the features by a weight matrix. -/
def proj (x : Node → Feat → EReal) (W : Feat → Feat → EReal) (u : Node) (j : Feat) : EReal := ∑ k : Feat, x u k * W k j

/-- One relation's message passing as the reference computes it. -/
def passRef {E : Nat} (r c : Fin E → BitVec 32) (h : Node → Feat → EReal) (s d : Node → EReal) (v : Node) (j : Feat) : EReal :=
  zero32 + ∑ e ∈ into c v, h (row (r e)) j * (s (row (r e)) * d (row (c e)))
/-- The same as the kernel computes it: `hs` the projected features already scaled by the source normalisation. -/
def passKer {E : Nat} (r c : Fin E → BitVec 32) (hs : Node → Feat → EReal) (d : Node → EReal) (v : Node) (j : Feat) : EReal :=
  (zero32 + ∑ e ∈ into c v, hs (row (r e)) j) * d v

theorem pass_eq {E : Nat} (r c : Fin E → BitVec 32) (h : Node → Feat → EReal) (s d : Node → EReal) (v : Node) (j : Feat)
    (hd : ∃ ρ : ℝ, 0 ≤ ρ ∧ d v = (ρ : EReal)) :
    passRef r c h s d v j = passKer r c (fun u j => h u j * s u) d v j := by
  obtain ⟨ρ, hρ, hdv⟩ := hd
  unfold passRef passKer
  rw [zero32_eq, zero_add, zero_add, hdv, ← sum_mul_real _ _ hρ]
  apply Finset.sum_congr rfl
  intro e he
  -- every edge of the sum lands on v, so its destination word gathers row v
  have he' : e ∈ Finset.univ.filter (fun e => lands (c e) v) := he
  have hl : lands (c e) v := (Finset.mem_filter.mp he').2
  rw [row_of_lands hl, hdv, mul_assoc]

/-- The arguments: the two feature arrays, the four relations' source and destination words, the weights, the biases,
    the head's weight and bias. -/
structure Args where
  xd : Node → Feat → EReal
  xs : Node → Feat → EReal
  rdd : Fin 800000 → BitVec 32
  cdd : Fin 800000 → BitVec 32
  rss : Fin 800000 → BitVec 32
  css : Fin 800000 → BitVec 32
  rds : Fin 800000 → BitVec 32
  cds : Fin 800000 → BitVec 32
  rsd : Fin 800000 → BitVec 32
  csd : Fin 800000 → BitVec 32
  W : Fin 2 → Fin 4 → Feat → Feat → EReal
  b : Fin 2 → Fin 4 → Feat → EReal
  lw : Outp → Feat → EReal
  lb : Outp → EReal

/-- One relation's convolution in the reference: project, pass with both normalisations, add the bias. -/
def gcnRef {E : Nat} (r c : Fin E → BitVec 32) (x : Node → Feat → EReal) (W : Feat → Feat → EReal) (b : Feat → EReal)
    (v : Node) (j : Feat) : EReal :=
  passRef r c (proj x W) (dinv r) (dinv c) v j + b j
/-- One relation's aggregate in the kernel, destination scale included. -/
def aggKer {E : Nat} (r c : Fin E → BitVec 32) (x : Node → Feat → EReal) (W : Feat → Feat → EReal) (v : Node) (j : Feat) : EReal :=
  passKer r c (fun u j => proj x W u j * dinv r u) (dinv c) v j

/-- One layer of the reference: per node type the two relations into it, added, then the positive part. -/
def layerRef (a : Args) (l : Fin 2) (xd xs : Node → Feat → EReal) : (Node → Feat → EReal) × (Node → Feat → EReal) :=
  (fun v j => max (gcnRef (withLoops a.rdd) (withLoops a.cdd) xd (a.W l 0) (a.b l 0) v j + gcnRef a.rsd a.csd xs (a.W l 3) (a.b l 3) v j) zero32,
   fun v j => max (gcnRef (withLoops a.rss) (withLoops a.css) xs (a.W l 1) (a.b l 1) v j + gcnRef a.rds a.cds xd (a.W l 2) (a.b l 2) v j) zero32)
/-- One layer of the kernel: the two scaled aggregates added, then the two biases' sum, then the positive part. -/
def layerKer (a : Args) (l : Fin 2) (xd xs : Node → Feat → EReal) : (Node → Feat → EReal) × (Node → Feat → EReal) :=
  (fun v j => max ((aggKer (withLoops a.rdd) (withLoops a.cdd) xd (a.W l 0) v j + aggKer a.rsd a.csd xs (a.W l 3) v j) + (a.b l 0 j + a.b l 3 j)) zero32,
   fun v j => max ((aggKer (withLoops a.rss) (withLoops a.css) xs (a.W l 1) v j + aggKer a.rds a.cds xd (a.W l 2) v j) + (a.b l 1 j + a.b l 2 j)) zero32)

theorem layer_eq (a : Args) (l : Fin 2) (xd xs : Node → Feat → EReal) : layerKer a l xd xs = layerRef a l xd xs := by
  -- one relation: the reference's convolution is the kernel's aggregate plus the bias
  have key : ∀ {E : Nat} (r c : Fin E → BitVec 32) (x : Node → Feat → EReal) (W : Feat → Feat → EReal)
      (b : Feat → EReal) (v : Node) (j : Feat), gcnRef r c x W b v j = aggKer r c x W v j + b j := by
    intro E r c x W b v j
    unfold gcnRef aggKer
    rw [pass_eq r c (proj x W) (dinv r) (dinv c) v j (dinvOf_real _)]
  unfold layerKer layerRef
  refine Prod.ext ?_ ?_ <;> funext v j <;> simp only [key] <;> rw [add_add_add_comm]

/-- The linear head. -/
def head (a : Args) (x : Node → Feat → EReal) (v : Node) (o : Outp) : EReal := (∑ k : Feat, x v k * a.lw o k) + a.lb o

def netRef (a : Args) : (Node → Outp → EReal) × (Node → Outp → EReal) :=
  let l1 := layerRef a 0 a.xd a.xs
  let l2 := layerRef a 1 l1.1 l1.2
  (head a l2.1, head a l2.2)
def netKer (a : Args) : (Node → Outp → EReal) × (Node → Outp → EReal) :=
  let l1 := layerKer a 0 a.xd a.xs
  let l2 := layerKer a 1 l1.1 l1.2
  (head a l2.1, head a l2.2)

theorem net_eq (a : Args) : netKer a = netRef a := by
  unfold netKer netRef
  simp only [layer_eq]

end Cert.GraphSpec

end
-- ==== Proof.KernelValue.lean ====
/-
  The idealized kernel's two results as ONE composition over its ten argument arrays.

  The remaining host stages first: `wLQ` / `bLQ` are layer L's weight matrix and bias vector of relation Q (a slice of the
  stacked array, reshaped); `wcat` sets two weight matrices side by side (the merged projection's 256 columns); `col`
  reads a per-node array as a column, `biasRow` the sum of two bias vectors as a row, `lwT` the head's weight transposed,
  `lbRow` the head's bias as a row.

  Then what the three kinds of kernel region leave in their output arrays, index by index, at the ideal instance:
  `scaleProj` — row `u` of the features times the merged weights, the left 128 columns scaled by the first per-node
  column and the right 128 by the second; `combine` — two aggregates, each scaled by its destination column, added, the
  bias row added, the positive part taken; `combineHead` — the same, then the head's weights contracted over the 128
  features and the head's bias added.

  Last the network: the eight word lists, their eight normalisation arrays, and two layers. Layer one projects the drug
  and disease features (two relations per merged projection), aggregates the four relations and combines per node type;
  layer two does the same from layer one's outputs and ends in the head.
-/
import proofs.«122068_j1322849927480_2_alg».proof.Proof.KernelStages
import proofs.«122068_j1322849927480_2_alg».proof.Proof.GraphSpec
import Idealize.ShloMosaic.Lib.ValueIdx

noncomputable section

namespace Cert.KernelIdeal.Stage

open Idealize.ShloMosaic Idealize.ShloMosaic.ValueIdx Cert.KernelIdeal Cert.KernelIdeal.Gen

section AnyInstance
variable {F : FTy → Type} [FloatOps F]

def w00 (Ws : FVec F S2x4x128x128 .f32) : FVec F S128x128 .f32 :=
  shapeCast S128x128 (extractStridedSlice S1x1x128x128 ![0, 0, 0, 0] Ws slices_S2x4x128x128_S1x1x128x128_0_0_0_0) shapeCasts_S1x1x128x128_S128x128
def w01 (Ws : FVec F S2x4x128x128 .f32) : FVec F S128x128 .f32 :=
  shapeCast S128x128 (extractStridedSlice S1x1x128x128 ![0, 1, 0, 0] Ws slices_S2x4x128x128_S1x1x128x128_0_1_0_0) shapeCasts_S1x1x128x128_S128x128
def w02 (Ws : FVec F S2x4x128x128 .f32) : FVec F S128x128 .f32 :=
  shapeCast S128x128 (extractStridedSlice S1x1x128x128 ![0, 2, 0, 0] Ws slices_S2x4x128x128_S1x1x128x128_0_2_0_0) shapeCasts_S1x1x128x128_S128x128
def w03 (Ws : FVec F S2x4x128x128 .f32) : FVec F S128x128 .f32 :=
  shapeCast S128x128 (extractStridedSlice S1x1x128x128 ![0, 3, 0, 0] Ws slices_S2x4x128x128_S1x1x128x128_0_3_0_0) shapeCasts_S1x1x128x128_S128x128
def w10 (Ws : FVec F S2x4x128x128 .f32) : FVec F S128x128 .f32 :=
  shapeCast S128x128 (extractStridedSlice S1x1x128x128 ![1, 0, 0, 0] Ws slices_S2x4x128x128_S1x1x128x128_1_0_0_0) shapeCasts_S1x1x128x128_S128x128
def w11 (Ws : FVec F S2x4x128x128 .f32) : FVec F S128x128 .f32 :=
  shapeCast S128x128 (extractStridedSlice S1x1x128x128 ![1, 1, 0, 0] Ws slices_S2x4x128x128_S1x1x128x128_1_1_0_0) shapeCasts_S1x1x128x128_S128x128
def w12 (Ws : FVec F S2x4x128x128 .f32) : FVec F S128x128 .f32 :=
  shapeCast S128x128 (extractStridedSlice S1x1x128x128 ![1, 2, 0, 0] Ws slices_S2x4x128x128_S1x1x128x128_1_2_0_0) shapeCasts_S1x1x128x128_S128x128
def w13 (Ws : FVec F S2x4x128x128 .f32) : FVec F S128x128 .f32 :=
  shapeCast S128x128 (extractStridedSlice S1x1x128x128 ![1, 3, 0, 0] Ws slices_S2x4x128x128_S1x1x128x128_1_3_0_0) shapeCasts_S1x1x128x128_S128x128
def b00 (bs : FVec F S2x4x128 .f32) : FVec F S128 .f32 :=
  shapeCast S128 (extractStridedSlice S1x1x128 ![0, 0, 0] bs slices_S2x4x128_S1x1x128_0_0_0) shapeCasts_S1x1x128_S128
def b01 (bs : FVec F S2x4x128 .f32) : FVec F S128 .f32 :=
  shapeCast S128 (extractStridedSlice S1x1x128 ![0, 1, 0] bs slices_S2x4x128_S1x1x128_0_1_0) shapeCasts_S1x1x128_S128
def b02 (bs : FVec F S2x4x128 .f32) : FVec F S128 .f32 :=
  shapeCast S128 (extractStridedSlice S1x1x128 ![0, 2, 0] bs slices_S2x4x128_S1x1x128_0_2_0) shapeCasts_S1x1x128_S128
def b03 (bs : FVec F S2x4x128 .f32) : FVec F S128 .f32 :=
  shapeCast S128 (extractStridedSlice S1x1x128 ![0, 3, 0] bs slices_S2x4x128_S1x1x128_0_3_0) shapeCasts_S1x1x128_S128
def b10 (bs : FVec F S2x4x128 .f32) : FVec F S128 .f32 :=
  shapeCast S128 (extractStridedSlice S1x1x128 ![1, 0, 0] bs slices_S2x4x128_S1x1x128_1_0_0) shapeCasts_S1x1x128_S128
def b11 (bs : FVec F S2x4x128 .f32) : FVec F S128 .f32 :=
  shapeCast S128 (extractStridedSlice S1x1x128 ![1, 1, 0] bs slices_S2x4x128_S1x1x128_1_1_0) shapeCasts_S1x1x128_S128
def b12 (bs : FVec F S2x4x128 .f32) : FVec F S128 .f32 :=
  shapeCast S128 (extractStridedSlice S1x1x128 ![1, 2, 0] bs slices_S2x4x128_S1x1x128_1_2_0) shapeCasts_S1x1x128_S128
def b13 (bs : FVec F S2x4x128 .f32) : FVec F S128 .f32 :=
  shapeCast S128 (extractStridedSlice S1x1x128 ![1, 3, 0] bs slices_S2x4x128_S1x1x128_1_3_0) shapeCasts_S1x1x128_S128

def wcat (a b : FVec F S128x128 .f32) : FVec F S128x256 .f32 :=
  concatenate S128x256 1 [⟨S128x128, a⟩, ⟨S128x128, b⟩] concatenates_S128x128_S128x128_S128x256_d1
def col (d : FVec F S50000 .f32) : FVec F S50000x1 .f32 := shapeCast S50000x1 d shapeCasts_S50000_S50000x1
def biasRow (a b : FVec F S128 .f32) : FVec F S1x128 .f32 := shapeCast S1x128 (addf a b) shapeCasts_S128_S1x128
def lwT (lw : FVec F S64x128 .f32) : FVec F S128x64 .f32 := transpose S128x64 [1, 0] lw transposes_S64x128_S128x64_1_0
def lbRow (lb : FVec F S64 .f32) : FVec F S1x64 .f32 := shapeCast S1x64 lb shapeCasts_S64_S1x64

end AnyInstance

/-! ## What each kind of region leaves in its output array -/

def scaleProj (X : FVec Ideal S50000x128 .f32) (Wc : FVec Ideal S128x256 .f32) (S0 S1 : FVec Ideal S50000x1 .f32) :
    FVec Ideal S50000x256 .f32 :=
  fun i => (∑ k : Fin 128, X (ix2 (i 0 : Fin 50000) k) * Wc (ix2 k (i 1 : Fin 256)))
    * (if (i 1).val < 128 then S0 (ix2 (i 0 : Fin 50000) (0 : Fin 1)) else S1 (ix2 (i 0 : Fin 50000) (0 : Fin 1)))

def combine (A : FVec Ideal S50000x128 .f32) (DA : FVec Ideal S50000x1 .f32) (B : FVec Ideal S50000x128 .f32)
    (DB : FVec Ideal S50000x1 .f32) (BIAS : FVec Ideal S1x128 .f32) : FVec Ideal S50000x128 .f32 :=
  fun i => max ((A i * DA (ix2 (i 0 : Fin 50000) (0 : Fin 1)) + B i * DB (ix2 (i 0 : Fin 50000) (0 : Fin 1)))
    + BIAS (ix2 (0 : Fin 1) (i 1 : Fin 128))) Cert.GraphSpec.zero32

def combineHead (A : FVec Ideal S50000x128 .f32) (DA : FVec Ideal S50000x1 .f32) (B : FVec Ideal S50000x128 .f32)
    (DB : FVec Ideal S50000x1 .f32) (BIAS : FVec Ideal S1x128 .f32) (LW : FVec Ideal S128x64 .f32) (LB : FVec Ideal S1x64 .f32) :
    FVec Ideal S50000x64 .f32 :=
  fun i => (∑ k : Fin 128, combine A DA B DB BIAS (ix2 (i 0 : Fin 50000) k) * LW (ix2 k (i 1 : Fin 64)))
    + LB (ix2 (0 : Fin 1) (i 1 : Fin 64))

/-! ## The network over the ten arguments -/

/-- The ten argument arrays: drug and disease features, the four edge lists (drug-drug, disease-disease, drug to disease,
    disease to drug), the stacked weights and biases, the head's weight and bias. -/
structure Inputs where
  xd : FVec Ideal S50000x128 .f32
  xs : FVec Ideal S50000x128 .f32
  edd : IVec S2x800000 32
  ess : IVec S2x800000 32
  eds : IVec S2x800000 32
  esd : IVec S2x800000 32
  Ws : FVec Ideal S2x4x128x128 .f32
  bs : FVec Ideal S2x4x128 .f32
  lw : FVec Ideal S64x128 .f32
  lb : FVec Ideal S64 .f32

namespace Inputs
variable (a : Inputs)

def rdd : IVec S850000 32 := looped (words0 a.edd)
def cdd : IVec S850000 32 := looped (words1 a.edd)
def rss : IVec S850000 32 := looped (words0 a.ess)
def css : IVec S850000 32 := looped (words1 a.ess)
def rds : IVec S800000 32 := words0 a.eds
def cds : IVec S800000 32 := words1 a.eds
def rsd : IVec S800000 32 := words0 a.esd
def csd : IVec S800000 32 := words1 a.esd

def nrdd : FVec Ideal S50000 .f32 := norm (deg850 a.rdd)
def ncdd : FVec Ideal S50000 .f32 := norm (deg850 a.cdd)
def nrss : FVec Ideal S50000 .f32 := norm (deg850 a.rss)
def ncss : FVec Ideal S50000 .f32 := norm (deg850 a.css)
def nrds : FVec Ideal S50000 .f32 := norm (deg800 a.rds)
def ncds : FVec Ideal S50000 .f32 := norm (deg800 a.cds)
def nrsd : FVec Ideal S50000 .f32 := norm (deg800 a.rsd)
def ncsd : FVec Ideal S50000 .f32 := norm (deg800 a.csd)

/-- Layer one's merged projections of the drug and of the disease features. -/
def H1d : FVec Ideal S50000x256 .f32 := scaleProj a.xd (wcat (w00 a.Ws) (w02 a.Ws)) (col a.nrdd) (col a.nrds)
def H1s : FVec Ideal S50000x256 .f32 := scaleProj a.xs (wcat (w03 a.Ws) (w01 a.Ws)) (col a.nrsd) (col a.nrss)
/-- Layer one's outputs per node type. -/
def X1d : FVec Ideal S50000x128 .f32 :=
  combine (agg850 (leftHalf a.H1d) a.rdd a.cdd) (col a.ncdd) (agg800 (leftHalf a.H1s) a.rsd a.csd) (col a.ncsd) (biasRow (b00 a.bs) (b03 a.bs))
def X1s : FVec Ideal S50000x128 .f32 :=
  combine (agg850 (rightHalf a.H1s) a.rss a.css) (col a.ncss) (agg800 (rightHalf a.H1d) a.rds a.cds) (col a.ncds) (biasRow (b01 a.bs) (b02 a.bs))
/-- Layer two's merged projections. -/
def H2d : FVec Ideal S50000x256 .f32 := scaleProj a.X1d (wcat (w10 a.Ws) (w12 a.Ws)) (col a.nrdd) (col a.nrds)
def H2s : FVec Ideal S50000x256 .f32 := scaleProj a.X1s (wcat (w13 a.Ws) (w11 a.Ws)) (col a.nrsd) (col a.nrss)
/-- The two results. -/
def Yd : FVec Ideal S50000x64 .f32 :=
  combineHead (agg850 (leftHalf a.H2d) a.rdd a.cdd) (col a.ncdd) (agg800 (leftHalf a.H2s) a.rsd a.csd) (col a.ncsd) (biasRow (b10 a.bs) (b13 a.bs)) (lwT a.lw) (lbRow a.lb)
def Ys : FVec Ideal S50000x64 .f32 :=
  combineHead (agg850 (rightHalf a.H2s) a.rss a.css) (col a.ncss) (agg800 (rightHalf a.H2d) a.rds a.cds) (col a.ncds) (biasRow (b11 a.bs) (b12 a.bs)) (lwT a.lw) (lbRow a.lb)

end Inputs

end Cert.KernelIdeal.Stage

end
-- ==== Proof.KernelInputs.lean ====
/-
  The ten argument arrays of one device as launched, bundled as the network's inputs.
-/
import proofs.«122068_j1322849927480_2_alg».proof.Proof.KernelValue

noncomputable section

namespace Cert.KernelIdeal.Fold

open Idealize.ShloMosaic Idealize.ShloMosaic.TcCoe Idealize.SL.Sem
open Cert.KernelIdeal Cert.KernelIdeal.Stage

/-- Device `c`'s ten argument arrays in the launch memory `m`. -/
def inputsOf (m : (ℓ : Loc nD τ sig) → Buf (Elt Ideal) ℓ) (c : Dev nD) : Stage.Inputs where
  xd := m ((c : Thread nD τ).loc main_arg0)
  xs := m ((c : Thread nD τ).loc main_arg1)
  edd := m ((c : Thread nD τ).loc main_arg2)
  ess := m ((c : Thread nD τ).loc main_arg3)
  eds := m ((c : Thread nD τ).loc main_arg4)
  esd := m ((c : Thread nD τ).loc main_arg5)
  Ws := m ((c : Thread nD τ).loc main_arg6)
  bs := m ((c : Thread nD τ).loc main_arg7)
  lw := m ((c : Thread nD τ).loc main_arg8)
  lb := m ((c : Thread nD τ).loc main_arg9)

end Cert.KernelIdeal.Fold

end
-- ==== Proof.KernelSpecA.lean ====
/-
  The weight, bias and head arrays the regions consume, read at an index.

  Layer `L`'s weight matrix of relation `Q` is the `128 × 128` block `(L, Q)` of the stacked weights: a slice with one
  element on the two leading axes, reshaped to a matrix, reads at `(k, j)` the stacked array at `(L, Q, k, j)`; the
  bias vectors likewise at `(L, Q, j)`. Two matrices set side by side read the first on columns below 128 and the second
  on the columns from 128 on. A per-node array as a column reads the array at the node; the sum of two bias vectors as
  a row reads the sum of the two at the column; the head's weight transposed reads it with the coordinates swapped; the
  head's bias as a row reads it at the column.
-/
import proofs.«122068_j1322849927480_2_alg».proof.Proof.KernelValue
import Idealize.ShloMosaic.Lib.ValueLayout

noncomputable section

namespace Cert.KernelIdeal.StageSpec

open Idealize.ShloMosaic Idealize.ShloMosaic.ValueIdx Cert.KernelIdeal Cert.KernelIdeal.Gen Cert.KernelIdeal.Stage

section Layout
variable {α : Type}

/-- Block `(lo, qo)` of the stacked weights, as a matrix, at `(k, j)`. -/
theorem wBlock_apply (Ws : S2x4x128x128.Idx → α) (lo qo : Nat) (hl : lo < 2) (hq : qo < 4)
    (hs : S2x4x128x128.Slices ![lo, qo, 0, 0] S1x1x128x128) (hc : S1x1x128x128.ShapeCasts S128x128) (k j : Fin 128) :
    shapeCast S128x128 (extractStridedSlice S1x1x128x128 ![lo, qo, 0, 0] Ws hs) hc (ix2 k j)
      = Ws (ix4 (⟨lo, hl⟩ : Fin 2) (⟨qo, hq⟩ : Fin 4) k j) := by
  refine (shapeCast_apply _ hc _ (ix4 (0 : Fin 1) (0 : Fin 1) k j) ?_).trans ?_
  · rw [Shape.rowMajor_val_four, Shape.rowMajor_val_two]
    show (((0 * 1 + 0) * 128 + k.val) * 128 + j.val) = k.val * 128 + j.val
    simp only [Nat.zero_mul, Nat.zero_add]
  · refine extractStridedSlice_apply _ _ hs _ _ (fun ax => ?_)
    match ax with
    | ⟨0, _⟩ => exact (Nat.add_zero _).symm
    | ⟨1, _⟩ => exact (Nat.add_zero _).symm
    | ⟨2, _⟩ => exact (Nat.zero_add _).symm
    | ⟨3, _⟩ => exact (Nat.zero_add _).symm

/-- Block `(lo, qo)` of the stacked biases, as a vector, at `j`. -/
theorem bBlock_apply (bs : S2x4x128.Idx → α) (lo qo : Nat) (hl : lo < 2) (hq : qo < 4)
    (hs : S2x4x128.Slices ![lo, qo, 0] S1x1x128) (hc : S1x1x128.ShapeCasts S128) (j : Fin 128) :
    shapeCast S128 (extractStridedSlice S1x1x128 ![lo, qo, 0] bs hs) hc (ix1 j)
      = bs (ix3 (⟨lo, hl⟩ : Fin 2) (⟨qo, hq⟩ : Fin 4) j) := by
  refine (shapeCast_apply _ hc _ (ix3 (0 : Fin 1) (0 : Fin 1) j) ?_).trans ?_
  · rw [Shape.rowMajor_val_three, Shape.rowMajor_val_one]
    show ((0 * 1 + 0) * 128 + j.val) = j.val
    simp only [Nat.zero_mul, Nat.zero_add]
  · refine extractStridedSlice_apply _ _ hs _ _ (fun ax => ?_)
    match ax with
    | ⟨0, _⟩ => exact (Nat.add_zero _).symm
    | ⟨1, _⟩ => exact (Nat.add_zero _).symm
    | ⟨2, _⟩ => exact (Nat.zero_add _).symm

end Layout

section AnyInstance
variable {F : FTy → Type} [FloatOps F]

theorem w00_apply (Ws : FVec F S2x4x128x128 .f32) (k j : Fin 128) : w00 Ws (ix2 k j) = Ws (ix4 (0 : Fin 2) (0 : Fin 4) k j) :=
  wBlock_apply Ws 0 0 (by decide) (by decide) _ _ k j
theorem w01_apply (Ws : FVec F S2x4x128x128 .f32) (k j : Fin 128) : w01 Ws (ix2 k j) = Ws (ix4 (0 : Fin 2) (1 : Fin 4) k j) :=
  wBlock_apply Ws 0 1 (by decide) (by decide) _ _ k j
theorem w02_apply (Ws : FVec F S2x4x128x128 .f32) (k j : Fin 128) : w02 Ws (ix2 k j) = Ws (ix4 (0 : Fin 2) (2 : Fin 4) k j) :=
  wBlock_apply Ws 0 2 (by decide) (by decide) _ _ k j
theorem w03_apply (Ws : FVec F S2x4x128x128 .f32) (k j : Fin 128) : w03 Ws (ix2 k j) = Ws (ix4 (0 : Fin 2) (3 : Fin 4) k j) :=
  wBlock_apply Ws 0 3 (by decide) (by decide) _ _ k j
theorem w10_apply (Ws : FVec F S2x4x128x128 .f32) (k j : Fin 128) : w10 Ws (ix2 k j) = Ws (ix4 (1 : Fin 2) (0 : Fin 4) k j) :=
  wBlock_apply Ws 1 0 (by decide) (by decide) _ _ k j
theorem w11_apply (Ws : FVec F S2x4x128x128 .f32) (k j : Fin 128) : w11 Ws (ix2 k j) = Ws (ix4 (1 : Fin 2) (1 : Fin 4) k j) :=
  wBlock_apply Ws 1 1 (by decide) (by decide) _ _ k j
theorem w12_apply (Ws : FVec F S2x4x128x128 .f32) (k j : Fin 128) : w12 Ws (ix2 k j) = Ws (ix4 (1 : Fin 2) (2 : Fin 4) k j) :=
  wBlock_apply Ws 1 2 (by decide) (by decide) _ _ k j
theorem w13_apply (Ws : FVec F S2x4x128x128 .f32) (k j : Fin 128) : w13 Ws (ix2 k j) = Ws (ix4 (1 : Fin 2) (3 : Fin 4) k j) :=
  wBlock_apply Ws 1 3 (by decide) (by decide) _ _ k j

theorem b00_apply (bs : FVec F S2x4x128 .f32) (j : Fin 128) : b00 bs (ix1 j) = bs (ix3 (0 : Fin 2) (0 : Fin 4) j) :=
  bBlock_apply bs 0 0 (by decide) (by decide) _ _ j
theorem b01_apply (bs : FVec F S2x4x128 .f32) (j : Fin 128) : b01 bs (ix1 j) = bs (ix3 (0 : Fin 2) (1 : Fin 4) j) :=
  bBlock_apply bs 0 1 (by decide) (by decide) _ _ j
theorem b02_apply (bs : FVec F S2x4x128 .f32) (j : Fin 128) : b02 bs (ix1 j) = bs (ix3 (0 : Fin 2) (2 : Fin 4) j) :=
  bBlock_apply bs 0 2 (by decide) (by decide) _ _ j
theorem b03_apply (bs : FVec F S2x4x128 .f32) (j : Fin 128) : b03 bs (ix1 j) = bs (ix3 (0 : Fin 2) (3 : Fin 4) j) :=
  bBlock_apply bs 0 3 (by decide) (by decide) _ _ j
theorem b10_apply (bs : FVec F S2x4x128 .f32) (j : Fin 128) : b10 bs (ix1 j) = bs (ix3 (1 : Fin 2) (0 : Fin 4) j) :=
  bBlock_apply bs 1 0 (by decide) (by decide) _ _ j
theorem b11_apply (bs : FVec F S2x4x128 .f32) (j : Fin 128) : b11 bs (ix1 j) = bs (ix3 (1 : Fin 2) (1 : Fin 4) j) :=
  bBlock_apply bs 1 1 (by decide) (by decide) _ _ j
theorem b12_apply (bs : FVec F S2x4x128 .f32) (j : Fin 128) : b12 bs (ix1 j) = bs (ix3 (1 : Fin 2) (2 : Fin 4) j) :=
  bBlock_apply bs 1 2 (by decide) (by decide) _ _ j
theorem b13_apply (bs : FVec F S2x4x128 .f32) (j : Fin 128) : b13 bs (ix1 j) = bs (ix3 (1 : Fin 2) (3 : Fin 4) j) :=
  bBlock_apply bs 1 3 (by decide) (by decide) _ _ j

/-- Two matrices side by side, on a column of the first … -/
theorem wcat_left (a b : FVec F S128x128 .f32) (k j : Fin 128) :
    wcat a b (ix2 k (⟨j.val, by omega⟩ : Fin 256)) = a (ix2 k j) := by
  unfold wcat
  refine concatenate_pair_apply_left (t := S128x256) (s₁ := S128x128) (s₂ := S128x128) (1 : Fin 2) a b
    concatenates_S128x128_S128x128_S128x256_d1 (ix2 k (⟨j.val, by omega⟩ : Fin 256)) rfl (ix2 k j) (fun ax => ?_)
  match ax with
  | ⟨0, _⟩ => rfl
  | ⟨1, _⟩ => rfl
/-- … and on a column of the second. -/
theorem wcat_right (a b : FVec F S128x128 .f32) (k j : Fin 128) :
    wcat a b (ix2 k (⟨j.val + 128, by omega⟩ : Fin 256)) = b (ix2 k j) := by
  unfold wcat
  refine concatenate_pair_apply_right (t := S128x256) (s₁ := S128x128) (s₂ := S128x128) (1 : Fin 2) a b
    concatenates_S128x128_S128x128_S128x256_d1 (ix2 k (⟨j.val + 128, by omega⟩ : Fin 256)) rfl rfl (ix2 k j)
    (fun ax hax => ?_) rfl
  match ax with
  | ⟨0, _⟩ => rfl
  | ⟨1, _⟩ => exact absurd rfl hax

/-- A per-node array as a column. -/
theorem col_apply (d : FVec F S50000 .f32) (v : Fin 50000) (u : Fin 1) : col d (ix2 v u) = d (ix1 v) := by
  unfold col
  refine shapeCast_apply _ _ _ _ ?_
  have hu : u.val = 0 := by omega
  rw [Shape.rowMajor_val_one, Shape.rowMajor_val_two]
  show v.val = v.val * 1 + u.val
  omega

/-- The head's weight transposed. -/
theorem lwT_apply (lw : FVec F S64x128 .f32) (k : Fin 128) (o : Fin 64) : lwT lw (ix2 k o) = lw (ix2 o k) :=
  transpose_ix2_apply lw _ k o

/-- The head's bias as a row. -/
theorem lbRow_apply (lb : FVec F S64 .f32) (u : Fin 1) (o : Fin 64) : lbRow lb (ix2 u o) = lb (ix1 o) :=
  shapeCast_a_1a_apply lb _ u o

end AnyInstance

/-- The sum of two bias vectors as a row, over the extended reals. -/
theorem biasRow_apply (a b : FVec Ideal S128 .f32) (u : Fin 1) (j : Fin 128) :
    biasRow a b (ix2 u j) = a (ix1 j) + b (ix1 j) :=
  (shapeCast_a_1a_apply (addf a b) _ u j).trans (addf_apply a b (ix1 j))

end Cert.KernelIdeal.StageSpec

end
-- ==== Proof.LibEdgeScatter.lean ====
/-
  THE HOST'S ACCUMULATING SCATTER AND ITS ROW GATHER, READ AT AN INDEX, at the instance of the extended reals.

  An edge list of `E` edges over `N` nodes is an array of `E × 1` integer words. Two shape operations use it.

  The ROW GATHER takes row number `idx[e, 0]` of an operand for every edge `e`: of a flat array `[N]` (one element per
  node, result `[E]`) or of a table `[N, C]` (one row of `C` columns per node, result `[E, C]`). The start word is read
  signed and clamped into `[0, N − 1]`: `gather_flat_apply`, `gather_rows_apply`.

  The ACCUMULATING SCATTER adds update number `e` (an element of `[E]`, or a row of `[E, C]`) onto row `idx[e, 0]` of the
  operand. Its start word is read signed and NOT clamped: an update whose word is not a row number is dropped. So the
  result at row `v` is the operand there plus the sum of the updates over the edges `e` whose word, read signed, is
  `v`: `scatterAdd_flat_apply`, `scatterAdd_rows_apply`.

  The dimension numbers are the builders `gathFlat`, `gathRows`, `scatFlat`, `scatRows` at generic extents, their
  side conditions a parameter; a record written with the same literal lists is the builder by `rfl` (the examples after
  each builder). `resultIdx?_eq_some_iff` is general: an update lands on an index exactly when start plus window
  coordinate is that index on every axis.
-/
import Idealize.ShloMosaic.PureOps.Ideal
import Idealize.ShloMosaic.PureOps.Contract
import Idealize.ShloMosaic.Lib.ValueIdx

noncomputable section

open scoped BigOperators

namespace Idealize.ShloMosaic.EdgeScatter

open Idealize.ShloMosaic Idealize.ShloMosaic.ValueIdx

/-! ## The row gather of a table -/

section GatherRows
variable {α : Type}

/-- The dimension numbers of `x[idx[:, 0], :]` for a table `[N, C]`, start indices `[E, 1]` and result `[E, C]`:
    axis 0 collapsed and named by the start index map, axis 1 the offset axis, slices `1 × C`. -/
abbrev gathRows (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- A record with the same literal lists is the builder. -/
example (N E C : Nat) (hwf : GatherDims.WF ⟨2, ![N, C]⟩ ⟨2, ![E, 1]⟩ ⟨2, ![E, C]⟩ [1] [0] [] [0] [] 1 ![1, C]) :
    (⟨[1], [0], [], [], [0], 1, ![1, C], hwf⟩ : GatherDims ⟨2, ![N, C]⟩ ⟨2, ![E, 1]⟩ ⟨2, ![E, C]⟩) = gathRows N E C hwf := rfl

/-- The row the gather reads for edge `e`: the start word, read signed and clamped. -/
theorem gathRows_operandIdx_zero {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (j : Fin C) :
    ((gathRows N E C wf).operandIdx (ix2 e j) idx 0).val = min (idx (ix2 e 0)).toInt.toNat (N - 1) := by
  show (gathRows N E C wf).start (ix2 e j) idx 0 + (gathRows N E C wf).batchCoord (ix2 e j) 0
    + (gathRows N E C wf).offCoord (ix2 e j) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (gathRows N E C wf).startIndexMap from List.mem_singleton.mpr rfl)]
  have hsi : (gathRows N E C wf).siIdx (ix2 e j) ⟨List.idxOf (0 : Fin 2) (gathRows N E C wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- The column the gather reads: the result's own column. -/
theorem gathRows_operandIdx_one {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (j : Fin C) :
    ((gathRows N E C wf).operandIdx (ix2 e j) idx 1).val = j.val := by
  show (gathRows N E C wf).start (ix2 e j) idx 1 + (gathRows N E C wf).batchCoord (ix2 e j) 1
    + (gathRows N E C wf).offCoord (ix2 e j) 1 = _
  rw [GatherDims.batchCoord_eq_zero _ _ _ List.not_mem_nil]
  unfold GatherDims.start
  rw [dif_neg (show (1 : Fin 2) ∉ ([0] : List (Fin 2)) by decide)]
  have hk : (1 : Fin 2) ∈ (gathRows N E C wf).sKept :=
    (GatherDims.mem_sKept _ _).mpr ⟨(show (1 : Fin 2) ∉ ([0] : List (Fin 2)) by decide), List.not_mem_nil⟩
  unfold GatherDims.offCoord
  rw [dif_pos hk]
  simp only [Nat.zero_add]
  rfl

/-- THE ROW GATHER READ AT `(e, j)`: column `j` of the row the start word `idx[e, 0]` names, read signed and clamped
    into `[0, N − 1]`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (gathRows N E C wf) x idx (ix2 e j)
      = x (ix2 ⟨min (idx (ix2 e 0)).toInt.toNat (N - 1), by omega⟩ j) := by
  unfold Host.gather
  congr 1
  funext a
  refine Fin.ext ?_
  match a with
  | ⟨0, _⟩ => exact gathRows_operandIdx_zero wf idx e j
  | ⟨1, _⟩ => exact gathRows_operandIdx_one wf idx e j

end GatherRows

/-! ## When an update lands on an index -/

section Lands
variable {s si u : Shape}

/-- An update lands on the operand index `i` exactly when its window's start plus its window coordinate is `i`'s
    coordinate on every axis (being inside the operand follows from being equal to an index of it). -/
theorem resultIdx?_eq_some_iff (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  constructor
  · intro h
    split at h
    · rename_i hh
      intro a
      have h1 := congrFun (Option.some.inj h) a
      have h2 := congrArg Fin.val h1
      have h3 := hh a
      simp only at h2
      omega
    · exact absurd h (by simp)
  · intro h
    have hh : ∀ a, 0 ≤ d.start j idx a + (d.window j a : Int)
        ∧ d.start j idx a + (d.window j a : Int) < (s.size a : Int) := by
      intro a
      have := h a
      have := (i a).isLt
      omega
    rw [dif_pos hh]
    congr 1
    funext a
    refine Fin.ext ?_
    have := h a
    show (d.start j idx a + (d.window j a : Int)).toNat = (i a).val
    omega

end Lands

/-! ## The accumulating scatter of rows -/

section ScatterRows

/-- The dimension numbers of `x.at[idx[:, 0]].add(upd)` for a table `[N, C]`, scatter indices `[E, 1]` and updates
    `[E, C]`: the updates' axis 1 the window axis, the operand's axis 0 inserted and named by the index map. -/
abbrev scatRows (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- A record with the same literal lists is the builder. -/
example (N E C : Nat) (hwf : ScatterDims.WF ⟨2, ![N, C]⟩ ⟨2, ![E, 1]⟩ ⟨2, ![E, C]⟩ [1] [0] [0] 1) :
    (⟨[1], [0], [0], 1, hwf⟩ : ScatterDims ⟨2, ![N, C]⟩ ⟨2, ![E, 1]⟩ ⟨2, ![E, C]⟩) = scatRows N E C hwf := rfl

variable {N E C w : Nat} (wf : ScatterDims.WF ⟨2, ![N, C]⟩ ⟨2, ![E, 1]⟩ ⟨2, ![E, C]⟩ [1] [0] [0] 1)
  (idx : IVec ⟨2, ![E, 1]⟩ w) (e : Fin E) (c : Fin C)

/-- The window of update `(e, c)` starts, on the row axis, at the word `idx[e, 0]` read signed … -/
theorem scatRows_start_zero : (scatRows N E C wf).start (ix2 e c) idx 0 = (idx (ix2 e 0)).toInt := by
  unfold ScatterDims.start
  rw [dif_pos (show (0 : Fin 2) ∈ (scatRows N E C wf).scatterDimsToOperandDims from List.mem_singleton.mpr rfl)]
  have hsi : (scatRows N E C wf).siIdx (ix2 e c) ⟨List.idxOf (0 : Fin 2) (scatRows N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]
/-- … and at `0` on the column axis. -/
theorem scatRows_start_one : (scatRows N E C wf).start (ix2 e c) idx 1 = 0 := by
  unfold ScatterDims.start
  rw [dif_neg (show (1 : Fin 2) ∉ ([0] : List (Fin 2)) by decide)]
/-- Its window coordinate is `0` on the row axis (the inserted one) … -/
theorem scatRows_window_zero : (scatRows N E C wf).window (ix2 e c) 0 = 0 := by
  unfold ScatterDims.window
  rw [dif_neg]
  intro h
  have : (0 : Fin 2) ∉ ([0] : List (Fin 2)) := by
    simpa [ScatterDims.sKept, Shape.kept, List.mem_filter] using h
  exact this (List.mem_singleton.mpr rfl)
/-- … and its own column on the column axis. -/
theorem scatRows_window_one : (scatRows N E C wf).window (ix2 e c) 1 = c.val := by
  unfold ScatterDims.window
  have hk : (1 : Fin 2) ∈ (scatRows N E C wf).sKept := by
    simp [ScatterDims.sKept, Shape.kept, List.mem_filter, List.mem_finRange]
  rw [dif_pos hk]
  rfl

/-- Update `(e, c)` lands on `(v, j)` exactly when the word `idx[e, 0]`, read signed, is `v` and the columns agree. -/
theorem scatRows_lands_iff (v : Fin N) (j : Fin C) :
    (scatRows N E C wf).resultIdx? (ix2 e c) idx = some (ix2 v j) ↔ (idx (ix2 e 0)).toInt = (v.val : Int) ∧ c = j := by
  rw [resultIdx?_eq_some_iff, Fin.forall_fin_two, scatRows_start_zero, scatRows_start_one, scatRows_window_zero,
    scatRows_window_one]
  show (idx (ix2 e 0)).toInt + ((0 : Nat) : Int) = (v.val : Int) ∧ (0 : Int) + (c.val : Int) = (j.val : Int) ↔ _
  constructor
  · rintro ⟨h0, h1⟩; exact ⟨by omega, Fin.ext (by omega)⟩
  · rintro ⟨h0, rfl⟩; exact ⟨by omega, by omega⟩

/-- THE ACCUMULATING SCATTER OF ROWS READ AT `(v, j)`: the operand there plus column `j` of every update whose word
    `idx[e, 0]`, read signed, is `v`. -/
theorem scatterAdd_rows_apply {φ : FTy} (x : FVec Ideal ⟨2, ![N, C]⟩ φ) (upd : FVec Ideal ⟨2, ![E, C]⟩ φ)
    (v : Fin N) (j : Fin C) :
    Host.scatterAdd (F := Ideal) (scatRows N E C wf) x idx upd (ix2 v j)
      = x (ix2 v j) + ∑ e ∈ Finset.univ.filter (fun e : Fin E => (idx (ix2 e 0)).toInt = (v.val : Int)), upd (ix2 e j) := by
  show x (ix2 v j) + ∑ jj ∈ Finset.univ.filter (fun jj => (scatRows N E C wf).resultIdx? jj idx = some (ix2 v j)), upd jj = _
  congr 1
  refine Finset.sum_nbij' (fun jj : (⟨2, ![E, C]⟩ : Shape).Idx => (jj 0 : Fin E)) (fun e => ix2 e j) ?_ ?_ ?_ ?_ ?_
  · intro jj hjj
    obtain ⟨e, c, rfl⟩ : ∃ e c, jj = ix2 e c := ⟨jj 0, jj 1, eq_ix2 jj⟩
    exact Finset.mem_filter.mpr ⟨Finset.mem_univ _,
      ((scatRows_lands_iff wf idx e c v j).mp (Finset.mem_filter.mp hjj).2).1⟩
  · intro e he
    exact Finset.mem_filter.mpr ⟨Finset.mem_univ _,
      (scatRows_lands_iff wf idx e j v j).mpr ⟨(Finset.mem_filter.mp he).2, rfl⟩⟩
  · intro jj hjj
    obtain ⟨e, c, rfl⟩ : ∃ e c, jj = ix2 e c := ⟨jj 0, jj 1, eq_ix2 jj⟩
    obtain ⟨-, rfl⟩ := (scatRows_lands_iff wf idx e c v j).mp (Finset.mem_filter.mp hjj).2
    rfl
  · intro e _
    rfl
  · intro jj hjj
    obtain ⟨e, c, rfl⟩ : ∃ e c, jj = ix2 e c := ⟨jj 0, jj 1, eq_ix2 jj⟩
    obtain ⟨-, rfl⟩ := (scatRows_lands_iff wf idx e c v j).mp (Finset.mem_filter.mp hjj).2
    rfl

end ScatterRows

/-! ## The gather of a flat array -/

section GatherFlat
variable {α : Type}

/-- The dimension numbers of `x[idx[:, 0]]` for a flat array `[N]`, start indices `[E, 1]` and result `[E]`: the one
    operand axis collapsed and named by the start index map, no offset axis, slices of one element. -/
abbrev gathFlat (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- A record with the same literal lists is the builder. -/
example (N E : Nat) (hwf : GatherDims.WF ⟨1, ![N]⟩ ⟨2, ![E, 1]⟩ ⟨1, ![E]⟩ [] [0] [] [0] [] 1 ![1]) :
    (⟨[], [0], [], [], [0], 1, ![1], hwf⟩ : GatherDims ⟨1, ![N]⟩ ⟨2, ![E, 1]⟩ ⟨1, ![E]⟩) = gathFlat N E hwf := rfl

/-- THE FLAT GATHER READ AT `e`: the operand at the start word `idx[e, 0]`, read signed and clamped into
    `[0, N − 1]`. -/
theorem gather_flat_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gathFlat N E wf) x idx (ix1 e) = x (ix1 ⟨min (idx (ix2 e 0)).toInt.toNat (N - 1), by omega⟩) := by
  unfold Host.gather
  congr 1
  funext a
  obtain rfl : a = 0 := Subsingleton.elim _ _
  refine Fin.ext ?_
  show (gathFlat N E wf).start (ix1 e) idx 0 + (gathFlat N E wf).batchCoord (ix1 e) 0
    + (gathFlat N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gathFlat N E wf).startIndexMap from List.mem_singleton.mpr rfl)]
  have hsi : (gathFlat N E wf).siIdx (ix1 e) ⟨List.idxOf (0 : Fin 1) (gathFlat N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end GatherFlat

/-! ## The accumulating scatter of single elements -/

section ScatterFlat

/-- The dimension numbers of `x.at[idx[:, 0]].add(upd)` for a flat array `[N]`, scatter indices `[E, 1]` and updates
    `[E]`: no window axis, the operand's one axis inserted and named by the index map. -/
abbrev scatFlat (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A record with the same literal lists is the builder. -/
example (N E : Nat) (hwf : ScatterDims.WF ⟨1, ![N]⟩ ⟨2, ![E, 1]⟩ ⟨1, ![E]⟩ [] [0] [0] 1) :
    (⟨[], [0], [0], 1, hwf⟩ : ScatterDims ⟨1, ![N]⟩ ⟨2, ![E, 1]⟩ ⟨1, ![E]⟩) = scatFlat N E hwf := rfl

variable {N E w : Nat} (wf : ScatterDims.WF ⟨1, ![N]⟩ ⟨2, ![E, 1]⟩ ⟨1, ![E]⟩ [] [0] [0] 1)
  (idx : IVec ⟨2, ![E, 1]⟩ w) (e : Fin E)

/-- The window of update `e` starts at the word `idx[e, 0]` read signed … -/
theorem scatFlat_start_zero : (scatFlat N E wf).start (ix1 e) idx 0 = (idx (ix2 e 0)).toInt := by
  unfold ScatterDims.start
  rw [dif_pos (show (0 : Fin 1) ∈ (scatFlat N E wf).scatterDimsToOperandDims from List.mem_singleton.mpr rfl)]
  have hsi : (scatFlat N E wf).siIdx (ix1 e) ⟨List.idxOf (0 : Fin 1) (scatFlat N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]
/-- … and its window coordinate is `0` (the one operand axis is the inserted one). -/
theorem scatFlat_window_zero : (scatFlat N E wf).window (ix1 e) 0 = 0 := by
  unfold ScatterDims.window
  rw [dif_neg]
  intro h
  have : (0 : Fin 1) ∉ ([0] : List (Fin 1)) := by
    simpa [ScatterDims.sKept, Shape.kept, List.mem_filter] using h
  exact this (List.mem_singleton.mpr rfl)

/-- Update `e` lands on `v` exactly when the word `idx[e, 0]`, read signed, is `v`. -/
theorem scatFlat_lands_iff (v : Fin N) :
    (scatFlat N E wf).resultIdx? (ix1 e) idx = some (ix1 v) ↔ (idx (ix2 e 0)).toInt = (v.val : Int) := by
  rw [resultIdx?_eq_some_iff, Fin.forall_fin_one, scatFlat_start_zero, scatFlat_window_zero]
  show (idx (ix2 e 0)).toInt + ((0 : Nat) : Int) = (v.val : Int) ↔ _
  constructor
  · intro h0; omega
  · intro h0; omega

/-- THE ACCUMULATING SCATTER OF SINGLE ELEMENTS READ AT `v`: the operand there plus every update whose word
    `idx[e, 0]`, read signed, is `v`. -/
theorem scatterAdd_flat_apply {φ : FTy} (x : FVec Ideal ⟨1, ![N]⟩ φ) (upd : FVec Ideal ⟨1, ![E]⟩ φ) (v : Fin N) :
    Host.scatterAdd (F := Ideal) (scatFlat N E wf) x idx upd (ix1 v)
      = x (ix1 v) + ∑ e ∈ Finset.univ.filter (fun e : Fin E => (idx (ix2 e 0)).toInt = (v.val : Int)), upd (ix1 e) := by
  show x (ix1 v) + ∑ jj ∈ Finset.univ.filter (fun jj => (scatFlat N E wf).resultIdx? jj idx = some (ix1 v)), upd jj = _
  congr 1
  refine Finset.sum_nbij' (fun jj : (⟨1, ![E]⟩ : Shape).Idx => (jj 0 : Fin E)) (fun e => ix1 e) ?_ ?_ ?_ ?_ ?_
  · intro jj hjj
    obtain ⟨e, rfl⟩ : ∃ e, jj = ix1 e := ⟨jj 0, eq_ix1 jj⟩
    exact Finset.mem_filter.mpr ⟨Finset.mem_univ _,
      (scatFlat_lands_iff wf idx e v).mp (Finset.mem_filter.mp hjj).2⟩
  · intro e he
    exact Finset.mem_filter.mpr ⟨Finset.mem_univ _, (scatFlat_lands_iff wf idx e v).mpr (Finset.mem_filter.mp he).2⟩
  · intro jj _
    exact (eq_ix1 jj).symm
  · intro e _
    rfl
  · intro jj _
    exact congrArg upd (eq_ix1 jj)

end ScatterFlat

end Idealize.ShloMosaic.EdgeScatter

end
-- ==== Proof.StageReads.lean ====
/-
  The kernel's host stages read at an index.

  Each host stage (a composition of slices, reshapes, a concatenation, broadcasts, selects, a gather and accumulating
  scatters) is an array; here each is read at one index, in the vocabulary of the graph mathematics: the two rows of an
  edge list, the list with the node numbers appended, the wrap of a negative start word, the degree as a count of landing
  words, its normalisation, the gathered rows summed over the edges landing on a node, and the two column halves of a
  merged projection.
-/
import proofs.«122068_j1322849927480_2_alg».proof.Proof.KernelStages
import proofs.«122068_j1322849927480_2_alg».proof.Proof.GraphSpec
import proofs.«122068_j1322849927480_2_alg».proof.Proof.LibEdgeScatter
import Idealize.ShloMosaic.Lib.ValueIdx
import Idealize.ShloMosaic.Lib.Pipeline.Value
import Idealize.ShloMosaic.Lib.ValueLayout

noncomputable section

namespace Cert.KernelIdeal.StageRead

open Idealize.ShloMosaic Idealize.ShloMosaic.ValueIdx Cert.KernelIdeal Cert.KernelIdeal.Gen Cert.KernelIdeal.Stage Cert.GraphSpec

/-! ## The two rows of an edge list -/

theorem words0_apply (ei : IVec S2x800000 32) (e : Fin 800000) : words0 ei (ix1 e) = ei (ix2 0 e) := by
  unfold words0
  rw [shapeCast_1a_a_apply]
  exact slice2_axis0_apply 0 ei _ 0 e 0 rfl

theorem words1_apply (ei : IVec S2x800000 32) (e : Fin 800000) : words1 ei (ix1 e) = ei (ix2 1 e) := by
  unfold words1
  rw [shapeCast_1a_a_apply]
  exact slice2_axis0_apply 1 ei _ 0 e 1 rfl

/-! ## The node numbers appended -/

theorem looped_apply (w : IVec S800000 32) (e : Fin 850000) :
    looped w (ix1 e) = withLoops (fun e => w (ix1 e)) e := by
  unfold looped withLoops
  by_cases h : e.val < 800000
  · rw [dif_pos h]
    exact concatenate_pair_apply_left _ w _ _ (ix1 e) rfl (ix1 ⟨e.val, h⟩) (fun b => match b with | ⟨0, _⟩ => rfl)
  · rw [dif_neg h]
    have h2 : e.val - 800000 < 50000 := by have := e.isLt; omega
    refine (concatenate_pair_apply_right (s₂ := S50000) _ w _ _ (ix1 e) rfl rfl (ix1 (n := 50000) ⟨e.val - 800000, h2⟩)
      (fun b hb => ?_) ?_).trans ?_
    · have hb1 : b.val < 1 := b.isLt
      exact absurd (Fin.ext (by show b.val = 0; omega)) hb
    · show (e.val - 800000) + 800000 = e.val
      omega
    · rfl

/-! ## The wrap of a negative start word -/

theorem wrapped850_apply (r : IVec S850000 32) (e : Fin 850000) : wrapped850 r (ix1 e) = wrap (r (ix1 e)) := by
  unfold wrapped850 wrap
  rw [select_apply]
  show Scalar.select (BitVec.ofBool ((r (ix1 e)).slt 0#32)) (r (ix1 e) + 50000#32) (r (ix1 e)) = _
  cases (r (ix1 e)).slt 0#32
  · rw [show BitVec.ofBool false = 0#1 from rfl, select_zero]; simp
  · rw [show BitVec.ofBool true = 1#1 from rfl, select_one]; simp

theorem wrapped800_apply (r : IVec S800000 32) (e : Fin 800000) : wrapped800 r (ix1 e) = wrap (r (ix1 e)) := by
  unfold wrapped800 wrap
  rw [select_apply]
  show Scalar.select (BitVec.ofBool ((r (ix1 e)).slt 0#32)) (r (ix1 e) + 50000#32) (r (ix1 e)) = _
  cases (r (ix1 e)).slt 0#32
  · rw [show BitVec.ofBool false = 0#1 from rfl, select_zero]; simp
  · rw [show BitVec.ofBool true = 1#1 from rfl, select_one]; simp

/-! ## The normalisation of a degree -/

theorem norm_apply (d : FVec Ideal S50000 .f32) (v : Fin 50000) :
    Stage.norm (F := Ideal) d (ix1 v) = dinvOf (d (ix1 v)) := by
  unfold Stage.norm dinvOf
  rw [select_apply]
  show Scalar.select (BitVec.ofBool (decide (zero32 < d (ix1 v)))) (Ideal.rsqrt (max (d (ix1 v)) one32)) zero32 = _
  by_cases h : zero32 < d (ix1 v)
  · rw [if_pos h, decide_eq_true h, show BitVec.ofBool true = 1#1 from rfl, select_one]
  · rw [if_neg h, decide_eq_false h, show BitVec.ofBool false = 0#1 from rfl, select_zero]

/-! ## The two column halves of a merged projection -/

theorem leftHalf_apply {F : FTy → Type} [FloatOps F] (H : FVec F S50000x256 .f32) (v : Fin 50000) (j : Fin 128) :
    leftHalf H (ix2 v j) = H (ix2 v ⟨j.val, by omega⟩) := by
  unfold leftHalf
  exact slice2_axis1_apply 0 H _ v j _ (Nat.zero_add _).symm

theorem rightHalf_apply {F : FTy → Type} [FloatOps F] (H : FVec F S50000x256 .f32) (v : Fin 50000) (j : Fin 128) :
    rightHalf H (ix2 v j) = H (ix2 v ⟨j.val + 128, by omega⟩) := by
  unfold rightHalf
  exact slice2_axis1_apply 128 H _ v j _ (Nat.add_comm _ _)

/-! ## An edge list as a one-column table -/

theorem column850_apply (c : IVec S850000 32) (e : Fin 850000) :
    broadcastInDim S850000x1 ![0] bcast_S850000_S850000x1_0 c (ix2 e 0) = c (ix1 e) :=
  broadcastInDim_apply _ _ c _ (ix1 e) (fun a => match a with | ⟨0, _⟩ => rfl)

theorem column800_apply (c : IVec S800000 32) (e : Fin 800000) :
    broadcastInDim S800000x1 ![0] bcast_S800000_S800000x1_0 c (ix2 e 0) = c (ix1 e) :=
  broadcastInDim_apply _ _ c _ (ix1 e) (fun a => match a with | ⟨0, _⟩ => rfl)

/-! ## The degree: a count of the words landing on a node -/

theorem deg850_apply (idx : IVec S850000 32) (v : Fin 50000) :
    deg850 (F := Ideal) idx (ix1 v) = deg (fun e => idx (ix1 e)) v := by
  unfold deg850 deg
  have hwf : ScatterDims.WF ⟨1, ![50000]⟩ ⟨2, ![850000, 1]⟩ ⟨1, ![850000]⟩ [] [0] [0] 1 :=
    scatter_S50000_S850000x1_S850000_n_0_0_1_wf
  have hs : scatter_S50000_S850000x1_S850000_n_0_0_1 = EdgeScatter.scatFlat 50000 850000 hwf := rfl
  rw [hs, EdgeScatter.scatterAdd_flat_apply]
  refine congrArg₂ (· + ·) rfl (Finset.sum_congr ?_ fun e _ => rfl)
  ext e
  rw [Finset.mem_filter, column850_apply]
  exact (Finset.mem_filter (s := Finset.univ) (p := fun e => lands (idx (ix1 e)) v)).symm

theorem deg800_apply (idx : IVec S800000 32) (v : Fin 50000) :
    deg800 (F := Ideal) idx (ix1 v) = deg (fun e => idx (ix1 e)) v := by
  unfold deg800 deg
  have hwf : ScatterDims.WF ⟨1, ![50000]⟩ ⟨2, ![800000, 1]⟩ ⟨1, ![800000]⟩ [] [0] [0] 1 :=
    scatter_S50000_S800000x1_S800000_n_0_0_1_wf
  have hs : scatter_S50000_S800000x1_S800000_n_0_0_1 = EdgeScatter.scatFlat 50000 800000 hwf := rfl
  rw [hs, EdgeScatter.scatterAdd_flat_apply]
  refine congrArg₂ (· + ·) rfl (Finset.sum_congr ?_ fun e _ => rfl)
  ext e
  rw [Finset.mem_filter, column800_apply]
  exact (Finset.mem_filter (s := Finset.univ) (p := fun e => lands (idx (ix1 e)) v)).symm

/-! ## The aggregate: the gathered rows summed over the edges landing on a node -/

theorem agg850_apply (h : FVec Ideal S50000x128 .f32) (r c : IVec S850000 32) (v : Fin 50000) (j : Fin 128) :
    agg850 (F := Ideal) h r c (ix2 v j)
      = zero32 + ∑ e ∈ into (fun e => c (ix1 e)) v, h (ix2 (row (r (ix1 e))) j) := by
  unfold agg850
  have hswf : ScatterDims.WF ⟨2, ![50000, 128]⟩ ⟨2, ![850000, 1]⟩ ⟨2, ![850000, 128]⟩ [1] [0] [0] 1 :=
    scatter_S50000x128_S850000x1_S850000x128_1_0_0_1_wf
  have hs : scatter_S50000x128_S850000x1_S850000x128_1_0_0_1 = EdgeScatter.scatRows 50000 850000 128 hswf := rfl
  have hgwf : GatherDims.WF ⟨2, ![50000, 128]⟩ ⟨2, ![850000, 1]⟩ ⟨2, ![850000, 128]⟩ [1] [0] [] [0] [] 1 ![1, 128] :=
    gather_S50000x128_S850000x1_S850000x128_1_0_n_n_0_1_1128_wf
  have hg : gather_S50000x128_S850000x1_S850000x128_1_0_n_n_0_1_1128 = EdgeScatter.gathRows 50000 850000 128 hgwf := rfl
  rw [hs, hg, EdgeScatter.scatterAdd_rows_apply]
  refine congrArg₂ (· + ·) rfl (Finset.sum_congr ?_ fun e _ => ?_)
  · ext e
    rw [Finset.mem_filter, column850_apply]
    exact (Finset.mem_filter (s := Finset.univ) (p := fun e => lands (c (ix1 e)) v)).symm
  · -- the gather's clamp of the wrapped word is the node the word reads
    have hw : broadcastInDim S850000x1 ![0] bcast_S850000_S850000x1_0 (wrapped850 r) (ix2 e 0) = wrap (r (ix1 e)) := by
      rw [column850_apply, wrapped850_apply]
    rw [EdgeScatter.gather_rows_apply (by decide)]
    refine congrArg h (congrArg (fun a => ix2 a j) (Fin.ext ?_))
    show min (broadcastInDim S850000x1 ![0] bcast_S850000_S850000x1_0 (wrapped850 r) (ix2 e 0)).toInt.toNat (50000 - 1)
      = min (wrap (r (ix1 e))).toInt.toNat 49999
    rw [hw]

theorem agg800_apply (h : FVec Ideal S50000x128 .f32) (r c : IVec S800000 32) (v : Fin 50000) (j : Fin 128) :
    agg800 (F := Ideal) h r c (ix2 v j)
      = zero32 + ∑ e ∈ into (fun e => c (ix1 e)) v, h (ix2 (row (r (ix1 e))) j) := by
  unfold agg800
  have hswf : ScatterDims.WF ⟨2, ![50000, 128]⟩ ⟨2, ![800000, 1]⟩ ⟨2, ![800000, 128]⟩ [1] [0] [0] 1 :=
    scatter_S50000x128_S800000x1_S800000x128_1_0_0_1_wf
  have hs : scatter_S50000x128_S800000x1_S800000x128_1_0_0_1 = EdgeScatter.scatRows 50000 800000 128 hswf := rfl
  have hgwf : GatherDims.WF ⟨2, ![50000, 128]⟩ ⟨2, ![800000, 1]⟩ ⟨2, ![800000, 128]⟩ [1] [0] [] [0] [] 1 ![1, 128] :=
    gather_S50000x128_S800000x1_S800000x128_1_0_n_n_0_1_1128_wf
  have hg : gather_S50000x128_S800000x1_S800000x128_1_0_n_n_0_1_1128 = EdgeScatter.gathRows 50000 800000 128 hgwf := rfl
  rw [hs, hg, EdgeScatter.scatterAdd_rows_apply]
  refine congrArg₂ (· + ·) rfl (Finset.sum_congr ?_ fun e _ => ?_)
  · ext e
    rw [Finset.mem_filter, column800_apply]
    exact (Finset.mem_filter (s := Finset.univ) (p := fun e => lands (c (ix1 e)) v)).symm
  · have hw : broadcastInDim S800000x1 ![0] bcast_S800000_S800000x1_0 (wrapped800 r) (ix2 e 0) = wrap (r (ix1 e)) := by
      rw [column800_apply, wrapped800_apply]
    rw [EdgeScatter.gather_rows_apply (by decide)]
    refine congrArg h (congrArg (fun a => ix2 a j) (Fin.ext ?_))
    show min (broadcastInDim S800000x1 ![0] bcast_S800000_S800000x1_0 (wrapped800 r) (ix2 e 0)).toInt.toNat (50000 - 1)
      = min (wrap (r (ix1 e))).toInt.toNat 49999
    rw [hw]

end Cert.KernelIdeal.StageRead

end
-- ==== Proof.KernelSpec.lean ====
/-
  The kernel's network, read at an index, is the specification's.

  The ten argument arrays give the specification's arguments coordinate by coordinate (`toArgs`). The eight word lists
  read the edge lists' rows (with a self loop per node appended where the kernel appends it), and the eight
  normalisation arrays read the normalisations of their degrees. A merged projection's two halves read the projected
  features times the per-node scale of their half; a gather-and-scatter aggregate of such a half, times the
  destination's scale, is one relation's aggregate of the specification; two of them added, the bias row added and the
  positive part taken is a layer's output for one node type, and the head contracts the second layer's output with the
  head's weight and adds its bias.
-/
import proofs.«122068_j1322849927480_2_alg».proof.Proof.KernelSpecA
import proofs.«122068_j1322849927480_2_alg».proof.Proof.StageReads

noncomputable section

namespace Cert.KernelIdeal.StageSpec

open Idealize.ShloMosaic Idealize.ShloMosaic.ValueIdx Cert.KernelIdeal Cert.KernelIdeal.Gen Cert.KernelIdeal.Stage
open Cert.GraphSpec Cert.KernelIdeal.StageRead
open scoped BigOperators

/-- The specification's arguments, read off the ten arrays (an edge list's row 0 the sources, row 1 the destinations). -/
def toArgs (a : Stage.Inputs) : Cert.GraphSpec.Args where
  xd := fun u k => a.xd (ix2 u k)
  xs := fun u k => a.xs (ix2 u k)
  rdd := fun e => a.edd (ix2 (0 : Fin 2) e)
  cdd := fun e => a.edd (ix2 (1 : Fin 2) e)
  rss := fun e => a.ess (ix2 (0 : Fin 2) e)
  css := fun e => a.ess (ix2 (1 : Fin 2) e)
  rds := fun e => a.eds (ix2 (0 : Fin 2) e)
  cds := fun e => a.eds (ix2 (1 : Fin 2) e)
  rsd := fun e => a.esd (ix2 (0 : Fin 2) e)
  csd := fun e => a.esd (ix2 (1 : Fin 2) e)
  W := fun l q k j => a.Ws (ix4 l q k j)
  b := fun l q j => a.bs (ix3 l q j)
  lw := fun o k => a.lw (ix2 o k)
  lb := fun o => a.lb (ix1 o)

/-! ## The word lists -/

section Words
variable (a : Stage.Inputs)

theorem rdd_fn : (fun e => a.rdd (ix1 e)) = withLoops (toArgs a).rdd := by
  funext e
  show looped (words0 a.edd) (ix1 e) = withLoops (fun e => a.edd (ix2 (0 : Fin 2) e)) e
  rw [looped_apply]
  simp only [words0_apply]
theorem cdd_fn : (fun e => a.cdd (ix1 e)) = withLoops (toArgs a).cdd := by
  funext e
  show looped (words1 a.edd) (ix1 e) = withLoops (fun e => a.edd (ix2 (1 : Fin 2) e)) e
  rw [looped_apply]
  simp only [words1_apply]
theorem rss_fn : (fun e => a.rss (ix1 e)) = withLoops (toArgs a).rss := by
  funext e
  show looped (words0 a.ess) (ix1 e) = withLoops (fun e => a.ess (ix2 (0 : Fin 2) e)) e
  rw [looped_apply]
  simp only [words0_apply]
theorem css_fn : (fun e => a.css (ix1 e)) = withLoops (toArgs a).css := by
  funext e
  show looped (words1 a.ess) (ix1 e) = withLoops (fun e => a.ess (ix2 (1 : Fin 2) e)) e
  rw [looped_apply]
  simp only [words1_apply]
theorem rds_fn : (fun e => a.rds (ix1 e)) = (toArgs a).rds := funext fun e => words0_apply a.eds e
theorem cds_fn : (fun e => a.cds (ix1 e)) = (toArgs a).cds := funext fun e => words1_apply a.eds e
theorem rsd_fn : (fun e => a.rsd (ix1 e)) = (toArgs a).rsd := funext fun e => words0_apply a.esd e
theorem csd_fn : (fun e => a.csd (ix1 e)) = (toArgs a).csd := funext fun e => words1_apply a.esd e

end Words

/-! ## The normalisations -/

theorem norm850_apply (w : IVec S850000 32) (u : Fin 50000) :
    Stage.norm (deg850 (F := Ideal) w) (ix1 u) = dinv (fun e => w (ix1 e)) u := by
  rw [norm_apply, deg850_apply]; rfl
theorem norm800_apply (w : IVec S800000 32) (u : Fin 50000) :
    Stage.norm (deg800 (F := Ideal) w) (ix1 u) = dinv (fun e => w (ix1 e)) u := by
  rw [norm_apply, deg800_apply]; rfl

section Norms
variable (a : Stage.Inputs) (u : Fin 50000)
theorem nrdd_apply : a.nrdd (ix1 u) = dinv (withLoops (toArgs a).rdd) u := by rw [← rdd_fn]; exact norm850_apply a.rdd u
theorem ncdd_apply : a.ncdd (ix1 u) = dinv (withLoops (toArgs a).cdd) u := by rw [← cdd_fn]; exact norm850_apply a.cdd u
theorem nrss_apply : a.nrss (ix1 u) = dinv (withLoops (toArgs a).rss) u := by rw [← rss_fn]; exact norm850_apply a.rss u
theorem ncss_apply : a.ncss (ix1 u) = dinv (withLoops (toArgs a).css) u := by rw [← css_fn]; exact norm850_apply a.css u
theorem nrds_apply : a.nrds (ix1 u) = dinv (toArgs a).rds u := by rw [← rds_fn]; exact norm800_apply a.rds u
theorem ncds_apply : a.ncds (ix1 u) = dinv (toArgs a).cds u := by rw [← cds_fn]; exact norm800_apply a.cds u
theorem nrsd_apply : a.nrsd (ix1 u) = dinv (toArgs a).rsd u := by rw [← rsd_fn]; exact norm800_apply a.rsd u
theorem ncsd_apply : a.ncsd (ix1 u) = dinv (toArgs a).csd u := by rw [← csd_fn]; exact norm800_apply a.csd u
end Norms

/-! ## A merged projection's halves -/

section Halves
variable (X : FVec Ideal S50000x128 .f32) (Wa Wb : FVec Ideal S128x128 .f32) (S0 S1 : FVec Ideal S50000 .f32)
  (u : Fin 50000) (j : Fin 128)

theorem scaleProj_left :
    leftHalf (scaleProj X (wcat Wa Wb) (col S0) (col S1)) (ix2 u j)
      = (∑ k : Fin 128, X (ix2 u k) * Wa (ix2 k j)) * S0 (ix1 u) := by
  rw [leftHalf_apply]
  show (∑ k : Fin 128, X (ix2 u k) * wcat Wa Wb (ix2 k (⟨j.val, by omega⟩ : Fin 256)))
    * (if j.val < 128 then col S0 (ix2 u (0 : Fin 1)) else col S1 (ix2 u (0 : Fin 1))) = _
  rw [if_pos j.isLt, col_apply]
  simp only [wcat_left]

theorem scaleProj_right :
    rightHalf (scaleProj X (wcat Wa Wb) (col S0) (col S1)) (ix2 u j)
      = (∑ k : Fin 128, X (ix2 u k) * Wb (ix2 k j)) * S1 (ix1 u) := by
  rw [rightHalf_apply]
  show (∑ k : Fin 128, X (ix2 u k) * wcat Wa Wb (ix2 k (⟨j.val + 128, by omega⟩ : Fin 256)))
    * (if j.val + 128 < 128 then col S0 (ix2 u (0 : Fin 1)) else col S1 (ix2 u (0 : Fin 1))) = _
  rw [if_neg (by omega), col_apply]
  simp only [wcat_right]

end Halves

/-! ## One relation's aggregate -/

section Aggregate
variable (H : FVec Ideal S50000x128 .f32) (D : FVec Ideal S50000 .f32) (x : Node → Feat → EReal) (W : Feat → Feat → EReal)
  (v : Fin 50000) (j : Fin 128)

theorem agg850_scaled (r c : IVec S850000 32)
    (hH : ∀ u j, H (ix2 u j) = proj x W u j * dinv (fun e => r (ix1 e)) u)
    (hD : ∀ v, D (ix1 v) = dinv (fun e => c (ix1 e)) v) :
    agg850 H r c (ix2 v j) * col D (ix2 v (0 : Fin 1)) = aggKer (fun e => r (ix1 e)) (fun e => c (ix1 e)) x W v j := by
  rw [agg850_apply, col_apply, hD]
  simp only [hH]
  rfl

theorem agg800_scaled (r c : IVec S800000 32)
    (hH : ∀ u j, H (ix2 u j) = proj x W u j * dinv (fun e => r (ix1 e)) u)
    (hD : ∀ v, D (ix1 v) = dinv (fun e => c (ix1 e)) v) :
    agg800 H r c (ix2 v j) * col D (ix2 v (0 : Fin 1)) = aggKer (fun e => r (ix1 e)) (fun e => c (ix1 e)) x W v j := by
  rw [agg800_apply, col_apply, hD]
  simp only [hH]
  rfl

end Aggregate

/-! ## A layer's output per node type -/

section Layer
variable (a : Stage.Inputs) (l : Fin 2) (Xd Xs : FVec Ideal S50000x128 .f32) (W0 W2 W3 W1 : FVec Ideal S128x128 .f32)

/-- The drug side: the drug-drug aggregate (self loops appended) and the disease-to-drug aggregate. -/
theorem layer_d (B0 B3 : FVec Ideal S128 .f32)
    (hW0 : ∀ k j, W0 (ix2 k j) = a.Ws (ix4 l (0 : Fin 4) k j)) (hW3 : ∀ k j, W3 (ix2 k j) = a.Ws (ix4 l (3 : Fin 4) k j))
    (hB0 : ∀ j, B0 (ix1 j) = a.bs (ix3 l (0 : Fin 4) j)) (hB3 : ∀ j, B3 (ix1 j) = a.bs (ix3 l (3 : Fin 4) j))
    (v : Fin 50000) (j : Fin 128) :
    combine (agg850 (leftHalf (scaleProj Xd (wcat W0 W2) (col a.nrdd) (col a.nrds))) a.rdd a.cdd) (col a.ncdd)
      (agg800 (leftHalf (scaleProj Xs (wcat W3 W1) (col a.nrsd) (col a.nrss))) a.rsd a.csd) (col a.ncsd)
      (biasRow B0 B3) (ix2 v j)
    = (layerKer (toArgs a) l (fun u k => Xd (ix2 u k)) (fun u k => Xs (ix2 u k))).1 v j := by
  have hA := agg850_scaled (leftHalf (scaleProj Xd (wcat W0 W2) (col a.nrdd) (col a.nrds))) a.ncdd
    (fun u k => Xd (ix2 u k)) ((toArgs a).W l 0) v j a.rdd a.cdd
    (fun u j => by
      rw [scaleProj_left]
      simp only [hW0]
      rw [show a.nrdd (ix1 u) = dinv (fun e => a.rdd (ix1 e)) u from norm850_apply a.rdd u]
      rfl)
    (fun v => norm850_apply a.cdd v)
  have hB := agg800_scaled (leftHalf (scaleProj Xs (wcat W3 W1) (col a.nrsd) (col a.nrss))) a.ncsd
    (fun u k => Xs (ix2 u k)) ((toArgs a).W l 3) v j a.rsd a.csd
    (fun u j => by
      rw [scaleProj_left]
      simp only [hW3]
      rw [show a.nrsd (ix1 u) = dinv (fun e => a.rsd (ix1 e)) u from norm800_apply a.rsd u]
      rfl)
    (fun v => norm800_apply a.csd v)
  show max ((agg850 _ a.rdd a.cdd (ix2 v j) * col a.ncdd (ix2 v (0 : Fin 1))
      + agg800 _ a.rsd a.csd (ix2 v j) * col a.ncsd (ix2 v (0 : Fin 1)))
    + biasRow B0 B3 (ix2 (0 : Fin 1) j)) zero32 = _
  rw [hA, hB, biasRow_apply, hB0, hB3, rdd_fn, cdd_fn, rsd_fn, csd_fn]
  rfl

/-- The disease side: the disease-disease aggregate (self loops appended) and the drug-to-disease aggregate. -/
theorem layer_s (B1 B2 : FVec Ideal S128 .f32)
    (hW1 : ∀ k j, W1 (ix2 k j) = a.Ws (ix4 l (1 : Fin 4) k j)) (hW2 : ∀ k j, W2 (ix2 k j) = a.Ws (ix4 l (2 : Fin 4) k j))
    (hB1 : ∀ j, B1 (ix1 j) = a.bs (ix3 l (1 : Fin 4) j)) (hB2 : ∀ j, B2 (ix1 j) = a.bs (ix3 l (2 : Fin 4) j))
    (v : Fin 50000) (j : Fin 128) :
    combine (agg850 (rightHalf (scaleProj Xs (wcat W3 W1) (col a.nrsd) (col a.nrss))) a.rss a.css) (col a.ncss)
      (agg800 (rightHalf (scaleProj Xd (wcat W0 W2) (col a.nrdd) (col a.nrds))) a.rds a.cds) (col a.ncds)
      (biasRow B1 B2) (ix2 v j)
    = (layerKer (toArgs a) l (fun u k => Xd (ix2 u k)) (fun u k => Xs (ix2 u k))).2 v j := by
  have hA := agg850_scaled (rightHalf (scaleProj Xs (wcat W3 W1) (col a.nrsd) (col a.nrss))) a.ncss
    (fun u k => Xs (ix2 u k)) ((toArgs a).W l 1) v j a.rss a.css
    (fun u j => by
      rw [scaleProj_right]
      simp only [hW1]
      rw [show a.nrss (ix1 u) = dinv (fun e => a.rss (ix1 e)) u from norm850_apply a.rss u]
      rfl)
    (fun v => norm850_apply a.css v)
  have hB := agg800_scaled (rightHalf (scaleProj Xd (wcat W0 W2) (col a.nrdd) (col a.nrds))) a.ncds
    (fun u k => Xd (ix2 u k)) ((toArgs a).W l 2) v j a.rds a.cds
    (fun u j => by
      rw [scaleProj_right]
      simp only [hW2]
      rw [show a.nrds (ix1 u) = dinv (fun e => a.rds (ix1 e)) u from norm800_apply a.rds u]
      rfl)
    (fun v => norm800_apply a.cds v)
  show max ((agg850 _ a.rss a.css (ix2 v j) * col a.ncss (ix2 v (0 : Fin 1))
      + agg800 _ a.rds a.cds (ix2 v j) * col a.ncds (ix2 v (0 : Fin 1)))
    + biasRow B1 B2 (ix2 (0 : Fin 1) j)) zero32 = _
  rw [hA, hB, biasRow_apply, hB1, hB2, rss_fn, css_fn, rds_fn, cds_fn]
  rfl

end Layer

/-! ## The network -/

section Network
variable (a : Stage.Inputs)

theorem X1d_apply (v : Fin 50000) (j : Fin 128) :
    a.X1d (ix2 v j) = (layerKer (toArgs a) 0 (toArgs a).xd (toArgs a).xs).1 v j :=
  layer_d a 0 a.xd a.xs (w00 a.Ws) (w02 a.Ws) (w03 a.Ws) (w01 a.Ws) (b00 a.bs) (b03 a.bs)
    (w00_apply _) (w03_apply _) (b00_apply _) (b03_apply _) v j
theorem X1s_apply (v : Fin 50000) (j : Fin 128) :
    a.X1s (ix2 v j) = (layerKer (toArgs a) 0 (toArgs a).xd (toArgs a).xs).2 v j :=
  layer_s a 0 a.xd a.xs (w00 a.Ws) (w02 a.Ws) (w03 a.Ws) (w01 a.Ws) (b01 a.bs) (b02 a.bs)
    (w01_apply _) (w02_apply _) (b01_apply _) (b02_apply _) v j

theorem X1d_fn : (fun u k => a.X1d (ix2 u k)) = (layerKer (toArgs a) 0 (toArgs a).xd (toArgs a).xs).1 :=
  funext fun u => funext fun k => X1d_apply a u k
theorem X1s_fn : (fun u k => a.X1s (ix2 u k)) = (layerKer (toArgs a) 0 (toArgs a).xd (toArgs a).xs).2 :=
  funext fun u => funext fun k => X1s_apply a u k

/-- The drug result is the specification's. -/
theorem Yd_eq (v : Fin 50000) (o : Fin 64) : a.Yd (ix2 v o) = (netKer (toArgs a)).1 v o := by
  have hX : ∀ k : Fin 128,
      combine (agg850 (leftHalf a.H2d) a.rdd a.cdd) (col a.ncdd) (agg800 (leftHalf a.H2s) a.rsd a.csd) (col a.ncsd)
        (biasRow (b10 a.bs) (b13 a.bs)) (ix2 v k)
      = (layerKer (toArgs a) 1 (fun u k => a.X1d (ix2 u k)) (fun u k => a.X1s (ix2 u k))).1 v k :=
    fun k => layer_d a 1 a.X1d a.X1s (w10 a.Ws) (w12 a.Ws) (w13 a.Ws) (w11 a.Ws) (b10 a.bs) (b13 a.bs)
      (w10_apply _) (w13_apply _) (b10_apply _) (b13_apply _) v k
  show (∑ k : Fin 128,
      combine (agg850 (leftHalf a.H2d) a.rdd a.cdd) (col a.ncdd) (agg800 (leftHalf a.H2s) a.rsd a.csd) (col a.ncsd)
        (biasRow (b10 a.bs) (b13 a.bs)) (ix2 v k) * lwT a.lw (ix2 k o)) + lbRow a.lb (ix2 (0 : Fin 1) o) = _
  simp only [hX, lwT_apply, lbRow_apply]
  rw [X1d_fn, X1s_fn]
  rfl

/-- The disease result is the specification's. -/
theorem Ys_eq (v : Fin 50000) (o : Fin 64) : a.Ys (ix2 v o) = (netKer (toArgs a)).2 v o := by
  have hX : ∀ k : Fin 128,
      combine (agg850 (rightHalf a.H2s) a.rss a.css) (col a.ncss) (agg800 (rightHalf a.H2d) a.rds a.cds) (col a.ncds)
        (biasRow (b11 a.bs) (b12 a.bs)) (ix2 v k)
      = (layerKer (toArgs a) 1 (fun u k => a.X1d (ix2 u k)) (fun u k => a.X1s (ix2 u k))).2 v k :=
    fun k => layer_s a 1 a.X1d a.X1s (w10 a.Ws) (w12 a.Ws) (w13 a.Ws) (w11 a.Ws) (b11 a.bs) (b12 a.bs)
      (w11_apply _) (w12_apply _) (b11_apply _) (b12_apply _) v k
  show (∑ k : Fin 128,
      combine (agg850 (rightHalf a.H2s) a.rss a.css) (col a.ncss) (agg800 (rightHalf a.H2d) a.rds a.cds) (col a.ncds)
        (biasRow (b11 a.bs) (b12 a.bs)) (ix2 v k) * lwT a.lw (ix2 k o)) + lbRow a.lb (ix2 (0 : Fin 1) o) = _
  simp only [hX, lwT_apply, lbRow_apply]
  rw [X1d_fn, X1s_fn]
  rfl

end Network

end Cert.KernelIdeal.StageSpec

end
-- ==== Proof.Assembly.lean ====
/-
  The five claims of the certificate, assembled from the pieces.

  The kernel as printed and its idealization run and leave their ten arguments unchanged: the generated frames. The
  idealization rewrote no operation, so what it preserves is nothing to show. The reference's frame is its run with the
  two results dropped.

  The algebraic claim. The idealized kernel's run ends with its two results at the values the fold over its segments
  gives them; read back, these are the two arrays Yd and Ys of the kernel's stages over the ten arguments, and index by
  index Yd and Ys are the two components of the kernel-side network netKer of the arguments read as node features, edge
  words, weights and biases. The reference's run ends with its two results R1 and R2, index by index the two components
  of the reference-side network netRef of ITS arguments read the same way. The two memories agree on the ten arguments,
  so the two readings of the arguments are one; and netKer = netRef (a nonnegative real normalisation moved out of a
  finite sum of extended reals). So the witnesses are Yd and Ys.

  What the two runs end with enters here as hypotheses (the fold's two values read back; the reference's run with its
  results named and read index by index), so that this module stands on the mathematics and the generated frames alone.
-/
import proofs.«122068_j1322849927480_2_alg».proof.Defs
import proofs.«122068_j1322849927480_2_alg».proof.Proof.Gen.Kernel.Frame
import proofs.«122068_j1322849927480_2_alg».proof.Proof.Gen.ReferenceIdeal
import proofs.«122068_j1322849927480_2_alg».proof.Proof.Gen.Pre_finite_inputs
import proofs.«122068_j1322849927480_2_alg».proof.Proof.KernelRun
import proofs.«122068_j1322849927480_2_alg».proof.Proof.KernelInputs
import proofs.«122068_j1322849927480_2_alg».proof.Proof.KernelSpec

noncomputable section

namespace Cert.Proof.Assembly

open Idealize.ShloMosaic Idealize.ShloMosaic.TcCoe Idealize.ShloMosaic.ValueIdx Idealize.SL.Sem

/-! ## The frames of the kernel and of its idealization, and what the idealization preserves -/

theorem frame_k : Cert.frame_Kernel := fun m ρ _ => Cert.Kernel.Gen.frame m ρ
theorem frame_ki : Cert.frame_KernelIdeal := fun m ρ _ => Cert.KernelIdeal.Gen.frame m ρ
theorem preserves : Cert.preserves_Kernel_KernelIdeal := trivial

/-! ## The reference's side, as it enters -/

/-- The reference's ten argument arrays on device `c`, read as the mathematics' arguments: node features, the four
    edge lists' source and destination words (row 0 and row 1), the weights, the biases, the head. -/
def refArgsOf (m' : (ℓ : Loc Cert.ReferenceIdeal.nD Cert.ReferenceIdeal.τ Cert.ReferenceIdeal.sig) → Buf (Elt Ideal) ℓ) (c : Dev Cert.ReferenceIdeal.nD) : Cert.GraphSpec.Args where
  xd := fun u k => m' ((c.tc : Thread Cert.ReferenceIdeal.nD Cert.ReferenceIdeal.τ).loc Cert.ReferenceIdeal.main_arg0) (ix2 u k)
  xs := fun u k => m' ((c.tc : Thread Cert.ReferenceIdeal.nD Cert.ReferenceIdeal.τ).loc Cert.ReferenceIdeal.main_arg1) (ix2 u k)
  rdd := fun e => m' ((c.tc : Thread Cert.ReferenceIdeal.nD Cert.ReferenceIdeal.τ).loc Cert.ReferenceIdeal.main_arg2) (ix2 0 e)
  cdd := fun e => m' ((c.tc : Thread Cert.ReferenceIdeal.nD Cert.ReferenceIdeal.τ).loc Cert.ReferenceIdeal.main_arg2) (ix2 1 e)
  rss := fun e => m' ((c.tc : Thread Cert.ReferenceIdeal.nD Cert.ReferenceIdeal.τ).loc Cert.ReferenceIdeal.main_arg3) (ix2 0 e)
  css := fun e => m' ((c.tc : Thread Cert.ReferenceIdeal.nD Cert.ReferenceIdeal.τ).loc Cert.ReferenceIdeal.main_arg3) (ix2 1 e)
  rds := fun e => m' ((c.tc : Thread Cert.ReferenceIdeal.nD Cert.ReferenceIdeal.τ).loc Cert.ReferenceIdeal.main_arg4) (ix2 0 e)
  cds := fun e => m' ((c.tc : Thread Cert.ReferenceIdeal.nD Cert.ReferenceIdeal.τ).loc Cert.ReferenceIdeal.main_arg4) (ix2 1 e)
  rsd := fun e => m' ((c.tc : Thread Cert.ReferenceIdeal.nD Cert.ReferenceIdeal.τ).loc Cert.ReferenceIdeal.main_arg5) (ix2 0 e)
  csd := fun e => m' ((c.tc : Thread Cert.ReferenceIdeal.nD Cert.ReferenceIdeal.τ).loc Cert.ReferenceIdeal.main_arg5) (ix2 1 e)
  W := fun l q k j => m' ((c.tc : Thread Cert.ReferenceIdeal.nD Cert.ReferenceIdeal.τ).loc Cert.ReferenceIdeal.main_arg6) (ix4 l q k j)
  b := fun l q j => m' ((c.tc : Thread Cert.ReferenceIdeal.nD Cert.ReferenceIdeal.τ).loc Cert.ReferenceIdeal.main_arg7) (ix3 l q j)
  lw := fun o k => m' ((c.tc : Thread Cert.ReferenceIdeal.nD Cert.ReferenceIdeal.τ).loc Cert.ReferenceIdeal.main_arg8) (ix2 o k)
  lb := fun o => m' ((c.tc : Thread Cert.ReferenceIdeal.nD Cert.ReferenceIdeal.τ).loc Cert.ReferenceIdeal.main_arg9) (ix1 o)

/-- Every weakly fair execution of the reference terminates with its two results at `R1` and `R2` and its ten
    arguments unchanged. -/
def RefRunsTo
    (R1 : (m' : (ℓ : Loc Cert.ReferenceIdeal.nD Cert.ReferenceIdeal.τ Cert.ReferenceIdeal.sig) → Buf (Elt Ideal) ℓ) → (c : Dev Cert.ReferenceIdeal.nD) → Buf (Elt Ideal) ((c.tc : Thread Cert.ReferenceIdeal.nD Cert.ReferenceIdeal.τ).loc Cert.ReferenceIdeal.main_v496))
    (R2 : (m' : (ℓ : Loc Cert.ReferenceIdeal.nD Cert.ReferenceIdeal.τ Cert.ReferenceIdeal.sig) → Buf (Elt Ideal) ℓ) → (c : Dev Cert.ReferenceIdeal.nD) → Buf (Elt Ideal) ((c.tc : Thread Cert.ReferenceIdeal.nD Cert.ReferenceIdeal.τ).loc Cert.ReferenceIdeal.main_v501)) : Prop :=
  ∀ (m' : (ℓ : Loc Cert.ReferenceIdeal.nD Cert.ReferenceIdeal.τ Cert.ReferenceIdeal.sig) → Buf (Elt Ideal) ℓ) (ρ' : Dev Cert.ReferenceIdeal.nD → PrngReg),
    θ_run (Cert.ReferenceIdeal.defs (F := Ideal)) (onTc (τ := Cert.ReferenceIdeal.τ) (Cert.ReferenceIdeal.main (F := Ideal))) ⟨m', fun _ => 0, ρ'⟩
      (fun r => ∀ c : Dev Cert.ReferenceIdeal.nD,
      r.2.mem ((c.tc : Thread Cert.ReferenceIdeal.nD Cert.ReferenceIdeal.τ).loc Cert.ReferenceIdeal.main_v496) = R1 m' c
      ∧ r.2.mem ((c.tc : Thread Cert.ReferenceIdeal.nD Cert.ReferenceIdeal.τ).loc Cert.ReferenceIdeal.main_v501) = R2 m' c
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

section Reference
variable
    (R1 : (m' : (ℓ : Loc Cert.ReferenceIdeal.nD Cert.ReferenceIdeal.τ Cert.ReferenceIdeal.sig) → Buf (Elt Ideal) ℓ) → (c : Dev Cert.ReferenceIdeal.nD) → Buf (Elt Ideal) ((c.tc : Thread Cert.ReferenceIdeal.nD Cert.ReferenceIdeal.τ).loc Cert.ReferenceIdeal.main_v496))
    (R2 : (m' : (ℓ : Loc Cert.ReferenceIdeal.nD Cert.ReferenceIdeal.τ Cert.ReferenceIdeal.sig) → Buf (Elt Ideal) ℓ) → (c : Dev Cert.ReferenceIdeal.nD) → Buf (Elt Ideal) ((c.tc : Thread Cert.ReferenceIdeal.nD Cert.ReferenceIdeal.τ).loc Cert.ReferenceIdeal.main_v501))
    (href : RefRunsTo R1 R2)

include href in
/-- The reference's frame: its run with the two results dropped. -/
theorem frame_ri_of : Cert.frame_ReferenceIdeal := fun m ρ _ =>
  (θ_run Cert.ReferenceIdeal.defs _ _).mono (fun _ h c => (h c).2.2) (href m ρ)

/-! ## The algebraic claim -/

include href in
/-- Given that the fold's two result values, read back, are the stages' arrays Yd and Ys of the launch arguments
    (`hYd`, `hYs`), and that the reference's two results are, index by index, the two components of the network of
    its arguments (`hR1`, `hR2`), the idealized kernel and the idealized reference end with equal results: both
    are the network of the arguments, once with the normalisation outside the sum and once inside. -/
theorem algebraic_of
    (hYd : ∀ (m : (ℓ : Loc Cert.KernelIdeal.nD Cert.KernelIdeal.τ Cert.KernelIdeal.sig) → Buf (Elt Ideal) ℓ)
      (ρ : Dev Cert.KernelIdeal.nD → PrngReg) (c : Dev Cert.KernelIdeal.nD),
      (Cert.KernelIdeal.Gen.W32 m ρ c (Proc.devRef .tc Cert.KernelIdeal.main_v251) : FVec Ideal Cert.KernelIdeal.S50000x64 .f32)
        = (Cert.KernelIdeal.Fold.inputsOf m c).Yd)
    (hYs : ∀ (m : (ℓ : Loc Cert.KernelIdeal.nD Cert.KernelIdeal.τ Cert.KernelIdeal.sig) → Buf (Elt Ideal) ℓ)
      (ρ : Dev Cert.KernelIdeal.nD → PrngReg) (c : Dev Cert.KernelIdeal.nD),
      (Cert.KernelIdeal.Gen.W32 m ρ c (Proc.devRef .tc Cert.KernelIdeal.main_v256) : FVec Ideal Cert.KernelIdeal.S50000x64 .f32)
        = (Cert.KernelIdeal.Fold.inputsOf m c).Ys)
    (hR1 : ∀ (m' : (ℓ : Loc Cert.ReferenceIdeal.nD Cert.ReferenceIdeal.τ Cert.ReferenceIdeal.sig) → Buf (Elt Ideal) ℓ) (c : Dev Cert.ReferenceIdeal.nD) (v : Fin 50000) (o : Fin 64),
      R1 m' c (ix2 v o) = (Cert.GraphSpec.netRef (refArgsOf m' c)).1 v o)
    (hR2 : ∀ (m' : (ℓ : Loc Cert.ReferenceIdeal.nD Cert.ReferenceIdeal.τ Cert.ReferenceIdeal.sig) → Buf (Elt Ideal) ℓ) (c : Dev Cert.ReferenceIdeal.nD) (v : Fin 50000) (o : Fin 64),
      R2 m' c (ix2 v o) = (Cert.GraphSpec.netRef (refArgsOf m' c)).2 v o) :
    Cert.algebraic_KernelIdeal_ReferenceIdeal := by
  intro m g m' g' _ hagree
  -- the two memories agree on the ten arguments, so the two readings of the arguments are one
  have hargs : ∀ c, Cert.KernelIdeal.StageSpec.toArgs (Cert.KernelIdeal.Fold.inputsOf m c) = refArgsOf m' c := by
    intro c
    obtain ⟨h0, h1, h2, h3, h4, h5, h6, h7, h8, h9⟩ := hagree c
    unfold Cert.KernelIdeal.StageSpec.toArgs Cert.KernelIdeal.Fold.inputsOf refArgsOf
    rw [h0, h1, h2, h3, h4, h5, h6, h7, h8, h9]
  refine ⟨fun c => (Cert.KernelIdeal.Fold.inputsOf m c).Yd, fun c => (Cert.KernelIdeal.Fold.inputsOf m c).Ys, ?_, ?_⟩
  · -- the kernel's run, its two results read back
    exact (θ_run Cert.KernelIdeal.defs _ _).mono
      (fun _ h c => ⟨(h c).1.trans (hYd m g c), (h c).2.1.trans (hYs m g c), (h c).2.2⟩)
      (Cert.KernelIdeal.RunValue.run_named (F := Ideal) m g)
  · -- the reference's run, its two results index by index the same network of the same arguments
    refine (θ_run Cert.ReferenceIdeal.defs _ _).mono
      (fun _ h c => ⟨(h c).1.trans ?_, (h c).2.1.trans ?_, (h c).2.2⟩) (href m' g')
    · show (R1 m' c : FVec Ideal Cert.KernelIdeal.S50000x64 .f32) = (Cert.KernelIdeal.Fold.inputsOf m c).Yd
      funext i
      obtain ⟨v, o, rfl⟩ : ∃ v o, i = ix2 v o := ⟨i 0, i 1, eq_ix2 i⟩
      rw [hR1, Cert.KernelIdeal.StageSpec.Yd_eq, Cert.GraphSpec.net_eq, hargs c]
    · show (R2 m' c : FVec Ideal Cert.KernelIdeal.S50000x64 .f32) = (Cert.KernelIdeal.Fold.inputsOf m c).Ys
      funext i
      obtain ⟨v, o, rfl⟩ : ∃ v o, i = ix2 v o := ⟨i 0, i 1, eq_ix2 i⟩
      rw [hR2, Cert.KernelIdeal.StageSpec.Ys_eq, Cert.GraphSpec.net_eq, hargs c]

end Reference

end Cert.Proof.Assembly

end
-- ==== Proof.Keeps.lean ====
/-
  What each stretch of host operations leaves alone.

  Every host operation writes one buffer, its result. A stretch's written buffers are listed once, as references, and a
  buffer outside that list holds after the stretch what it held before it; whether a reference is in a list is decided on
  the references themselves. Together with the regions' own statement (a region rewrites its output array and nothing else)
  this lets any buffer be followed back, boundary by boundary, to the operation that made it.
-/
import proofs.«122068_j1322849927480_2_alg».proof.Proof.Gen.KernelIdeal.Launch
import Idealize.ShloMosaic.Lib.StableHlo.Run

set_option maxRecDepth 16384

noncomputable section

namespace Cert.KernelIdeal.Fold

open Idealize.ShloMosaic Idealize.ShloMosaic.TcCoe
open Cert.KernelIdeal Cert.KernelIdeal.Gen

variable {F : FTy → Type} [FloatOps F]

/-- The buffers the stretch `hostOps0` writes. -/
abbrev wr0 : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_cst, main_v22, main_cst_0, main_v23, main_v24, main_v25, main_cst_1, main_v26, main_v27, main_v28, main_cst_2, main_v29, main_v30, main_cst_3, main_v31, main_v32, main_v33, main_cst_4]
set_option maxHeartbeats 4000000 in
theorem wr0_sub : (hostOps0 : List (HloOp τ sig (Elt F))).Forall fun op => op.writes ⊆ (wr0.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch `hostOps0` does not write holds after it what it held before. -/
theorem keep0 (X : Valuation τ sig (Elt F)) (r : Ref sig .tc) (h : r ∉ wr0) :
    StableHlo.after hostOps0 X (Proc.devRef .tc r) = X (Proc.devRef .tc r) :=
  StableHlo.after_of_writes_sub hostOps0 X wr0_sub h

/-- The buffers the stretch `hostOps0_1` writes. -/
abbrev wr0_1 : List (Ref sig .tc) := [main_call0_v0, main_call0_v1, main_v34]
set_option maxHeartbeats 4000000 in
theorem wr0_1_sub : (hostOps0_1 : List (HloOp τ sig (Elt F))).Forall fun op => op.writes ⊆ (wr0_1.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch `hostOps0_1` does not write holds after it what it held before. -/
theorem keep0_1 (X : Valuation τ sig (Elt F)) (r : Ref sig .tc) (h : r ∉ wr0_1) :
    StableHlo.after hostOps0_1 X (Proc.devRef .tc r) = X (Proc.devRef .tc r) :=
  StableHlo.after_of_writes_sub hostOps0_1 X wr0_1_sub h

/-- The buffers the stretch `hostOps0_2` writes. -/
abbrev wr0_2 : List (Ref sig .tc) := [main_cst_5, main_v35, main_v36, main_cst_6, main_v37, main_v38, main_v39, main_cst_7]
set_option maxHeartbeats 4000000 in
theorem wr0_2_sub : (hostOps0_2 : List (HloOp τ sig (Elt F))).Forall fun op => op.writes ⊆ (wr0_2.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch `hostOps0_2` does not write holds after it what it held before. -/
theorem keep0_2 (X : Valuation τ sig (Elt F)) (r : Ref sig .tc) (h : r ∉ wr0_2) :
    StableHlo.after hostOps0_2 X (Proc.devRef .tc r) = X (Proc.devRef .tc r) :=
  StableHlo.after_of_writes_sub hostOps0_2 X wr0_2_sub h

/-- The buffers the stretch `hostOps0_3` writes. -/
abbrev wr0_3 : List (Ref sig .tc) := [main_call1_v0, main_call1_v1, main_v40]
set_option maxHeartbeats 4000000 in
theorem wr0_3_sub : (hostOps0_3 : List (HloOp τ sig (Elt F))).Forall fun op => op.writes ⊆ (wr0_3.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch `hostOps0_3` does not write holds after it what it held before. -/
theorem keep0_3 (X : Valuation τ sig (Elt F)) (r : Ref sig .tc) (h : r ∉ wr0_3) :
    StableHlo.after hostOps0_3 X (Proc.devRef .tc r) = X (Proc.devRef .tc r) :=
  StableHlo.after_of_writes_sub hostOps0_3 X wr0_3_sub h

/-- The buffers the stretch `hostOps0_4` writes. -/
abbrev wr0_4 : List (Ref sig .tc) := [main_cst_8, main_v41, main_cst_9, main_v42, main_v43, main_v44, main_cst_10, main_v45, main_v46, main_v47, main_cst_11, main_v48, main_v49, main_cst_12, main_v50, main_v51, main_v52, main_cst_13]
set_option maxHeartbeats 4000000 in
theorem wr0_4_sub : (hostOps0_4 : List (HloOp τ sig (Elt F))).Forall fun op => op.writes ⊆ (wr0_4.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch `hostOps0_4` does not write holds after it what it held before. -/
theorem keep0_4 (X : Valuation τ sig (Elt F)) (r : Ref sig .tc) (h : r ∉ wr0_4) :
    StableHlo.after hostOps0_4 X (Proc.devRef .tc r) = X (Proc.devRef .tc r) :=
  StableHlo.after_of_writes_sub hostOps0_4 X wr0_4_sub h

/-- The buffers the stretch `hostOps0_5` writes. -/
abbrev wr0_5 : List (Ref sig .tc) := [main_call2_v0, main_call2_v1, main_v53]
set_option maxHeartbeats 4000000 in
theorem wr0_5_sub : (hostOps0_5 : List (HloOp τ sig (Elt F))).Forall fun op => op.writes ⊆ (wr0_5.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch `hostOps0_5` does not write holds after it what it held before. -/
theorem keep0_5 (X : Valuation τ sig (Elt F)) (r : Ref sig .tc) (h : r ∉ wr0_5) :
    StableHlo.after hostOps0_5 X (Proc.devRef .tc r) = X (Proc.devRef .tc r) :=
  StableHlo.after_of_writes_sub hostOps0_5 X wr0_5_sub h

/-- The buffers the stretch `hostOps0_6` writes. -/
abbrev wr0_6 : List (Ref sig .tc) := [main_cst_14, main_v54, main_v55, main_cst_15, main_v56, main_v57, main_v58, main_cst_16]
set_option maxHeartbeats 4000000 in
theorem wr0_6_sub : (hostOps0_6 : List (HloOp τ sig (Elt F))).Forall fun op => op.writes ⊆ (wr0_6.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch `hostOps0_6` does not write holds after it what it held before. -/
theorem keep0_6 (X : Valuation τ sig (Elt F)) (r : Ref sig .tc) (h : r ∉ wr0_6) :
    StableHlo.after hostOps0_6 X (Proc.devRef .tc r) = X (Proc.devRef .tc r) :=
  StableHlo.after_of_writes_sub hostOps0_6 X wr0_6_sub h

/-- The buffers the stretch `hostOps0_7` writes. -/
abbrev wr0_7 : List (Ref sig .tc) := [main_call3_v0, main_call3_v1, main_v59]
set_option maxHeartbeats 4000000 in
theorem wr0_7_sub : (hostOps0_7 : List (HloOp τ sig (Elt F))).Forall fun op => op.writes ⊆ (wr0_7.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch `hostOps0_7` does not write holds after it what it held before. -/
theorem keep0_7 (X : Valuation τ sig (Elt F)) (r : Ref sig .tc) (h : r ∉ wr0_7) :
    StableHlo.after hostOps0_7 X (Proc.devRef .tc r) = X (Proc.devRef .tc r) :=
  StableHlo.after_of_writes_sub hostOps0_7 X wr0_7_sub h

/-- The buffers the stretch `hostOps0_8` writes. -/
abbrev wr0_8 : List (Ref sig .tc) := [main_cst_17, main_v60, main_cst_18, main_v61, main_v62, main_v63, main_cst_19, main_v64, main_v65, main_v66, main_cst_20, main_v67, main_v68, main_cst_21, main_v69, main_v70, main_v71, main_cst_22]
set_option maxHeartbeats 4000000 in
theorem wr0_8_sub : (hostOps0_8 : List (HloOp τ sig (Elt F))).Forall fun op => op.writes ⊆ (wr0_8.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch `hostOps0_8` does not write holds after it what it held before. -/
theorem keep0_8 (X : Valuation τ sig (Elt F)) (r : Ref sig .tc) (h : r ∉ wr0_8) :
    StableHlo.after hostOps0_8 X (Proc.devRef .tc r) = X (Proc.devRef .tc r) :=
  StableHlo.after_of_writes_sub hostOps0_8 X wr0_8_sub h

/-- The buffers the stretch `hostOps0_9` writes. -/
abbrev wr0_9 : List (Ref sig .tc) := [main_call4_v0, main_call4_v1, main_v72]
set_option maxHeartbeats 4000000 in
theorem wr0_9_sub : (hostOps0_9 : List (HloOp τ sig (Elt F))).Forall fun op => op.writes ⊆ (wr0_9.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch `hostOps0_9` does not write holds after it what it held before. -/
theorem keep0_9 (X : Valuation τ sig (Elt F)) (r : Ref sig .tc) (h : r ∉ wr0_9) :
    StableHlo.after hostOps0_9 X (Proc.devRef .tc r) = X (Proc.devRef .tc r) :=
  StableHlo.after_of_writes_sub hostOps0_9 X wr0_9_sub h

/-- The buffers the stretch `hostOps0_10` writes. -/
abbrev wr0_10 : List (Ref sig .tc) := [main_cst_23, main_v73, main_v74, main_cst_24, main_v75, main_v76, main_v77, main_cst_25]
set_option maxHeartbeats 4000000 in
theorem wr0_10_sub : (hostOps0_10 : List (HloOp τ sig (Elt F))).Forall fun op => op.writes ⊆ (wr0_10.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch `hostOps0_10` does not write holds after it what it held before. -/
theorem keep0_10 (X : Valuation τ sig (Elt F)) (r : Ref sig .tc) (h : r ∉ wr0_10) :
    StableHlo.after hostOps0_10 X (Proc.devRef .tc r) = X (Proc.devRef .tc r) :=
  StableHlo.after_of_writes_sub hostOps0_10 X wr0_10_sub h

/-- The buffers the stretch `hostOps0_11` writes. -/
abbrev wr0_11 : List (Ref sig .tc) := [main_call5_v0, main_call5_v1, main_v78]
set_option maxHeartbeats 4000000 in
theorem wr0_11_sub : (hostOps0_11 : List (HloOp τ sig (Elt F))).Forall fun op => op.writes ⊆ (wr0_11.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch `hostOps0_11` does not write holds after it what it held before. -/
theorem keep0_11 (X : Valuation τ sig (Elt F)) (r : Ref sig .tc) (h : r ∉ wr0_11) :
    StableHlo.after hostOps0_11 X (Proc.devRef .tc r) = X (Proc.devRef .tc r) :=
  StableHlo.after_of_writes_sub hostOps0_11 X wr0_11_sub h

/-- The buffers the stretch `hostOps0_12` writes. -/
abbrev wr0_12 : List (Ref sig .tc) := [main_cst_26, main_v79, main_cst_27, main_v80, main_v81, main_v82, main_cst_28, main_v83, main_v84, main_v85, main_cst_29, main_v86, main_v87, main_cst_30, main_v88, main_v89, main_v90, main_cst_31]
set_option maxHeartbeats 4000000 in
theorem wr0_12_sub : (hostOps0_12 : List (HloOp τ sig (Elt F))).Forall fun op => op.writes ⊆ (wr0_12.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch `hostOps0_12` does not write holds after it what it held before. -/
theorem keep0_12 (X : Valuation τ sig (Elt F)) (r : Ref sig .tc) (h : r ∉ wr0_12) :
    StableHlo.after hostOps0_12 X (Proc.devRef .tc r) = X (Proc.devRef .tc r) :=
  StableHlo.after_of_writes_sub hostOps0_12 X wr0_12_sub h

/-- The buffers the stretch `hostOps0_13` writes. -/
abbrev wr0_13 : List (Ref sig .tc) := [main_call6_v0, main_call6_v1, main_v91]
set_option maxHeartbeats 4000000 in
theorem wr0_13_sub : (hostOps0_13 : List (HloOp τ sig (Elt F))).Forall fun op => op.writes ⊆ (wr0_13.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch `hostOps0_13` does not write holds after it what it held before. -/
theorem keep0_13 (X : Valuation τ sig (Elt F)) (r : Ref sig .tc) (h : r ∉ wr0_13) :
    StableHlo.after hostOps0_13 X (Proc.devRef .tc r) = X (Proc.devRef .tc r) :=
  StableHlo.after_of_writes_sub hostOps0_13 X wr0_13_sub h

/-- The buffers the stretch `hostOps0_14` writes. -/
abbrev wr0_14 : List (Ref sig .tc) := [main_cst_32, main_v92, main_v93, main_cst_33, main_v94, main_v95, main_v96, main_cst_34]
set_option maxHeartbeats 4000000 in
theorem wr0_14_sub : (hostOps0_14 : List (HloOp τ sig (Elt F))).Forall fun op => op.writes ⊆ (wr0_14.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch `hostOps0_14` does not write holds after it what it held before. -/
theorem keep0_14 (X : Valuation τ sig (Elt F)) (r : Ref sig .tc) (h : r ∉ wr0_14) :
    StableHlo.after hostOps0_14 X (Proc.devRef .tc r) = X (Proc.devRef .tc r) :=
  StableHlo.after_of_writes_sub hostOps0_14 X wr0_14_sub h

/-- The buffers the stretch `hostOps0_15` writes. -/
abbrev wr0_15 : List (Ref sig .tc) := [main_call7_v0, main_call7_v1, main_v97]
set_option maxHeartbeats 4000000 in
theorem wr0_15_sub : (hostOps0_15 : List (HloOp τ sig (Elt F))).Forall fun op => op.writes ⊆ (wr0_15.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch `hostOps0_15` does not write holds after it what it held before. -/
theorem keep0_15 (X : Valuation τ sig (Elt F)) (r : Ref sig .tc) (h : r ∉ wr0_15) :
    StableHlo.after hostOps0_15 X (Proc.devRef .tc r) = X (Proc.devRef .tc r) :=
  StableHlo.after_of_writes_sub hostOps0_15 X wr0_15_sub h

/-- The buffers the stretch `hostOps0_16` writes. -/
abbrev wr0_16 : List (Ref sig .tc) := [main_v98, main_v99, main_v100, main_v101, main_v102, main_v103, main_v104, main_v105, main_v106, main_v107, main_v108, main_v109, main_v110]
set_option maxHeartbeats 4000000 in
theorem wr0_16_sub : (hostOps0_16 : List (HloOp τ sig (Elt F))).Forall fun op => op.writes ⊆ (wr0_16.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch `hostOps0_16` does not write holds after it what it held before. -/
theorem keep0_16 (X : Valuation τ sig (Elt F)) (r : Ref sig .tc) (h : r ∉ wr0_16) :
    StableHlo.after hostOps0_16 X (Proc.devRef .tc r) = X (Proc.devRef .tc r) :=
  StableHlo.after_of_writes_sub hostOps0_16 X wr0_16_sub h

/-- The buffers the stretch `hostOps1` writes. -/
abbrev wr1 : List (Ref sig .tc) := [main_v112, main_v113]
set_option maxHeartbeats 4000000 in
theorem wr1_sub : (hostOps1 : List (HloOp τ sig (Elt F))).Forall fun op => op.writes ⊆ (wr1.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch `hostOps1` does not write holds after it what it held before. -/
theorem keep1 (X : Valuation τ sig (Elt F)) (r : Ref sig .tc) (h : r ∉ wr1) :
    StableHlo.after hostOps1 X (Proc.devRef .tc r) = X (Proc.devRef .tc r) :=
  StableHlo.after_of_writes_sub hostOps1 X wr1_sub h

/-- The buffers the stretch `hostOps2` writes. -/
abbrev wr2 : List (Ref sig .tc) := [main_v115, main_v116, main_v117, main_v118, main_c, main_v119, main_v120, main_c_35, main_v121, main_v122, main_v123, main_v124, main_v125, main_cst_36, main_v126, main_v127, main_v128, main_c_37, main_v129, main_v130, main_c_38, main_v131, main_v132, main_v133, main_v134, main_v135, main_cst_39, main_v136, main_v137, main_v138, main_c_40, main_v139, main_v140, main_c_41, main_v141, main_v142, main_v143, main_v144, main_v145, main_cst_42, main_v146, main_v147, main_v148, main_c_43, main_v149, main_v150, main_c_44, main_v151, main_v152, main_v153, main_v154, main_v155, main_cst_45, main_v156, main_v157, main_v158, main_v159, main_v160, main_v161, main_v162, main_v163, main_v164, main_v165, main_v166, main_v167, main_v168, main_v169, main_v170, main_v171]
set_option maxHeartbeats 4000000 in
theorem wr2_sub : (hostOps2 : List (HloOp τ sig (Elt F))).Forall fun op => op.writes ⊆ (wr2.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch `hostOps2` does not write holds after it what it held before. -/
theorem keep2 (X : Valuation τ sig (Elt F)) (r : Ref sig .tc) (h : r ∉ wr2) :
    StableHlo.after hostOps2 X (Proc.devRef .tc r) = X (Proc.devRef .tc r) :=
  StableHlo.after_of_writes_sub hostOps2 X wr2_sub h

/-- The buffers the stretch `hostOps3` writes. -/
abbrev wr3 : List (Ref sig .tc) := [main_v173, main_v174, main_v175]
set_option maxHeartbeats 4000000 in
theorem wr3_sub : (hostOps3 : List (HloOp τ sig (Elt F))).Forall fun op => op.writes ⊆ (wr3.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch `hostOps3` does not write holds after it what it held before. -/
theorem keep3 (X : Valuation τ sig (Elt F)) (r : Ref sig .tc) (h : r ∉ wr3) :
    StableHlo.after hostOps3 X (Proc.devRef .tc r) = X (Proc.devRef .tc r) :=
  StableHlo.after_of_writes_sub hostOps3 X wr3_sub h

/-- The buffers the stretch `hostOps4` writes. -/
abbrev wr4 : List (Ref sig .tc) := [main_v177, main_v178, main_v179, main_v180, main_v181, main_v182, main_v183, main_v184, main_v185, main_v186, main_v187, main_v188]
set_option maxHeartbeats 4000000 in
theorem wr4_sub : (hostOps4 : List (HloOp τ sig (Elt F))).Forall fun op => op.writes ⊆ (wr4.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch `hostOps4` does not write holds after it what it held before. -/
theorem keep4 (X : Valuation τ sig (Elt F)) (r : Ref sig .tc) (h : r ∉ wr4) :
    StableHlo.after hostOps4 X (Proc.devRef .tc r) = X (Proc.devRef .tc r) :=
  StableHlo.after_of_writes_sub hostOps4 X wr4_sub h

/-- The buffers the stretch `hostOps5` writes. -/
abbrev wr5 : List (Ref sig .tc) := [main_v190, main_v191]
set_option maxHeartbeats 4000000 in
theorem wr5_sub : (hostOps5 : List (HloOp τ sig (Elt F))).Forall fun op => op.writes ⊆ (wr5.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch `hostOps5` does not write holds after it what it held before. -/
theorem keep5 (X : Valuation τ sig (Elt F)) (r : Ref sig .tc) (h : r ∉ wr5) :
    StableHlo.after hostOps5 X (Proc.devRef .tc r) = X (Proc.devRef .tc r) :=
  StableHlo.after_of_writes_sub hostOps5 X wr5_sub h

/-- The buffers the stretch `hostOps6` writes. -/
abbrev wr6 : List (Ref sig .tc) := [main_v193, main_v194, main_v195, main_v196, main_c_46, main_v197, main_v198, main_c_47, main_v199, main_v200, main_v201, main_v202, main_v203, main_cst_48, main_v204, main_v205, main_v206, main_c_49, main_v207, main_v208, main_c_50, main_v209, main_v210, main_v211, main_v212, main_v213, main_cst_51, main_v214, main_v215, main_v216, main_c_52, main_v217, main_v218, main_c_53, main_v219, main_v220, main_v221, main_v222, main_v223, main_cst_54, main_v224, main_v225, main_v226, main_c_55, main_v227, main_v228, main_c_56, main_v229, main_v230, main_v231, main_v232, main_v233, main_cst_57, main_v234, main_v235, main_v236, main_v237, main_v238, main_v239, main_v240, main_v241, main_v242, main_v243, main_v244, main_v245, main_v246, main_v247, main_v248, main_v249, main_v250]
set_option maxHeartbeats 4000000 in
theorem wr6_sub : (hostOps6 : List (HloOp τ sig (Elt F))).Forall fun op => op.writes ⊆ (wr6.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch `hostOps6` does not write holds after it what it held before. -/
theorem keep6 (X : Valuation τ sig (Elt F)) (r : Ref sig .tc) (h : r ∉ wr6) :
    StableHlo.after hostOps6 X (Proc.devRef .tc r) = X (Proc.devRef .tc r) :=
  StableHlo.after_of_writes_sub hostOps6 X wr6_sub h

/-- The buffers the stretch `hostOps7` writes. -/
abbrev wr7 : List (Ref sig .tc) := [main_v252, main_v253, main_v254, main_v255]
set_option maxHeartbeats 4000000 in
theorem wr7_sub : (hostOps7 : List (HloOp τ sig (Elt F))).Forall fun op => op.writes ⊆ (wr7.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch `hostOps7` does not write holds after it what it held before. -/
theorem keep7 (X : Valuation τ sig (Elt F)) (r : Ref sig .tc) (h : r ∉ wr7) :
    StableHlo.after hostOps7 X (Proc.devRef .tc r) = X (Proc.devRef .tc r) :=
  StableHlo.after_of_writes_sub hostOps7 X wr7_sub h

end Cert.KernelIdeal.Fold

end
-- ==== Proof.FoldHost.lean ====
/-
  Each buffer a stretch of host operations computes, as its stage over the buffers the stretch finds.

  For a buffer that a kernel region or a later stretch consumes, the stretch (or the few consecutive stretches) that
  compute it are read from ANY contents `X` of the buffers, at any float instance: after them the buffer holds the stage
  (KernelStages, KernelValue) of what `X` holds at the buffers the computation starts from. Every lemma is the same
  reading: the operations' results composed, then the stage's definition unfolded, the two terms being the same text.
-/
import proofs.«122068_j1322849927480_2_alg».proof.Proof.Gen.KernelIdeal.Launch
import proofs.«122068_j1322849927480_2_alg».proof.Proof.KernelValue
import Idealize.ShloMosaic.Lib.StableHlo.Run

set_option maxRecDepth 16384

noncomputable section

namespace Cert.KernelIdeal.Fold

open Idealize.ShloMosaic Idealize.ShloMosaic.TcCoe Idealize.ShloMosaic.Tactic Idealize.ShloMosaic.StableHlo
open Idealize.SL.Sem
open Cert.KernelIdeal Cert.KernelIdeal.Gen Cert.KernelIdeal.Stage

/-- Each operation's result at its own buffer is its function's value, and at any other buffer what was there: applied
    until no operation's result is left in the goal, the operands of a concatenation included. -/
macro "results_leftover" : tactic =>
  `(tactic| repeat (first
      | rw [nullary_result] | rw [unary_result] | rw [binary_result] | rw [ternary_result] | rw [quaternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide)))

variable {F : FTy → Type} [FloatOps F]

set_option maxHeartbeats 4000000 in
theorem made_v4 (X : Valuation τ sig (Elt F)) :
    StableHlo.after hostOps0 X (Proc.devRef .tc main_v4)
      = looped (words0 (X (Proc.devRef .tc main_arg2))) := by
  after_results_simp
  try results_leftover
  unfold looped words0
  rfl

set_option maxHeartbeats 4000000 in
theorem made_v7 (X : Valuation τ sig (Elt F)) :
    StableHlo.after hostOps0 X (Proc.devRef .tc main_v7)
      = looped (words1 (X (Proc.devRef .tc main_arg2))) := by
  after_results_simp
  try results_leftover
  unfold looped words1
  rfl

set_option maxHeartbeats 4000000 in
theorem made_v10 (X : Valuation τ sig (Elt F)) :
    StableHlo.after hostOps0 X (Proc.devRef .tc main_v10)
      = looped (words0 (X (Proc.devRef .tc main_arg3))) := by
  after_results_simp
  try results_leftover
  unfold looped words0
  rfl

set_option maxHeartbeats 4000000 in
theorem made_v13 (X : Valuation τ sig (Elt F)) :
    StableHlo.after hostOps0 X (Proc.devRef .tc main_v13)
      = looped (words1 (X (Proc.devRef .tc main_arg3))) := by
  after_results_simp
  try results_leftover
  unfold looped words1
  rfl

set_option maxHeartbeats 4000000 in
theorem made_v15 (X : Valuation τ sig (Elt F)) :
    StableHlo.after hostOps0 X (Proc.devRef .tc main_v15)
      = words0 (X (Proc.devRef .tc main_arg4)) := by
  after_results_simp
  try results_leftover
  unfold words0
  rfl

set_option maxHeartbeats 4000000 in
theorem made_v17 (X : Valuation τ sig (Elt F)) :
    StableHlo.after hostOps0 X (Proc.devRef .tc main_v17)
      = words1 (X (Proc.devRef .tc main_arg4)) := by
  after_results_simp
  try results_leftover
  unfold words1
  rfl

set_option maxHeartbeats 4000000 in
theorem made_v19 (X : Valuation τ sig (Elt F)) :
    StableHlo.after hostOps0 X (Proc.devRef .tc main_v19)
      = words0 (X (Proc.devRef .tc main_arg5)) := by
  after_results_simp
  try results_leftover
  unfold words0
  rfl

set_option maxHeartbeats 4000000 in
theorem made_v21 (X : Valuation τ sig (Elt F)) :
    StableHlo.after hostOps0 X (Proc.devRef .tc main_v21)
      = words1 (X (Proc.devRef .tc main_arg5)) := by
  after_results_simp
  try results_leftover
  unfold words1
  rfl

set_option maxHeartbeats 4000000 in
theorem made_v34 (X : Valuation τ sig (Elt F)) :
    StableHlo.after hostOps0_1 (StableHlo.after hostOps0 X) (Proc.devRef .tc main_v34)
      = Stage.norm (deg850 (looped (words0 (X (Proc.devRef .tc main_arg2))))) := by
  after_results_simp
  try results_leftover
  unfold Stage.norm zeros50000 ones50000 deg850 looped words0
  rfl

set_option maxHeartbeats 4000000 in
theorem made_v40 (X : Valuation τ sig (Elt F)) :
    StableHlo.after hostOps0_3 (StableHlo.after hostOps0_2 (StableHlo.after hostOps0_1 (StableHlo.after hostOps0 X))) (Proc.devRef .tc main_v40)
      = Stage.norm (deg850 (looped (words1 (X (Proc.devRef .tc main_arg2))))) := by
  after_results_simp
  try results_leftover
  unfold Stage.norm zeros50000 ones50000 deg850 looped words1
  rfl

set_option maxHeartbeats 4000000 in
theorem made_v53 (X : Valuation τ sig (Elt F)) :
    StableHlo.after hostOps0_5 (StableHlo.after hostOps0_4 X) (Proc.devRef .tc main_v53)
      = Stage.norm (deg850 (X (Proc.devRef .tc main_v10))) := by
  after_results_simp
  try results_leftover
  unfold Stage.norm zeros50000 ones50000 deg850
  rfl

set_option maxHeartbeats 4000000 in
theorem made_v59 (X : Valuation τ sig (Elt F)) :
    StableHlo.after hostOps0_7 (StableHlo.after hostOps0_6 (StableHlo.after hostOps0_5 (StableHlo.after hostOps0_4 X))) (Proc.devRef .tc main_v59)
      = Stage.norm (deg850 (X (Proc.devRef .tc main_v13))) := by
  after_results_simp
  try results_leftover
  unfold Stage.norm zeros50000 ones50000 deg850
  rfl

set_option maxHeartbeats 4000000 in
theorem made_v72 (X : Valuation τ sig (Elt F)) :
    StableHlo.after hostOps0_9 (StableHlo.after hostOps0_8 X) (Proc.devRef .tc main_v72)
      = Stage.norm (deg800 (X (Proc.devRef .tc main_v15))) := by
  after_results_simp
  try results_leftover
  unfold Stage.norm zeros50000 ones50000 deg800
  rfl

set_option maxHeartbeats 4000000 in
theorem made_v78 (X : Valuation τ sig (Elt F)) :
    StableHlo.after hostOps0_11 (StableHlo.after hostOps0_10 (StableHlo.after hostOps0_9 (StableHlo.after hostOps0_8 X))) (Proc.devRef .tc main_v78)
      = Stage.norm (deg800 (X (Proc.devRef .tc main_v17))) := by
  after_results_simp
  try results_leftover
  unfold Stage.norm zeros50000 ones50000 deg800
  rfl

set_option maxHeartbeats 4000000 in
theorem made_v91 (X : Valuation τ sig (Elt F)) :
    StableHlo.after hostOps0_13 (StableHlo.after hostOps0_12 X) (Proc.devRef .tc main_v91)
      = Stage.norm (deg800 (X (Proc.devRef .tc main_v19))) := by
  after_results_simp
  try results_leftover
  unfold Stage.norm zeros50000 ones50000 deg800
  rfl

set_option maxHeartbeats 4000000 in
theorem made_v97 (X : Valuation τ sig (Elt F)) :
    StableHlo.after hostOps0_15 (StableHlo.after hostOps0_14 (StableHlo.after hostOps0_13 (StableHlo.after hostOps0_12 X))) (Proc.devRef .tc main_v97)
      = Stage.norm (deg800 (X (Proc.devRef .tc main_v21))) := by
  after_results_simp
  try results_leftover
  unfold Stage.norm zeros50000 ones50000 deg800
  rfl

set_option maxHeartbeats 4000000 in
theorem made_v98 (X : Valuation τ sig (Elt F)) :
    StableHlo.after hostOps0_16 X (Proc.devRef .tc main_v98)
      = lwT (X (Proc.devRef .tc main_arg8)) := by
  after_results_simp
  try results_leftover
  unfold lwT
  rfl

set_option maxHeartbeats 4000000 in
theorem made_v103 (X : Valuation τ sig (Elt F)) :
    StableHlo.after hostOps0_16 X (Proc.devRef .tc main_v103)
      = wcat (w00 (X (Proc.devRef .tc main_arg6))) (w02 (X (Proc.devRef .tc main_arg6))) := by
  after_results_simp
  try results_leftover
  unfold wcat w00 w02
  rfl

set_option maxHeartbeats 4000000 in
theorem made_v108 (X : Valuation τ sig (Elt F)) :
    StableHlo.after hostOps0_16 X (Proc.devRef .tc main_v108)
      = wcat (w03 (X (Proc.devRef .tc main_arg6))) (w01 (X (Proc.devRef .tc main_arg6))) := by
  after_results_simp
  try results_leftover
  unfold wcat w01 w03
  rfl

set_option maxHeartbeats 4000000 in
theorem made_v109 (X : Valuation τ sig (Elt F)) :
    StableHlo.after hostOps0_16 X (Proc.devRef .tc main_v109)
      = col (X (Proc.devRef .tc main_v34)) := by
  after_results_simp
  try results_leftover
  unfold col
  rfl

set_option maxHeartbeats 4000000 in
theorem made_v110 (X : Valuation τ sig (Elt F)) :
    StableHlo.after hostOps0_16 X (Proc.devRef .tc main_v110)
      = col (X (Proc.devRef .tc main_v72)) := by
  after_results_simp
  try results_leftover
  unfold col
  rfl

set_option maxHeartbeats 4000000 in
theorem made_v112 (X : Valuation τ sig (Elt F)) :
    StableHlo.after hostOps1 X (Proc.devRef .tc main_v112)
      = col (X (Proc.devRef .tc main_v91)) := by
  after_results_simp
  try results_leftover
  unfold col
  rfl

set_option maxHeartbeats 4000000 in
theorem made_v113 (X : Valuation τ sig (Elt F)) :
    StableHlo.after hostOps1 X (Proc.devRef .tc main_v113)
      = col (X (Proc.devRef .tc main_v53)) := by
  after_results_simp
  try results_leftover
  unfold col
  rfl

set_option maxHeartbeats 4000000 in
theorem made_v128 (X : Valuation τ sig (Elt F)) :
    StableHlo.after hostOps2 X (Proc.devRef .tc main_v128)
      = agg850 (leftHalf (X (Proc.devRef .tc main_v111))) (X (Proc.devRef .tc main_v4)) (X (Proc.devRef .tc main_v7)) := by
  after_results_simp
  try results_leftover
  unfold agg850 wrapped850 leftHalf
  rfl

set_option maxHeartbeats 4000000 in
theorem made_v138 (X : Valuation τ sig (Elt F)) :
    StableHlo.after hostOps2 X (Proc.devRef .tc main_v138)
      = agg800 (leftHalf (X (Proc.devRef .tc main_v114))) (X (Proc.devRef .tc main_v19)) (X (Proc.devRef .tc main_v21)) := by
  after_results_simp
  try results_leftover
  unfold agg800 wrapped800 leftHalf
  rfl

set_option maxHeartbeats 4000000 in
theorem made_v148 (X : Valuation τ sig (Elt F)) :
    StableHlo.after hostOps2 X (Proc.devRef .tc main_v148)
      = agg850 (rightHalf (X (Proc.devRef .tc main_v114))) (X (Proc.devRef .tc main_v10)) (X (Proc.devRef .tc main_v13)) := by
  after_results_simp
  try results_leftover
  unfold agg850 wrapped850 rightHalf
  rfl

set_option maxHeartbeats 4000000 in
theorem made_v158 (X : Valuation τ sig (Elt F)) :
    StableHlo.after hostOps2 X (Proc.devRef .tc main_v158)
      = agg800 (rightHalf (X (Proc.devRef .tc main_v111))) (X (Proc.devRef .tc main_v15)) (X (Proc.devRef .tc main_v17)) := by
  after_results_simp
  try results_leftover
  unfold agg800 wrapped800 rightHalf
  rfl

set_option maxHeartbeats 4000000 in
theorem made_v169 (X : Valuation τ sig (Elt F)) :
    StableHlo.after hostOps2 X (Proc.devRef .tc main_v169)
      = col (X (Proc.devRef .tc main_v40)) := by
  after_results_simp
  try results_leftover
  unfold col
  rfl

set_option maxHeartbeats 4000000 in
theorem made_v170 (X : Valuation τ sig (Elt F)) :
    StableHlo.after hostOps2 X (Proc.devRef .tc main_v170)
      = col (X (Proc.devRef .tc main_v97)) := by
  after_results_simp
  try results_leftover
  unfold col
  rfl

set_option maxHeartbeats 4000000 in
theorem made_v171 (X : Valuation τ sig (Elt F)) :
    StableHlo.after hostOps2 X (Proc.devRef .tc main_v171)
      = biasRow (b00 (X (Proc.devRef .tc main_arg7))) (b03 (X (Proc.devRef .tc main_arg7))) := by
  after_results_simp
  try results_leftover
  unfold biasRow b00 b03
  rfl

set_option maxHeartbeats 4000000 in
theorem made_v168 (X : Valuation τ sig (Elt F)) :
    StableHlo.after hostOps2 X (Proc.devRef .tc main_v168)
      = addf (b01 (X (Proc.devRef .tc main_arg7))) (b02 (X (Proc.devRef .tc main_arg7))) := by
  after_results_simp
  try results_leftover
  unfold b01 b02
  rfl

set_option maxHeartbeats 4000000 in
theorem made_v173 (X : Valuation τ sig (Elt F)) :
    StableHlo.after hostOps3 X (Proc.devRef .tc main_v173)
      = col (X (Proc.devRef .tc main_v59)) := by
  after_results_simp
  try results_leftover
  unfold col
  rfl

set_option maxHeartbeats 4000000 in
theorem made_v174 (X : Valuation τ sig (Elt F)) :
    StableHlo.after hostOps3 X (Proc.devRef .tc main_v174)
      = col (X (Proc.devRef .tc main_v78)) := by
  after_results_simp
  try results_leftover
  unfold col
  rfl

set_option maxHeartbeats 4000000 in
theorem made_v175 (X : Valuation τ sig (Elt F)) :
    StableHlo.after hostOps3 X (Proc.devRef .tc main_v175)
      = shapeCast S1x128 (X (Proc.devRef .tc main_v168)) shapeCasts_S128_S1x128 := by
  after_results_simp
  try results_leftover
  rfl

set_option maxHeartbeats 4000000 in
theorem made_v181 (X : Valuation τ sig (Elt F)) :
    StableHlo.after hostOps4 X (Proc.devRef .tc main_v181)
      = wcat (w10 (X (Proc.devRef .tc main_arg6))) (w12 (X (Proc.devRef .tc main_arg6))) := by
  after_results_simp
  try results_leftover
  unfold wcat w10 w12
  rfl

set_option maxHeartbeats 4000000 in
theorem made_v186 (X : Valuation τ sig (Elt F)) :
    StableHlo.after hostOps4 X (Proc.devRef .tc main_v186)
      = wcat (w13 (X (Proc.devRef .tc main_arg6))) (w11 (X (Proc.devRef .tc main_arg6))) := by
  after_results_simp
  try results_leftover
  unfold wcat w11 w13
  rfl

set_option maxHeartbeats 4000000 in
theorem made_v187 (X : Valuation τ sig (Elt F)) :
    StableHlo.after hostOps4 X (Proc.devRef .tc main_v187)
      = col (X (Proc.devRef .tc main_v34)) := by
  after_results_simp
  try results_leftover
  unfold col
  rfl

set_option maxHeartbeats 4000000 in
theorem made_v188 (X : Valuation τ sig (Elt F)) :
    StableHlo.after hostOps4 X (Proc.devRef .tc main_v188)
      = col (X (Proc.devRef .tc main_v72)) := by
  after_results_simp
  try results_leftover
  unfold col
  rfl

set_option maxHeartbeats 4000000 in
theorem made_v190 (X : Valuation τ sig (Elt F)) :
    StableHlo.after hostOps5 X (Proc.devRef .tc main_v190)
      = col (X (Proc.devRef .tc main_v91)) := by
  after_results_simp
  try results_leftover
  unfold col
  rfl

set_option maxHeartbeats 4000000 in
theorem made_v191 (X : Valuation τ sig (Elt F)) :
    StableHlo.after hostOps5 X (Proc.devRef .tc main_v191)
      = col (X (Proc.devRef .tc main_v53)) := by
  after_results_simp
  try results_leftover
  unfold col
  rfl

set_option maxHeartbeats 4000000 in
theorem made_v206 (X : Valuation τ sig (Elt F)) :
    StableHlo.after hostOps6 X (Proc.devRef .tc main_v206)
      = agg850 (leftHalf (X (Proc.devRef .tc main_v189))) (X (Proc.devRef .tc main_v4)) (X (Proc.devRef .tc main_v7)) := by
  after_results_simp
  try results_leftover
  unfold agg850 wrapped850 leftHalf
  rfl

set_option maxHeartbeats 4000000 in
theorem made_v216 (X : Valuation τ sig (Elt F)) :
    StableHlo.after hostOps6 X (Proc.devRef .tc main_v216)
      = agg800 (leftHalf (X (Proc.devRef .tc main_v192))) (X (Proc.devRef .tc main_v19)) (X (Proc.devRef .tc main_v21)) := by
  after_results_simp
  try results_leftover
  unfold agg800 wrapped800 leftHalf
  rfl

set_option maxHeartbeats 4000000 in
theorem made_v226 (X : Valuation τ sig (Elt F)) :
    StableHlo.after hostOps6 X (Proc.devRef .tc main_v226)
      = agg850 (rightHalf (X (Proc.devRef .tc main_v192))) (X (Proc.devRef .tc main_v10)) (X (Proc.devRef .tc main_v13)) := by
  after_results_simp
  try results_leftover
  unfold agg850 wrapped850 rightHalf
  rfl

set_option maxHeartbeats 4000000 in
theorem made_v236 (X : Valuation τ sig (Elt F)) :
    StableHlo.after hostOps6 X (Proc.devRef .tc main_v236)
      = agg800 (rightHalf (X (Proc.devRef .tc main_v189))) (X (Proc.devRef .tc main_v15)) (X (Proc.devRef .tc main_v17)) := by
  after_results_simp
  try results_leftover
  unfold agg800 wrapped800 rightHalf
  rfl

set_option maxHeartbeats 4000000 in
theorem made_v247 (X : Valuation τ sig (Elt F)) :
    StableHlo.after hostOps6 X (Proc.devRef .tc main_v247)
      = col (X (Proc.devRef .tc main_v40)) := by
  after_results_simp
  try results_leftover
  unfold col
  rfl

set_option maxHeartbeats 4000000 in
theorem made_v248 (X : Valuation τ sig (Elt F)) :
    StableHlo.after hostOps6 X (Proc.devRef .tc main_v248)
      = col (X (Proc.devRef .tc main_v97)) := by
  after_results_simp
  try results_leftover
  unfold col
  rfl

set_option maxHeartbeats 4000000 in
theorem made_v249 (X : Valuation τ sig (Elt F)) :
    StableHlo.after hostOps6 X (Proc.devRef .tc main_v249)
      = biasRow (b10 (X (Proc.devRef .tc main_arg7))) (b13 (X (Proc.devRef .tc main_arg7))) := by
  after_results_simp
  try results_leftover
  unfold biasRow b10 b13
  rfl

set_option maxHeartbeats 4000000 in
theorem made_v250 (X : Valuation τ sig (Elt F)) :
    StableHlo.after hostOps6 X (Proc.devRef .tc main_v250)
      = lbRow (X (Proc.devRef .tc main_arg9)) := by
  after_results_simp
  try results_leftover
  unfold lbRow
  rfl

set_option maxHeartbeats 4000000 in
theorem made_v246 (X : Valuation τ sig (Elt F)) :
    StableHlo.after hostOps6 X (Proc.devRef .tc main_v246)
      = addf (b11 (X (Proc.devRef .tc main_arg7))) (b12 (X (Proc.devRef .tc main_arg7))) := by
  after_results_simp
  try results_leftover
  unfold b11 b12
  rfl

set_option maxHeartbeats 4000000 in
theorem made_v252 (X : Valuation τ sig (Elt F)) :
    StableHlo.after hostOps7 X (Proc.devRef .tc main_v252)
      = col (X (Proc.devRef .tc main_v59)) := by
  after_results_simp
  try results_leftover
  unfold col
  rfl

set_option maxHeartbeats 4000000 in
theorem made_v253 (X : Valuation τ sig (Elt F)) :
    StableHlo.after hostOps7 X (Proc.devRef .tc main_v253)
      = col (X (Proc.devRef .tc main_v78)) := by
  after_results_simp
  try results_leftover
  unfold col
  rfl

set_option maxHeartbeats 4000000 in
theorem made_v254 (X : Valuation τ sig (Elt F)) :
    StableHlo.after hostOps7 X (Proc.devRef .tc main_v254)
      = shapeCast S1x128 (X (Proc.devRef .tc main_v246)) shapeCasts_S128_S1x128 := by
  after_results_simp
  try results_leftover
  rfl

set_option maxHeartbeats 4000000 in
theorem made_v255 (X : Valuation τ sig (Elt F)) :
    StableHlo.after hostOps7 X (Proc.devRef .tc main_v255)
      = lbRow (X (Proc.devRef .tc main_arg9)) := by
  after_results_simp
  try results_leftover
  unfold lbRow
  rfl

end Cert.KernelIdeal.Fold

end
-- ==== Proof.RegionSpec.lean ====
/-
  The three arithmetic shapes a kernel region of the two-layer graph convolution computes, as functions of whole arrays,
  index by index, over the extended reals.

  * a projection with two scaled halves: row `u` of the features times a [128, 256] weight, whose left 128 columns are then
    multiplied by one per-row factor and whose right 128 columns by another;
  * a combination: two aggregates, each multiplied by its per-row factor, added, a bias row added, then the positive part;
  * a combination followed by the linear head: the same positive part, contracted with a [128, 64] weight, plus a bias row.

  And two layout facts used to read them off a block: a column of per-row factors broadcast along the lanes reads its
  row's one entry.
-/
import Idealize.ShloMosaic.Lib.ValueLayout

noncomputable section

namespace Cert.KernelIdeal.RegionValue

open Idealize.ShloMosaic Idealize.ShloMosaic.ValueIdx

/-- Row `u` of `X` times `Wc`; column `j` of the product scaled by `S0 u` when `j < 128` and by `S1 u` otherwise. -/
def scaleG (X : (⟨2, ![50000, 128]⟩ : Shape).Idx → EReal) (Wc : (⟨2, ![128, 256]⟩ : Shape).Idx → EReal)
    (S0 S1 : (⟨2, ![50000, 1]⟩ : Shape).Idx → EReal) : (⟨2, ![50000, 256]⟩ : Shape).Idx → EReal :=
  fun i => (∑ k : Fin 128, X (ix2 (i 0) k) * Wc (ix2 k (i 1))) * (if (i 1).val < 128 then S0 (ix2 (i 0) 0) else S1 (ix2 (i 0) 0))

/-- `max (A·DA + B·DB + BIAS) 0`, the factors per row, the bias per column. -/
def combineG (A : (⟨2, ![50000, 128]⟩ : Shape).Idx → EReal) (DA : (⟨2, ![50000, 1]⟩ : Shape).Idx → EReal)
    (B : (⟨2, ![50000, 128]⟩ : Shape).Idx → EReal) (DB : (⟨2, ![50000, 1]⟩ : Shape).Idx → EReal)
    (BIAS : (⟨2, ![1, 128]⟩ : Shape).Idx → EReal) : (⟨2, ![50000, 128]⟩ : Shape).Idx → EReal :=
  fun i => max ((A i * DA (ix2 (i 0) 0) + B i * DB (ix2 (i 0) 0)) + BIAS (ix2 0 (i 1))) (Ideal.ofBits .f32 0x00000000#32)

/-- The combination's row contracted with the head's weight, plus the head's bias. -/
def headG (A : (⟨2, ![50000, 128]⟩ : Shape).Idx → EReal) (DA : (⟨2, ![50000, 1]⟩ : Shape).Idx → EReal)
    (B : (⟨2, ![50000, 128]⟩ : Shape).Idx → EReal) (DB : (⟨2, ![50000, 1]⟩ : Shape).Idx → EReal)
    (BIAS : (⟨2, ![1, 128]⟩ : Shape).Idx → EReal) (LW : (⟨2, ![128, 64]⟩ : Shape).Idx → EReal)
    (LB : (⟨2, ![1, 64]⟩ : Shape).Idx → EReal) : (⟨2, ![50000, 64]⟩ : Shape).Idx → EReal :=
  fun i => (∑ k : Fin 128, max ((A (ix2 (i 0) k) * DA (ix2 (i 0) 0) + B (ix2 (i 0) k) * DB (ix2 (i 0) 0)) + BIAS (ix2 0 k))
      (Ideal.ofBits .f32 0x00000000#32) * LW (ix2 k (i 1))) + LB (ix2 0 (i 1))

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem hz2 : (![0, 0] : Fin 2 → Nat) = fun _ => 0 := funext fun a => by fin_cases a <;> rfl

end Cert.KernelIdeal.RegionValue

end
-- ==== Proof.PayScale.lean ====
/-
  The stored values of the four projection regions (a block of feature rows times a [128, 256] weight, the two column
  halves each scaled by a per-row factor), read at one entry of a block.
-/
import proofs.«122068_j1322849927480_2_alg».proof.Proof.Gen.KernelIdeal.Skeleton
import proofs.«122068_j1322849927480_2_alg».proof.Proof.RegionSpec
import Idealize.ShloMosaic.PureOps.Ideal.Laws

noncomputable section

namespace Cert.KernelIdeal.RegionValue

open Cert.KernelIdeal Cert.KernelIdeal.Gen Idealize.ShloMosaic Idealize.ShloMosaic.ValueIdx

/-! The operand indices of the block product at an output index and a contraction position, axis by axis. -/

theorem lhs256_0 (i : S5000x256.Idx) (q : dot_S5000x128_S128x256_S5000x256_1_0_0_1_n_n.contr.Idx) : (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem lhs256_1 (i : S5000x256.Idx) (q : dot_S5000x128_S128x256_S5000x256_1_0_0_1_n_n.contr.Idx) : (dot_S5000x128_S128x256_S5000x256_1_0_0_1_n_n.lhsIdx i q 1).val = (q ⟨0, by decide⟩).val :=
  dot_S5000x128_S128x256_S5000x256_1_0_0_1_n_n.lhsIdx_val_of_single rfl i q
theorem rhs256_0 (i : S5000x256.Idx) (q : dot_S5000x128_S128x256_S5000x256_1_0_0_1_n_n.contr.Idx) : (dot_S5000x128_S128x256_S5000x256_1_0_0_1_n_n.rhsIdx i q 0).val = (q ⟨0, by decide⟩).val :=
  dot_S5000x128_S128x256_S5000x256_1_0_0_1_n_n.rhsIdx_val_of_single rfl i q
theorem rhs256_1 (i : S5000x256.Idx) (q : dot_S5000x128_S128x256_S5000x256_1_0_0_1_n_n.contr.Idx) : (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- The block product into the zero accumulator, at row `r` and column `c`: the sum over the 128 contracted positions of
    the row's entry times the column's entry. -/
theorem matmul256_apply {φ₁ φ₂ : FTy} (A : FVec Ideal S5000x128 φ₁) (B : FVec Ideal S128x256 φ₂) (r : Fin 5000) (c : Fin 256) :
    matmul dot_S5000x128_S128x256_S5000x256_1_0_0_1_n_n none A B (constant (F := Ideal) S5000x256 .f32 0x00000000#32) (ix2 r c) = ∑ k : Fin 128, A (ix2 r k) * B (ix2 k c) := by
  simp only [matmul]
  rw [Ideal.matmul_constant_zero_apply, ← Equiv.sum_comp (contrEquiv1 dot_S5000x128_S128x256_S5000x256_1_0_0_1_n_n 128 rfl rfl).symm]
  refine Finset.sum_congr rfl fun k _ => ?_
  have hk := contrEquiv1_symm_val dot_S5000x128_S128x256_S5000x256_1_0_0_1_n_n 128 rfl rfl k
  have el : dot_S5000x128_S128x256_S5000x256_1_0_0_1_n_n.lhsIdx (ix2 r c) ((contrEquiv1 dot_S5000x128_S128x256_S5000x256_1_0_0_1_n_n 128 rfl rfl).symm k) = ix2 r k := funext fun a => Fin.ext (by
    match a with
    | ⟨0, _⟩ => exact lhs256_0 _ _
    | ⟨1, _⟩ => exact (lhs256_1 _ _).trans hk)
  have er : dot_S5000x128_S128x256_S5000x256_1_0_0_1_n_n.rhsIdx (ix2 r c) ((contrEquiv1 dot_S5000x128_S128x256_S5000x256_1_0_0_1_n_n 128 rfl rfl).symm k) = ix2 k c := funext fun a => Fin.ext (by
    match a with
    | ⟨0, _⟩ => exact (rhs256_0 _ _).trans hk
    | ⟨1, _⟩ => exact rhs256_1 _ _)
  rw [el, er]

/-- Region 0's block product at row `r`, column `c`. -/
theorem pay_proj0 (x0 : Vec Ideal S5000x128 .f32) (x1 : Vec Ideal S128x256 .f32) (r : Fin 5000) (c : Fin 256) :
    k0_pay1 x0 x1 (ix2 r c) = ∑ k : Fin 128, x0 (ix2 r k) * x1 (ix2 k c) := by
  unfold k0_pay1
  simp only [shapeCast_self]
  exact matmul256_apply _ _ r c

/-- The left half's stored value at row `r`, lane `q`: column `q` of the product times the row's first factor. -/
theorem pay_left0 (x0 : Vec Ideal S5000x128 .f32) (x1 : Vec Ideal S128x256 .f32) (x2 : Vec Ideal S5000x1 .f32) (r : Fin 5000) (q : Fin 128) :
    k0_pay2 x0 x1 x2 (ix2 r q) = (∑ k : Fin 128, x0 (ix2 r k) * x1 (ix2 k (⟨q.val, by omega⟩ : Fin 256))) * x2 (ix2 r (0 : Fin 1)) := by
  unfold k0_pay2
  simp only [shapeCast_self]
  show extractStridedSlice S5000x128 ![0, 0] (k0_pay1 x0 x1) slices_S5000x256_o0_0_S5000x128 (ix2 r q)
      * broadcastTo S5000x128 x2 broadcasts_S5000x1_S5000x128 (ix2 r q) = _
  rw [slice2_axis1_apply 0 (k0_pay1 x0 x1) slices_S5000x256_o0_0_S5000x128 r q (⟨q.val, by omega⟩ : Fin 256) (Nat.zero_add _).symm,
    broadcastTo_a1_ab_apply x2, pay_proj0]

/-- The right half's stored value at row `r`, lane `q`: column `128 + q` of the product times the row's second factor. -/
theorem pay_right0 (x0 : Vec Ideal S5000x128 .f32) (x1 : Vec Ideal S128x256 .f32) (x3 : Vec Ideal S5000x1 .f32) (r : Fin 5000) (q : Fin 128) :
    k0_pay3 x0 x1 x3 (ix2 r q) = (∑ k : Fin 128, x0 (ix2 r k) * x1 (ix2 k (⟨128 + q.val, by omega⟩ : Fin 256))) * x3 (ix2 r (0 : Fin 1)) := by
  unfold k0_pay3
  simp only [shapeCast_self]
  show extractStridedSlice S5000x128 ![0, 128] (k0_pay1 x0 x1) slices_S5000x256_o0_128_S5000x128 (ix2 r q)
      * broadcastTo S5000x128 x3 broadcasts_S5000x1_S5000x128 (ix2 r q) = _
  rw [slice2_axis1_apply 128 (k0_pay1 x0 x1) slices_S5000x256_o0_128_S5000x128 r q (⟨128 + q.val, by omega⟩ : Fin 256) rfl,
    broadcastTo_a1_ab_apply x3, pay_proj0]

/-- Region 1's block product at row `r`, column `c`. -/
theorem pay_proj1 (x0 : Vec Ideal S5000x128 .f32) (x1 : Vec Ideal S128x256 .f32) (r : Fin 5000) (c : Fin 256) :
    k1_pay1 x0 x1 (ix2 r c) = ∑ k : Fin 128, x0 (ix2 r k) * x1 (ix2 k c) := by
  unfold k1_pay1
  simp only [shapeCast_self]
  exact matmul256_apply _ _ r c

/-- The left half's stored value at row `r`, lane `q`: column `q` of the product times the row's first factor. -/
theorem pay_left1 (x0 : Vec Ideal S5000x128 .f32) (x1 : Vec Ideal S128x256 .f32) (x2 : Vec Ideal S5000x1 .f32) (r : Fin 5000) (q : Fin 128) :
    k1_pay2 x0 x1 x2 (ix2 r q) = (∑ k : Fin 128, x0 (ix2 r k) * x1 (ix2 k (⟨q.val, by omega⟩ : Fin 256))) * x2 (ix2 r (0 : Fin 1)) := by
  unfold k1_pay2
  simp only [shapeCast_self]
  show extractStridedSlice S5000x128 ![0, 0] (k1_pay1 x0 x1) slices_S5000x256_o0_0_S5000x128 (ix2 r q)
      * broadcastTo S5000x128 x2 broadcasts_S5000x1_S5000x128 (ix2 r q) = _
  rw [slice2_axis1_apply 0 (k1_pay1 x0 x1) slices_S5000x256_o0_0_S5000x128 r q (⟨q.val, by omega⟩ : Fin 256) (Nat.zero_add _).symm,
    broadcastTo_a1_ab_apply x2, pay_proj1]

/-- The right half's stored value at row `r`, lane `q`: column `128 + q` of the product times the row's second factor. -/
theorem pay_right1 (x0 : Vec Ideal S5000x128 .f32) (x1 : Vec Ideal S128x256 .f32) (x3 : Vec Ideal S5000x1 .f32) (r : Fin 5000) (q : Fin 128) :
    k1_pay3 x0 x1 x3 (ix2 r q) = (∑ k : Fin 128, x0 (ix2 r k) * x1 (ix2 k (⟨128 + q.val, by omega⟩ : Fin 256))) * x3 (ix2 r (0 : Fin 1)) := by
  unfold k1_pay3
  simp only [shapeCast_self]
  show extractStridedSlice S5000x128 ![0, 128] (k1_pay1 x0 x1) slices_S5000x256_o0_128_S5000x128 (ix2 r q)
      * broadcastTo S5000x128 x3 broadcasts_S5000x1_S5000x128 (ix2 r q) = _
  rw [slice2_axis1_apply 128 (k1_pay1 x0 x1) slices_S5000x256_o0_128_S5000x128 r q (⟨128 + q.val, by omega⟩ : Fin 256) rfl,
    broadcastTo_a1_ab_apply x3, pay_proj1]

/-- Region 4's block product at row `r`, column `c`. -/
theorem pay_proj4 (x0 : Vec Ideal S5000x128 .f32) (x1 : Vec Ideal S128x256 .f32) (r : Fin 5000) (c : Fin 256) :
    k4_pay1 x0 x1 (ix2 r c) = ∑ k : Fin 128, x0 (ix2 r k) * x1 (ix2 k c) := by
  unfold k4_pay1
  simp only [shapeCast_self]
  exact matmul256_apply _ _ r c

/-- The left half's stored value at row `r`, lane `q`: column `q` of the product times the row's first factor. -/
theorem pay_left4 (x0 : Vec Ideal S5000x128 .f32) (x1 : Vec Ideal S128x256 .f32) (x2 : Vec Ideal S5000x1 .f32) (r : Fin 5000) (q : Fin 128) :
    k4_pay2 x0 x1 x2 (ix2 r q) = (∑ k : Fin 128, x0 (ix2 r k) * x1 (ix2 k (⟨q.val, by omega⟩ : Fin 256))) * x2 (ix2 r (0 : Fin 1)) := by
  unfold k4_pay2
  simp only [shapeCast_self]
  show extractStridedSlice S5000x128 ![0, 0] (k4_pay1 x0 x1) slices_S5000x256_o0_0_S5000x128 (ix2 r q)
      * broadcastTo S5000x128 x2 broadcasts_S5000x1_S5000x128 (ix2 r q) = _
  rw [slice2_axis1_apply 0 (k4_pay1 x0 x1) slices_S5000x256_o0_0_S5000x128 r q (⟨q.val, by omega⟩ : Fin 256) (Nat.zero_add _).symm,
    broadcastTo_a1_ab_apply x2, pay_proj4]

/-- The right half's stored value at row `r`, lane `q`: column `128 + q` of the product times the row's second factor. -/
theorem pay_right4 (x0 : Vec Ideal S5000x128 .f32) (x1 : Vec Ideal S128x256 .f32) (x3 : Vec Ideal S5000x1 .f32) (r : Fin 5000) (q : Fin 128) :
    k4_pay3 x0 x1 x3 (ix2 r q) = (∑ k : Fin 128, x0 (ix2 r k) * x1 (ix2 k (⟨128 + q.val, by omega⟩ : Fin 256))) * x3 (ix2 r (0 : Fin 1)) := by
  unfold k4_pay3
  simp only [shapeCast_self]
  show extractStridedSlice S5000x128 ![0, 128] (k4_pay1 x0 x1) slices_S5000x256_o0_128_S5000x128 (ix2 r q)
      * broadcastTo S5000x128 x3 broadcasts_S5000x1_S5000x128 (ix2 r q) = _
  rw [slice2_axis1_apply 128 (k4_pay1 x0 x1) slices_S5000x256_o0_128_S5000x128 r q (⟨128 + q.val, by omega⟩ : Fin 256) rfl,
    broadcastTo_a1_ab_apply x3, pay_proj4]

/-- Region 5's block product at row `r`, column `c`. -/
theorem pay_proj5 (x0 : Vec Ideal S5000x128 .f32) (x1 : Vec Ideal S128x256 .f32) (r : Fin 5000) (c : Fin 256) :
    k5_pay1 x0 x1 (ix2 r c) = ∑ k : Fin 128, x0 (ix2 r k) * x1 (ix2 k c) := by
  unfold k5_pay1
  simp only [shapeCast_self]
  exact matmul256_apply _ _ r c

/-- The left half's stored value at row `r`, lane `q`: column `q` of the product times the row's first factor. -/
theorem pay_left5 (x0 : Vec Ideal S5000x128 .f32) (x1 : Vec Ideal S128x256 .f32) (x2 : Vec Ideal S5000x1 .f32) (r : Fin 5000) (q : Fin 128) :
    k5_pay2 x0 x1 x2 (ix2 r q) = (∑ k : Fin 128, x0 (ix2 r k) * x1 (ix2 k (⟨q.val, by omega⟩ : Fin 256))) * x2 (ix2 r (0 : Fin 1)) := by
  unfold k5_pay2
  simp only [shapeCast_self]
  show extractStridedSlice S5000x128 ![0, 0] (k5_pay1 x0 x1) slices_S5000x256_o0_0_S5000x128 (ix2 r q)
      * broadcastTo S5000x128 x2 broadcasts_S5000x1_S5000x128 (ix2 r q) = _
  rw [slice2_axis1_apply 0 (k5_pay1 x0 x1) slices_S5000x256_o0_0_S5000x128 r q (⟨q.val, by omega⟩ : Fin 256) (Nat.zero_add _).symm,
    broadcastTo_a1_ab_apply x2, pay_proj5]

/-- The right half's stored value at row `r`, lane `q`: column `128 + q` of the product times the row's second factor. -/
theorem pay_right5 (x0 : Vec Ideal S5000x128 .f32) (x1 : Vec Ideal S128x256 .f32) (x3 : Vec Ideal S5000x1 .f32) (r : Fin 5000) (q : Fin 128) :
    k5_pay3 x0 x1 x3 (ix2 r q) = (∑ k : Fin 128, x0 (ix2 r k) * x1 (ix2 k (⟨128 + q.val, by omega⟩ : Fin 256))) * x3 (ix2 r (0 : Fin 1)) := by
  unfold k5_pay3
  simp only [shapeCast_self]
  show extractStridedSlice S5000x128 ![0, 128] (k5_pay1 x0 x1) slices_S5000x256_o0_128_S5000x128 (ix2 r q)
      * broadcastTo S5000x128 x3 broadcasts_S5000x1_S5000x128 (ix2 r q) = _
  rw [slice2_axis1_apply 128 (k5_pay1 x0 x1) slices_S5000x256_o0_128_S5000x128 r q (⟨128 + q.val, by omega⟩ : Fin 256) rfl,
    broadcastTo_a1_ab_apply x3, pay_proj5]

end Cert.KernelIdeal.RegionValue

end
-- ==== Proof.RegionScale0.lean ====
/-
  Region 0: what the projection leaves in its whole output array, as one function of its four input arrays as the region
  finds them. Each grid point's block is 5000 rows; point `t` reads rows `5000 t …` of the features and of the two
  factor columns and the whole [128, 256] weight, and writes rows `5000 t …` of the output in two column halves; the ten
  blocks tile the array.
-/
import proofs.«122068_j1322849927480_2_alg».proof.Proof.Gen.KernelIdeal.Frame
import proofs.«122068_j1322849927480_2_alg».proof.Proof.PayScale
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- One entry of a block of the scaled projection: row `r` times column `c` of the weight, times the first factor of
    the row when `c` is among the left 128 columns and the second otherwise. -/
def scaleAt0 (x0 : Vec Ideal S5000x128 .f32) (x1 : Vec Ideal S128x256 .f32) (x2 x3 : Vec Ideal S5000x1 .f32)
    (r : Fin 5000) (c : Fin 256) : EReal :=
  (∑ k : Fin 128, x0 (ix2 r k) * x1 (ix2 k c)) * (if c.val < 128 then x2 (ix2 r (0 : Fin 1)) else x3 (ix2 r (0 : Fin 1)))

/-- The left half's store: lane `b` of the stored rows is column `b` of the block. -/
theorem piece_left0 (x0 : Vec Ideal S5000x128 .f32) (x1 : Vec Ideal S128x256 .f32) (x2 x3 : Vec Ideal S5000x1 .f32)
    (x : S5000x128.Idx) :
    k0_pay2 x0 x1 x2 x = scaleAt0 x0 x1 x2 x3 ((r0_3.emb x) 0) ((r0_3.emb x) 1) := by
  obtain ⟨a, b, rfl⟩ : ∃ (a : Fin 5000) (b : Fin 128), x = ix2 a b := ⟨x 0, x 1, eq_ix2 x⟩
  have e0 : ((r0_3.emb (ix2 a b)) 0 : Fin 5000) = a := Fin.ext (by show 0 + 1 * a.val = a.val; omega)
  have hb : b.val < 256 := by have := b.isLt; omega
  have e1 : ((r0_3.emb (ix2 a b)) 1 : Fin 256) = (⟨b.val, hb⟩ : Fin 256) := Fin.ext (by show 0 + 1 * b.val = b.val; omega)
  rw [e0, e1, pay_left0]
  unfold scaleAt0
  rw [if_pos (show (⟨b.val, hb⟩ : Fin 256).val < 128 from b.isLt)]

/-- The right half's store: lane `b` of the stored rows is column `128 + b` of the block. -/
theorem piece_right0 (x0 : Vec Ideal S5000x128 .f32) (x1 : Vec Ideal S128x256 .f32) (x2 x3 : Vec Ideal S5000x1 .f32)
    (x : S5000x128.Idx) :
    k0_pay3 x0 x1 x3 x = scaleAt0 x0 x1 x2 x3 ((r0_4.emb x) 0) ((r0_4.emb x) 1) := by
  obtain ⟨a, b, rfl⟩ : ∃ (a : Fin 5000) (b : Fin 128), x = ix2 a b := ⟨x 0, x 1, eq_ix2 x⟩
  have e0 : ((r0_4.emb (ix2 a b)) 0 : Fin 5000) = a := Fin.ext (by show 0 + 1 * a.val = a.val; omega)
  have hb : 128 + b.val < 256 := by have := b.isLt; omega
  have e1 : ((r0_4.emb (ix2 a b)) 1 : Fin 256) = (⟨128 + b.val, hb⟩ : Fin 256) := Fin.ext (by show 128 + 1 * b.val = 128 + b.val; omega)
  rw [e0, e1, pay_right0]
  unfold scaleAt0
  rw [if_neg (show ¬(⟨128 + b.val, hb⟩ : Fin 256).val < 128 from by dsimp only; omega)]

/-- The block the body leaves, entry by entry, from the four input blocks: the two stores are the two column halves of
    one function of the block's index. -/
theorem out_scale0 (x0 : Vec Ideal S5000x128 .f32) (x1 : Vec Ideal S128x256 .f32) (x2 x3 : Vec Ideal S5000x1 .f32)
    (y : S5000x256.Idx) : out0_4 x0 x1 x2 x3 y = scaleAt0 x0 x1 x2 x3 (y 0) (y 1) := by
  unfold out0_4
  simp only [View.ld_unit_zero (S := S5000x128) hz2, View.ld_unit_zero (S := S128x256) hz2, View.ld_unit_zero (S := S5000x1) hz2]
  have hp : ∀ p ∈ ([⟨r0_4, k0_pay3 x0 x1 x3⟩, ⟨r0_3, k0_pay2 x0 x1 x2⟩] : List (View.Piece (Elt Ideal) S5000x256 .f32)),
      ∀ x : p.1.shape.Idx, p.2 x = (fun y : S5000x256.Idx => scaleAt0 x0 x1 x2 x3 (y 0) (y 1)) (p.1.emb x) :=
    List.forall_mem_cons.2 ⟨fun x => piece_right0 x0 x1 x2 x3 x,
      List.forall_mem_cons.2 ⟨fun x => piece_left0 x0 x1 x2 x3 x, fun _ h => absurd h List.not_mem_nil⟩⟩
  exact View.canon_apply_of_pieces (Val := Elt Ideal) (S := S5000x256) (e := .f32)
    (fun y : S5000x256.Idx => scaleAt0 x0 x1 x2 x3 (y 0) (y 1)) _ hp y (cover0_4 _ _ y)

/-- The same over blocks that are rows `o … o + 4999` of whole arrays (the weight whole). -/
theorem out_scale0_rows (X : S50000x128.Idx → EReal) (Wc : S128x256.Idx → EReal) (S0 S1 : S50000x1.Idx → EReal) (o : Nat)
    (x0 : Vec Ideal S5000x128 .f32) (x1 : Vec Ideal S128x256 .f32) (x2 x3 : Vec Ideal S5000x1 .f32)
    (h0 : ∀ (x : S5000x128.Idx) (k : S50000x128.Idx), (k 0).val = o + (x 0).val → (k 1).val = (x 1).val → x0 x = X k)
    (h1 : ∀ x : S128x256.Idx, x1 x = Wc x)
    (h2 : ∀ (x : S5000x1.Idx) (k : S50000x1.Idx), (k 0).val = o + (x 0).val → (k 1).val = (x 1).val → x2 x = S0 k)
    (h3 : ∀ (x : S5000x1.Idx) (k : S50000x1.Idx), (k 0).val = o + (x 0).val → (k 1).val = (x 1).val → x3 x = S1 k)
    (y : S5000x256.Idx) (i : S50000x256.Idx) (hi0 : (i 0).val = o + (y 0).val) (hi1 : (i 1).val = (y 1).val) :
    out0_4 x0 x1 x2 x3 y = scaleG X Wc S0 S1 i := by
  rw [out_scale0]
  obtain ⟨r, q, rfl⟩ : ∃ (r : Fin 5000) (q : Fin 256), y = ix2 r q := ⟨y 0, y 1, eq_ix2 y⟩
  obtain ⟨R, Q, rfl⟩ : ∃ (R : Fin 50000) (Q : Fin 256), i = ix2 R Q := ⟨i 0, i 1, eq_ix2 i⟩
  obtain rfl : Q = q := Fin.ext hi1
  show scaleAt0 x0 x1 x2 x3 r Q = (∑ k : Fin 128, X (ix2 R k) * Wc (ix2 k Q)) * (if Q.val < 128 then S0 (ix2 R (0 : Fin 1)) else S1 (ix2 R (0 : Fin 1)))
  unfold scaleAt0
  rw [h2 (ix2 r (0 : Fin 1)) (ix2 R (0 : Fin 1)) hi0 rfl, h3 (ix2 r (0 : Fin 1)) (ix2 R (0 : Fin 1)) hi0 rfl]
  refine congrArg (· * _) (Finset.sum_congr rfl fun k _ => ?_)
  rw [h0 (ix2 r k) (ix2 R k) hi0 rfl, h1]

/-! The index maps, decided over the ten grid points: the three row-tiled inputs and the output sit at block `(t, 0)`,
    the weight at block `(0, 0)`. -/

theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = 0 ∧ win0_1.index t (1 : Fin 2) = 0 :=
  (by decide +kernel : ∀ t : Fin grid0.N, _)
theorem idx0_2 : ∀ t : Fin cfg0.N, win0_2.index t (0 : Fin 2) = t.val ∧ win0_2.index t (1 : Fin 2) = 0 :=
  (by decide +kernel : ∀ t : Fin grid0.N, _)
theorem idx0_3 : ∀ t : Fin cfg0.N, win0_3.index t (0 : Fin 2) = t.val ∧ win0_3.index t (1 : Fin 2) = 0 :=
  (by decide +kernel : ∀ t : Fin grid0.N, _)
theorem idx0_4 : ∀ t : Fin cfg0.N, win0_4.index t (0 : Fin 2) = t.val ∧ win0_4.index t (1 : Fin 2) = 0 :=
  (by decide +kernel : ∀ t : Fin grid0.N, _)

/-- Window 0's block at point `t` is rows `5000 t … 5000 t + 4999` of its array. -/
theorem blk0_0_apply (c : Dev nD) (t : Fin cfg0.N) (x : S5000x128.Idx) (k : S50000x128.Idx)
    (hk0 : (k 0).val = 5000 * t.val + (x 0).val) (hk1 : (k 1).val = (x 1).val) :
    (iblk0 V c 0 t : Vec Ideal S5000x128 .f32) x = (V c (Pipeline.arrRef spec0 0) : S50000x128.Idx → EReal) k := by
  have hi : win0_0.index t (0 : Fin 2) = t.val ∧ win0_0.index t (1 : Fin 2) = 0 := idx0_0 t
  unfold iblk0
  rw [View.read_apply]
  refine congrArg (V c (Pipeline.arrRef spec0 0)) ?_
  funext a
  apply Fin.ext
  match a with
  | ⟨0, _⟩ => show win0_0.index t (0 : Fin 2) * 5000 + 1 * (x 0).val = (k 0).val; rw [hi.1, hk0]; omega
  | ⟨1, _⟩ => show win0_0.index t (1 : Fin 2) * 128 + 1 * (x 1).val = (k 1).val; rw [hi.2, hk1]; omega

/-- Window 1's block at every point is its whole array. -/
theorem blk0_1_apply (c : Dev nD) (t : Fin cfg0.N) (x : S128x256.Idx) :
    (iblk0 V c 1 t : Vec Ideal S128x256 .f32) x = (V c (Pipeline.arrRef spec0 1) : S128x256.Idx → EReal) x := by
  have hi : win0_1.index t (0 : Fin 2) = 0 ∧ win0_1.index t (1 : Fin 2) = 0 := idx0_1 t
  unfold iblk0
  rw [View.read_apply]
  refine congrArg (V c (Pipeline.arrRef spec0 1)) ?_
  funext a
  apply Fin.ext
  match a with
  | ⟨0, _⟩ => show win0_1.index t (0 : Fin 2) * 128 + 1 * (x 0).val = (x 0).val; rw [hi.1]; omega
  | ⟨1, _⟩ => show win0_1.index t (1 : Fin 2) * 256 + 1 * (x 1).val = (x 1).val; rw [hi.2]; omega

/-- Window 2's block at point `t` is rows `5000 t … 5000 t + 4999` of its array. -/
theorem blk0_2_apply (c : Dev nD) (t : Fin cfg0.N) (x : S5000x1.Idx) (k : S50000x1.Idx)
    (hk0 : (k 0).val = 5000 * t.val + (x 0).val) (hk1 : (k 1).val = (x 1).val) :
    (iblk0 V c 2 t : Vec Ideal S5000x1 .f32) x = (V c (Pipeline.arrRef spec0 2) : S50000x1.Idx → EReal) k := by
  have hi : win0_2.index t (0 : Fin 2) = t.val ∧ win0_2.index t (1 : Fin 2) = 0 := idx0_2 t
  unfold iblk0
  rw [View.read_apply]
  refine congrArg (V c (Pipeline.arrRef spec0 2)) ?_
  funext a
  apply Fin.ext
  match a with
  | ⟨0, _⟩ => show win0_2.index t (0 : Fin 2) * 5000 + 1 * (x 0).val = (k 0).val; rw [hi.1, hk0]; omega
  | ⟨1, _⟩ => show win0_2.index t (1 : Fin 2) * 1 + 1 * (x 1).val = (k 1).val; rw [hi.2, hk1]; omega

/-- Window 3's block at point `t` is rows `5000 t … 5000 t + 4999` of its array. -/
theorem blk0_3_apply (c : Dev nD) (t : Fin cfg0.N) (x : S5000x1.Idx) (k : S50000x1.Idx)
    (hk0 : (k 0).val = 5000 * t.val + (x 0).val) (hk1 : (k 1).val = (x 1).val) :
    (iblk0 V c 3 t : Vec Ideal S5000x1 .f32) x = (V c (Pipeline.arrRef spec0 3) : S50000x1.Idx → EReal) k := by
  have hi : win0_3.index t (0 : Fin 2) = t.val ∧ win0_3.index t (1 : Fin 2) = 0 := idx0_3 t
  unfold iblk0
  rw [View.read_apply]
  refine congrArg (V c (Pipeline.arrRef spec0 3)) ?_
  funext a
  apply Fin.ext
  match a with
  | ⟨0, _⟩ => show win0_3.index t (0 : Fin 2) * 5000 + 1 * (x 0).val = (k 0).val; rw [hi.1, hk0]; omega
  | ⟨1, _⟩ => show win0_3.index t (1 : Fin 2) * 1 + 1 * (x 1).val = (k 1).val; rw [hi.2, hk1]; omega

/-- What point `t` writes back is block `t` of the scaled projection of the arrays as the region finds them. -/
theorem flushed_scale0 (c : Dev nD) (t : Fin cfg0.N) :
    (dat0 (F := Ideal) V c).flushed 4 t = ((cfg0.win 4).blk t).view.read (Elt Ideal)
      (scaleG (V c (Pipeline.arrRef spec0 0)) (V c (Pipeline.arrRef spec0 1)) (V c (Pipeline.arrRef spec0 2))
        (V c (Pipeline.arrRef spec0 3))) := by
  show (cfg0.win 4).cut (grid0.coords t) ((dat0 V c).after 4 t) = _
  rw [after0_4]
  have hi : win0_4.index t (0 : Fin 2) = t.val ∧ win0_4.index t (1 : Fin 2) = 0 := idx0_4 t
  funext j
  rw [View.read_apply]
  show out0_4 (iblk0 V c 0 t) (iblk0 V c 1 t) (iblk0 V c 2 t) (iblk0 V c 3 t) j = _
  refine out_scale0_rows (V c (Pipeline.arrRef spec0 0)) (V c (Pipeline.arrRef spec0 1)) (V c (Pipeline.arrRef spec0 2))
    (V c (Pipeline.arrRef spec0 3)) (5000 * t.val)
    (iblk0 V c 0 t) (iblk0 V c 1 t) (iblk0 V c 2 t) (iblk0 V c 3 t)
    (blk0_0_apply V c t) (blk0_1_apply V c t) (blk0_2_apply V c t) (blk0_3_apply V c t)
    j (((cfg0.win 4).blk t).view.emb j) ?_ ?_
  · show win0_4.index t (0 : Fin 2) * 5000 + 1 * (j 0).val = 5000 * t.val + (j 0).val; rw [hi.1]; omega
  · show win0_4.index t (1 : Fin 2) * 256 + 1 * (j 1).val = (j 1).val; rw [hi.2]; omega

/-- Every block of ten is some point's. -/
theorem onto0 : ∀ q : Fin 10, ∃ t : Fin cfg0.N, win0_4.index t (0 : Fin 2) = q.val ∧ win0_4.index t (1 : Fin 2) = 0 :=
  (by decide +kernel : ∀ q : Fin 10, ∃ t : Fin grid0.N, _)

/-- An index of the output array is in point `t`'s block iff each coordinate is in the block's range on its axis. -/
theorem mem_blk0 (t : Fin cfg0.N) (i : S50000x256.Idx) :
    i ∈ ((cfg0.win 4).blk t).view.set ↔ ∀ a : Fin 2, win0_4.index t a * S5000x256.size a ≤ (i a).val ∧ (i a).val < win0_4.index t a * S5000x256.size a + S5000x256.size a := by
  show i ∈ ((View.whole main_v111).slice (win0_4.rect t)).set ↔ _
  rw [View.set_slice_whole, Rect.mem_set_unit]
  exact Iff.rfl

/-- Row `r` of the output array lies in the block of point `r / 5000`. -/
theorem cover0 (i : S50000x256.Idx) : ∃ t : Fin cfg0.N, (cfg0.win 4).flush t = true ∧ i ∈ ((cfg0.win 4).blk t).view.set := by
  have hi0 : (i 0).val < 50000 := (i 0).isLt
  have hi1 : (i 1).val < 256 := (i 1).isLt
  obtain ⟨t, ht0, ht1⟩ := onto0 ⟨(i 0).val / 5000, by omega⟩
  refine ⟨t, flush0_4 t, ?_⟩
  rw [mem_blk0]
  intro a
  match a with
  | ⟨0, _⟩ => show win0_4.index t (0 : Fin 2) * 5000 ≤ (i 0).val ∧ (i 0).val < win0_4.index t (0 : Fin 2) * 5000 + 5000; rw [ht0]; dsimp only; omega
  | ⟨1, _⟩ => show win0_4.index t (1 : Fin 2) * 256 ≤ (i 1).val ∧ (i 1).val < win0_4.index t (1 : Fin 2) * 256 + 256; rw [ht1]; omega

/-- THE OUTPUT ARRAY after the region: the scaled projection of the four input arrays as the region finds them. -/
theorem final_scale0 (c : Dev nD) : (dat0 (F := Ideal) V c).arrAt 4 cfg0.N
    = scaleG (V c (Pipeline.arrRef spec0 0)) (V c (Pipeline.arrRef spec0 1)) (V c (Pipeline.arrRef spec0 2))
        (V c (Pipeline.arrRef spec0 3)) :=
  (dat0 (F := Ideal) V c).arrAt_eq_of_cover 4 _ (fun t _ => flushed_scale0 V c t) (cover0)

end Cert.KernelIdeal.RegionValue

end
-- ==== Proof.RegionScale1.lean ====
/-
  Region 1: what the projection leaves in its whole output array, as one function of its four input arrays as the region
  finds them. Each grid point's block is 5000 rows; point `t` reads rows `5000 t …` of the features and of the two
  factor columns and the whole [128, 256] weight, and writes rows `5000 t …` of the output in two column halves; the ten
  blocks tile the array.
-/
import proofs.«122068_j1322849927480_2_alg».proof.Proof.Gen.KernelIdeal.Frame
import proofs.«122068_j1322849927480_2_alg».proof.Proof.PayScale
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- One entry of a block of the scaled projection: row `r` times column `c` of the weight, times the first factor of
    the row when `c` is among the left 128 columns and the second otherwise. -/
def scaleAt1 (x0 : Vec Ideal S5000x128 .f32) (x1 : Vec Ideal S128x256 .f32) (x2 x3 : Vec Ideal S5000x1 .f32)
    (r : Fin 5000) (c : Fin 256) : EReal :=
  (∑ k : Fin 128, x0 (ix2 r k) * x1 (ix2 k c)) * (if c.val < 128 then x2 (ix2 r (0 : Fin 1)) else x3 (ix2 r (0 : Fin 1)))

/-- The left half's store: lane `b` of the stored rows is column `b` of the block. -/
theorem piece_left1 (x0 : Vec Ideal S5000x128 .f32) (x1 : Vec Ideal S128x256 .f32) (x2 x3 : Vec Ideal S5000x1 .f32)
    (x : S5000x128.Idx) :
    k1_pay2 x0 x1 x2 x = scaleAt1 x0 x1 x2 x3 ((r1_3.emb x) 0) ((r1_3.emb x) 1) := by
  obtain ⟨a, b, rfl⟩ : ∃ (a : Fin 5000) (b : Fin 128), x = ix2 a b := ⟨x 0, x 1, eq_ix2 x⟩
  have e0 : ((r1_3.emb (ix2 a b)) 0 : Fin 5000) = a := Fin.ext (by show 0 + 1 * a.val = a.val; omega)
  have hb : b.val < 256 := by have := b.isLt; omega
  have e1 : ((r1_3.emb (ix2 a b)) 1 : Fin 256) = (⟨b.val, hb⟩ : Fin 256) := Fin.ext (by show 0 + 1 * b.val = b.val; omega)
  rw [e0, e1, pay_left1]
  unfold scaleAt1
  rw [if_pos (show (⟨b.val, hb⟩ : Fin 256).val < 128 from b.isLt)]

/-- The right half's store: lane `b` of the stored rows is column `128 + b` of the block. -/
theorem piece_right1 (x0 : Vec Ideal S5000x128 .f32) (x1 : Vec Ideal S128x256 .f32) (x2 x3 : Vec Ideal S5000x1 .f32)
    (x : S5000x128.Idx) :
    k1_pay3 x0 x1 x3 x = scaleAt1 x0 x1 x2 x3 ((r1_4.emb x) 0) ((r1_4.emb x) 1) := by
  obtain ⟨a, b, rfl⟩ : ∃ (a : Fin 5000) (b : Fin 128), x = ix2 a b := ⟨x 0, x 1, eq_ix2 x⟩
  have e0 : ((r1_4.emb (ix2 a b)) 0 : Fin 5000) = a := Fin.ext (by show 0 + 1 * a.val = a.val; omega)
  have hb : 128 + b.val < 256 := by have := b.isLt; omega
  have e1 : ((r1_4.emb (ix2 a b)) 1 : Fin 256) = (⟨128 + b.val, hb⟩ : Fin 256) := Fin.ext (by show 128 + 1 * b.val = 128 + b.val; omega)
  rw [e0, e1, pay_right1]
  unfold scaleAt1
  rw [if_neg (show ¬(⟨128 + b.val, hb⟩ : Fin 256).val < 128 from by dsimp only; omega)]

/-- The block the body leaves, entry by entry, from the four input blocks: the two stores are the two column halves of
    one function of the block's index. -/
theorem out_scale1 (x0 : Vec Ideal S5000x128 .f32) (x1 : Vec Ideal S128x256 .f32) (x2 x3 : Vec Ideal S5000x1 .f32)
    (y : S5000x256.Idx) : out1_4 x0 x1 x2 x3 y = scaleAt1 x0 x1 x2 x3 (y 0) (y 1) := by
  unfold out1_4
  simp only [View.ld_unit_zero (S := S5000x128) hz2, View.ld_unit_zero (S := S128x256) hz2, View.ld_unit_zero (S := S5000x1) hz2]
  have hp : ∀ p ∈ ([⟨r1_4, k1_pay3 x0 x1 x3⟩, ⟨r1_3, k1_pay2 x0 x1 x2⟩] : List (View.Piece (Elt Ideal) S5000x256 .f32)),
      ∀ x : p.1.shape.Idx, p.2 x = (fun y : S5000x256.Idx => scaleAt1 x0 x1 x2 x3 (y 0) (y 1)) (p.1.emb x) :=
    List.forall_mem_cons.2 ⟨fun x => piece_right1 x0 x1 x2 x3 x,
      List.forall_mem_cons.2 ⟨fun x => piece_left1 x0 x1 x2 x3 x, fun _ h => absurd h List.not_mem_nil⟩⟩
  exact View.canon_apply_of_pieces (Val := Elt Ideal) (S := S5000x256) (e := .f32)
    (fun y : S5000x256.Idx => scaleAt1 x0 x1 x2 x3 (y 0) (y 1)) _ hp y (cover1_4 _ _ y)

/-- The same over blocks that are rows `o … o + 4999` of whole arrays (the weight whole). -/
theorem out_scale1_rows (X : S50000x128.Idx → EReal) (Wc : S128x256.Idx → EReal) (S0 S1 : S50000x1.Idx → EReal) (o : Nat)
    (x0 : Vec Ideal S5000x128 .f32) (x1 : Vec Ideal S128x256 .f32) (x2 x3 : Vec Ideal S5000x1 .f32)
    (h0 : ∀ (x : S5000x128.Idx) (k : S50000x128.Idx), (k 0).val = o + (x 0).val → (k 1).val = (x 1).val → x0 x = X k)
    (h1 : ∀ x : S128x256.Idx, x1 x = Wc x)
    (h2 : ∀ (x : S5000x1.Idx) (k : S50000x1.Idx), (k 0).val = o + (x 0).val → (k 1).val = (x 1).val → x2 x = S0 k)
    (h3 : ∀ (x : S5000x1.Idx) (k : S50000x1.Idx), (k 0).val = o + (x 0).val → (k 1).val = (x 1).val → x3 x = S1 k)
    (y : S5000x256.Idx) (i : S50000x256.Idx) (hi0 : (i 0).val = o + (y 0).val) (hi1 : (i 1).val = (y 1).val) :
    out1_4 x0 x1 x2 x3 y = scaleG X Wc S0 S1 i := by
  rw [out_scale1]
  obtain ⟨r, q, rfl⟩ : ∃ (r : Fin 5000) (q : Fin 256), y = ix2 r q := ⟨y 0, y 1, eq_ix2 y⟩
  obtain ⟨R, Q, rfl⟩ : ∃ (R : Fin 50000) (Q : Fin 256), i = ix2 R Q := ⟨i 0, i 1, eq_ix2 i⟩
  obtain rfl : Q = q := Fin.ext hi1
  show scaleAt1 x0 x1 x2 x3 r Q = (∑ k : Fin 128, X (ix2 R k) * Wc (ix2 k Q)) * (if Q.val < 128 then S0 (ix2 R (0 : Fin 1)) else S1 (ix2 R (0 : Fin 1)))
  unfold scaleAt1
  rw [h2 (ix2 r (0 : Fin 1)) (ix2 R (0 : Fin 1)) hi0 rfl, h3 (ix2 r (0 : Fin 1)) (ix2 R (0 : Fin 1)) hi0 rfl]
  refine congrArg (· * _) (Finset.sum_congr rfl fun k _ => ?_)
  rw [h0 (ix2 r k) (ix2 R k) hi0 rfl, h1]

/-! The index maps, decided over the ten grid points: the three row-tiled inputs and the output sit at block `(t, 0)`,
    the weight at block `(0, 0)`. -/

theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = 0 ∧ win1_1.index t (1 : Fin 2) = 0 :=
  (by decide +kernel : ∀ t : Fin grid1.N, _)
theorem idx1_2 : ∀ t : Fin cfg1.N, win1_2.index t (0 : Fin 2) = t.val ∧ win1_2.index t (1 : Fin 2) = 0 :=
  (by decide +kernel : ∀ t : Fin grid1.N, _)
theorem idx1_3 : ∀ t : Fin cfg1.N, win1_3.index t (0 : Fin 2) = t.val ∧ win1_3.index t (1 : Fin 2) = 0 :=
  (by decide +kernel : ∀ t : Fin grid1.N, _)
theorem idx1_4 : ∀ t : Fin cfg1.N, win1_4.index t (0 : Fin 2) = t.val ∧ win1_4.index t (1 : Fin 2) = 0 :=
  (by decide +kernel : ∀ t : Fin grid1.N, _)

/-- Window 0's block at point `t` is rows `5000 t … 5000 t + 4999` of its array. -/
theorem blk1_0_apply (c : Dev nD) (t : Fin cfg1.N) (x : S5000x128.Idx) (k : S50000x128.Idx)
    (hk0 : (k 0).val = 5000 * t.val + (x 0).val) (hk1 : (k 1).val = (x 1).val) :
    (iblk1 V c 0 t : Vec Ideal S5000x128 .f32) x = (V c (Pipeline.arrRef spec1 0) : S50000x128.Idx → EReal) k := by
  have hi : win1_0.index t (0 : Fin 2) = t.val ∧ win1_0.index t (1 : Fin 2) = 0 := idx1_0 t
  unfold iblk1
  rw [View.read_apply]
  refine congrArg (V c (Pipeline.arrRef spec1 0)) ?_
  funext a
  apply Fin.ext
  match a with
  | ⟨0, _⟩ => show win1_0.index t (0 : Fin 2) * 5000 + 1 * (x 0).val = (k 0).val; rw [hi.1, hk0]; omega
  | ⟨1, _⟩ => show win1_0.index t (1 : Fin 2) * 128 + 1 * (x 1).val = (k 1).val; rw [hi.2, hk1]; omega

/-- Window 1's block at every point is its whole array. -/
theorem blk1_1_apply (c : Dev nD) (t : Fin cfg1.N) (x : S128x256.Idx) :
    (iblk1 V c 1 t : Vec Ideal S128x256 .f32) x = (V c (Pipeline.arrRef spec1 1) : S128x256.Idx → EReal) x := by
  have hi : win1_1.index t (0 : Fin 2) = 0 ∧ win1_1.index t (1 : Fin 2) = 0 := idx1_1 t
  unfold iblk1
  rw [View.read_apply]
  refine congrArg (V c (Pipeline.arrRef spec1 1)) ?_
  funext a
  apply Fin.ext
  match a with
  | ⟨0, _⟩ => show win1_1.index t (0 : Fin 2) * 128 + 1 * (x 0).val = (x 0).val; rw [hi.1]; omega
  | ⟨1, _⟩ => show win1_1.index t (1 : Fin 2) * 256 + 1 * (x 1).val = (x 1).val; rw [hi.2]; omega

/-- Window 2's block at point `t` is rows `5000 t … 5000 t + 4999` of its array. -/
theorem blk1_2_apply (c : Dev nD) (t : Fin cfg1.N) (x : S5000x1.Idx) (k : S50000x1.Idx)
    (hk0 : (k 0).val = 5000 * t.val + (x 0).val) (hk1 : (k 1).val = (x 1).val) :
    (iblk1 V c 2 t : Vec Ideal S5000x1 .f32) x = (V c (Pipeline.arrRef spec1 2) : S50000x1.Idx → EReal) k := by
  have hi : win1_2.index t (0 : Fin 2) = t.val ∧ win1_2.index t (1 : Fin 2) = 0 := idx1_2 t
  unfold iblk1
  rw [View.read_apply]
  refine congrArg (V c (Pipeline.arrRef spec1 2)) ?_
  funext a
  apply Fin.ext
  match a with
  | ⟨0, _⟩ => show win1_2.index t (0 : Fin 2) * 5000 + 1 * (x 0).val = (k 0).val; rw [hi.1, hk0]; omega
  | ⟨1, _⟩ => show win1_2.index t (1 : Fin 2) * 1 + 1 * (x 1).val = (k 1).val; rw [hi.2, hk1]; omega

/-- Window 3's block at point `t` is rows `5000 t … 5000 t + 4999` of its array. -/
theorem blk1_3_apply (c : Dev nD) (t : Fin cfg1.N) (x : S5000x1.Idx) (k : S50000x1.Idx)
    (hk0 : (k 0).val = 5000 * t.val + (x 0).val) (hk1 : (k 1).val = (x 1).val) :
    (iblk1 V c 3 t : Vec Ideal S5000x1 .f32) x = (V c (Pipeline.arrRef spec1 3) : S50000x1.Idx → EReal) k := by
  have hi : win1_3.index t (0 : Fin 2) = t.val ∧ win1_3.index t (1 : Fin 2) = 0 := idx1_3 t
  unfold iblk1
  rw [View.read_apply]
  refine congrArg (V c (Pipeline.arrRef spec1 3)) ?_
  funext a
  apply Fin.ext
  match a with
  | ⟨0, _⟩ => show win1_3.index t (0 : Fin 2) * 5000 + 1 * (x 0).val = (k 0).val; rw [hi.1, hk0]; omega
  | ⟨1, _⟩ => show win1_3.index t (1 : Fin 2) * 1 + 1 * (x 1).val = (k 1).val; rw [hi.2, hk1]; omega

/-- What point `t` writes back is block `t` of the scaled projection of the arrays as the region finds them. -/
theorem flushed_scale1 (c : Dev nD) (t : Fin cfg1.N) :
    (dat1 (F := Ideal) V c).flushed 4 t = ((cfg1.win 4).blk t).view.read (Elt Ideal)
      (scaleG (V c (Pipeline.arrRef spec1 0)) (V c (Pipeline.arrRef spec1 1)) (V c (Pipeline.arrRef spec1 2))
        (V c (Pipeline.arrRef spec1 3))) := by
  show (cfg1.win 4).cut (grid1.coords t) ((dat1 V c).after 4 t) = _
  rw [after1_4]
  have hi : win1_4.index t (0 : Fin 2) = t.val ∧ win1_4.index t (1 : Fin 2) = 0 := idx1_4 t
  funext j
  rw [View.read_apply]
  show out1_4 (iblk1 V c 0 t) (iblk1 V c 1 t) (iblk1 V c 2 t) (iblk1 V c 3 t) j = _
  refine out_scale1_rows (V c (Pipeline.arrRef spec1 0)) (V c (Pipeline.arrRef spec1 1)) (V c (Pipeline.arrRef spec1 2))
    (V c (Pipeline.arrRef spec1 3)) (5000 * t.val)
    (iblk1 V c 0 t) (iblk1 V c 1 t) (iblk1 V c 2 t) (iblk1 V c 3 t)
    (blk1_0_apply V c t) (blk1_1_apply V c t) (blk1_2_apply V c t) (blk1_3_apply V c t)
    j (((cfg1.win 4).blk t).view.emb j) ?_ ?_
  · show win1_4.index t (0 : Fin 2) * 5000 + 1 * (j 0).val = 5000 * t.val + (j 0).val; rw [hi.1]; omega
  · show win1_4.index t (1 : Fin 2) * 256 + 1 * (j 1).val = (j 1).val; rw [hi.2]; omega

/-- Every block of ten is some point's. -/
theorem onto1 : ∀ q : Fin 10, ∃ t : Fin cfg1.N, win1_4.index t (0 : Fin 2) = q.val ∧ win1_4.index t (1 : Fin 2) = 0 :=
  (by decide +kernel : ∀ q : Fin 10, ∃ t : Fin grid1.N, _)

/-- An index of the output array is in point `t`'s block iff each coordinate is in the block's range on its axis. -/
theorem mem_blk1 (t : Fin cfg1.N) (i : S50000x256.Idx) :
    i ∈ ((cfg1.win 4).blk t).view.set ↔ ∀ a : Fin 2, win1_4.index t a * S5000x256.size a ≤ (i a).val ∧ (i a).val < win1_4.index t a * S5000x256.size a + S5000x256.size a := by
  show i ∈ ((View.whole main_v114).slice (win1_4.rect t)).set ↔ _
  rw [View.set_slice_whole, Rect.mem_set_unit]
  exact Iff.rfl

/-- Row `r` of the output array lies in the block of point `r / 5000`. -/
theorem cover1 (i : S50000x256.Idx) : ∃ t : Fin cfg1.N, (cfg1.win 4).flush t = true ∧ i ∈ ((cfg1.win 4).blk t).view.set := by
  have hi0 : (i 0).val < 50000 := (i 0).isLt
  have hi1 : (i 1).val < 256 := (i 1).isLt
  obtain ⟨t, ht0, ht1⟩ := onto1 ⟨(i 0).val / 5000, by omega⟩
  refine ⟨t, flush1_4 t, ?_⟩
  rw [mem_blk1]
  intro a
  match a with
  | ⟨0, _⟩ => show win1_4.index t (0 : Fin 2) * 5000 ≤ (i 0).val ∧ (i 0).val < win1_4.index t (0 : Fin 2) * 5000 + 5000; rw [ht0]; dsimp only; omega
  | ⟨1, _⟩ => show win1_4.index t (1 : Fin 2) * 256 ≤ (i 1).val ∧ (i 1).val < win1_4.index t (1 : Fin 2) * 256 + 256; rw [ht1]; omega

/-- THE OUTPUT ARRAY after the region: the scaled projection of the four input arrays as the region finds them. -/
theorem final_scale1 (c : Dev nD) : (dat1 (F := Ideal) V c).arrAt 4 cfg1.N
    = scaleG (V c (Pipeline.arrRef spec1 0)) (V c (Pipeline.arrRef spec1 1)) (V c (Pipeline.arrRef spec1 2))
        (V c (Pipeline.arrRef spec1 3)) :=
  (dat1 (F := Ideal) V c).arrAt_eq_of_cover 4 _ (fun t _ => flushed_scale1 V c t) (cover1)

end Cert.KernelIdeal.RegionValue

end
-- ==== Proof.RegionScale4.lean ====
/-
  Region 4: what the projection leaves in its whole output array, as one function of its four input arrays as the region
  finds them. Each grid point's block is 5000 rows; point `t` reads rows `5000 t …` of the features and of the two
  factor columns and the whole [128, 256] weight, and writes rows `5000 t …` of the output in two column halves; the ten
  blocks tile the array.
-/
import proofs.«122068_j1322849927480_2_alg».proof.Proof.Gen.KernelIdeal.Frame
import proofs.«122068_j1322849927480_2_alg».proof.Proof.PayScale
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- One entry of a block of the scaled projection: row `r` times column `c` of the weight, times the first factor of
    the row when `c` is among the left 128 columns and the second otherwise. -/
def scaleAt4 (x0 : Vec Ideal S5000x128 .f32) (x1 : Vec Ideal S128x256 .f32) (x2 x3 : Vec Ideal S5000x1 .f32)
    (r : Fin 5000) (c : Fin 256) : EReal :=
  (∑ k : Fin 128, x0 (ix2 r k) * x1 (ix2 k c)) * (if c.val < 128 then x2 (ix2 r (0 : Fin 1)) else x3 (ix2 r (0 : Fin 1)))

/-- The left half's store: lane `b` of the stored rows is column `b` of the block. -/
theorem piece_left4 (x0 : Vec Ideal S5000x128 .f32) (x1 : Vec Ideal S128x256 .f32) (x2 x3 : Vec Ideal S5000x1 .f32)
    (x : S5000x128.Idx) :
    k4_pay2 x0 x1 x2 x = scaleAt4 x0 x1 x2 x3 ((r4_3.emb x) 0) ((r4_3.emb x) 1) := by
  obtain ⟨a, b, rfl⟩ : ∃ (a : Fin 5000) (b : Fin 128), x = ix2 a b := ⟨x 0, x 1, eq_ix2 x⟩
  have e0 : ((r4_3.emb (ix2 a b)) 0 : Fin 5000) = a := Fin.ext (by show 0 + 1 * a.val = a.val; omega)
  have hb : b.val < 256 := by have := b.isLt; omega
  have e1 : ((r4_3.emb (ix2 a b)) 1 : Fin 256) = (⟨b.val, hb⟩ : Fin 256) := Fin.ext (by show 0 + 1 * b.val = b.val; omega)
  rw [e0, e1, pay_left4]
  unfold scaleAt4
  rw [if_pos (show (⟨b.val, hb⟩ : Fin 256).val < 128 from b.isLt)]

/-- The right half's store: lane `b` of the stored rows is column `128 + b` of the block. -/
theorem piece_right4 (x0 : Vec Ideal S5000x128 .f32) (x1 : Vec Ideal S128x256 .f32) (x2 x3 : Vec Ideal S5000x1 .f32)
    (x : S5000x128.Idx) :
    k4_pay3 x0 x1 x3 x = scaleAt4 x0 x1 x2 x3 ((r4_4.emb x) 0) ((r4_4.emb x) 1) := by
  obtain ⟨a, b, rfl⟩ : ∃ (a : Fin 5000) (b : Fin 128), x = ix2 a b := ⟨x 0, x 1, eq_ix2 x⟩
  have e0 : ((r4_4.emb (ix2 a b)) 0 : Fin 5000) = a := Fin.ext (by show 0 + 1 * a.val = a.val; omega)
  have hb : 128 + b.val < 256 := by have := b.isLt; omega
  have e1 : ((r4_4.emb (ix2 a b)) 1 : Fin 256) = (⟨128 + b.val, hb⟩ : Fin 256) := Fin.ext (by show 128 + 1 * b.val = 128 + b.val; omega)
  rw [e0, e1, pay_right4]
  unfold scaleAt4
  rw [if_neg (show ¬(⟨128 + b.val, hb⟩ : Fin 256).val < 128 from by dsimp only; omega)]

/-- The block the body leaves, entry by entry, from the four input blocks: the two stores are the two column halves of
    one function of the block's index. -/
theorem out_scale4 (x0 : Vec Ideal S5000x128 .f32) (x1 : Vec Ideal S128x256 .f32) (x2 x3 : Vec Ideal S5000x1 .f32)
    (y : S5000x256.Idx) : out4_4 x0 x1 x2 x3 y = scaleAt4 x0 x1 x2 x3 (y 0) (y 1) := by
  unfold out4_4
  simp only [View.ld_unit_zero (S := S5000x128) hz2, View.ld_unit_zero (S := S128x256) hz2, View.ld_unit_zero (S := S5000x1) hz2]
  have hp : ∀ p ∈ ([⟨r4_4, k4_pay3 x0 x1 x3⟩, ⟨r4_3, k4_pay2 x0 x1 x2⟩] : List (View.Piece (Elt Ideal) S5000x256 .f32)),
      ∀ x : p.1.shape.Idx, p.2 x = (fun y : S5000x256.Idx => scaleAt4 x0 x1 x2 x3 (y 0) (y 1)) (p.1.emb x) :=
    List.forall_mem_cons.2 ⟨fun x => piece_right4 x0 x1 x2 x3 x,
      List.forall_mem_cons.2 ⟨fun x => piece_left4 x0 x1 x2 x3 x, fun _ h => absurd h List.not_mem_nil⟩⟩
  exact View.canon_apply_of_pieces (Val := Elt Ideal) (S := S5000x256) (e := .f32)
    (fun y : S5000x256.Idx => scaleAt4 x0 x1 x2 x3 (y 0) (y 1)) _ hp y (cover4_4 _ _ y)

/-- The same over blocks that are rows `o … o + 4999` of whole arrays (the weight whole). -/
theorem out_scale4_rows (X : S50000x128.Idx → EReal) (Wc : S128x256.Idx → EReal) (S0 S1 : S50000x1.Idx → EReal) (o : Nat)
    (x0 : Vec Ideal S5000x128 .f32) (x1 : Vec Ideal S128x256 .f32) (x2 x3 : Vec Ideal S5000x1 .f32)
    (h0 : ∀ (x : S5000x128.Idx) (k : S50000x128.Idx), (k 0).val = o + (x 0).val → (k 1).val = (x 1).val → x0 x = X k)
    (h1 : ∀ x : S128x256.Idx, x1 x = Wc x)
    (h2 : ∀ (x : S5000x1.Idx) (k : S50000x1.Idx), (k 0).val = o + (x 0).val → (k 1).val = (x 1).val → x2 x = S0 k)
    (h3 : ∀ (x : S5000x1.Idx) (k : S50000x1.Idx), (k 0).val = o + (x 0).val → (k 1).val = (x 1).val → x3 x = S1 k)
    (y : S5000x256.Idx) (i : S50000x256.Idx) (hi0 : (i 0).val = o + (y 0).val) (hi1 : (i 1).val = (y 1).val) :
    out4_4 x0 x1 x2 x3 y = scaleG X Wc S0 S1 i := by
  rw [out_scale4]
  obtain ⟨r, q, rfl⟩ : ∃ (r : Fin 5000) (q : Fin 256), y = ix2 r q := ⟨y 0, y 1, eq_ix2 y⟩
  obtain ⟨R, Q, rfl⟩ : ∃ (R : Fin 50000) (Q : Fin 256), i = ix2 R Q := ⟨i 0, i 1, eq_ix2 i⟩
  obtain rfl : Q = q := Fin.ext hi1
  show scaleAt4 x0 x1 x2 x3 r Q = (∑ k : Fin 128, X (ix2 R k) * Wc (ix2 k Q)) * (if Q.val < 128 then S0 (ix2 R (0 : Fin 1)) else S1 (ix2 R (0 : Fin 1)))
  unfold scaleAt4
  rw [h2 (ix2 r (0 : Fin 1)) (ix2 R (0 : Fin 1)) hi0 rfl, h3 (ix2 r (0 : Fin 1)) (ix2 R (0 : Fin 1)) hi0 rfl]
  refine congrArg (· * _) (Finset.sum_congr rfl fun k _ => ?_)
  rw [h0 (ix2 r k) (ix2 R k) hi0 rfl, h1]

/-! The index maps, decided over the ten grid points: the three row-tiled inputs and the output sit at block `(t, 0)`,
    the weight at block `(0, 0)`. -/

theorem idx4_0 : ∀ t : Fin cfg4.N, win4_0.index t (0 : Fin 2) = t.val ∧ win4_0.index t (1 : Fin 2) = 0 :=
  (by decide +kernel : ∀ t : Fin grid4.N, _)
theorem idx4_1 : ∀ t : Fin cfg4.N, win4_1.index t (0 : Fin 2) = 0 ∧ win4_1.index t (1 : Fin 2) = 0 :=
  (by decide +kernel : ∀ t : Fin grid4.N, _)
theorem idx4_2 : ∀ t : Fin cfg4.N, win4_2.index t (0 : Fin 2) = t.val ∧ win4_2.index t (1 : Fin 2) = 0 :=
  (by decide +kernel : ∀ t : Fin grid4.N, _)
theorem idx4_3 : ∀ t : Fin cfg4.N, win4_3.index t (0 : Fin 2) = t.val ∧ win4_3.index t (1 : Fin 2) = 0 :=
  (by decide +kernel : ∀ t : Fin grid4.N, _)
theorem idx4_4 : ∀ t : Fin cfg4.N, win4_4.index t (0 : Fin 2) = t.val ∧ win4_4.index t (1 : Fin 2) = 0 :=
  (by decide +kernel : ∀ t : Fin grid4.N, _)

/-- Window 0's block at point `t` is rows `5000 t … 5000 t + 4999` of its array. -/
theorem blk4_0_apply (c : Dev nD) (t : Fin cfg4.N) (x : S5000x128.Idx) (k : S50000x128.Idx)
    (hk0 : (k 0).val = 5000 * t.val + (x 0).val) (hk1 : (k 1).val = (x 1).val) :
    (iblk4 V c 0 t : Vec Ideal S5000x128 .f32) x = (V c (Pipeline.arrRef spec4 0) : S50000x128.Idx → EReal) k := by
  have hi : win4_0.index t (0 : Fin 2) = t.val ∧ win4_0.index t (1 : Fin 2) = 0 := idx4_0 t
  unfold iblk4
  rw [View.read_apply]
  refine congrArg (V c (Pipeline.arrRef spec4 0)) ?_
  funext a
  apply Fin.ext
  match a with
  | ⟨0, _⟩ => show win4_0.index t (0 : Fin 2) * 5000 + 1 * (x 0).val = (k 0).val; rw [hi.1, hk0]; omega
  | ⟨1, _⟩ => show win4_0.index t (1 : Fin 2) * 128 + 1 * (x 1).val = (k 1).val; rw [hi.2, hk1]; omega

/-- Window 1's block at every point is its whole array. -/
theorem blk4_1_apply (c : Dev nD) (t : Fin cfg4.N) (x : S128x256.Idx) :
    (iblk4 V c 1 t : Vec Ideal S128x256 .f32) x = (V c (Pipeline.arrRef spec4 1) : S128x256.Idx → EReal) x := by
  have hi : win4_1.index t (0 : Fin 2) = 0 ∧ win4_1.index t (1 : Fin 2) = 0 := idx4_1 t
  unfold iblk4
  rw [View.read_apply]
  refine congrArg (V c (Pipeline.arrRef spec4 1)) ?_
  funext a
  apply Fin.ext
  match a with
  | ⟨0, _⟩ => show win4_1.index t (0 : Fin 2) * 128 + 1 * (x 0).val = (x 0).val; rw [hi.1]; omega
  | ⟨1, _⟩ => show win4_1.index t (1 : Fin 2) * 256 + 1 * (x 1).val = (x 1).val; rw [hi.2]; omega

/-- Window 2's block at point `t` is rows `5000 t … 5000 t + 4999` of its array. -/
theorem blk4_2_apply (c : Dev nD) (t : Fin cfg4.N) (x : S5000x1.Idx) (k : S50000x1.Idx)
    (hk0 : (k 0).val = 5000 * t.val + (x 0).val) (hk1 : (k 1).val = (x 1).val) :
    (iblk4 V c 2 t : Vec Ideal S5000x1 .f32) x = (V c (Pipeline.arrRef spec4 2) : S50000x1.Idx → EReal) k := by
  have hi : win4_2.index t (0 : Fin 2) = t.val ∧ win4_2.index t (1 : Fin 2) = 0 := idx4_2 t
  unfold iblk4
  rw [View.read_apply]
  refine congrArg (V c (Pipeline.arrRef spec4 2)) ?_
  funext a
  apply Fin.ext
  match a with
  | ⟨0, _⟩ => show win4_2.index t (0 : Fin 2) * 5000 + 1 * (x 0).val = (k 0).val; rw [hi.1, hk0]; omega
  | ⟨1, _⟩ => show win4_2.index t (1 : Fin 2) * 1 + 1 * (x 1).val = (k 1).val; rw [hi.2, hk1]; omega

/-- Window 3's block at point `t` is rows `5000 t … 5000 t + 4999` of its array. -/
theorem blk4_3_apply (c : Dev nD) (t : Fin cfg4.N) (x : S5000x1.Idx) (k : S50000x1.Idx)
    (hk0 : (k 0).val = 5000 * t.val + (x 0).val) (hk1 : (k 1).val = (x 1).val) :
    (iblk4 V c 3 t : Vec Ideal S5000x1 .f32) x = (V c (Pipeline.arrRef spec4 3) : S50000x1.Idx → EReal) k := by
  have hi : win4_3.index t (0 : Fin 2) = t.val ∧ win4_3.index t (1 : Fin 2) = 0 := idx4_3 t
  unfold iblk4
  rw [View.read_apply]
  refine congrArg (V c (Pipeline.arrRef spec4 3)) ?_
  funext a
  apply Fin.ext
  match a with
  | ⟨0, _⟩ => show win4_3.index t (0 : Fin 2) * 5000 + 1 * (x 0).val = (k 0).val; rw [hi.1, hk0]; omega
  | ⟨1, _⟩ => show win4_3.index t (1 : Fin 2) * 1 + 1 * (x 1).val = (k 1).val; rw [hi.2, hk1]; omega

/-- What point `t` writes back is block `t` of the scaled projection of the arrays as the region finds them. -/
theorem flushed_scale4 (c : Dev nD) (t : Fin cfg4.N) :
    (dat4 (F := Ideal) V c).flushed 4 t = ((cfg4.win 4).blk t).view.read (Elt Ideal)
      (scaleG (V c (Pipeline.arrRef spec4 0)) (V c (Pipeline.arrRef spec4 1)) (V c (Pipeline.arrRef spec4 2))
        (V c (Pipeline.arrRef spec4 3))) := by
  show (cfg4.win 4).cut (grid4.coords t) ((dat4 V c).after 4 t) = _
  rw [after4_4]
  have hi : win4_4.index t (0 : Fin 2) = t.val ∧ win4_4.index t (1 : Fin 2) = 0 := idx4_4 t
  funext j
  rw [View.read_apply]
  show out4_4 (iblk4 V c 0 t) (iblk4 V c 1 t) (iblk4 V c 2 t) (iblk4 V c 3 t) j = _
  refine out_scale4_rows (V c (Pipeline.arrRef spec4 0)) (V c (Pipeline.arrRef spec4 1)) (V c (Pipeline.arrRef spec4 2))
    (V c (Pipeline.arrRef spec4 3)) (5000 * t.val)
    (iblk4 V c 0 t) (iblk4 V c 1 t) (iblk4 V c 2 t) (iblk4 V c 3 t)
    (blk4_0_apply V c t) (blk4_1_apply V c t) (blk4_2_apply V c t) (blk4_3_apply V c t)
    j (((cfg4.win 4).blk t).view.emb j) ?_ ?_
  · show win4_4.index t (0 : Fin 2) * 5000 + 1 * (j 0).val = 5000 * t.val + (j 0).val; rw [hi.1]; omega
  · show win4_4.index t (1 : Fin 2) * 256 + 1 * (j 1).val = (j 1).val; rw [hi.2]; omega

/-- Every block of ten is some point's. -/
theorem onto4 : ∀ q : Fin 10, ∃ t : Fin cfg4.N, win4_4.index t (0 : Fin 2) = q.val ∧ win4_4.index t (1 : Fin 2) = 0 :=
  (by decide +kernel : ∀ q : Fin 10, ∃ t : Fin grid4.N, _)

/-- An index of the output array is in point `t`'s block iff each coordinate is in the block's range on its axis. -/
theorem mem_blk4 (t : Fin cfg4.N) (i : S50000x256.Idx) :
    i ∈ ((cfg4.win 4).blk t).view.set ↔ ∀ a : Fin 2, win4_4.index t a * S5000x256.size a ≤ (i a).val ∧ (i a).val < win4_4.index t a * S5000x256.size a + S5000x256.size a := by
  show i ∈ ((View.whole main_v189).slice (win4_4.rect t)).set ↔ _
  rw [View.set_slice_whole, Rect.mem_set_unit]
  exact Iff.rfl

/-- Row `r` of the output array lies in the block of point `r / 5000`. -/
theorem cover4 (i : S50000x256.Idx) : ∃ t : Fin cfg4.N, (cfg4.win 4).flush t = true ∧ i ∈ ((cfg4.win 4).blk t).view.set := by
  have hi0 : (i 0).val < 50000 := (i 0).isLt
  have hi1 : (i 1).val < 256 := (i 1).isLt
  obtain ⟨t, ht0, ht1⟩ := onto4 ⟨(i 0).val / 5000, by omega⟩
  refine ⟨t, flush4_4 t, ?_⟩
  rw [mem_blk4]
  intro a
  match a with
  | ⟨0, _⟩ => show win4_4.index t (0 : Fin 2) * 5000 ≤ (i 0).val ∧ (i 0).val < win4_4.index t (0 : Fin 2) * 5000 + 5000; rw [ht0]; dsimp only; omega
  | ⟨1, _⟩ => show win4_4.index t (1 : Fin 2) * 256 ≤ (i 1).val ∧ (i 1).val < win4_4.index t (1 : Fin 2) * 256 + 256; rw [ht1]; omega

/-- THE OUTPUT ARRAY after the region: the scaled projection of the four input arrays as the region finds them. -/
theorem final_scale4 (c : Dev nD) : (dat4 (F := Ideal) V c).arrAt 4 cfg4.N
    = scaleG (V c (Pipeline.arrRef spec4 0)) (V c (Pipeline.arrRef spec4 1)) (V c (Pipeline.arrRef spec4 2))
        (V c (Pipeline.arrRef spec4 3)) :=
  (dat4 (F := Ideal) V c).arrAt_eq_of_cover 4 _ (fun t _ => flushed_scale4 V c t) (cover4)

end Cert.KernelIdeal.RegionValue

end
-- ==== Proof.RegionScale5.lean ====
/-
  Region 5: what the projection leaves in its whole output array, as one function of its four input arrays as the region
  finds them. Each grid point's block is 5000 rows; point `t` reads rows `5000 t …` of the features and of the two
  factor columns and the whole [128, 256] weight, and writes rows `5000 t …` of the output in two column halves; the ten
  blocks tile the array.
-/
import proofs.«122068_j1322849927480_2_alg».proof.Proof.Gen.KernelIdeal.Frame
import proofs.«122068_j1322849927480_2_alg».proof.Proof.PayScale
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- One entry of a block of the scaled projection: row `r` times column `c` of the weight, times the first factor of
    the row when `c` is among the left 128 columns and the second otherwise. -/
def scaleAt5 (x0 : Vec Ideal S5000x128 .f32) (x1 : Vec Ideal S128x256 .f32) (x2 x3 : Vec Ideal S5000x1 .f32)
    (r : Fin 5000) (c : Fin 256) : EReal :=
  (∑ k : Fin 128, x0 (ix2 r k) * x1 (ix2 k c)) * (if c.val < 128 then x2 (ix2 r (0 : Fin 1)) else x3 (ix2 r (0 : Fin 1)))

/-- The left half's store: lane `b` of the stored rows is column `b` of the block. -/
theorem piece_left5 (x0 : Vec Ideal S5000x128 .f32) (x1 : Vec Ideal S128x256 .f32) (x2 x3 : Vec Ideal S5000x1 .f32)
    (x : S5000x128.Idx) :
    k5_pay2 x0 x1 x2 x = scaleAt5 x0 x1 x2 x3 ((r5_3.emb x) 0) ((r5_3.emb x) 1) := by
  obtain ⟨a, b, rfl⟩ : ∃ (a : Fin 5000) (b : Fin 128), x = ix2 a b := ⟨x 0, x 1, eq_ix2 x⟩
  have e0 : ((r5_3.emb (ix2 a b)) 0 : Fin 5000) = a := Fin.ext (by show 0 + 1 * a.val = a.val; omega)
  have hb : b.val < 256 := by have := b.isLt; omega
  have e1 : ((r5_3.emb (ix2 a b)) 1 : Fin 256) = (⟨b.val, hb⟩ : Fin 256) := Fin.ext (by show 0 + 1 * b.val = b.val; omega)
  rw [e0, e1, pay_left5]
  unfold scaleAt5
  rw [if_pos (show (⟨b.val, hb⟩ : Fin 256).val < 128 from b.isLt)]

/-- The right half's store: lane `b` of the stored rows is column `128 + b` of the block. -/
theorem piece_right5 (x0 : Vec Ideal S5000x128 .f32) (x1 : Vec Ideal S128x256 .f32) (x2 x3 : Vec Ideal S5000x1 .f32)
    (x : S5000x128.Idx) :
    k5_pay3 x0 x1 x3 x = scaleAt5 x0 x1 x2 x3 ((r5_4.emb x) 0) ((r5_4.emb x) 1) := by
  obtain ⟨a, b, rfl⟩ : ∃ (a : Fin 5000) (b : Fin 128), x = ix2 a b := ⟨x 0, x 1, eq_ix2 x⟩
  have e0 : ((r5_4.emb (ix2 a b)) 0 : Fin 5000) = a := Fin.ext (by show 0 + 1 * a.val = a.val; omega)
  have hb : 128 + b.val < 256 := by have := b.isLt; omega
  have e1 : ((r5_4.emb (ix2 a b)) 1 : Fin 256) = (⟨128 + b.val, hb⟩ : Fin 256) := Fin.ext (by show 128 + 1 * b.val = 128 + b.val; omega)
  rw [e0, e1, pay_right5]
  unfold scaleAt5
  rw [if_neg (show ¬(⟨128 + b.val, hb⟩ : Fin 256).val < 128 from by dsimp only; omega)]

/-- The block the body leaves, entry by entry, from the four input blocks: the two stores are the two column halves of
    one function of the block's index. -/
theorem out_scale5 (x0 : Vec Ideal S5000x128 .f32) (x1 : Vec Ideal S128x256 .f32) (x2 x3 : Vec Ideal S5000x1 .f32)
    (y : S5000x256.Idx) : out5_4 x0 x1 x2 x3 y = scaleAt5 x0 x1 x2 x3 (y 0) (y 1) := by
  unfold out5_4
  simp only [View.ld_unit_zero (S := S5000x128) hz2, View.ld_unit_zero (S := S128x256) hz2, View.ld_unit_zero (S := S5000x1) hz2]
  have hp : ∀ p ∈ ([⟨r5_4, k5_pay3 x0 x1 x3⟩, ⟨r5_3, k5_pay2 x0 x1 x2⟩] : List (View.Piece (Elt Ideal) S5000x256 .f32)),
      ∀ x : p.1.shape.Idx, p.2 x = (fun y : S5000x256.Idx => scaleAt5 x0 x1 x2 x3 (y 0) (y 1)) (p.1.emb x) :=
    List.forall_mem_cons.2 ⟨fun x => piece_right5 x0 x1 x2 x3 x,
      List.forall_mem_cons.2 ⟨fun x => piece_left5 x0 x1 x2 x3 x, fun _ h => absurd h List.not_mem_nil⟩⟩
  exact View.canon_apply_of_pieces (Val := Elt Ideal) (S := S5000x256) (e := .f32)
    (fun y : S5000x256.Idx => scaleAt5 x0 x1 x2 x3 (y 0) (y 1)) _ hp y (cover5_4 _ _ y)

/-- The same over blocks that are rows `o … o + 4999` of whole arrays (the weight whole). -/
theorem out_scale5_rows (X : S50000x128.Idx → EReal) (Wc : S128x256.Idx → EReal) (S0 S1 : S50000x1.Idx → EReal) (o : Nat)
    (x0 : Vec Ideal S5000x128 .f32) (x1 : Vec Ideal S128x256 .f32) (x2 x3 : Vec Ideal S5000x1 .f32)
    (h0 : ∀ (x : S5000x128.Idx) (k : S50000x128.Idx), (k 0).val = o + (x 0).val → (k 1).val = (x 1).val → x0 x = X k)
    (h1 : ∀ x : S128x256.Idx, x1 x = Wc x)
    (h2 : ∀ (x : S5000x1.Idx) (k : S50000x1.Idx), (k 0).val = o + (x 0).val → (k 1).val = (x 1).val → x2 x = S0 k)
    (h3 : ∀ (x : S5000x1.Idx) (k : S50000x1.Idx), (k 0).val = o + (x 0).val → (k 1).val = (x 1).val → x3 x = S1 k)
    (y : S5000x256.Idx) (i : S50000x256.Idx) (hi0 : (i 0).val = o + (y 0).val) (hi1 : (i 1).val = (y 1).val) :
    out5_4 x0 x1 x2 x3 y = scaleG X Wc S0 S1 i := by
  rw [out_scale5]
  obtain ⟨r, q, rfl⟩ : ∃ (r : Fin 5000) (q : Fin 256), y = ix2 r q := ⟨y 0, y 1, eq_ix2 y⟩
  obtain ⟨R, Q, rfl⟩ : ∃ (R : Fin 50000) (Q : Fin 256), i = ix2 R Q := ⟨i 0, i 1, eq_ix2 i⟩
  obtain rfl : Q = q := Fin.ext hi1
  show scaleAt5 x0 x1 x2 x3 r Q = (∑ k : Fin 128, X (ix2 R k) * Wc (ix2 k Q)) * (if Q.val < 128 then S0 (ix2 R (0 : Fin 1)) else S1 (ix2 R (0 : Fin 1)))
  unfold scaleAt5
  rw [h2 (ix2 r (0 : Fin 1)) (ix2 R (0 : Fin 1)) hi0 rfl, h3 (ix2 r (0 : Fin 1)) (ix2 R (0 : Fin 1)) hi0 rfl]
  refine congrArg (· * _) (Finset.sum_congr rfl fun k _ => ?_)
  rw [h0 (ix2 r k) (ix2 R k) hi0 rfl, h1]

/-! The index maps, decided over the ten grid points: the three row-tiled inputs and the output sit at block `(t, 0)`,
    the weight at block `(0, 0)`. -/

theorem idx5_0 : ∀ t : Fin cfg5.N, win5_0.index t (0 : Fin 2) = t.val ∧ win5_0.index t (1 : Fin 2) = 0 :=
  (by decide +kernel : ∀ t : Fin grid5.N, _)
theorem idx5_1 : ∀ t : Fin cfg5.N, win5_1.index t (0 : Fin 2) = 0 ∧ win5_1.index t (1 : Fin 2) = 0 :=
  (by decide +kernel : ∀ t : Fin grid5.N, _)
theorem idx5_2 : ∀ t : Fin cfg5.N, win5_2.index t (0 : Fin 2) = t.val ∧ win5_2.index t (1 : Fin 2) = 0 :=
  (by decide +kernel : ∀ t : Fin grid5.N, _)
theorem idx5_3 : ∀ t : Fin cfg5.N, win5_3.index t (0 : Fin 2) = t.val ∧ win5_3.index t (1 : Fin 2) = 0 :=
  (by decide +kernel : ∀ t : Fin grid5.N, _)
theorem idx5_4 : ∀ t : Fin cfg5.N, win5_4.index t (0 : Fin 2) = t.val ∧ win5_4.index t (1 : Fin 2) = 0 :=
  (by decide +kernel : ∀ t : Fin grid5.N, _)

/-- Window 0's block at point `t` is rows `5000 t … 5000 t + 4999` of its array. -/
theorem blk5_0_apply (c : Dev nD) (t : Fin cfg5.N) (x : S5000x128.Idx) (k : S50000x128.Idx)
    (hk0 : (k 0).val = 5000 * t.val + (x 0).val) (hk1 : (k 1).val = (x 1).val) :
    (iblk5 V c 0 t : Vec Ideal S5000x128 .f32) x = (V c (Pipeline.arrRef spec5 0) : S50000x128.Idx → EReal) k := by
  have hi : win5_0.index t (0 : Fin 2) = t.val ∧ win5_0.index t (1 : Fin 2) = 0 := idx5_0 t
  unfold iblk5
  rw [View.read_apply]
  refine congrArg (V c (Pipeline.arrRef spec5 0)) ?_
  funext a
  apply Fin.ext
  match a with
  | ⟨0, _⟩ => show win5_0.index t (0 : Fin 2) * 5000 + 1 * (x 0).val = (k 0).val; rw [hi.1, hk0]; omega
  | ⟨1, _⟩ => show win5_0.index t (1 : Fin 2) * 128 + 1 * (x 1).val = (k 1).val; rw [hi.2, hk1]; omega

/-- Window 1's block at every point is its whole array. -/
theorem blk5_1_apply (c : Dev nD) (t : Fin cfg5.N) (x : S128x256.Idx) :
    (iblk5 V c 1 t : Vec Ideal S128x256 .f32) x = (V c (Pipeline.arrRef spec5 1) : S128x256.Idx → EReal) x := by
  have hi : win5_1.index t (0 : Fin 2) = 0 ∧ win5_1.index t (1 : Fin 2) = 0 := idx5_1 t
  unfold iblk5
  rw [View.read_apply]
  refine congrArg (V c (Pipeline.arrRef spec5 1)) ?_
  funext a
  apply Fin.ext
  match a with
  | ⟨0, _⟩ => show win5_1.index t (0 : Fin 2) * 128 + 1 * (x 0).val = (x 0).val; rw [hi.1]; omega
  | ⟨1, _⟩ => show win5_1.index t (1 : Fin 2) * 256 + 1 * (x 1).val = (x 1).val; rw [hi.2]; omega

/-- Window 2's block at point `t` is rows `5000 t … 5000 t + 4999` of its array. -/
theorem blk5_2_apply (c : Dev nD) (t : Fin cfg5.N) (x : S5000x1.Idx) (k : S50000x1.Idx)
    (hk0 : (k 0).val = 5000 * t.val + (x 0).val) (hk1 : (k 1).val = (x 1).val) :
    (iblk5 V c 2 t : Vec Ideal S5000x1 .f32) x = (V c (Pipeline.arrRef spec5 2) : S50000x1.Idx → EReal) k := by
  have hi : win5_2.index t (0 : Fin 2) = t.val ∧ win5_2.index t (1 : Fin 2) = 0 := idx5_2 t
  unfold iblk5
  rw [View.read_apply]
  refine congrArg (V c (Pipeline.arrRef spec5 2)) ?_
  funext a
  apply Fin.ext
  match a with
  | ⟨0, _⟩ => show win5_2.index t (0 : Fin 2) * 5000 + 1 * (x 0).val = (k 0).val; rw [hi.1, hk0]; omega
  | ⟨1, _⟩ => show win5_2.index t (1 : Fin 2) * 1 + 1 * (x 1).val = (k 1).val; rw [hi.2, hk1]; omega

/-- Window 3's block at point `t` is rows `5000 t … 5000 t + 4999` of its array. -/
theorem blk5_3_apply (c : Dev nD) (t : Fin cfg5.N) (x : S5000x1.Idx) (k : S50000x1.Idx)
    (hk0 : (k 0).val = 5000 * t.val + (x 0).val) (hk1 : (k 1).val = (x 1).val) :
    (iblk5 V c 3 t : Vec Ideal S5000x1 .f32) x = (V c (Pipeline.arrRef spec5 3) : S50000x1.Idx → EReal) k := by
  have hi : win5_3.index t (0 : Fin 2) = t.val ∧ win5_3.index t (1 : Fin 2) = 0 := idx5_3 t
  unfold iblk5
  rw [View.read_apply]
  refine congrArg (V c (Pipeline.arrRef spec5 3)) ?_
  funext a
  apply Fin.ext
  match a with
  | ⟨0, _⟩ => show win5_3.index t (0 : Fin 2) * 5000 + 1 * (x 0).val = (k 0).val; rw [hi.1, hk0]; omega
  | ⟨1, _⟩ => show win5_3.index t (1 : Fin 2) * 1 + 1 * (x 1).val = (k 1).val; rw [hi.2, hk1]; omega

/-- What point `t` writes back is block `t` of the scaled projection of the arrays as the region finds them. -/
theorem flushed_scale5 (c : Dev nD) (t : Fin cfg5.N) :
    (dat5 (F := Ideal) V c).flushed 4 t = ((cfg5.win 4).blk t).view.read (Elt Ideal)
      (scaleG (V c (Pipeline.arrRef spec5 0)) (V c (Pipeline.arrRef spec5 1)) (V c (Pipeline.arrRef spec5 2))
        (V c (Pipeline.arrRef spec5 3))) := by
  show (cfg5.win 4).cut (grid5.coords t) ((dat5 V c).after 4 t) = _
  rw [after5_4]
  have hi : win5_4.index t (0 : Fin 2) = t.val ∧ win5_4.index t (1 : Fin 2) = 0 := idx5_4 t
  funext j
  rw [View.read_apply]
  show out5_4 (iblk5 V c 0 t) (iblk5 V c 1 t) (iblk5 V c 2 t) (iblk5 V c 3 t) j = _
  refine out_scale5_rows (V c (Pipeline.arrRef spec5 0)) (V c (Pipeline.arrRef spec5 1)) (V c (Pipeline.arrRef spec5 2))
    (V c (Pipeline.arrRef spec5 3)) (5000 * t.val)
    (iblk5 V c 0 t) (iblk5 V c 1 t) (iblk5 V c 2 t) (iblk5 V c 3 t)
    (blk5_0_apply V c t) (blk5_1_apply V c t) (blk5_2_apply V c t) (blk5_3_apply V c t)
    j (((cfg5.win 4).blk t).view.emb j) ?_ ?_
  · show win5_4.index t (0 : Fin 2) * 5000 + 1 * (j 0).val = 5000 * t.val + (j 0).val; rw [hi.1]; omega
  · show win5_4.index t (1 : Fin 2) * 256 + 1 * (j 1).val = (j 1).val; rw [hi.2]; omega

/-- Every block of ten is some point's. -/
theorem onto5 : ∀ q : Fin 10, ∃ t : Fin cfg5.N, win5_4.index t (0 : Fin 2) = q.val ∧ win5_4.index t (1 : Fin 2) = 0 :=
  (by decide +kernel : ∀ q : Fin 10, ∃ t : Fin grid5.N, _)

/-- An index of the output array is in point `t`'s block iff each coordinate is in the block's range on its axis. -/
theorem mem_blk5 (t : Fin cfg5.N) (i : S50000x256.Idx) :
    i ∈ ((cfg5.win 4).blk t).view.set ↔ ∀ a : Fin 2, win5_4.index t a * S5000x256.size a ≤ (i a).val ∧ (i a).val < win5_4.index t a * S5000x256.size a + S5000x256.size a := by
  show i ∈ ((View.whole main_v192).slice (win5_4.rect t)).set ↔ _
  rw [View.set_slice_whole, Rect.mem_set_unit]
  exact Iff.rfl

/-- Row `r` of the output array lies in the block of point `r / 5000`. -/
theorem cover5 (i : S50000x256.Idx) : ∃ t : Fin cfg5.N, (cfg5.win 4).flush t = true ∧ i ∈ ((cfg5.win 4).blk t).view.set := by
  have hi0 : (i 0).val < 50000 := (i 0).isLt
  have hi1 : (i 1).val < 256 := (i 1).isLt
  obtain ⟨t, ht0, ht1⟩ := onto5 ⟨(i 0).val / 5000, by omega⟩
  refine ⟨t, flush5_4 t, ?_⟩
  rw [mem_blk5]
  intro a
  match a with
  | ⟨0, _⟩ => show win5_4.index t (0 : Fin 2) * 5000 ≤ (i 0).val ∧ (i 0).val < win5_4.index t (0 : Fin 2) * 5000 + 5000; rw [ht0]; dsimp only; omega
  | ⟨1, _⟩ => show win5_4.index t (1 : Fin 2) * 256 ≤ (i 1).val ∧ (i 1).val < win5_4.index t (1 : Fin 2) * 256 + 256; rw [ht1]; omega

/-- THE OUTPUT ARRAY after the region: the scaled projection of the four input arrays as the region finds them. -/
theorem final_scale5 (c : Dev nD) : (dat5 (F := Ideal) V c).arrAt 4 cfg5.N
    = scaleG (V c (Pipeline.arrRef spec5 0)) (V c (Pipeline.arrRef spec5 1)) (V c (Pipeline.arrRef spec5 2))
        (V c (Pipeline.arrRef spec5 3)) :=
  (dat5 (F := Ideal) V c).arrAt_eq_of_cover 4 _ (fun t _ => flushed_scale5 V c t) (cover5)

end Cert.KernelIdeal.RegionValue

end
-- ==== Proof.PayCombine.lean ====
/-
  The stored value of the two combination regions (the first layer's two node types), read at one entry of a block.
-/
import proofs.«122068_j1322849927480_2_alg».proof.Proof.Gen.KernelIdeal.Skeleton
import proofs.«122068_j1322849927480_2_alg».proof.Proof.RegionSpec

noncomputable section

namespace Cert.KernelIdeal.RegionValue

open Cert.KernelIdeal Cert.KernelIdeal.Gen Idealize.ShloMosaic Idealize.ShloMosaic.ValueIdx

/-- The combination's stored value at row `r`, lane `q` of a block: the two aggregates' entries there, each times its
    row's factor, added, plus the bias of lane `q`, and the positive part of that. -/
theorem pay_combine2 (x0 : Vec Ideal S5000x128 .f32) (x1 : Vec Ideal S5000x1 .f32) (x2 : Vec Ideal S5000x128 .f32)
    (x3 : Vec Ideal S5000x1 .f32) (x4 : Vec Ideal S1x128 .f32) (r : Fin 5000) (q : Fin 128) :
    k2_pay1 x0 x1 x2 x3 x4 (ix2 r q)
      = max ((x0 (ix2 r q) * x1 (ix2 r (0 : Fin 1)) + x2 (ix2 r q) * x3 (ix2 r (0 : Fin 1))) + x4 (ix2 (0 : Fin 1) q))
          (Ideal.ofBits .f32 0x00000000#32) := by
  unfold k2_pay1
  simp only [shapeCast_self]
  show max ((x0 (ix2 r q) * broadcastTo S5000x128 x1 broadcasts_S5000x1_S5000x128 (ix2 r q)
      + x2 (ix2 r q) * broadcastTo S5000x128 x3 broadcasts_S5000x1_S5000x128 (ix2 r q))
      + broadcastTo S5000x128 x4 broadcasts_S1x128_S5000x128 (ix2 r q)) (Ideal.ofBits .f32 0x00000000#32) = _
  rw [broadcastTo_a1_ab_apply x1, broadcastTo_a1_ab_apply x3, broadcastTo_1b_ab_apply x4]

/-- The combination's stored value at row `r`, lane `q` of a block: the two aggregates' entries there, each times its
    row's factor, added, plus the bias of lane `q`, and the positive part of that. -/
theorem pay_combine3 (x0 : Vec Ideal S5000x128 .f32) (x1 : Vec Ideal S5000x1 .f32) (x2 : Vec Ideal S5000x128 .f32)
    (x3 : Vec Ideal S5000x1 .f32) (x4 : Vec Ideal S1x128 .f32) (r : Fin 5000) (q : Fin 128) :
    k3_pay1 x0 x1 x2 x3 x4 (ix2 r q)
      = max ((x0 (ix2 r q) * x1 (ix2 r (0 : Fin 1)) + x2 (ix2 r q) * x3 (ix2 r (0 : Fin 1))) + x4 (ix2 (0 : Fin 1) q))
          (Ideal.ofBits .f32 0x00000000#32) := by
  unfold k3_pay1
  simp only [shapeCast_self]
  show max ((x0 (ix2 r q) * broadcastTo S5000x128 x1 broadcasts_S5000x1_S5000x128 (ix2 r q)
      + x2 (ix2 r q) * broadcastTo S5000x128 x3 broadcasts_S5000x1_S5000x128 (ix2 r q))
      + broadcastTo S5000x128 x4 broadcasts_S1x128_S5000x128 (ix2 r q)) (Ideal.ofBits .f32 0x00000000#32) = _
  rw [broadcastTo_a1_ab_apply x1, broadcastTo_a1_ab_apply x3, broadcastTo_1b_ab_apply x4]

end Cert.KernelIdeal.RegionValue

end
-- ==== Proof.RegionCombine2.lean ====
/-
  Region 2: what the combination leaves in its whole output array, as one function of its five input arrays as the region
  finds them. Each grid point's block is 5000 rows; point `t` reads rows `5000 t …` of the two aggregates and of the two
  factor columns and the whole bias row, and writes rows `5000 t …` of the output; the ten blocks tile the array.
-/
import proofs.«122068_j1322849927480_2_alg».proof.Proof.Gen.KernelIdeal.Frame
import proofs.«122068_j1322849927480_2_alg».proof.Proof.PayCombine
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The block the body leaves, entry by entry, from the five input blocks. -/
theorem out_combine2 (x0 : Vec Ideal S5000x128 .f32) (x1 : Vec Ideal S5000x1 .f32) (x2 : Vec Ideal S5000x128 .f32)
    (x3 : Vec Ideal S5000x1 .f32) (x4 : Vec Ideal S1x128 .f32) (r : Fin 5000) (q : Fin 128) :
    out2_5 x0 x1 x2 x3 x4 (ix2 r q)
      = max ((x0 (ix2 r q) * x1 (ix2 r (0 : Fin 1)) + x2 (ix2 r q) * x3 (ix2 r (0 : Fin 1))) + x4 (ix2 (0 : Fin 1) q))
          (Ideal.ofBits .f32 0x00000000#32) := by
  unfold out2_5
  rw [View.canon_unit_zero hz2]
  simp only [View.ld_unit_zero (S := S5000x128) hz2, View.ld_unit_zero (S := S5000x1) hz2, View.ld_unit_zero (S := S1x128) hz2]
  exact pay_combine2 x0 x1 x2 x3 x4 r q

/-- The same over blocks that are rows `o … o + 4999` of whole arrays (the bias row whole): the block entry at `y` is the
    whole-array function at the index `i` of the same lane, `o` rows further down. -/
theorem out_combine2_rows (A : S50000x128.Idx → EReal) (DA : S50000x1.Idx → EReal) (B : S50000x128.Idx → EReal)
    (DB : S50000x1.Idx → EReal) (BIAS : S1x128.Idx → EReal) (o : Nat)
    (x0 : Vec Ideal S5000x128 .f32) (x1 : Vec Ideal S5000x1 .f32) (x2 : Vec Ideal S5000x128 .f32)
    (x3 : Vec Ideal S5000x1 .f32) (x4 : Vec Ideal S1x128 .f32)
    (h0 : ∀ (x : S5000x128.Idx) (k : S50000x128.Idx), (k 0).val = o + (x 0).val → (k 1).val = (x 1).val → x0 x = A k)
    (h1 : ∀ (x : S5000x1.Idx) (k : S50000x1.Idx), (k 0).val = o + (x 0).val → (k 1).val = (x 1).val → x1 x = DA k)
    (h2 : ∀ (x : S5000x128.Idx) (k : S50000x128.Idx), (k 0).val = o + (x 0).val → (k 1).val = (x 1).val → x2 x = B k)
    (h3 : ∀ (x : S5000x1.Idx) (k : S50000x1.Idx), (k 0).val = o + (x 0).val → (k 1).val = (x 1).val → x3 x = DB k)
    (h4 : ∀ x : S1x128.Idx, x4 x = BIAS x)
    (y : S5000x128.Idx) (i : S50000x128.Idx) (hi0 : (i 0).val = o + (y 0).val) (hi1 : (i 1).val = (y 1).val) :
    out2_5 x0 x1 x2 x3 x4 y = combineG A DA B DB BIAS i := by
  obtain ⟨r, q, rfl⟩ : ∃ (r : Fin 5000) (q : Fin 128), y = ix2 r q := ⟨y 0, y 1, eq_ix2 y⟩
  obtain ⟨R, Q, rfl⟩ : ∃ (R : Fin 50000) (Q : Fin 128), i = ix2 R Q := ⟨i 0, i 1, eq_ix2 i⟩
  obtain rfl : Q = q := Fin.ext hi1
  rw [out_combine2, h0 (ix2 r Q) (ix2 R Q) hi0 rfl, h1 (ix2 r (0 : Fin 1)) (ix2 R (0 : Fin 1)) hi0 rfl,
    h2 (ix2 r Q) (ix2 R Q) hi0 rfl, h3 (ix2 r (0 : Fin 1)) (ix2 R (0 : Fin 1)) hi0 rfl, h4]
  rfl

/-! The index maps, decided over the ten grid points: the four row-tiled inputs and the output sit at block `(t, 0)`,
    the bias at block `(0, 0)`. -/

theorem idx2_0 : ∀ t : Fin cfg2.N, win2_0.index t (0 : Fin 2) = t.val ∧ win2_0.index t (1 : Fin 2) = 0 :=
  (by decide +kernel : ∀ t : Fin grid2.N, _)
theorem idx2_1 : ∀ t : Fin cfg2.N, win2_1.index t (0 : Fin 2) = t.val ∧ win2_1.index t (1 : Fin 2) = 0 :=
  (by decide +kernel : ∀ t : Fin grid2.N, _)
theorem idx2_2 : ∀ t : Fin cfg2.N, win2_2.index t (0 : Fin 2) = t.val ∧ win2_2.index t (1 : Fin 2) = 0 :=
  (by decide +kernel : ∀ t : Fin grid2.N, _)
theorem idx2_3 : ∀ t : Fin cfg2.N, win2_3.index t (0 : Fin 2) = t.val ∧ win2_3.index t (1 : Fin 2) = 0 :=
  (by decide +kernel : ∀ t : Fin grid2.N, _)
theorem idx2_4 : ∀ t : Fin cfg2.N, win2_4.index t (0 : Fin 2) = 0 ∧ win2_4.index t (1 : Fin 2) = 0 :=
  (by decide +kernel : ∀ t : Fin grid2.N, _)
theorem idx2_5 : ∀ t : Fin cfg2.N, win2_5.index t (0 : Fin 2) = t.val ∧ win2_5.index t (1 : Fin 2) = 0 :=
  (by decide +kernel : ∀ t : Fin grid2.N, _)

/-- Window 0's block at point `t` is rows `5000 t … 5000 t + 4999` of its array. -/
theorem blk2_0_apply (c : Dev nD) (t : Fin cfg2.N) (x : S5000x128.Idx) (k : S50000x128.Idx)
    (hk0 : (k 0).val = 5000 * t.val + (x 0).val) (hk1 : (k 1).val = (x 1).val) :
    (iblk2 V c 0 t : Vec Ideal S5000x128 .f32) x = (V c (Pipeline.arrRef spec2 0) : S50000x128.Idx → EReal) k := by
  have hi : win2_0.index t (0 : Fin 2) = t.val ∧ win2_0.index t (1 : Fin 2) = 0 := idx2_0 t
  unfold iblk2
  rw [View.read_apply]
  refine congrArg (V c (Pipeline.arrRef spec2 0)) ?_
  funext a
  apply Fin.ext
  match a with
  | ⟨0, _⟩ => show win2_0.index t (0 : Fin 2) * 5000 + 1 * (x 0).val = (k 0).val; rw [hi.1, hk0]; omega
  | ⟨1, _⟩ => show win2_0.index t (1 : Fin 2) * 128 + 1 * (x 1).val = (k 1).val; rw [hi.2, hk1]; omega

/-- Window 1's block at point `t` is rows `5000 t … 5000 t + 4999` of its array. -/
theorem blk2_1_apply (c : Dev nD) (t : Fin cfg2.N) (x : S5000x1.Idx) (k : S50000x1.Idx)
    (hk0 : (k 0).val = 5000 * t.val + (x 0).val) (hk1 : (k 1).val = (x 1).val) :
    (iblk2 V c 1 t : Vec Ideal S5000x1 .f32) x = (V c (Pipeline.arrRef spec2 1) : S50000x1.Idx → EReal) k := by
  have hi : win2_1.index t (0 : Fin 2) = t.val ∧ win2_1.index t (1 : Fin 2) = 0 := idx2_1 t
  unfold iblk2
  rw [View.read_apply]
  refine congrArg (V c (Pipeline.arrRef spec2 1)) ?_
  funext a
  apply Fin.ext
  match a with
  | ⟨0, _⟩ => show win2_1.index t (0 : Fin 2) * 5000 + 1 * (x 0).val = (k 0).val; rw [hi.1, hk0]; omega
  | ⟨1, _⟩ => show win2_1.index t (1 : Fin 2) * 1 + 1 * (x 1).val = (k 1).val; rw [hi.2, hk1]; omega

/-- Window 2's block at point `t` is rows `5000 t … 5000 t + 4999` of its array. -/
theorem blk2_2_apply (c : Dev nD) (t : Fin cfg2.N) (x : S5000x128.Idx) (k : S50000x128.Idx)
    (hk0 : (k 0).val = 5000 * t.val + (x 0).val) (hk1 : (k 1).val = (x 1).val) :
    (iblk2 V c 2 t : Vec Ideal S5000x128 .f32) x = (V c (Pipeline.arrRef spec2 2) : S50000x128.Idx → EReal) k := by
  have hi : win2_2.index t (0 : Fin 2) = t.val ∧ win2_2.index t (1 : Fin 2) = 0 := idx2_2 t
  unfold iblk2
  rw [View.read_apply]
  refine congrArg (V c (Pipeline.arrRef spec2 2)) ?_
  funext a
  apply Fin.ext
  match a with
  | ⟨0, _⟩ => show win2_2.index t (0 : Fin 2) * 5000 + 1 * (x 0).val = (k 0).val; rw [hi.1, hk0]; omega
  | ⟨1, _⟩ => show win2_2.index t (1 : Fin 2) * 128 + 1 * (x 1).val = (k 1).val; rw [hi.2, hk1]; omega

/-- Window 3's block at point `t` is rows `5000 t … 5000 t + 4999` of its array. -/
theorem blk2_3_apply (c : Dev nD) (t : Fin cfg2.N) (x : S5000x1.Idx) (k : S50000x1.Idx)
    (hk0 : (k 0).val = 5000 * t.val + (x 0).val) (hk1 : (k 1).val = (x 1).val) :
    (iblk2 V c 3 t : Vec Ideal S5000x1 .f32) x = (V c (Pipeline.arrRef spec2 3) : S50000x1.Idx → EReal) k := by
  have hi : win2_3.index t (0 : Fin 2) = t.val ∧ win2_3.index t (1 : Fin 2) = 0 := idx2_3 t
  unfold iblk2
  rw [View.read_apply]
  refine congrArg (V c (Pipeline.arrRef spec2 3)) ?_
  funext a
  apply Fin.ext
  match a with
  | ⟨0, _⟩ => show win2_3.index t (0 : Fin 2) * 5000 + 1 * (x 0).val = (k 0).val; rw [hi.1, hk0]; omega
  | ⟨1, _⟩ => show win2_3.index t (1 : Fin 2) * 1 + 1 * (x 1).val = (k 1).val; rw [hi.2, hk1]; omega

/-- Window 4's block at every point is its whole array. -/
theorem blk2_4_apply (c : Dev nD) (t : Fin cfg2.N) (x : S1x128.Idx) :
    (iblk2 V c 4 t : Vec Ideal S1x128 .f32) x = (V c (Pipeline.arrRef spec2 4) : S1x128.Idx → EReal) x := by
  have hi : win2_4.index t (0 : Fin 2) = 0 ∧ win2_4.index t (1 : Fin 2) = 0 := idx2_4 t
  unfold iblk2
  rw [View.read_apply]
  refine congrArg (V c (Pipeline.arrRef spec2 4)) ?_
  funext a
  apply Fin.ext
  match a with
  | ⟨0, _⟩ => show win2_4.index t (0 : Fin 2) * 1 + 1 * (x 0).val = (x 0).val; rw [hi.1]; omega
  | ⟨1, _⟩ => show win2_4.index t (1 : Fin 2) * 128 + 1 * (x 1).val = (x 1).val; rw [hi.2]; omega

/-- What point `t` writes back is block `t` of the combination of the arrays as the region finds them. -/
theorem flushed_combine2 (c : Dev nD) (t : Fin cfg2.N) :
    (dat2 (F := Ideal) V c).flushed 5 t = ((cfg2.win 5).blk t).view.read (Elt Ideal)
      (combineG (V c (Pipeline.arrRef spec2 0)) (V c (Pipeline.arrRef spec2 1)) (V c (Pipeline.arrRef spec2 2))
        (V c (Pipeline.arrRef spec2 3)) (V c (Pipeline.arrRef spec2 4))) := by
  show (cfg2.win 5).cut (grid2.coords t) ((dat2 V c).after 5 t) = _
  rw [after2_5]
  have hi : win2_5.index t (0 : Fin 2) = t.val ∧ win2_5.index t (1 : Fin 2) = 0 := idx2_5 t
  funext j
  rw [View.read_apply]
  show out2_5 (iblk2 V c 0 t) (iblk2 V c 1 t) (iblk2 V c 2 t) (iblk2 V c 3 t) (iblk2 V c 4 t) j = _
  refine out_combine2_rows (V c (Pipeline.arrRef spec2 0)) (V c (Pipeline.arrRef spec2 1)) (V c (Pipeline.arrRef spec2 2))
    (V c (Pipeline.arrRef spec2 3)) (V c (Pipeline.arrRef spec2 4)) (5000 * t.val)
    (iblk2 V c 0 t) (iblk2 V c 1 t) (iblk2 V c 2 t) (iblk2 V c 3 t) (iblk2 V c 4 t)
    (blk2_0_apply V c t) (blk2_1_apply V c t) (blk2_2_apply V c t) (blk2_3_apply V c t) (blk2_4_apply V c t)
    j (((cfg2.win 5).blk t).view.emb j) ?_ ?_
  · show win2_5.index t (0 : Fin 2) * 5000 + 1 * (j 0).val = 5000 * t.val + (j 0).val; rw [hi.1]; omega
  · show win2_5.index t (1 : Fin 2) * 128 + 1 * (j 1).val = (j 1).val; rw [hi.2]; omega

/-- Every block of ten is some point's. -/
theorem onto2 : ∀ q : Fin 10, ∃ t : Fin cfg2.N, win2_5.index t (0 : Fin 2) = q.val ∧ win2_5.index t (1 : Fin 2) = 0 :=
  (by decide +kernel : ∀ q : Fin 10, ∃ t : Fin grid2.N, _)

/-- An index of the output array is in point `t`'s block iff each coordinate is in the block's range on its axis. -/
theorem mem_blk2 (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v172).slice (win2_5.rect t)).set ↔ _
  rw [View.set_slice_whole, Rect.mem_set_unit]
  exact Iff.rfl

/-- Row `r` of the output array lies in the block of point `r / 5000`. -/
theorem cover2 (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  obtain ⟨t, ht0, ht1⟩ := onto2 ⟨(i 0).val / 5000, by omega⟩
  refine ⟨t, flush2_5 t, ?_⟩
  rw [mem_blk2]
  intro a
  match a with
  | ⟨0, _⟩ => show win2_5.index t (0 : Fin 2) * 5000 ≤ (i 0).val ∧ (i 0).val < win2_5.index t (0 : Fin 2) * 5000 + 5000; rw [ht0]; dsimp only; omega
  | ⟨1, _⟩ => show win2_5.index t (1 : Fin 2) * 128 ≤ (i 1).val ∧ (i 1).val < win2_5.index t (1 : Fin 2) * 128 + 128; rw [ht1]; omega

/-- THE OUTPUT ARRAY after the region: the combination of the five input arrays as the region finds them. -/
theorem final_combine2 (c : Dev nD) : (dat2 (F := Ideal) V c).arrAt 5 cfg2.N
    = combineG (V c (Pipeline.arrRef spec2 0)) (V c (Pipeline.arrRef spec2 1)) (V c (Pipeline.arrRef spec2 2))
        (V c (Pipeline.arrRef spec2 3)) (V c (Pipeline.arrRef spec2 4)) :=
  (dat2 (F := Ideal) V c).arrAt_eq_of_cover 5 _ (fun t _ => flushed_combine2 V c t) (cover2)

end Cert.KernelIdeal.RegionValue

end
-- ==== Proof.RegionCombine3.lean ====
/-
  Region 3: what the combination leaves in its whole output array, as one function of its five input arrays as the region
  finds them. Each grid point's block is 5000 rows; point `t` reads rows `5000 t …` of the two aggregates and of the two
  factor columns and the whole bias row, and writes rows `5000 t …` of the output; the ten blocks tile the array.
-/
import proofs.«122068_j1322849927480_2_alg».proof.Proof.Gen.KernelIdeal.Frame
import proofs.«122068_j1322849927480_2_alg».proof.Proof.PayCombine
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The block the body leaves, entry by entry, from the five input blocks. -/
theorem out_combine3 (x0 : Vec Ideal S5000x128 .f32) (x1 : Vec Ideal S5000x1 .f32) (x2 : Vec Ideal S5000x128 .f32)
    (x3 : Vec Ideal S5000x1 .f32) (x4 : Vec Ideal S1x128 .f32) (r : Fin 5000) (q : Fin 128) :
    out3_5 x0 x1 x2 x3 x4 (ix2 r q)
      = max ((x0 (ix2 r q) * x1 (ix2 r (0 : Fin 1)) + x2 (ix2 r q) * x3 (ix2 r (0 : Fin 1))) + x4 (ix2 (0 : Fin 1) q))
          (Ideal.ofBits .f32 0x00000000#32) := by
  unfold out3_5
  rw [View.canon_unit_zero hz2]
  simp only [View.ld_unit_zero (S := S5000x128) hz2, View.ld_unit_zero (S := S5000x1) hz2, View.ld_unit_zero (S := S1x128) hz2]
  exact pay_combine3 x0 x1 x2 x3 x4 r q

/-- The same over blocks that are rows `o … o + 4999` of whole arrays (the bias row whole): the block entry at `y` is the
    whole-array function at the index `i` of the same lane, `o` rows further down. -/
theorem out_combine3_rows (A : S50000x128.Idx → EReal) (DA : S50000x1.Idx → EReal) (B : S50000x128.Idx → EReal)
    (DB : S50000x1.Idx → EReal) (BIAS : S1x128.Idx → EReal) (o : Nat)
    (x0 : Vec Ideal S5000x128 .f32) (x1 : Vec Ideal S5000x1 .f32) (x2 : Vec Ideal S5000x128 .f32)
    (x3 : Vec Ideal S5000x1 .f32) (x4 : Vec Ideal S1x128 .f32)
    (h0 : ∀ (x : S5000x128.Idx) (k : S50000x128.Idx), (k 0).val = o + (x 0).val → (k 1).val = (x 1).val → x0 x = A k)
    (h1 : ∀ (x : S5000x1.Idx) (k : S50000x1.Idx), (k 0).val = o + (x 0).val → (k 1).val = (x 1).val → x1 x = DA k)
    (h2 : ∀ (x : S5000x128.Idx) (k : S50000x128.Idx), (k 0).val = o + (x 0).val → (k 1).val = (x 1).val → x2 x = B k)
    (h3 : ∀ (x : S5000x1.Idx) (k : S50000x1.Idx), (k 0).val = o + (x 0).val → (k 1).val = (x 1).val → x3 x = DB k)
    (h4 : ∀ x : S1x128.Idx, x4 x = BIAS x)
    (y : S5000x128.Idx) (i : S50000x128.Idx) (hi0 : (i 0).val = o + (y 0).val) (hi1 : (i 1).val = (y 1).val) :
    out3_5 x0 x1 x2 x3 x4 y = combineG A DA B DB BIAS i := by
  obtain ⟨r, q, rfl⟩ : ∃ (r : Fin 5000) (q : Fin 128), y = ix2 r q := ⟨y 0, y 1, eq_ix2 y⟩
  obtain ⟨R, Q, rfl⟩ : ∃ (R : Fin 50000) (Q : Fin 128), i = ix2 R Q := ⟨i 0, i 1, eq_ix2 i⟩
  obtain rfl : Q = q := Fin.ext hi1
  rw [out_combine3, h0 (ix2 r Q) (ix2 R Q) hi0 rfl, h1 (ix2 r (0 : Fin 1)) (ix2 R (0 : Fin 1)) hi0 rfl,
    h2 (ix2 r Q) (ix2 R Q) hi0 rfl, h3 (ix2 r (0 : Fin 1)) (ix2 R (0 : Fin 1)) hi0 rfl, h4]
  rfl

/-! The index maps, decided over the ten grid points: the four row-tiled inputs and the output sit at block `(t, 0)`,
    the bias at block `(0, 0)`. -/

theorem idx3_0 : ∀ t : Fin cfg3.N, win3_0.index t (0 : Fin 2) = t.val ∧ win3_0.index t (1 : Fin 2) = 0 :=
  (by decide +kernel : ∀ t : Fin grid3.N, _)
theorem idx3_1 : ∀ t : Fin cfg3.N, win3_1.index t (0 : Fin 2) = t.val ∧ win3_1.index t (1 : Fin 2) = 0 :=
  (by decide +kernel : ∀ t : Fin grid3.N, _)
theorem idx3_2 : ∀ t : Fin cfg3.N, win3_2.index t (0 : Fin 2) = t.val ∧ win3_2.index t (1 : Fin 2) = 0 :=
  (by decide +kernel : ∀ t : Fin grid3.N, _)
theorem idx3_3 : ∀ t : Fin cfg3.N, win3_3.index t (0 : Fin 2) = t.val ∧ win3_3.index t (1 : Fin 2) = 0 :=
  (by decide +kernel : ∀ t : Fin grid3.N, _)
theorem idx3_4 : ∀ t : Fin cfg3.N, win3_4.index t (0 : Fin 2) = 0 ∧ win3_4.index t (1 : Fin 2) = 0 :=
  (by decide +kernel : ∀ t : Fin grid3.N, _)
theorem idx3_5 : ∀ t : Fin cfg3.N, win3_5.index t (0 : Fin 2) = t.val ∧ win3_5.index t (1 : Fin 2) = 0 :=
  (by decide +kernel : ∀ t : Fin grid3.N, _)

/-- Window 0's block at point `t` is rows `5000 t … 5000 t + 4999` of its array. -/
theorem blk3_0_apply (c : Dev nD) (t : Fin cfg3.N) (x : S5000x128.Idx) (k : S50000x128.Idx)
    (hk0 : (k 0).val = 5000 * t.val + (x 0).val) (hk1 : (k 1).val = (x 1).val) :
    (iblk3 V c 0 t : Vec Ideal S5000x128 .f32) x = (V c (Pipeline.arrRef spec3 0) : S50000x128.Idx → EReal) k := by
  have hi : win3_0.index t (0 : Fin 2) = t.val ∧ win3_0.index t (1 : Fin 2) = 0 := idx3_0 t
  unfold iblk3
  rw [View.read_apply]
  refine congrArg (V c (Pipeline.arrRef spec3 0)) ?_
  funext a
  apply Fin.ext
  match a with
  | ⟨0, _⟩ => show win3_0.index t (0 : Fin 2) * 5000 + 1 * (x 0).val = (k 0).val; rw [hi.1, hk0]; omega
  | ⟨1, _⟩ => show win3_0.index t (1 : Fin 2) * 128 + 1 * (x 1).val = (k 1).val; rw [hi.2, hk1]; omega

/-- Window 1's block at point `t` is rows `5000 t … 5000 t + 4999` of its array. -/
theorem blk3_1_apply (c : Dev nD) (t : Fin cfg3.N) (x : S5000x1.Idx) (k : S50000x1.Idx)
    (hk0 : (k 0).val = 5000 * t.val + (x 0).val) (hk1 : (k 1).val = (x 1).val) :
    (iblk3 V c 1 t : Vec Ideal S5000x1 .f32) x = (V c (Pipeline.arrRef spec3 1) : S50000x1.Idx → EReal) k := by
  have hi : win3_1.index t (0 : Fin 2) = t.val ∧ win3_1.index t (1 : Fin 2) = 0 := idx3_1 t
  unfold iblk3
  rw [View.read_apply]
  refine congrArg (V c (Pipeline.arrRef spec3 1)) ?_
  funext a
  apply Fin.ext
  match a with
  | ⟨0, _⟩ => show win3_1.index t (0 : Fin 2) * 5000 + 1 * (x 0).val = (k 0).val; rw [hi.1, hk0]; omega
  | ⟨1, _⟩ => show win3_1.index t (1 : Fin 2) * 1 + 1 * (x 1).val = (k 1).val; rw [hi.2, hk1]; omega

/-- Window 2's block at point `t` is rows `5000 t … 5000 t + 4999` of its array. -/
theorem blk3_2_apply (c : Dev nD) (t : Fin cfg3.N) (x : S5000x128.Idx) (k : S50000x128.Idx)
    (hk0 : (k 0).val = 5000 * t.val + (x 0).val) (hk1 : (k 1).val = (x 1).val) :
    (iblk3 V c 2 t : Vec Ideal S5000x128 .f32) x = (V c (Pipeline.arrRef spec3 2) : S50000x128.Idx → EReal) k := by
  have hi : win3_2.index t (0 : Fin 2) = t.val ∧ win3_2.index t (1 : Fin 2) = 0 := idx3_2 t
  unfold iblk3
  rw [View.read_apply]
  refine congrArg (V c (Pipeline.arrRef spec3 2)) ?_
  funext a
  apply Fin.ext
  match a with
  | ⟨0, _⟩ => show win3_2.index t (0 : Fin 2) * 5000 + 1 * (x 0).val = (k 0).val; rw [hi.1, hk0]; omega
  | ⟨1, _⟩ => show win3_2.index t (1 : Fin 2) * 128 + 1 * (x 1).val = (k 1).val; rw [hi.2, hk1]; omega

/-- Window 3's block at point `t` is rows `5000 t … 5000 t + 4999` of its array. -/
theorem blk3_3_apply (c : Dev nD) (t : Fin cfg3.N) (x : S5000x1.Idx) (k : S50000x1.Idx)
    (hk0 : (k 0).val = 5000 * t.val + (x 0).val) (hk1 : (k 1).val = (x 1).val) :
    (iblk3 V c 3 t : Vec Ideal S5000x1 .f32) x = (V c (Pipeline.arrRef spec3 3) : S50000x1.Idx → EReal) k := by
  have hi : win3_3.index t (0 : Fin 2) = t.val ∧ win3_3.index t (1 : Fin 2) = 0 := idx3_3 t
  unfold iblk3
  rw [View.read_apply]
  refine congrArg (V c (Pipeline.arrRef spec3 3)) ?_
  funext a
  apply Fin.ext
  match a with
  | ⟨0, _⟩ => show win3_3.index t (0 : Fin 2) * 5000 + 1 * (x 0).val = (k 0).val; rw [hi.1, hk0]; omega
  | ⟨1, _⟩ => show win3_3.index t (1 : Fin 2) * 1 + 1 * (x 1).val = (k 1).val; rw [hi.2, hk1]; omega

/-- Window 4's block at every point is its whole array. -/
theorem blk3_4_apply (c : Dev nD) (t : Fin cfg3.N) (x : S1x128.Idx) :
    (iblk3 V c 4 t : Vec Ideal S1x128 .f32) x = (V c (Pipeline.arrRef spec3 4) : S1x128.Idx → EReal) x := by
  have hi : win3_4.index t (0 : Fin 2) = 0 ∧ win3_4.index t (1 : Fin 2) = 0 := idx3_4 t
  unfold iblk3
  rw [View.read_apply]
  refine congrArg (V c (Pipeline.arrRef spec3 4)) ?_
  funext a
  apply Fin.ext
  match a with
  | ⟨0, _⟩ => show win3_4.index t (0 : Fin 2) * 1 + 1 * (x 0).val = (x 0).val; rw [hi.1]; omega
  | ⟨1, _⟩ => show win3_4.index t (1 : Fin 2) * 128 + 1 * (x 1).val = (x 1).val; rw [hi.2]; omega

/-- What point `t` writes back is block `t` of the combination of the arrays as the region finds them. -/
theorem flushed_combine3 (c : Dev nD) (t : Fin cfg3.N) :
    (dat3 (F := Ideal) V c).flushed 5 t = ((cfg3.win 5).blk t).view.read (Elt Ideal)
      (combineG (V c (Pipeline.arrRef spec3 0)) (V c (Pipeline.arrRef spec3 1)) (V c (Pipeline.arrRef spec3 2))
        (V c (Pipeline.arrRef spec3 3)) (V c (Pipeline.arrRef spec3 4))) := by
  show (cfg3.win 5).cut (grid3.coords t) ((dat3 V c).after 5 t) = _
  rw [after3_5]
  have hi : win3_5.index t (0 : Fin 2) = t.val ∧ win3_5.index t (1 : Fin 2) = 0 := idx3_5 t
  funext j
  rw [View.read_apply]
  show out3_5 (iblk3 V c 0 t) (iblk3 V c 1 t) (iblk3 V c 2 t) (iblk3 V c 3 t) (iblk3 V c 4 t) j = _
  refine out_combine3_rows (V c (Pipeline.arrRef spec3 0)) (V c (Pipeline.arrRef spec3 1)) (V c (Pipeline.arrRef spec3 2))
    (V c (Pipeline.arrRef spec3 3)) (V c (Pipeline.arrRef spec3 4)) (5000 * t.val)
    (iblk3 V c 0 t) (iblk3 V c 1 t) (iblk3 V c 2 t) (iblk3 V c 3 t) (iblk3 V c 4 t)
    (blk3_0_apply V c t) (blk3_1_apply V c t) (blk3_2_apply V c t) (blk3_3_apply V c t) (blk3_4_apply V c t)
    j (((cfg3.win 5).blk t).view.emb j) ?_ ?_
  · show win3_5.index t (0 : Fin 2) * 5000 + 1 * (j 0).val = 5000 * t.val + (j 0).val; rw [hi.1]; omega
  · show win3_5.index t (1 : Fin 2) * 128 + 1 * (j 1).val = (j 1).val; rw [hi.2]; omega

/-- Every block of ten is some point's. -/
theorem onto3 : ∀ q : Fin 10, ∃ t : Fin cfg3.N, win3_5.index t (0 : Fin 2) = q.val ∧ win3_5.index t (1 : Fin 2) = 0 :=
  (by decide +kernel : ∀ q : Fin 10, ∃ t : Fin grid3.N, _)

/-- An index of the output array is in point `t`'s block iff each coordinate is in the block's range on its axis. -/
theorem mem_blk3 (t : Fin cfg3.N) (i : S50000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v176).slice (win3_5.rect t)).set ↔ _
  rw [View.set_slice_whole, Rect.mem_set_unit]
  exact Iff.rfl

/-- Row `r` of the output array lies in the block of point `r / 5000`. -/
theorem cover3 (i : S50000x128.Idx) : ∃ t : Fin cfg3.N, (cfg3.win 5).flush t = true ∧ i ∈ ((cfg3.win 5).blk t).view.set := by
  have hi0 : (i 0).val < 50000 := (i 0).isLt
  have hi1 : (i 1).val < 128 := (i 1).isLt
  obtain ⟨t, ht0, ht1⟩ := onto3 ⟨(i 0).val / 5000, by omega⟩
  refine ⟨t, flush3_5 t, ?_⟩
  rw [mem_blk3]
  intro a
  match a with
  | ⟨0, _⟩ => show win3_5.index t (0 : Fin 2) * 5000 ≤ (i 0).val ∧ (i 0).val < win3_5.index t (0 : Fin 2) * 5000 + 5000; rw [ht0]; dsimp only; omega
  | ⟨1, _⟩ => show win3_5.index t (1 : Fin 2) * 128 ≤ (i 1).val ∧ (i 1).val < win3_5.index t (1 : Fin 2) * 128 + 128; rw [ht1]; omega

/-- THE OUTPUT ARRAY after the region: the combination of the five input arrays as the region finds them. -/
theorem final_combine3 (c : Dev nD) : (dat3 (F := Ideal) V c).arrAt 5 cfg3.N
    = combineG (V c (Pipeline.arrRef spec3 0)) (V c (Pipeline.arrRef spec3 1)) (V c (Pipeline.arrRef spec3 2))
        (V c (Pipeline.arrRef spec3 3)) (V c (Pipeline.arrRef spec3 4)) :=
  (dat3 (F := Ideal) V c).arrAt_eq_of_cover 5 _ (fun t _ => flushed_combine3 V c t) (cover3)

end Cert.KernelIdeal.RegionValue

end
-- ==== Proof.RegionStage.lean ====
/-
  The six projection and combination regions' output arrays after their regions, each as the network's stage function
  (`Stage.scaleProj`, `Stage.combine`) of the region's input arrays as found at entry: the per-region results restated,
  the stage functions being the same formulas index by index.
-/
import proofs.«122068_j1322849927480_2_alg».proof.Proof.KernelValue
import proofs.«122068_j1322849927480_2_alg».proof.Proof.RegionScale0
import proofs.«122068_j1322849927480_2_alg».proof.Proof.RegionScale1
import proofs.«122068_j1322849927480_2_alg».proof.Proof.RegionScale4
import proofs.«122068_j1322849927480_2_alg».proof.Proof.RegionScale5
import proofs.«122068_j1322849927480_2_alg».proof.Proof.RegionCombine2
import proofs.«122068_j1322849927480_2_alg».proof.Proof.RegionCombine3

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

theorem scaleG_eq : scaleG = Stage.scaleProj := rfl
theorem combineG_eq : combineG = Stage.combine := rfl
theorem headG_eq : headG = Stage.combineHead := rfl

variable (V : (c : Dev nD) → (b : Ref sig .tc) → Buf (Elt Ideal) ((c : Thread nD τ).loc b))

theorem stage_scale0 (c : Dev nD) : (dat0 (F := Ideal) V c).arrAt 4 cfg0.N
    = Stage.scaleProj (V c (Pipeline.arrRef spec0 0)) (V c (Pipeline.arrRef spec0 1)) (V c (Pipeline.arrRef spec0 2)) (V c (Pipeline.arrRef spec0 3)) :=
  final_scale0 V c

theorem stage_scale1 (c : Dev nD) : (dat1 (F := Ideal) V c).arrAt 4 cfg1.N
    = Stage.scaleProj (V c (Pipeline.arrRef spec1 0)) (V c (Pipeline.arrRef spec1 1)) (V c (Pipeline.arrRef spec1 2)) (V c (Pipeline.arrRef spec1 3)) :=
  final_scale1 V c

theorem stage_scale4 (c : Dev nD) : (dat4 (F := Ideal) V c).arrAt 4 cfg4.N
    = Stage.scaleProj (V c (Pipeline.arrRef spec4 0)) (V c (Pipeline.arrRef spec4 1)) (V c (Pipeline.arrRef spec4 2)) (V c (Pipeline.arrRef spec4 3)) :=
  final_scale4 V c

theorem stage_scale5 (c : Dev nD) : (dat5 (F := Ideal) V c).arrAt 4 cfg5.N
    = Stage.scaleProj (V c (Pipeline.arrRef spec5 0)) (V c (Pipeline.arrRef spec5 1)) (V c (Pipeline.arrRef spec5 2)) (V c (Pipeline.arrRef spec5 3)) :=
  final_scale5 V c

theorem stage_combine2 (c : Dev nD) : (dat2 (F := Ideal) V c).arrAt 5 cfg2.N
    = Stage.combine (V c (Pipeline.arrRef spec2 0)) (V c (Pipeline.arrRef spec2 1)) (V c (Pipeline.arrRef spec2 2)) (V c (Pipeline.arrRef spec2 3)) (V c (Pipeline.arrRef spec2 4)) :=
  final_combine2 V c

theorem stage_combine3 (c : Dev nD) : (dat3 (F := Ideal) V c).arrAt 5 cfg3.N
    = Stage.combine (V c (Pipeline.arrRef spec3 0)) (V c (Pipeline.arrRef spec3 1)) (V c (Pipeline.arrRef spec3 2)) (V c (Pipeline.arrRef spec3 3)) (V c (Pipeline.arrRef spec3 4)) :=
  final_combine3 V c

end Cert.KernelIdeal.RegionValue

end
-- ==== Proof.PayHead.lean ====
/-
  The stored value of the two head regions (the second layer's combination followed by the linear head), read at one
  entry of a block.
-/
import proofs.«122068_j1322849927480_2_alg».proof.Proof.Gen.KernelIdeal.Skeleton
import proofs.«122068_j1322849927480_2_alg».proof.Proof.RegionSpec
import proofs.«122068_j1322849927480_2_alg».proof.Proof.PayCombine
import Idealize.ShloMosaic.PureOps.Ideal.Laws

noncomputable section

namespace Cert.KernelIdeal.RegionValue

open Cert.KernelIdeal Cert.KernelIdeal.Gen Idealize.ShloMosaic Idealize.ShloMosaic.ValueIdx

/-! The operand indices of the block product at an output index and a contraction position, axis by axis. -/

theorem lhs64_0 (i : S5000x64.Idx) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs64_1 (i : S5000x64.Idx) (q : dot_S5000x128_S128x64_S5000x64_1_0_0_1_n_n.contr.Idx) : (dot_S5000x128_S128x64_S5000x64_1_0_0_1_n_n.lhsIdx i q 1).val = (q ⟨0, by decide⟩).val :=
  dot_S5000x128_S128x64_S5000x64_1_0_0_1_n_n.lhsIdx_val_of_single rfl i q
theorem rhs64_0 (i : S5000x64.Idx) (q : dot_S5000x128_S128x64_S5000x64_1_0_0_1_n_n.contr.Idx) : (dot_S5000x128_S128x64_S5000x64_1_0_0_1_n_n.rhsIdx i q 0).val = (q ⟨0, by decide⟩).val :=
  dot_S5000x128_S128x64_S5000x64_1_0_0_1_n_n.rhsIdx_val_of_single rfl i q
theorem rhs64_1 (i : S5000x64.Idx) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The block product into the zero accumulator, at row `r` and column `c`: the sum over the 128 contracted positions of
    the row's entry times the column's entry. -/
theorem matmul64_apply {φ₁ φ₂ : FTy} (A : FVec Ideal S5000x128 φ₁) (B : FVec Ideal S128x64 φ₂) (r : Fin 5000) (c : Fin 64) :
    matmul dot_S5000x128_S128x64_S5000x64_1_0_0_1_n_n none A B (constant (F := Ideal) S5000x64 .f32 0x00000000#32) (ix2 r c) = ∑ k : Fin 128, A (ix2 r k) * B (ix2 k c) := by
  simp only [matmul]
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 r c) ((contrEquiv1 dot_S5000x128_S128x64_S5000x64_1_0_0_1_n_n 128 rfl rfl).symm k) = ix2 r k := funext fun a => Fin.ext (by
    match a with
    | ⟨0, _⟩ => exact lhs64_0 _ _
    | ⟨1, _⟩ => exact (lhs64_1 _ _).trans hk)
  have er : dot_S5000x128_S128x64_S5000x64_1_0_0_1_n_n.rhsIdx (ix2 r c) ((contrEquiv1 dot_S5000x128_S128x64_S5000x64_1_0_0_1_n_n 128 rfl rfl).symm k) = ix2 k c := funext fun a => Fin.ext (by
    match a with
    | ⟨0, _⟩ => exact (rhs64_0 _ _).trans hk
    | ⟨1, _⟩ => exact rhs64_1 _ _)
  rw [el, er]

/-- The head's stored value at row `r`, output column `o`: the row's combination (the positive part of the two scaled
    aggregates plus the bias) contracted with column `o` of the head's weight over the 128 features, plus the head's
    bias at `o`. -/
theorem pay_head6 (x0 : Vec Ideal S5000x128 .f32) (x1 : Vec Ideal S5000x1 .f32) (x2 : Vec Ideal S5000x128 .f32)
    (x3 : Vec Ideal S5000x1 .f32) (x4 : Vec Ideal S1x128 .f32) (x5 : Vec Ideal S128x64 .f32) (x6 : Vec Ideal S1x64 .f32)
    (r : Fin 5000) (o : Fin 64) :
    k6_pay1 x0 x1 x2 x3 x4 x5 x6 (ix2 r o)
      = (∑ k : Fin 128, max ((x0 (ix2 r k) * x1 (ix2 r (0 : Fin 1)) + x2 (ix2 r k) * x3 (ix2 r (0 : Fin 1))) + x4 (ix2 (0 : Fin 1) k))
          (Ideal.ofBits .f32 0x00000000#32) * x5 (ix2 k o)) + x6 (ix2 (0 : Fin 1) o) := by
  unfold k6_pay1
  show matmul dot_S5000x128_S128x64_S5000x64_1_0_0_1_n_n none (truncf .bf16 (k2_pay1 x0 x1 x2 x3 x4) bitsLt_bf16_f32)
        (truncf .bf16 (shapeCast S128x64 x5 shapeCasts_S128x64_S128x64) bitsLt_bf16_f32) (constant (F := Ideal) S5000x64 .f32 0x00000000#32) (ix2 r o)
      + broadcastTo S5000x64 (shapeCast S1x64 x6 shapeCasts_S1x64_S1x64) broadcasts_S1x64_S5000x64 (ix2 r o) = _
  rw [matmul64_apply, shapeCast_self, shapeCast_self, broadcastTo_1b_ab_apply]
  refine congrArg (· + x6 (ix2 (0 : Fin 1) o)) (Finset.sum_congr rfl fun k _ => ?_)
  show k2_pay1 x0 x1 x2 x3 x4 (ix2 r k) * x5 (ix2 k o) = _
  rw [pay_combine2]

/-- The head's stored value at row `r`, output column `o`: the row's combination (the positive part of the two scaled
    aggregates plus the bias) contracted with column `o` of the head's weight over the 128 features, plus the head's
    bias at `o`. -/
theorem pay_head7 (x0 : Vec Ideal S5000x128 .f32) (x1 : Vec Ideal S5000x1 .f32) (x2 : Vec Ideal S5000x128 .f32)
    (x3 : Vec Ideal S5000x1 .f32) (x4 : Vec Ideal S1x128 .f32) (x5 : Vec Ideal S128x64 .f32) (x6 : Vec Ideal S1x64 .f32)
    (r : Fin 5000) (o : Fin 64) :
    k7_pay1 x0 x1 x2 x3 x4 x5 x6 (ix2 r o)
      = (∑ k : Fin 128, max ((x0 (ix2 r k) * x1 (ix2 r (0 : Fin 1)) + x2 (ix2 r k) * x3 (ix2 r (0 : Fin 1))) + x4 (ix2 (0 : Fin 1) k))
          (Ideal.ofBits .f32 0x00000000#32) * x5 (ix2 k o)) + x6 (ix2 (0 : Fin 1) o) := by
  unfold k7_pay1
  show matmul dot_S5000x128_S128x64_S5000x64_1_0_0_1_n_n none (truncf .bf16 (k2_pay1 x0 x1 x2 x3 x4) bitsLt_bf16_f32)
        (truncf .bf16 (shapeCast S128x64 x5 shapeCasts_S128x64_S128x64) bitsLt_bf16_f32) (constant (F := Ideal) S5000x64 .f32 0x00000000#32) (ix2 r o)
      + broadcastTo S5000x64 (shapeCast S1x64 x6 shapeCasts_S1x64_S1x64) broadcasts_S1x64_S5000x64 (ix2 r o) = _
  rw [matmul64_apply, shapeCast_self, shapeCast_self, broadcastTo_1b_ab_apply]
  refine congrArg (· + x6 (ix2 (0 : Fin 1) o)) (Finset.sum_congr rfl fun k _ => ?_)
  show k2_pay1 x0 x1 x2 x3 x4 (ix2 r k) * x5 (ix2 k o) = _
  rw [pay_combine2]

end Cert.KernelIdeal.RegionValue

end
-- ==== Proof.RegionHead6.lean ====
/-
  Region 6: what the head region leaves in its whole output array, as one function of its seven input arrays as the
  region finds them. Each grid point's block is 5000 rows; point `t` reads rows `5000 t …` of the two aggregates and of
  the two factor columns, and the whole bias row, head weight and head bias, and writes rows `5000 t …` of the output;
  the ten blocks tile the array.
-/
import proofs.«122068_j1322849927480_2_alg».proof.Proof.Gen.KernelIdeal.Frame
import proofs.«122068_j1322849927480_2_alg».proof.Proof.PayHead
import proofs.«122068_j1322849927480_2_alg».proof.Proof.KernelValue
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The block the body leaves, entry by entry, from the seven input blocks. -/
theorem out_head6 (x0 : Vec Ideal S5000x128 .f32) (x1 : Vec Ideal S5000x1 .f32) (x2 : Vec Ideal S5000x128 .f32)
    (x3 : Vec Ideal S5000x1 .f32) (x4 : Vec Ideal S1x128 .f32) (x5 : Vec Ideal S128x64 .f32) (x6 : Vec Ideal S1x64 .f32)
    (r : Fin 5000) (o : Fin 64) :
    out6_7 x0 x1 x2 x3 x4 x5 x6 (ix2 r o)
      = (∑ k : Fin 128, max ((x0 (ix2 r k) * x1 (ix2 r (0 : Fin 1)) + x2 (ix2 r k) * x3 (ix2 r (0 : Fin 1))) + x4 (ix2 (0 : Fin 1) k))
          (Ideal.ofBits .f32 0x00000000#32) * x5 (ix2 k o)) + x6 (ix2 (0 : Fin 1) o) := by
  unfold out6_7
  rw [View.canon_unit_zero hz2]
  simp only [View.ld_unit_zero (S := S5000x128) hz2, View.ld_unit_zero (S := S5000x1) hz2, View.ld_unit_zero (S := S1x128) hz2,
    View.ld_unit_zero (S := S128x64) hz2, View.ld_unit_zero (S := S1x64) hz2]
  exact pay_head6 x0 x1 x2 x3 x4 x5 x6 r o

/-- The same over blocks that are rows `o … o + 4999` of whole arrays (the bias row, the head's weight and the head's
    bias whole): the block entry at `y` is the whole-array function at the index `i` of the same column, `o` rows further
    down. -/
theorem out_head6_rows (A : S50000x128.Idx → EReal) (DA : S50000x1.Idx → EReal) (B : S50000x128.Idx → EReal)
    (DB : S50000x1.Idx → EReal) (BIAS : S1x128.Idx → EReal) (LW : S128x64.Idx → EReal) (LB : S1x64.Idx → EReal) (o : Nat)
    (x0 : Vec Ideal S5000x128 .f32) (x1 : Vec Ideal S5000x1 .f32) (x2 : Vec Ideal S5000x128 .f32)
    (x3 : Vec Ideal S5000x1 .f32) (x4 : Vec Ideal S1x128 .f32) (x5 : Vec Ideal S128x64 .f32) (x6 : Vec Ideal S1x64 .f32)
    (h0 : ∀ (x : S5000x128.Idx) (k : S50000x128.Idx), (k 0).val = o + (x 0).val → (k 1).val = (x 1).val → x0 x = A k)
    (h1 : ∀ (x : S5000x1.Idx) (k : S50000x1.Idx), (k 0).val = o + (x 0).val → (k 1).val = (x 1).val → x1 x = DA k)
    (h2 : ∀ (x : S5000x128.Idx) (k : S50000x128.Idx), (k 0).val = o + (x 0).val → (k 1).val = (x 1).val → x2 x = B k)
    (h3 : ∀ (x : S5000x1.Idx) (k : S50000x1.Idx), (k 0).val = o + (x 0).val → (k 1).val = (x 1).val → x3 x = DB k)
    (h4 : ∀ x : S1x128.Idx, x4 x = BIAS x) (h5 : ∀ x : S128x64.Idx, x5 x = LW x) (h6 : ∀ x : S1x64.Idx, x6 x = LB x)
    (y : S5000x64.Idx) (i : S50000x64.Idx) (hi0 : (i 0).val = o + (y 0).val) (hi1 : (i 1).val = (y 1).val) :
    out6_7 x0 x1 x2 x3 x4 x5 x6 y = Stage.combineHead A DA B DB BIAS LW LB i := by
  obtain ⟨r, q, rfl⟩ : ∃ (r : Fin 5000) (q : Fin 64), y = ix2 r q := ⟨y 0, y 1, eq_ix2 y⟩
  obtain ⟨R, Q, rfl⟩ : ∃ (R : Fin 50000) (Q : Fin 64), i = ix2 R Q := ⟨i 0, i 1, eq_ix2 i⟩
  obtain rfl : Q = q := Fin.ext hi1
  have e0 : ∀ k : Fin 128, x0 (ix2 r k) = A (ix2 R k) := fun k => h0 (ix2 r k) (ix2 R k) hi0 rfl
  have e1 : x1 (ix2 r (0 : Fin 1)) = DA (ix2 R (0 : Fin 1)) := h1 (ix2 r (0 : Fin 1)) (ix2 R (0 : Fin 1)) hi0 rfl
  have e2 : ∀ k : Fin 128, x2 (ix2 r k) = B (ix2 R k) := fun k => h2 (ix2 r k) (ix2 R k) hi0 rfl
  have e3 : x3 (ix2 r (0 : Fin 1)) = DB (ix2 R (0 : Fin 1)) := h3 (ix2 r (0 : Fin 1)) (ix2 R (0 : Fin 1)) hi0 rfl
  rw [out_head6]
  simp only [e0, e1, e2, e3, h4, h5, h6]
  rfl

/-! The index maps, decided over the ten grid points: the four row-tiled inputs and the output sit at block `(t, 0)`,
    the bias, the head's weight and the head's bias at block `(0, 0)`. -/

theorem idx6_0 : ∀ t : Fin cfg6.N, win6_0.index t (0 : Fin 2) = t.val ∧ win6_0.index t (1 : Fin 2) = 0 :=
  (by decide +kernel : ∀ t : Fin grid6.N, _)
theorem idx6_1 : ∀ t : Fin cfg6.N, win6_1.index t (0 : Fin 2) = t.val ∧ win6_1.index t (1 : Fin 2) = 0 :=
  (by decide +kernel : ∀ t : Fin grid6.N, _)
theorem idx6_2 : ∀ t : Fin cfg6.N, win6_2.index t (0 : Fin 2) = t.val ∧ win6_2.index t (1 : Fin 2) = 0 :=
  (by decide +kernel : ∀ t : Fin grid6.N, _)
theorem idx6_3 : ∀ t : Fin cfg6.N, win6_3.index t (0 : Fin 2) = t.val ∧ win6_3.index t (1 : Fin 2) = 0 :=
  (by decide +kernel : ∀ t : Fin grid6.N, _)
theorem idx6_4 : ∀ t : Fin cfg6.N, win6_4.index t (0 : Fin 2) = 0 ∧ win6_4.index t (1 : Fin 2) = 0 :=
  (by decide +kernel : ∀ t : Fin grid6.N, _)
theorem idx6_5 : ∀ t : Fin cfg6.N, win6_5.index t (0 : Fin 2) = 0 ∧ win6_5.index t (1 : Fin 2) = 0 :=
  (by decide +kernel : ∀ t : Fin grid6.N, _)
theorem idx6_6 : ∀ t : Fin cfg6.N, win6_6.index t (0 : Fin 2) = 0 ∧ win6_6.index t (1 : Fin 2) = 0 :=
  (by decide +kernel : ∀ t : Fin grid6.N, _)
theorem idx6_7 : ∀ t : Fin cfg6.N, win6_7.index t (0 : Fin 2) = t.val ∧ win6_7.index t (1 : Fin 2) = 0 :=
  (by decide +kernel : ∀ t : Fin grid6.N, _)

/-- Window 0's block at point `t` is rows `5000 t … 5000 t + 4999` of its array. -/
theorem blk6_0_apply (c : Dev nD) (t : Fin cfg6.N) (x : S5000x128.Idx) (k : S50000x128.Idx)
    (hk0 : (k 0).val = 5000 * t.val + (x 0).val) (hk1 : (k 1).val = (x 1).val) :
    (iblk6 V c 0 t : Vec Ideal S5000x128 .f32) x = (V c (Pipeline.arrRef spec6 0) : S50000x128.Idx → EReal) k := by
  have hi : win6_0.index t (0 : Fin 2) = t.val ∧ win6_0.index t (1 : Fin 2) = 0 := idx6_0 t
  unfold iblk6
  rw [View.read_apply]
  refine congrArg (V c (Pipeline.arrRef spec6 0)) ?_
  funext a
  apply Fin.ext
  match a with
  | ⟨0, _⟩ => show win6_0.index t (0 : Fin 2) * 5000 + 1 * (x 0).val = (k 0).val; rw [hi.1, hk0]; omega
  | ⟨1, _⟩ => show win6_0.index t (1 : Fin 2) * 128 + 1 * (x 1).val = (k 1).val; rw [hi.2, hk1]; omega

/-- Window 1's block at point `t` is rows `5000 t … 5000 t + 4999` of its array. -/
theorem blk6_1_apply (c : Dev nD) (t : Fin cfg6.N) (x : S5000x1.Idx) (k : S50000x1.Idx)
    (hk0 : (k 0).val = 5000 * t.val + (x 0).val) (hk1 : (k 1).val = (x 1).val) :
    (iblk6 V c 1 t : Vec Ideal S5000x1 .f32) x = (V c (Pipeline.arrRef spec6 1) : S50000x1.Idx → EReal) k := by
  have hi : win6_1.index t (0 : Fin 2) = t.val ∧ win6_1.index t (1 : Fin 2) = 0 := idx6_1 t
  unfold iblk6
  rw [View.read_apply]
  refine congrArg (V c (Pipeline.arrRef spec6 1)) ?_
  funext a
  apply Fin.ext
  match a with
  | ⟨0, _⟩ => show win6_1.index t (0 : Fin 2) * 5000 + 1 * (x 0).val = (k 0).val; rw [hi.1, hk0]; omega
  | ⟨1, _⟩ => show win6_1.index t (1 : Fin 2) * 1 + 1 * (x 1).val = (k 1).val; rw [hi.2, hk1]; omega

/-- Window 2's block at point `t` is rows `5000 t … 5000 t + 4999` of its array. -/
theorem blk6_2_apply (c : Dev nD) (t : Fin cfg6.N) (x : S5000x128.Idx) (k : S50000x128.Idx)
    (hk0 : (k 0).val = 5000 * t.val + (x 0).val) (hk1 : (k 1).val = (x 1).val) :
    (iblk6 V c 2 t : Vec Ideal S5000x128 .f32) x = (V c (Pipeline.arrRef spec6 2) : S50000x128.Idx → EReal) k := by
  have hi : win6_2.index t (0 : Fin 2) = t.val ∧ win6_2.index t (1 : Fin 2) = 0 := idx6_2 t
  unfold iblk6
  rw [View.read_apply]
  refine congrArg (V c (Pipeline.arrRef spec6 2)) ?_
  funext a
  apply Fin.ext
  match a with
  | ⟨0, _⟩ => show win6_2.index t (0 : Fin 2) * 5000 + 1 * (x 0).val = (k 0).val; rw [hi.1, hk0]; omega
  | ⟨1, _⟩ => show win6_2.index t (1 : Fin 2) * 128 + 1 * (x 1).val = (k 1).val; rw [hi.2, hk1]; omega

/-- Window 3's block at point `t` is rows `5000 t … 5000 t + 4999` of its array. -/
theorem blk6_3_apply (c : Dev nD) (t : Fin cfg6.N) (x : S5000x1.Idx) (k : S50000x1.Idx)
    (hk0 : (k 0).val = 5000 * t.val + (x 0).val) (hk1 : (k 1).val = (x 1).val) :
    (iblk6 V c 3 t : Vec Ideal S5000x1 .f32) x = (V c (Pipeline.arrRef spec6 3) : S50000x1.Idx → EReal) k := by
  have hi : win6_3.index t (0 : Fin 2) = t.val ∧ win6_3.index t (1 : Fin 2) = 0 := idx6_3 t
  unfold iblk6
  rw [View.read_apply]
  refine congrArg (V c (Pipeline.arrRef spec6 3)) ?_
  funext a
  apply Fin.ext
  match a with
  | ⟨0, _⟩ => show win6_3.index t (0 : Fin 2) * 5000 + 1 * (x 0).val = (k 0).val; rw [hi.1, hk0]; omega
  | ⟨1, _⟩ => show win6_3.index t (1 : Fin 2) * 1 + 1 * (x 1).val = (k 1).val; rw [hi.2, hk1]; omega

/-- Window 4's block at every point is its whole array. -/
theorem blk6_4_apply (c : Dev nD) (t : Fin cfg6.N) (x : S1x128.Idx) :
    (iblk6 V c 4 t : Vec Ideal S1x128 .f32) x = (V c (Pipeline.arrRef spec6 4) : S1x128.Idx → EReal) x := by
  have hi : win6_4.index t (0 : Fin 2) = 0 ∧ win6_4.index t (1 : Fin 2) = 0 := idx6_4 t
  unfold iblk6
  rw [View.read_apply]
  refine congrArg (V c (Pipeline.arrRef spec6 4)) ?_
  funext a
  apply Fin.ext
  match a with
  | ⟨0, _⟩ => show win6_4.index t (0 : Fin 2) * 1 + 1 * (x 0).val = (x 0).val; rw [hi.1]; omega
  | ⟨1, _⟩ => show win6_4.index t (1 : Fin 2) * 128 + 1 * (x 1).val = (x 1).val; rw [hi.2]; omega

/-- Window 5's block at every point is its whole array. -/
theorem blk6_5_apply (c : Dev nD) (t : Fin cfg6.N) (x : S128x64.Idx) :
    (iblk6 V c 5 t : Vec Ideal S128x64 .f32) x = (V c (Pipeline.arrRef spec6 5) : S128x64.Idx → EReal) x := by
  have hi : win6_5.index t (0 : Fin 2) = 0 ∧ win6_5.index t (1 : Fin 2) = 0 := idx6_5 t
  unfold iblk6
  rw [View.read_apply]
  refine congrArg (V c (Pipeline.arrRef spec6 5)) ?_
  funext a
  apply Fin.ext
  match a with
  | ⟨0, _⟩ => show win6_5.index t (0 : Fin 2) * 128 + 1 * (x 0).val = (x 0).val; rw [hi.1]; omega
  | ⟨1, _⟩ => show win6_5.index t (1 : Fin 2) * 64 + 1 * (x 1).val = (x 1).val; rw [hi.2]; omega

/-- Window 6's block at every point is its whole array. -/
theorem blk6_6_apply (c : Dev nD) (t : Fin cfg6.N) (x : S1x64.Idx) :
    (iblk6 V c 6 t : Vec Ideal S1x64 .f32) x = (V c (Pipeline.arrRef spec6 6) : S1x64.Idx → EReal) x := by
  have hi : win6_6.index t (0 : Fin 2) = 0 ∧ win6_6.index t (1 : Fin 2) = 0 := idx6_6 t
  unfold iblk6
  rw [View.read_apply]
  refine congrArg (V c (Pipeline.arrRef spec6 6)) ?_
  funext a
  apply Fin.ext
  match a with
  | ⟨0, _⟩ => show win6_6.index t (0 : Fin 2) * 1 + 1 * (x 0).val = (x 0).val; rw [hi.1]; omega
  | ⟨1, _⟩ => show win6_6.index t (1 : Fin 2) * 64 + 1 * (x 1).val = (x 1).val; rw [hi.2]; omega

/-- What point `t` writes back is block `t` of the head of the arrays as the region finds them. -/
theorem flushed_head6 (c : Dev nD) (t : Fin cfg6.N) :
    (dat6 (F := Ideal) V c).flushed 7 t = ((cfg6.win 7).blk t).view.read (Elt Ideal)
      (Stage.combineHead (V c (Pipeline.arrRef spec6 0)) (V c (Pipeline.arrRef spec6 1)) (V c (Pipeline.arrRef spec6 2))
        (V c (Pipeline.arrRef spec6 3)) (V c (Pipeline.arrRef spec6 4)) (V c (Pipeline.arrRef spec6 5))
        (V c (Pipeline.arrRef spec6 6))) := by
  show (cfg6.win 7).cut (grid6.coords t) ((dat6 V c).after 7 t) = _
  rw [after6_7]
  have hi : win6_7.index t (0 : Fin 2) = t.val ∧ win6_7.index t (1 : Fin 2) = 0 := idx6_7 t
  funext j
  rw [View.read_apply]
  show out6_7 (iblk6 V c 0 t) (iblk6 V c 1 t) (iblk6 V c 2 t) (iblk6 V c 3 t) (iblk6 V c 4 t) (iblk6 V c 5 t)
    (iblk6 V c 6 t) j = _
  refine out_head6_rows (V c (Pipeline.arrRef spec6 0)) (V c (Pipeline.arrRef spec6 1)) (V c (Pipeline.arrRef spec6 2))
    (V c (Pipeline.arrRef spec6 3)) (V c (Pipeline.arrRef spec6 4)) (V c (Pipeline.arrRef spec6 5))
    (V c (Pipeline.arrRef spec6 6)) (5000 * t.val)
    (iblk6 V c 0 t) (iblk6 V c 1 t) (iblk6 V c 2 t) (iblk6 V c 3 t) (iblk6 V c 4 t) (iblk6 V c 5 t) (iblk6 V c 6 t)
    (blk6_0_apply V c t) (blk6_1_apply V c t) (blk6_2_apply V c t) (blk6_3_apply V c t) (blk6_4_apply V c t)
    (blk6_5_apply V c t) (blk6_6_apply V c t)
    j (((cfg6.win 7).blk t).view.emb j) ?_ ?_
  · show win6_7.index t (0 : Fin 2) * 5000 + 1 * (j 0).val = 5000 * t.val + (j 0).val; rw [hi.1]; omega
  · show win6_7.index t (1 : Fin 2) * 64 + 1 * (j 1).val = (j 1).val; rw [hi.2]; omega

/-- Every block of ten is some point's. -/
theorem onto6 : ∀ q : Fin 10, ∃ t : Fin cfg6.N, win6_7.index t (0 : Fin 2) = q.val ∧ win6_7.index t (1 : Fin 2) = 0 :=
  (by decide +kernel : ∀ q : Fin 10, ∃ t : Fin grid6.N, _)

/-- An index of the output array is in point `t`'s block iff each coordinate is in the block's range on its axis. -/
theorem mem_blk6 (t : Fin cfg6.N) (i : S50000x64.Idx) :
    i ∈ ((cfg6.win 7).blk t).view.set ↔ ∀ a : Fin 2, win6_7.index t a * S5000x64.size a ≤ (i a).val ∧ (i a).val < win6_7.index t a * S5000x64.size a + S5000x64.size a := by
  show i ∈ ((View.whole main_v251).slice (win6_7.rect t)).set ↔ _
  rw [View.set_slice_whole, Rect.mem_set_unit]
  exact Iff.rfl

/-- Row `r` of the output array lies in the block of point `r / 5000`. -/
theorem cover6 (i : S50000x64.Idx) : ∃ t : Fin cfg6.N, (cfg6.win 7).flush t = true ∧ i ∈ ((cfg6.win 7).blk t).view.set := by
  have hi0 : (i 0).val < 50000 := (i 0).isLt
  have hi1 : (i 1).val < 64 := (i 1).isLt
  obtain ⟨t, ht0, ht1⟩ := onto6 ⟨(i 0).val / 5000, by omega⟩
  refine ⟨t, flush6_7 t, ?_⟩
  rw [mem_blk6]
  intro a
  match a with
  | ⟨0, _⟩ => show win6_7.index t (0 : Fin 2) * 5000 ≤ (i 0).val ∧ (i 0).val < win6_7.index t (0 : Fin 2) * 5000 + 5000; rw [ht0]; dsimp only; omega
  | ⟨1, _⟩ => show win6_7.index t (1 : Fin 2) * 64 ≤ (i 1).val ∧ (i 1).val < win6_7.index t (1 : Fin 2) * 64 + 64; rw [ht1]; omega

/-- THE OUTPUT ARRAY after the region: the head of the seven input arrays as the region finds them. -/
theorem final_head6 (c : Dev nD) : (dat6 (F := Ideal) V c).arrAt 7 cfg6.N
    = Stage.combineHead (V c (Pipeline.arrRef spec6 0)) (V c (Pipeline.arrRef spec6 1)) (V c (Pipeline.arrRef spec6 2))
        (V c (Pipeline.arrRef spec6 3)) (V c (Pipeline.arrRef spec6 4)) (V c (Pipeline.arrRef spec6 5))
        (V c (Pipeline.arrRef spec6 6)) :=
  (dat6 (F := Ideal) V c).arrAt_eq_of_cover 7 _ (fun t _ => flushed_head6 V c t) (cover6)

end Cert.KernelIdeal.RegionValue

end
-- ==== Proof.RegionHead7.lean ====
/-
  Region 7: what the head region leaves in its whole output array, as one function of its seven input arrays as the
  region finds them. Each grid point's block is 5000 rows; point `t` reads rows `5000 t …` of the two aggregates and of
  the two factor columns, and the whole bias row, head weight and head bias, and writes rows `5000 t …` of the output;
  the ten blocks tile the array.
-/
import proofs.«122068_j1322849927480_2_alg».proof.Proof.Gen.KernelIdeal.Frame
import proofs.«122068_j1322849927480_2_alg».proof.Proof.PayHead
import proofs.«122068_j1322849927480_2_alg».proof.Proof.KernelValue
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The block the body leaves, entry by entry, from the seven input blocks. -/
theorem out_head7 (x0 : Vec Ideal S5000x128 .f32) (x1 : Vec Ideal S5000x1 .f32) (x2 : Vec Ideal S5000x128 .f32)
    (x3 : Vec Ideal S5000x1 .f32) (x4 : Vec Ideal S1x128 .f32) (x5 : Vec Ideal S128x64 .f32) (x6 : Vec Ideal S1x64 .f32)
    (r : Fin 5000) (o : Fin 64) :
    out7_7 x0 x1 x2 x3 x4 x5 x6 (ix2 r o)
      = (∑ k : Fin 128, max ((x0 (ix2 r k) * x1 (ix2 r (0 : Fin 1)) + x2 (ix2 r k) * x3 (ix2 r (0 : Fin 1))) + x4 (ix2 (0 : Fin 1) k))
          (Ideal.ofBits .f32 0x00000000#32) * x5 (ix2 k o)) + x6 (ix2 (0 : Fin 1) o) := by
  unfold out7_7
  rw [View.canon_unit_zero hz2]
  simp only [View.ld_unit_zero (S := S5000x128) hz2, View.ld_unit_zero (S := S5000x1) hz2, View.ld_unit_zero (S := S1x128) hz2,
    View.ld_unit_zero (S := S128x64) hz2, View.ld_unit_zero (S := S1x64) hz2]
  exact pay_head7 x0 x1 x2 x3 x4 x5 x6 r o

/-- The same over blocks that are rows `o … o + 4999` of whole arrays (the bias row, the head's weight and the head's
    bias whole): the block entry at `y` is the whole-array function at the index `i` of the same column, `o` rows further
    down. -/
theorem out_head7_rows (A : S50000x128.Idx → EReal) (DA : S50000x1.Idx → EReal) (B : S50000x128.Idx → EReal)
    (DB : S50000x1.Idx → EReal) (BIAS : S1x128.Idx → EReal) (LW : S128x64.Idx → EReal) (LB : S1x64.Idx → EReal) (o : Nat)
    (x0 : Vec Ideal S5000x128 .f32) (x1 : Vec Ideal S5000x1 .f32) (x2 : Vec Ideal S5000x128 .f32)
    (x3 : Vec Ideal S5000x1 .f32) (x4 : Vec Ideal S1x128 .f32) (x5 : Vec Ideal S128x64 .f32) (x6 : Vec Ideal S1x64 .f32)
    (h0 : ∀ (x : S5000x128.Idx) (k : S50000x128.Idx), (k 0).val = o + (x 0).val → (k 1).val = (x 1).val → x0 x = A k)
    (h1 : ∀ (x : S5000x1.Idx) (k : S50000x1.Idx), (k 0).val = o + (x 0).val → (k 1).val = (x 1).val → x1 x = DA k)
    (h2 : ∀ (x : S5000x128.Idx) (k : S50000x128.Idx), (k 0).val = o + (x 0).val → (k 1).val = (x 1).val → x2 x = B k)
    (h3 : ∀ (x : S5000x1.Idx) (k : S50000x1.Idx), (k 0).val = o + (x 0).val → (k 1).val = (x 1).val → x3 x = DB k)
    (h4 : ∀ x : S1x128.Idx, x4 x = BIAS x) (h5 : ∀ x : S128x64.Idx, x5 x = LW x) (h6 : ∀ x : S1x64.Idx, x6 x = LB x)
    (y : S5000x64.Idx) (i : S50000x64.Idx) (hi0 : (i 0).val = o + (y 0).val) (hi1 : (i 1).val = (y 1).val) :
    out7_7 x0 x1 x2 x3 x4 x5 x6 y = Stage.combineHead A DA B DB BIAS LW LB i := by
  obtain ⟨r, q, rfl⟩ : ∃ (r : Fin 5000) (q : Fin 64), y = ix2 r q := ⟨y 0, y 1, eq_ix2 y⟩
  obtain ⟨R, Q, rfl⟩ : ∃ (R : Fin 50000) (Q : Fin 64), i = ix2 R Q := ⟨i 0, i 1, eq_ix2 i⟩
  obtain rfl : Q = q := Fin.ext hi1
  have e0 : ∀ k : Fin 128, x0 (ix2 r k) = A (ix2 R k) := fun k => h0 (ix2 r k) (ix2 R k) hi0 rfl
  have e1 : x1 (ix2 r (0 : Fin 1)) = DA (ix2 R (0 : Fin 1)) := h1 (ix2 r (0 : Fin 1)) (ix2 R (0 : Fin 1)) hi0 rfl
  have e2 : ∀ k : Fin 128, x2 (ix2 r k) = B (ix2 R k) := fun k => h2 (ix2 r k) (ix2 R k) hi0 rfl
  have e3 : x3 (ix2 r (0 : Fin 1)) = DB (ix2 R (0 : Fin 1)) := h3 (ix2 r (0 : Fin 1)) (ix2 R (0 : Fin 1)) hi0 rfl
  rw [out_head7]
  simp only [e0, e1, e2, e3, h4, h5, h6]
  rfl

/-! The index maps, decided over the ten grid points: the four row-tiled inputs and the output sit at block `(t, 0)`,
    the bias, the head's weight and the head's bias at block `(0, 0)`. -/

theorem idx7_0 : ∀ t : Fin cfg7.N, win7_0.index t (0 : Fin 2) = t.val ∧ win7_0.index t (1 : Fin 2) = 0 :=
  (by decide +kernel : ∀ t : Fin grid7.N, _)
theorem idx7_1 : ∀ t : Fin cfg7.N, win7_1.index t (0 : Fin 2) = t.val ∧ win7_1.index t (1 : Fin 2) = 0 :=
  (by decide +kernel : ∀ t : Fin grid7.N, _)
theorem idx7_2 : ∀ t : Fin cfg7.N, win7_2.index t (0 : Fin 2) = t.val ∧ win7_2.index t (1 : Fin 2) = 0 :=
  (by decide +kernel : ∀ t : Fin grid7.N, _)
theorem idx7_3 : ∀ t : Fin cfg7.N, win7_3.index t (0 : Fin 2) = t.val ∧ win7_3.index t (1 : Fin 2) = 0 :=
  (by decide +kernel : ∀ t : Fin grid7.N, _)
theorem idx7_4 : ∀ t : Fin cfg7.N, win7_4.index t (0 : Fin 2) = 0 ∧ win7_4.index t (1 : Fin 2) = 0 :=
  (by decide +kernel : ∀ t : Fin grid7.N, _)
theorem idx7_5 : ∀ t : Fin cfg7.N, win7_5.index t (0 : Fin 2) = 0 ∧ win7_5.index t (1 : Fin 2) = 0 :=
  (by decide +kernel : ∀ t : Fin grid7.N, _)
theorem idx7_6 : ∀ t : Fin cfg7.N, win7_6.index t (0 : Fin 2) = 0 ∧ win7_6.index t (1 : Fin 2) = 0 :=
  (by decide +kernel : ∀ t : Fin grid7.N, _)
theorem idx7_7 : ∀ t : Fin cfg7.N, win7_7.index t (0 : Fin 2) = t.val ∧ win7_7.index t (1 : Fin 2) = 0 :=
  (by decide +kernel : ∀ t : Fin grid7.N, _)

/-- Window 0's block at point `t` is rows `5000 t … 5000 t + 4999` of its array. -/
theorem blk7_0_apply (c : Dev nD) (t : Fin cfg7.N) (x : S5000x128.Idx) (k : S50000x128.Idx)
    (hk0 : (k 0).val = 5000 * t.val + (x 0).val) (hk1 : (k 1).val = (x 1).val) :
    (iblk7 V c 0 t : Vec Ideal S5000x128 .f32) x = (V c (Pipeline.arrRef spec7 0) : S50000x128.Idx → EReal) k := by
  have hi : win7_0.index t (0 : Fin 2) = t.val ∧ win7_0.index t (1 : Fin 2) = 0 := idx7_0 t
  unfold iblk7
  rw [View.read_apply]
  refine congrArg (V c (Pipeline.arrRef spec7 0)) ?_
  funext a
  apply Fin.ext
  match a with
  | ⟨0, _⟩ => show win7_0.index t (0 : Fin 2) * 5000 + 1 * (x 0).val = (k 0).val; rw [hi.1, hk0]; omega
  | ⟨1, _⟩ => show win7_0.index t (1 : Fin 2) * 128 + 1 * (x 1).val = (k 1).val; rw [hi.2, hk1]; omega

/-- Window 1's block at point `t` is rows `5000 t … 5000 t + 4999` of its array. -/
theorem blk7_1_apply (c : Dev nD) (t : Fin cfg7.N) (x : S5000x1.Idx) (k : S50000x1.Idx)
    (hk0 : (k 0).val = 5000 * t.val + (x 0).val) (hk1 : (k 1).val = (x 1).val) :
    (iblk7 V c 1 t : Vec Ideal S5000x1 .f32) x = (V c (Pipeline.arrRef spec7 1) : S50000x1.Idx → EReal) k := by
  have hi : win7_1.index t (0 : Fin 2) = t.val ∧ win7_1.index t (1 : Fin 2) = 0 := idx7_1 t
  unfold iblk7
  rw [View.read_apply]
  refine congrArg (V c (Pipeline.arrRef spec7 1)) ?_
  funext a
  apply Fin.ext
  match a with
  | ⟨0, _⟩ => show win7_1.index t (0 : Fin 2) * 5000 + 1 * (x 0).val = (k 0).val; rw [hi.1, hk0]; omega
  | ⟨1, _⟩ => show win7_1.index t (1 : Fin 2) * 1 + 1 * (x 1).val = (k 1).val; rw [hi.2, hk1]; omega

/-- Window 2's block at point `t` is rows `5000 t … 5000 t + 4999` of its array. -/
theorem blk7_2_apply (c : Dev nD) (t : Fin cfg7.N) (x : S5000x128.Idx) (k : S50000x128.Idx)
    (hk0 : (k 0).val = 5000 * t.val + (x 0).val) (hk1 : (k 1).val = (x 1).val) :
    (iblk7 V c 2 t : Vec Ideal S5000x128 .f32) x = (V c (Pipeline.arrRef spec7 2) : S50000x128.Idx → EReal) k := by
  have hi : win7_2.index t (0 : Fin 2) = t.val ∧ win7_2.index t (1 : Fin 2) = 0 := idx7_2 t
  unfold iblk7
  rw [View.read_apply]
  refine congrArg (V c (Pipeline.arrRef spec7 2)) ?_
  funext a
  apply Fin.ext
  match a with
  | ⟨0, _⟩ => show win7_2.index t (0 : Fin 2) * 5000 + 1 * (x 0).val = (k 0).val; rw [hi.1, hk0]; omega
  | ⟨1, _⟩ => show win7_2.index t (1 : Fin 2) * 128 + 1 * (x 1).val = (k 1).val; rw [hi.2, hk1]; omega

/-- Window 3's block at point `t` is rows `5000 t … 5000 t + 4999` of its array. -/
theorem blk7_3_apply (c : Dev nD) (t : Fin cfg7.N) (x : S5000x1.Idx) (k : S50000x1.Idx)
    (hk0 : (k 0).val = 5000 * t.val + (x 0).val) (hk1 : (k 1).val = (x 1).val) :
    (iblk7 V c 3 t : Vec Ideal S5000x1 .f32) x = (V c (Pipeline.arrRef spec7 3) : S50000x1.Idx → EReal) k := by
  have hi : win7_3.index t (0 : Fin 2) = t.val ∧ win7_3.index t (1 : Fin 2) = 0 := idx7_3 t
  unfold iblk7
  rw [View.read_apply]
  refine congrArg (V c (Pipeline.arrRef spec7 3)) ?_
  funext a
  apply Fin.ext
  match a with
  | ⟨0, _⟩ => show win7_3.index t (0 : Fin 2) * 5000 + 1 * (x 0).val = (k 0).val; rw [hi.1, hk0]; omega
  | ⟨1, _⟩ => show win7_3.index t (1 : Fin 2) * 1 + 1 * (x 1).val = (k 1).val; rw [hi.2, hk1]; omega

/-- Window 4's block at every point is its whole array. -/
theorem blk7_4_apply (c : Dev nD) (t : Fin cfg7.N) (x : S1x128.Idx) :
    (iblk7 V c 4 t : Vec Ideal S1x128 .f32) x = (V c (Pipeline.arrRef spec7 4) : S1x128.Idx → EReal) x := by
  have hi : win7_4.index t (0 : Fin 2) = 0 ∧ win7_4.index t (1 : Fin 2) = 0 := idx7_4 t
  unfold iblk7
  rw [View.read_apply]
  refine congrArg (V c (Pipeline.arrRef spec7 4)) ?_
  funext a
  apply Fin.ext
  match a with
  | ⟨0, _⟩ => show win7_4.index t (0 : Fin 2) * 1 + 1 * (x 0).val = (x 0).val; rw [hi.1]; omega
  | ⟨1, _⟩ => show win7_4.index t (1 : Fin 2) * 128 + 1 * (x 1).val = (x 1).val; rw [hi.2]; omega

/-- Window 5's block at every point is its whole array. -/
theorem blk7_5_apply (c : Dev nD) (t : Fin cfg7.N) (x : S128x64.Idx) :
    (iblk7 V c 5 t : Vec Ideal S128x64 .f32) x = (V c (Pipeline.arrRef spec7 5) : S128x64.Idx → EReal) x := by
  have hi : win7_5.index t (0 : Fin 2) = 0 ∧ win7_5.index t (1 : Fin 2) = 0 := idx7_5 t
  unfold iblk7
  rw [View.read_apply]
  refine congrArg (V c (Pipeline.arrRef spec7 5)) ?_
  funext a
  apply Fin.ext
  match a with
  | ⟨0, _⟩ => show win7_5.index t (0 : Fin 2) * 128 + 1 * (x 0).val = (x 0).val; rw [hi.1]; omega
  | ⟨1, _⟩ => show win7_5.index t (1 : Fin 2) * 64 + 1 * (x 1).val = (x 1).val; rw [hi.2]; omega

/-- Window 6's block at every point is its whole array. -/
theorem blk7_6_apply (c : Dev nD) (t : Fin cfg7.N) (x : S1x64.Idx) :
    (iblk7 V c 6 t : Vec Ideal S1x64 .f32) x = (V c (Pipeline.arrRef spec7 6) : S1x64.Idx → EReal) x := by
  have hi : win7_6.index t (0 : Fin 2) = 0 ∧ win7_6.index t (1 : Fin 2) = 0 := idx7_6 t
  unfold iblk7
  rw [View.read_apply]
  refine congrArg (V c (Pipeline.arrRef spec7 6)) ?_
  funext a
  apply Fin.ext
  match a with
  | ⟨0, _⟩ => show win7_6.index t (0 : Fin 2) * 1 + 1 * (x 0).val = (x 0).val; rw [hi.1]; omega
  | ⟨1, _⟩ => show win7_6.index t (1 : Fin 2) * 64 + 1 * (x 1).val = (x 1).val; rw [hi.2]; omega

/-- What point `t` writes back is block `t` of the head of the arrays as the region finds them. -/
theorem flushed_head7 (c : Dev nD) (t : Fin cfg7.N) :
    (dat7 (F := Ideal) V c).flushed 7 t = ((cfg7.win 7).blk t).view.read (Elt Ideal)
      (Stage.combineHead (V c (Pipeline.arrRef spec7 0)) (V c (Pipeline.arrRef spec7 1)) (V c (Pipeline.arrRef spec7 2))
        (V c (Pipeline.arrRef spec7 3)) (V c (Pipeline.arrRef spec7 4)) (V c (Pipeline.arrRef spec7 5))
        (V c (Pipeline.arrRef spec7 6))) := by
  show (cfg7.win 7).cut (grid7.coords t) ((dat7 V c).after 7 t) = _
  rw [after7_7]
  have hi : win7_7.index t (0 : Fin 2) = t.val ∧ win7_7.index t (1 : Fin 2) = 0 := idx7_7 t
  funext j
  rw [View.read_apply]
  show out7_7 (iblk7 V c 0 t) (iblk7 V c 1 t) (iblk7 V c 2 t) (iblk7 V c 3 t) (iblk7 V c 4 t) (iblk7 V c 5 t)
    (iblk7 V c 6 t) j = _
  refine out_head7_rows (V c (Pipeline.arrRef spec7 0)) (V c (Pipeline.arrRef spec7 1)) (V c (Pipeline.arrRef spec7 2))
    (V c (Pipeline.arrRef spec7 3)) (V c (Pipeline.arrRef spec7 4)) (V c (Pipeline.arrRef spec7 5))
    (V c (Pipeline.arrRef spec7 6)) (5000 * t.val)
    (iblk7 V c 0 t) (iblk7 V c 1 t) (iblk7 V c 2 t) (iblk7 V c 3 t) (iblk7 V c 4 t) (iblk7 V c 5 t) (iblk7 V c 6 t)
    (blk7_0_apply V c t) (blk7_1_apply V c t) (blk7_2_apply V c t) (blk7_3_apply V c t) (blk7_4_apply V c t)
    (blk7_5_apply V c t) (blk7_6_apply V c t)
    j (((cfg7.win 7).blk t).view.emb j) ?_ ?_
  · show win7_7.index t (0 : Fin 2) * 5000 + 1 * (j 0).val = 5000 * t.val + (j 0).val; rw [hi.1]; omega
  · show win7_7.index t (1 : Fin 2) * 64 + 1 * (j 1).val = (j 1).val; rw [hi.2]; omega

/-- Every block of ten is some point's. -/
theorem onto7 : ∀ q : Fin 10, ∃ t : Fin cfg7.N, win7_7.index t (0 : Fin 2) = q.val ∧ win7_7.index t (1 : Fin 2) = 0 :=
  (by decide +kernel : ∀ q : Fin 10, ∃ t : Fin grid7.N, _)

/-- An index of the output array is in point `t`'s block iff each coordinate is in the block's range on its axis. -/
theorem mem_blk7 (t : Fin cfg7.N) (i : S50000x64.Idx) :
    i ∈ ((cfg7.win 7).blk t).view.set ↔ ∀ a : Fin 2, win7_7.index t a * S5000x64.size a ≤ (i a).val ∧ (i a).val < win7_7.index t a * S5000x64.size a + S5000x64.size a := by
  show i ∈ ((View.whole main_v256).slice (win7_7.rect t)).set ↔ _
  rw [View.set_slice_whole, Rect.mem_set_unit]
  exact Iff.rfl

/-- Row `r` of the output array lies in the block of point `r / 5000`. -/
theorem cover7 (i : S50000x64.Idx) : ∃ t : Fin cfg7.N, (cfg7.win 7).flush t = true ∧ i ∈ ((cfg7.win 7).blk t).view.set := by
  have hi0 : (i 0).val < 50000 := (i 0).isLt
  have hi1 : (i 1).val < 64 := (i 1).isLt
  obtain ⟨t, ht0, ht1⟩ := onto7 ⟨(i 0).val / 5000, by omega⟩
  refine ⟨t, flush7_7 t, ?_⟩
  rw [mem_blk7]
  intro a
  match a with
  | ⟨0, _⟩ => show win7_7.index t (0 : Fin 2) * 5000 ≤ (i 0).val ∧ (i 0).val < win7_7.index t (0 : Fin 2) * 5000 + 5000; rw [ht0]; dsimp only; omega
  | ⟨1, _⟩ => show win7_7.index t (1 : Fin 2) * 64 ≤ (i 1).val ∧ (i 1).val < win7_7.index t (1 : Fin 2) * 64 + 64; rw [ht1]; omega

/-- THE OUTPUT ARRAY after the region: the head of the seven input arrays as the region finds them. -/
theorem final_head7 (c : Dev nD) : (dat7 (F := Ideal) V c).arrAt 7 cfg7.N
    = Stage.combineHead (V c (Pipeline.arrRef spec7 0)) (V c (Pipeline.arrRef spec7 1)) (V c (Pipeline.arrRef spec7 2))
        (V c (Pipeline.arrRef spec7 3)) (V c (Pipeline.arrRef spec7 4)) (V c (Pipeline.arrRef spec7 5))
        (V c (Pipeline.arrRef spec7 6)) :=
  (dat7 (F := Ideal) V c).arrAt_eq_of_cover 7 _ (fun t _ => flushed_head7 V c t) (cover7)

end Cert.KernelIdeal.RegionValue

end
-- ==== Proof.FoldIdeal.lean ====
/-
  The fold read back: what every consumed buffer holds at every boundary where it is consumed, as a stage of the ten
  argument arrays — and so what the two result buffers hold at the last boundary.

  Boundary `k` is the state between two consecutive segments of @main. A buffer is made once — by a host operation of
  some stretch, or as a kernel region's output array — and read later, possibly many segments later. Three kinds of fact,
  all at the ideal instance and all about device `c`'s argument arrays `inputsOf m c`:
  * where a stretch makes a buffer: the stretch's reading (FoldHost) from the boundary it starts at, the buffers it starts
    from rewritten by their own facts at that boundary;
  * where a region makes its output array: the array after the region is the region's function (the regions' value
    theorems) of its input arrays as the region finds them, each rewritten by its fact at the region's entry;
  * anywhere later: no segment in between writes the buffer (a stretch writes only its operations' results, a region only
    its output array), so it still holds what it held.
  The last two facts are the two results: layer two's head over the drug nodes and over the disease nodes.
-/
import proofs.«122068_j1322849927480_2_alg».proof.Proof.Gen.KernelIdeal.Frame
import proofs.«122068_j1322849927480_2_alg».proof.Proof.Keeps
import proofs.«122068_j1322849927480_2_alg».proof.Proof.FoldHost
import proofs.«122068_j1322849927480_2_alg».proof.Proof.KernelInputs
import proofs.«122068_j1322849927480_2_alg».proof.Proof.RegionStage
import proofs.«122068_j1322849927480_2_alg».proof.Proof.RegionHead6
import proofs.«122068_j1322849927480_2_alg».proof.Proof.RegionHead7

set_option maxRecDepth 16384

noncomputable section

namespace Cert.KernelIdeal.Fold

open Idealize.ShloMosaic Idealize.ShloMosaic.TcCoe Idealize.ShloMosaic.StableHlo
open Idealize.SL.Sem
open Cert.KernelIdeal Cert.KernelIdeal.Gen Cert.KernelIdeal.Stage

variable (m : (ℓ : Loc nD τ sig) → Buf (Elt Ideal) ℓ) (ρ : Dev nD → PrngReg) (c : Dev nD)

theorem at0_arg0 : W0 m ρ c (Proc.devRef .tc main_arg0) = (inputsOf m c).xd := rfl

theorem at17_arg0 : W17 m ρ c (Proc.devRef .tc main_arg0) = (inputsOf m c).xd :=
  (keep0_16 (W16 m ρ c) main_arg0 (by decide)).trans ((keep0_15 (W15 m ρ c) main_arg0 (by decide)).trans ((keep0_14 (W14 m ρ c) main_arg0 (by decide)).trans ((keep0_13 (W13 m ρ c) main_arg0 (by decide)).trans ((keep0_12 (W12 m ρ c) main_arg0 (by decide)).trans ((keep0_11 (W11 m ρ c) main_arg0 (by decide)).trans ((keep0_10 (W10 m ρ c) main_arg0 (by decide)).trans ((keep0_9 (W9 m ρ c) main_arg0 (by decide)).trans ((keep0_8 (W8 m ρ c) main_arg0 (by decide)).trans ((keep0_7 (W7 m ρ c) main_arg0 (by decide)).trans ((keep0_6 (W6 m ρ c) main_arg0 (by decide)).trans ((keep0_5 (W5 m ρ c) main_arg0 (by decide)).trans ((keep0_4 (W4 m ρ c) main_arg0 (by decide)).trans ((keep0_3 (W3 m ρ c) main_arg0 (by decide)).trans ((keep0_2 (W2 m ρ c) main_arg0 (by decide)).trans ((keep0_1 (W1 m ρ c) main_arg0 (by decide)).trans ((keep0 (W0 m ρ c) main_arg0 (by decide)).trans (at0_arg0 m ρ c)))))))))))))))))

theorem at0_arg6 : W0 m ρ c (Proc.devRef .tc main_arg6) = (inputsOf m c).Ws := rfl

theorem at16_arg6 : W16 m ρ c (Proc.devRef .tc main_arg6) = (inputsOf m c).Ws :=
  (keep0_15 (W15 m ρ c) main_arg6 (by decide)).trans ((keep0_14 (W14 m ρ c) main_arg6 (by decide)).trans ((keep0_13 (W13 m ρ c) main_arg6 (by decide)).trans ((keep0_12 (W12 m ρ c) main_arg6 (by decide)).trans ((keep0_11 (W11 m ρ c) main_arg6 (by decide)).trans ((keep0_10 (W10 m ρ c) main_arg6 (by decide)).trans ((keep0_9 (W9 m ρ c) main_arg6 (by decide)).trans ((keep0_8 (W8 m ρ c) main_arg6 (by decide)).trans ((keep0_7 (W7 m ρ c) main_arg6 (by decide)).trans ((keep0_6 (W6 m ρ c) main_arg6 (by decide)).trans ((keep0_5 (W5 m ρ c) main_arg6 (by decide)).trans ((keep0_4 (W4 m ρ c) main_arg6 (by decide)).trans ((keep0_3 (W3 m ρ c) main_arg6 (by decide)).trans ((keep0_2 (W2 m ρ c) main_arg6 (by decide)).trans ((keep0_1 (W1 m ρ c) main_arg6 (by decide)).trans ((keep0 (W0 m ρ c) main_arg6 (by decide)).trans (at0_arg6 m ρ c))))))))))))))))

theorem at17_v103 : W17 m ρ c (Proc.devRef .tc main_v103) = wcat (w00 (inputsOf m c).Ws) (w02 (inputsOf m c).Ws) := by
  refine (made_v103 (W16 m ρ c)).trans ?_
  rw [at16_arg6 m ρ c]
  try rfl

theorem at0_arg2 : W0 m ρ c (Proc.devRef .tc main_arg2) = (inputsOf m c).edd := rfl

theorem at2_v34 : W2 m ρ c (Proc.devRef .tc main_v34) = (inputsOf m c).nrdd := by
  refine (made_v34 (W0 m ρ c)).trans ?_
  rw [at0_arg2 m ρ c]
  try rfl

theorem at16_v34 : W16 m ρ c (Proc.devRef .tc main_v34) = (inputsOf m c).nrdd :=
  (keep0_15 (W15 m ρ c) main_v34 (by decide)).trans ((keep0_14 (W14 m ρ c) main_v34 (by decide)).trans ((keep0_13 (W13 m ρ c) main_v34 (by decide)).trans ((keep0_12 (W12 m ρ c) main_v34 (by decide)).trans ((keep0_11 (W11 m ρ c) main_v34 (by decide)).trans ((keep0_10 (W10 m ρ c) main_v34 (by decide)).trans ((keep0_9 (W9 m ρ c) main_v34 (by decide)).trans ((keep0_8 (W8 m ρ c) main_v34 (by decide)).trans ((keep0_7 (W7 m ρ c) main_v34 (by decide)).trans ((keep0_6 (W6 m ρ c) main_v34 (by decide)).trans ((keep0_5 (W5 m ρ c) main_v34 (by decide)).trans ((keep0_4 (W4 m ρ c) main_v34 (by decide)).trans ((keep0_3 (W3 m ρ c) main_v34 (by decide)).trans ((keep0_2 (W2 m ρ c) main_v34 (by decide)).trans (at2_v34 m ρ c))))))))))))))

theorem at17_v109 : W17 m ρ c (Proc.devRef .tc main_v109) = col (inputsOf m c).nrdd := by
  refine (made_v109 (W16 m ρ c)).trans ?_
  rw [at16_v34 m ρ c]
  try rfl

theorem at0_arg4 : W0 m ρ c (Proc.devRef .tc main_arg4) = (inputsOf m c).eds := rfl

theorem at1_v15 : W1 m ρ c (Proc.devRef .tc main_v15) = (inputsOf m c).rds := by
  refine (made_v15 (W0 m ρ c)).trans ?_
  rw [at0_arg4 m ρ c]
  try rfl

theorem at8_v15 : W8 m ρ c (Proc.devRef .tc main_v15) = (inputsOf m c).rds :=
  (keep0_7 (W7 m ρ c) main_v15 (by decide)).trans ((keep0_6 (W6 m ρ c) main_v15 (by decide)).trans ((keep0_5 (W5 m ρ c) main_v15 (by decide)).trans ((keep0_4 (W4 m ρ c) main_v15 (by decide)).trans ((keep0_3 (W3 m ρ c) main_v15 (by decide)).trans ((keep0_2 (W2 m ρ c) main_v15 (by decide)).trans ((keep0_1 (W1 m ρ c) main_v15 (by decide)).trans (at1_v15 m ρ c)))))))

theorem at10_v72 : W10 m ρ c (Proc.devRef .tc main_v72) = (inputsOf m c).nrds := by
  refine (made_v72 (W8 m ρ c)).trans ?_
  rw [at8_v15 m ρ c]
  try rfl

theorem at16_v72 : W16 m ρ c (Proc.devRef .tc main_v72) = (inputsOf m c).nrds :=
  (keep0_15 (W15 m ρ c) main_v72 (by decide)).trans ((keep0_14 (W14 m ρ c) main_v72 (by decide)).trans ((keep0_13 (W13 m ρ c) main_v72 (by decide)).trans ((keep0_12 (W12 m ρ c) main_v72 (by decide)).trans ((keep0_11 (W11 m ρ c) main_v72 (by decide)).trans ((keep0_10 (W10 m ρ c) main_v72 (by decide)).trans (at10_v72 m ρ c))))))

theorem at17_v110 : W17 m ρ c (Proc.devRef .tc main_v110) = col (inputsOf m c).nrds := by
  refine (made_v110 (W16 m ρ c)).trans ?_
  rw [at16_v72 m ρ c]
  try rfl

theorem at18_v111 : W18 m ρ c (Proc.devRef .tc main_v111) = (inputsOf m c).H1d := by
  refine (W18_arr m ρ c 4).trans ?_
  refine (RegionValue.stage_scale0 (V17 m ρ) c).trans ?_
  show Stage.scaleProj (W17 m ρ c (Proc.devRef .tc main_arg0)) (W17 m ρ c (Proc.devRef .tc main_v103)) (W17 m ρ c (Proc.devRef .tc main_v109)) (W17 m ρ c (Proc.devRef .tc main_v110)) = _
  rw [at17_arg0 m ρ c, at17_v103 m ρ c, at17_v109 m ρ c, at17_v110 m ρ c]
  try rfl

theorem at20_v111 : W20 m ρ c (Proc.devRef .tc main_v111) = (inputsOf m c).H1d :=
  (W20_of_ne m ρ c main_v111 (by decide)).trans ((keep1 (W18 m ρ c) main_v111 (by decide)).trans (at18_v111 m ρ c))

theorem at1_v4 : W1 m ρ c (Proc.devRef .tc main_v4) = (inputsOf m c).rdd := by
  refine (made_v4 (W0 m ρ c)).trans ?_
  rw [at0_arg2 m ρ c]
  try rfl

theorem at20_v4 : W20 m ρ c (Proc.devRef .tc main_v4) = (inputsOf m c).rdd :=
  (W20_of_ne m ρ c main_v4 (by decide)).trans ((keep1 (W18 m ρ c) main_v4 (by decide)).trans ((W18_of_ne m ρ c main_v4 (by decide)).trans ((keep0_16 (W16 m ρ c) main_v4 (by decide)).trans ((keep0_15 (W15 m ρ c) main_v4 (by decide)).trans ((keep0_14 (W14 m ρ c) main_v4 (by decide)).trans ((keep0_13 (W13 m ρ c) main_v4 (by decide)).trans ((keep0_12 (W12 m ρ c) main_v4 (by decide)).trans ((keep0_11 (W11 m ρ c) main_v4 (by decide)).trans ((keep0_10 (W10 m ρ c) main_v4 (by decide)).trans ((keep0_9 (W9 m ρ c) main_v4 (by decide)).trans ((keep0_8 (W8 m ρ c) main_v4 (by decide)).trans ((keep0_7 (W7 m ρ c) main_v4 (by decide)).trans ((keep0_6 (W6 m ρ c) main_v4 (by decide)).trans ((keep0_5 (W5 m ρ c) main_v4 (by decide)).trans ((keep0_4 (W4 m ρ c) main_v4 (by decide)).trans ((keep0_3 (W3 m ρ c) main_v4 (by decide)).trans ((keep0_2 (W2 m ρ c) main_v4 (by decide)).trans ((keep0_1 (W1 m ρ c) main_v4 (by decide)).trans (at1_v4 m ρ c)))))))))))))))))))

theorem at1_v7 : W1 m ρ c (Proc.devRef .tc main_v7) = (inputsOf m c).cdd := by
  refine (made_v7 (W0 m ρ c)).trans ?_
  rw [at0_arg2 m ρ c]
  try rfl

theorem at20_v7 : W20 m ρ c (Proc.devRef .tc main_v7) = (inputsOf m c).cdd :=
  (W20_of_ne m ρ c main_v7 (by decide)).trans ((keep1 (W18 m ρ c) main_v7 (by decide)).trans ((W18_of_ne m ρ c main_v7 (by decide)).trans ((keep0_16 (W16 m ρ c) main_v7 (by decide)).trans ((keep0_15 (W15 m ρ c) main_v7 (by decide)).trans ((keep0_14 (W14 m ρ c) main_v7 (by decide)).trans ((keep0_13 (W13 m ρ c) main_v7 (by decide)).trans ((keep0_12 (W12 m ρ c) main_v7 (by decide)).trans ((keep0_11 (W11 m ρ c) main_v7 (by decide)).trans ((keep0_10 (W10 m ρ c) main_v7 (by decide)).trans ((keep0_9 (W9 m ρ c) main_v7 (by decide)).trans ((keep0_8 (W8 m ρ c) main_v7 (by decide)).trans ((keep0_7 (W7 m ρ c) main_v7 (by decide)).trans ((keep0_6 (W6 m ρ c) main_v7 (by decide)).trans ((keep0_5 (W5 m ρ c) main_v7 (by decide)).trans ((keep0_4 (W4 m ρ c) main_v7 (by decide)).trans ((keep0_3 (W3 m ρ c) main_v7 (by decide)).trans ((keep0_2 (W2 m ρ c) main_v7 (by decide)).trans ((keep0_1 (W1 m ρ c) main_v7 (by decide)).trans (at1_v7 m ρ c)))))))))))))))))))

theorem at21_v128 : W21 m ρ c (Proc.devRef .tc main_v128) = agg850 (leftHalf (inputsOf m c).H1d) (inputsOf m c).rdd (inputsOf m c).cdd := by
  refine (made_v128 (W20 m ρ c)).trans ?_
  rw [at20_v111 m ρ c, at20_v4 m ρ c, at20_v7 m ρ c]
  try rfl

theorem at4_v40 : W4 m ρ c (Proc.devRef .tc main_v40) = (inputsOf m c).ncdd := by
  refine (made_v40 (W0 m ρ c)).trans ?_
  rw [at0_arg2 m ρ c]
  try rfl

theorem at20_v40 : W20 m ρ c (Proc.devRef .tc main_v40) = (inputsOf m c).ncdd :=
  (W20_of_ne m ρ c main_v40 (by decide)).trans ((keep1 (W18 m ρ c) main_v40 (by decide)).trans ((W18_of_ne m ρ c main_v40 (by decide)).trans ((keep0_16 (W16 m ρ c) main_v40 (by decide)).trans ((keep0_15 (W15 m ρ c) main_v40 (by decide)).trans ((keep0_14 (W14 m ρ c) main_v40 (by decide)).trans ((keep0_13 (W13 m ρ c) main_v40 (by decide)).trans ((keep0_12 (W12 m ρ c) main_v40 (by decide)).trans ((keep0_11 (W11 m ρ c) main_v40 (by decide)).trans ((keep0_10 (W10 m ρ c) main_v40 (by decide)).trans ((keep0_9 (W9 m ρ c) main_v40 (by decide)).trans ((keep0_8 (W8 m ρ c) main_v40 (by decide)).trans ((keep0_7 (W7 m ρ c) main_v40 (by decide)).trans ((keep0_6 (W6 m ρ c) main_v40 (by decide)).trans ((keep0_5 (W5 m ρ c) main_v40 (by decide)).trans ((keep0_4 (W4 m ρ c) main_v40 (by decide)).trans (at4_v40 m ρ c))))))))))))))))

theorem at21_v169 : W21 m ρ c (Proc.devRef .tc main_v169) = col (inputsOf m c).ncdd := by
  refine (made_v169 (W20 m ρ c)).trans ?_
  rw [at20_v40 m ρ c]
  try rfl

theorem at0_arg1 : W0 m ρ c (Proc.devRef .tc main_arg1) = (inputsOf m c).xs := rfl

theorem at19_arg1 : W19 m ρ c (Proc.devRef .tc main_arg1) = (inputsOf m c).xs :=
  (keep1 (W18 m ρ c) main_arg1 (by decide)).trans ((W18_of_ne m ρ c main_arg1 (by decide)).trans ((keep0_16 (W16 m ρ c) main_arg1 (by decide)).trans ((keep0_15 (W15 m ρ c) main_arg1 (by decide)).trans ((keep0_14 (W14 m ρ c) main_arg1 (by decide)).trans ((keep0_13 (W13 m ρ c) main_arg1 (by decide)).trans ((keep0_12 (W12 m ρ c) main_arg1 (by decide)).trans ((keep0_11 (W11 m ρ c) main_arg1 (by decide)).trans ((keep0_10 (W10 m ρ c) main_arg1 (by decide)).trans ((keep0_9 (W9 m ρ c) main_arg1 (by decide)).trans ((keep0_8 (W8 m ρ c) main_arg1 (by decide)).trans ((keep0_7 (W7 m ρ c) main_arg1 (by decide)).trans ((keep0_6 (W6 m ρ c) main_arg1 (by decide)).trans ((keep0_5 (W5 m ρ c) main_arg1 (by decide)).trans ((keep0_4 (W4 m ρ c) main_arg1 (by decide)).trans ((keep0_3 (W3 m ρ c) main_arg1 (by decide)).trans ((keep0_2 (W2 m ρ c) main_arg1 (by decide)).trans ((keep0_1 (W1 m ρ c) main_arg1 (by decide)).trans ((keep0 (W0 m ρ c) main_arg1 (by decide)).trans (at0_arg1 m ρ c)))))))))))))))))))

theorem at17_v108 : W17 m ρ c (Proc.devRef .tc main_v108) = wcat (w03 (inputsOf m c).Ws) (w01 (inputsOf m c).Ws) := by
  refine (made_v108 (W16 m ρ c)).trans ?_
  rw [at16_arg6 m ρ c]
  try rfl

theorem at19_v108 : W19 m ρ c (Proc.devRef .tc main_v108) = wcat (w03 (inputsOf m c).Ws) (w01 (inputsOf m c).Ws) :=
  (keep1 (W18 m ρ c) main_v108 (by decide)).trans ((W18_of_ne m ρ c main_v108 (by decide)).trans (at17_v108 m ρ c))

theorem at0_arg5 : W0 m ρ c (Proc.devRef .tc main_arg5) = (inputsOf m c).esd := rfl

theorem at1_v19 : W1 m ρ c (Proc.devRef .tc main_v19) = (inputsOf m c).rsd := by
  refine (made_v19 (W0 m ρ c)).trans ?_
  rw [at0_arg5 m ρ c]
  try rfl

theorem at12_v19 : W12 m ρ c (Proc.devRef .tc main_v19) = (inputsOf m c).rsd :=
  (keep0_11 (W11 m ρ c) main_v19 (by decide)).trans ((keep0_10 (W10 m ρ c) main_v19 (by decide)).trans ((keep0_9 (W9 m ρ c) main_v19 (by decide)).trans ((keep0_8 (W8 m ρ c) main_v19 (by decide)).trans ((keep0_7 (W7 m ρ c) main_v19 (by decide)).trans ((keep0_6 (W6 m ρ c) main_v19 (by decide)).trans ((keep0_5 (W5 m ρ c) main_v19 (by decide)).trans ((keep0_4 (W4 m ρ c) main_v19 (by decide)).trans ((keep0_3 (W3 m ρ c) main_v19 (by decide)).trans ((keep0_2 (W2 m ρ c) main_v19 (by decide)).trans ((keep0_1 (W1 m ρ c) main_v19 (by decide)).trans (at1_v19 m ρ c)))))))))))

theorem at14_v91 : W14 m ρ c (Proc.devRef .tc main_v91) = (inputsOf m c).nrsd := by
  refine (made_v91 (W12 m ρ c)).trans ?_
  rw [at12_v19 m ρ c]
  try rfl

theorem at18_v91 : W18 m ρ c (Proc.devRef .tc main_v91) = (inputsOf m c).nrsd :=
  (W18_of_ne m ρ c main_v91 (by decide)).trans ((keep0_16 (W16 m ρ c) main_v91 (by decide)).trans ((keep0_15 (W15 m ρ c) main_v91 (by decide)).trans ((keep0_14 (W14 m ρ c) main_v91 (by decide)).trans (at14_v91 m ρ c))))

theorem at19_v112 : W19 m ρ c (Proc.devRef .tc main_v112) = col (inputsOf m c).nrsd := by
  refine (made_v112 (W18 m ρ c)).trans ?_
  rw [at18_v91 m ρ c]
  try rfl

theorem at0_arg3 : W0 m ρ c (Proc.devRef .tc main_arg3) = (inputsOf m c).ess := rfl

theorem at1_v10 : W1 m ρ c (Proc.devRef .tc main_v10) = (inputsOf m c).rss := by
  refine (made_v10 (W0 m ρ c)).trans ?_
  rw [at0_arg3 m ρ c]
  try rfl

theorem at4_v10 : W4 m ρ c (Proc.devRef .tc main_v10) = (inputsOf m c).rss :=
  (keep0_3 (W3 m ρ c) main_v10 (by decide)).trans ((keep0_2 (W2 m ρ c) main_v10 (by decide)).trans ((keep0_1 (W1 m ρ c) main_v10 (by decide)).trans (at1_v10 m ρ c)))

theorem at6_v53 : W6 m ρ c (Proc.devRef .tc main_v53) = (inputsOf m c).nrss := by
  refine (made_v53 (W4 m ρ c)).trans ?_
  rw [at4_v10 m ρ c]
  try rfl

theorem at18_v53 : W18 m ρ c (Proc.devRef .tc main_v53) = (inputsOf m c).nrss :=
  (W18_of_ne m ρ c main_v53 (by decide)).trans ((keep0_16 (W16 m ρ c) main_v53 (by decide)).trans ((keep0_15 (W15 m ρ c) main_v53 (by decide)).trans ((keep0_14 (W14 m ρ c) main_v53 (by decide)).trans ((keep0_13 (W13 m ρ c) main_v53 (by decide)).trans ((keep0_12 (W12 m ρ c) main_v53 (by decide)).trans ((keep0_11 (W11 m ρ c) main_v53 (by decide)).trans ((keep0_10 (W10 m ρ c) main_v53 (by decide)).trans ((keep0_9 (W9 m ρ c) main_v53 (by decide)).trans ((keep0_8 (W8 m ρ c) main_v53 (by decide)).trans ((keep0_7 (W7 m ρ c) main_v53 (by decide)).trans ((keep0_6 (W6 m ρ c) main_v53 (by decide)).trans (at6_v53 m ρ c))))))))))))

theorem at19_v113 : W19 m ρ c (Proc.devRef .tc main_v113) = col (inputsOf m c).nrss := by
  refine (made_v113 (W18 m ρ c)).trans ?_
  rw [at18_v53 m ρ c]
  try rfl

theorem at20_v114 : W20 m ρ c (Proc.devRef .tc main_v114) = (inputsOf m c).H1s := by
  refine (W20_arr m ρ c 4).trans ?_
  refine (RegionValue.stage_scale1 (V19 m ρ) c).trans ?_
  show Stage.scaleProj (W19 m ρ c (Proc.devRef .tc main_arg1)) (W19 m ρ c (Proc.devRef .tc main_v108)) (W19 m ρ c (Proc.devRef .tc main_v112)) (W19 m ρ c (Proc.devRef .tc main_v113)) = _
  rw [at19_arg1 m ρ c, at19_v108 m ρ c, at19_v112 m ρ c, at19_v113 m ρ c]
  try rfl

theorem at20_v19 : W20 m ρ c (Proc.devRef .tc main_v19) = (inputsOf m c).rsd :=
  (W20_of_ne m ρ c main_v19 (by decide)).trans ((keep1 (W18 m ρ c) main_v19 (by decide)).trans ((W18_of_ne m ρ c main_v19 (by decide)).trans ((keep0_16 (W16 m ρ c) main_v19 (by decide)).trans ((keep0_15 (W15 m ρ c) main_v19 (by decide)).trans ((keep0_14 (W14 m ρ c) main_v19 (by decide)).trans ((keep0_13 (W13 m ρ c) main_v19 (by decide)).trans ((keep0_12 (W12 m ρ c) main_v19 (by decide)).trans (at12_v19 m ρ c))))))))

theorem at1_v21 : W1 m ρ c (Proc.devRef .tc main_v21) = (inputsOf m c).csd := by
  refine (made_v21 (W0 m ρ c)).trans ?_
  rw [at0_arg5 m ρ c]
  try rfl

theorem at20_v21 : W20 m ρ c (Proc.devRef .tc main_v21) = (inputsOf m c).csd :=
  (W20_of_ne m ρ c main_v21 (by decide)).trans ((keep1 (W18 m ρ c) main_v21 (by decide)).trans ((W18_of_ne m ρ c main_v21 (by decide)).trans ((keep0_16 (W16 m ρ c) main_v21 (by decide)).trans ((keep0_15 (W15 m ρ c) main_v21 (by decide)).trans ((keep0_14 (W14 m ρ c) main_v21 (by decide)).trans ((keep0_13 (W13 m ρ c) main_v21 (by decide)).trans ((keep0_12 (W12 m ρ c) main_v21 (by decide)).trans ((keep0_11 (W11 m ρ c) main_v21 (by decide)).trans ((keep0_10 (W10 m ρ c) main_v21 (by decide)).trans ((keep0_9 (W9 m ρ c) main_v21 (by decide)).trans ((keep0_8 (W8 m ρ c) main_v21 (by decide)).trans ((keep0_7 (W7 m ρ c) main_v21 (by decide)).trans ((keep0_6 (W6 m ρ c) main_v21 (by decide)).trans ((keep0_5 (W5 m ρ c) main_v21 (by decide)).trans ((keep0_4 (W4 m ρ c) main_v21 (by decide)).trans ((keep0_3 (W3 m ρ c) main_v21 (by decide)).trans ((keep0_2 (W2 m ρ c) main_v21 (by decide)).trans ((keep0_1 (W1 m ρ c) main_v21 (by decide)).trans (at1_v21 m ρ c)))))))))))))))))))

theorem at21_v138 : W21 m ρ c (Proc.devRef .tc main_v138) = agg800 (leftHalf (inputsOf m c).H1s) (inputsOf m c).rsd (inputsOf m c).csd := by
  refine (made_v138 (W20 m ρ c)).trans ?_
  rw [at20_v114 m ρ c, at20_v19 m ρ c, at20_v21 m ρ c]
  try rfl

theorem at12_v21 : W12 m ρ c (Proc.devRef .tc main_v21) = (inputsOf m c).csd :=
  (keep0_11 (W11 m ρ c) main_v21 (by decide)).trans ((keep0_10 (W10 m ρ c) main_v21 (by decide)).trans ((keep0_9 (W9 m ρ c) main_v21 (by decide)).trans ((keep0_8 (W8 m ρ c) main_v21 (by decide)).trans ((keep0_7 (W7 m ρ c) main_v21 (by decide)).trans ((keep0_6 (W6 m ρ c) main_v21 (by decide)).trans ((keep0_5 (W5 m ρ c) main_v21 (by decide)).trans ((keep0_4 (W4 m ρ c) main_v21 (by decide)).trans ((keep0_3 (W3 m ρ c) main_v21 (by decide)).trans ((keep0_2 (W2 m ρ c) main_v21 (by decide)).trans ((keep0_1 (W1 m ρ c) main_v21 (by decide)).trans (at1_v21 m ρ c)))))))))))

theorem at16_v97 : W16 m ρ c (Proc.devRef .tc main_v97) = (inputsOf m c).ncsd := by
  refine (made_v97 (W12 m ρ c)).trans ?_
  rw [at12_v21 m ρ c]
  try rfl

theorem at20_v97 : W20 m ρ c (Proc.devRef .tc main_v97) = (inputsOf m c).ncsd :=
  (W20_of_ne m ρ c main_v97 (by decide)).trans ((keep1 (W18 m ρ c) main_v97 (by decide)).trans ((W18_of_ne m ρ c main_v97 (by decide)).trans ((keep0_16 (W16 m ρ c) main_v97 (by decide)).trans (at16_v97 m ρ c))))

theorem at21_v170 : W21 m ρ c (Proc.devRef .tc main_v170) = col (inputsOf m c).ncsd := by
  refine (made_v170 (W20 m ρ c)).trans ?_
  rw [at20_v97 m ρ c]
  try rfl

theorem at0_arg7 : W0 m ρ c (Proc.devRef .tc main_arg7) = (inputsOf m c).bs := rfl

theorem at20_arg7 : W20 m ρ c (Proc.devRef .tc main_arg7) = (inputsOf m c).bs :=
  (W20_of_ne m ρ c main_arg7 (by decide)).trans ((keep1 (W18 m ρ c) main_arg7 (by decide)).trans ((W18_of_ne m ρ c main_arg7 (by decide)).trans ((keep0_16 (W16 m ρ c) main_arg7 (by decide)).trans ((keep0_15 (W15 m ρ c) main_arg7 (by decide)).trans ((keep0_14 (W14 m ρ c) main_arg7 (by decide)).trans ((keep0_13 (W13 m ρ c) main_arg7 (by decide)).trans ((keep0_12 (W12 m ρ c) main_arg7 (by decide)).trans ((keep0_11 (W11 m ρ c) main_arg7 (by decide)).trans ((keep0_10 (W10 m ρ c) main_arg7 (by decide)).trans ((keep0_9 (W9 m ρ c) main_arg7 (by decide)).trans ((keep0_8 (W8 m ρ c) main_arg7 (by decide)).trans ((keep0_7 (W7 m ρ c) main_arg7 (by decide)).trans ((keep0_6 (W6 m ρ c) main_arg7 (by decide)).trans ((keep0_5 (W5 m ρ c) main_arg7 (by decide)).trans ((keep0_4 (W4 m ρ c) main_arg7 (by decide)).trans ((keep0_3 (W3 m ρ c) main_arg7 (by decide)).trans ((keep0_2 (W2 m ρ c) main_arg7 (by decide)).trans ((keep0_1 (W1 m ρ c) main_arg7 (by decide)).trans ((keep0 (W0 m ρ c) main_arg7 (by decide)).trans (at0_arg7 m ρ c))))))))))))))))))))

theorem at21_v171 : W21 m ρ c (Proc.devRef .tc main_v171) = biasRow (b00 (inputsOf m c).bs) (b03 (inputsOf m c).bs) := by
  refine (made_v171 (W20 m ρ c)).trans ?_
  rw [at20_arg7 m ρ c]
  try rfl

theorem at22_v172 : W22 m ρ c (Proc.devRef .tc main_v172) = (inputsOf m c).X1d := by
  refine (W22_arr m ρ c 5).trans ?_
  refine (RegionValue.stage_combine2 (V21 m ρ) c).trans ?_
  show Stage.combine (W21 m ρ c (Proc.devRef .tc main_v128)) (W21 m ρ c (Proc.devRef .tc main_v169)) (W21 m ρ c (Proc.devRef .tc main_v138)) (W21 m ρ c (Proc.devRef .tc main_v170)) (W21 m ρ c (Proc.devRef .tc main_v171)) = _
  rw [at21_v128 m ρ c, at21_v169 m ρ c, at21_v138 m ρ c, at21_v170 m ρ c, at21_v171 m ρ c]
  try rfl

theorem at25_v172 : W25 m ρ c (Proc.devRef .tc main_v172) = (inputsOf m c).X1d :=
  (keep4 (W24 m ρ c) main_v172 (by decide)).trans ((W24_of_ne m ρ c main_v172 (by decide)).trans ((keep3 (W22 m ρ c) main_v172 (by decide)).trans (at22_v172 m ρ c)))

theorem at24_arg6 : W24 m ρ c (Proc.devRef .tc main_arg6) = (inputsOf m c).Ws :=
  (W24_of_ne m ρ c main_arg6 (by decide)).trans ((keep3 (W22 m ρ c) main_arg6 (by decide)).trans ((W22_of_ne m ρ c main_arg6 (by decide)).trans ((keep2 (W20 m ρ c) main_arg6 (by decide)).trans ((W20_of_ne m ρ c main_arg6 (by decide)).trans ((keep1 (W18 m ρ c) main_arg6 (by decide)).trans ((W18_of_ne m ρ c main_arg6 (by decide)).trans ((keep0_16 (W16 m ρ c) main_arg6 (by decide)).trans (at16_arg6 m ρ c))))))))

theorem at25_v181 : W25 m ρ c (Proc.devRef .tc main_v181) = wcat (w10 (inputsOf m c).Ws) (w12 (inputsOf m c).Ws) := by
  refine (made_v181 (W24 m ρ c)).trans ?_
  rw [at24_arg6 m ρ c]
  try rfl

theorem at24_v34 : W24 m ρ c (Proc.devRef .tc main_v34) = (inputsOf m c).nrdd :=
  (W24_of_ne m ρ c main_v34 (by decide)).trans ((keep3 (W22 m ρ c) main_v34 (by decide)).trans ((W22_of_ne m ρ c main_v34 (by decide)).trans ((keep2 (W20 m ρ c) main_v34 (by decide)).trans ((W20_of_ne m ρ c main_v34 (by decide)).trans ((keep1 (W18 m ρ c) main_v34 (by decide)).trans ((W18_of_ne m ρ c main_v34 (by decide)).trans ((keep0_16 (W16 m ρ c) main_v34 (by decide)).trans (at16_v34 m ρ c))))))))

theorem at25_v187 : W25 m ρ c (Proc.devRef .tc main_v187) = col (inputsOf m c).nrdd := by
  refine (made_v187 (W24 m ρ c)).trans ?_
  rw [at24_v34 m ρ c]
  try rfl

theorem at24_v72 : W24 m ρ c (Proc.devRef .tc main_v72) = (inputsOf m c).nrds :=
  (W24_of_ne m ρ c main_v72 (by decide)).trans ((keep3 (W22 m ρ c) main_v72 (by decide)).trans ((W22_of_ne m ρ c main_v72 (by decide)).trans ((keep2 (W20 m ρ c) main_v72 (by decide)).trans ((W20_of_ne m ρ c main_v72 (by decide)).trans ((keep1 (W18 m ρ c) main_v72 (by decide)).trans ((W18_of_ne m ρ c main_v72 (by decide)).trans ((keep0_16 (W16 m ρ c) main_v72 (by decide)).trans (at16_v72 m ρ c))))))))

theorem at25_v188 : W25 m ρ c (Proc.devRef .tc main_v188) = col (inputsOf m c).nrds := by
  refine (made_v188 (W24 m ρ c)).trans ?_
  rw [at24_v72 m ρ c]
  try rfl

theorem at26_v189 : W26 m ρ c (Proc.devRef .tc main_v189) = (inputsOf m c).H2d := by
  refine (W26_arr m ρ c 4).trans ?_
  refine (RegionValue.stage_scale4 (V25 m ρ) c).trans ?_
  show Stage.scaleProj (W25 m ρ c (Proc.devRef .tc main_v172)) (W25 m ρ c (Proc.devRef .tc main_v181)) (W25 m ρ c (Proc.devRef .tc main_v187)) (W25 m ρ c (Proc.devRef .tc main_v188)) = _
  rw [at25_v172 m ρ c, at25_v181 m ρ c, at25_v187 m ρ c, at25_v188 m ρ c]
  try rfl

theorem at28_v189 : W28 m ρ c (Proc.devRef .tc main_v189) = (inputsOf m c).H2d :=
  (W28_of_ne m ρ c main_v189 (by decide)).trans ((keep5 (W26 m ρ c) main_v189 (by decide)).trans (at26_v189 m ρ c))

theorem at28_v4 : W28 m ρ c (Proc.devRef .tc main_v4) = (inputsOf m c).rdd :=
  (W28_of_ne m ρ c main_v4 (by decide)).trans ((keep5 (W26 m ρ c) main_v4 (by decide)).trans ((W26_of_ne m ρ c main_v4 (by decide)).trans ((keep4 (W24 m ρ c) main_v4 (by decide)).trans ((W24_of_ne m ρ c main_v4 (by decide)).trans ((keep3 (W22 m ρ c) main_v4 (by decide)).trans ((W22_of_ne m ρ c main_v4 (by decide)).trans ((keep2 (W20 m ρ c) main_v4 (by decide)).trans (at20_v4 m ρ c))))))))

theorem at28_v7 : W28 m ρ c (Proc.devRef .tc main_v7) = (inputsOf m c).cdd :=
  (W28_of_ne m ρ c main_v7 (by decide)).trans ((keep5 (W26 m ρ c) main_v7 (by decide)).trans ((W26_of_ne m ρ c main_v7 (by decide)).trans ((keep4 (W24 m ρ c) main_v7 (by decide)).trans ((W24_of_ne m ρ c main_v7 (by decide)).trans ((keep3 (W22 m ρ c) main_v7 (by decide)).trans ((W22_of_ne m ρ c main_v7 (by decide)).trans ((keep2 (W20 m ρ c) main_v7 (by decide)).trans (at20_v7 m ρ c))))))))

theorem at29_v206 : W29 m ρ c (Proc.devRef .tc main_v206) = agg850 (leftHalf (inputsOf m c).H2d) (inputsOf m c).rdd (inputsOf m c).cdd := by
  refine (made_v206 (W28 m ρ c)).trans ?_
  rw [at28_v189 m ρ c, at28_v4 m ρ c, at28_v7 m ρ c]
  try rfl

theorem at28_v40 : W28 m ρ c (Proc.devRef .tc main_v40) = (inputsOf m c).ncdd :=
  (W28_of_ne m ρ c main_v40 (by decide)).trans ((keep5 (W26 m ρ c) main_v40 (by decide)).trans ((W26_of_ne m ρ c main_v40 (by decide)).trans ((keep4 (W24 m ρ c) main_v40 (by decide)).trans ((W24_of_ne m ρ c main_v40 (by decide)).trans ((keep3 (W22 m ρ c) main_v40 (by decide)).trans ((W22_of_ne m ρ c main_v40 (by decide)).trans ((keep2 (W20 m ρ c) main_v40 (by decide)).trans (at20_v40 m ρ c))))))))

theorem at29_v247 : W29 m ρ c (Proc.devRef .tc main_v247) = col (inputsOf m c).ncdd := by
  refine (made_v247 (W28 m ρ c)).trans ?_
  rw [at28_v40 m ρ c]
  try rfl

theorem at20_v10 : W20 m ρ c (Proc.devRef .tc main_v10) = (inputsOf m c).rss :=
  (W20_of_ne m ρ c main_v10 (by decide)).trans ((keep1 (W18 m ρ c) main_v10 (by decide)).trans ((W18_of_ne m ρ c main_v10 (by decide)).trans ((keep0_16 (W16 m ρ c) main_v10 (by decide)).trans ((keep0_15 (W15 m ρ c) main_v10 (by decide)).trans ((keep0_14 (W14 m ρ c) main_v10 (by decide)).trans ((keep0_13 (W13 m ρ c) main_v10 (by decide)).trans ((keep0_12 (W12 m ρ c) main_v10 (by decide)).trans ((keep0_11 (W11 m ρ c) main_v10 (by decide)).trans ((keep0_10 (W10 m ρ c) main_v10 (by decide)).trans ((keep0_9 (W9 m ρ c) main_v10 (by decide)).trans ((keep0_8 (W8 m ρ c) main_v10 (by decide)).trans ((keep0_7 (W7 m ρ c) main_v10 (by decide)).trans ((keep0_6 (W6 m ρ c) main_v10 (by decide)).trans ((keep0_5 (W5 m ρ c) main_v10 (by decide)).trans ((keep0_4 (W4 m ρ c) main_v10 (by decide)).trans (at4_v10 m ρ c))))))))))))))))

theorem at1_v13 : W1 m ρ c (Proc.devRef .tc main_v13) = (inputsOf m c).css := by
  refine (made_v13 (W0 m ρ c)).trans ?_
  rw [at0_arg3 m ρ c]
  try rfl

theorem at20_v13 : W20 m ρ c (Proc.devRef .tc main_v13) = (inputsOf m c).css :=
  (W20_of_ne m ρ c main_v13 (by decide)).trans ((keep1 (W18 m ρ c) main_v13 (by decide)).trans ((W18_of_ne m ρ c main_v13 (by decide)).trans ((keep0_16 (W16 m ρ c) main_v13 (by decide)).trans ((keep0_15 (W15 m ρ c) main_v13 (by decide)).trans ((keep0_14 (W14 m ρ c) main_v13 (by decide)).trans ((keep0_13 (W13 m ρ c) main_v13 (by decide)).trans ((keep0_12 (W12 m ρ c) main_v13 (by decide)).trans ((keep0_11 (W11 m ρ c) main_v13 (by decide)).trans ((keep0_10 (W10 m ρ c) main_v13 (by decide)).trans ((keep0_9 (W9 m ρ c) main_v13 (by decide)).trans ((keep0_8 (W8 m ρ c) main_v13 (by decide)).trans ((keep0_7 (W7 m ρ c) main_v13 (by decide)).trans ((keep0_6 (W6 m ρ c) main_v13 (by decide)).trans ((keep0_5 (W5 m ρ c) main_v13 (by decide)).trans ((keep0_4 (W4 m ρ c) main_v13 (by decide)).trans ((keep0_3 (W3 m ρ c) main_v13 (by decide)).trans ((keep0_2 (W2 m ρ c) main_v13 (by decide)).trans ((keep0_1 (W1 m ρ c) main_v13 (by decide)).trans (at1_v13 m ρ c)))))))))))))))))))

theorem at21_v148 : W21 m ρ c (Proc.devRef .tc main_v148) = agg850 (rightHalf (inputsOf m c).H1s) (inputsOf m c).rss (inputsOf m c).css := by
  refine (made_v148 (W20 m ρ c)).trans ?_
  rw [at20_v114 m ρ c, at20_v10 m ρ c, at20_v13 m ρ c]
  try rfl

theorem at23_v148 : W23 m ρ c (Proc.devRef .tc main_v148) = agg850 (rightHalf (inputsOf m c).H1s) (inputsOf m c).rss (inputsOf m c).css :=
  (keep3 (W22 m ρ c) main_v148 (by decide)).trans ((W22_of_ne m ρ c main_v148 (by decide)).trans (at21_v148 m ρ c))

theorem at4_v13 : W4 m ρ c (Proc.devRef .tc main_v13) = (inputsOf m c).css :=
  (keep0_3 (W3 m ρ c) main_v13 (by decide)).trans ((keep0_2 (W2 m ρ c) main_v13 (by decide)).trans ((keep0_1 (W1 m ρ c) main_v13 (by decide)).trans (at1_v13 m ρ c)))

theorem at8_v59 : W8 m ρ c (Proc.devRef .tc main_v59) = (inputsOf m c).ncss := by
  refine (made_v59 (W4 m ρ c)).trans ?_
  rw [at4_v13 m ρ c]
  try rfl

theorem at22_v59 : W22 m ρ c (Proc.devRef .tc main_v59) = (inputsOf m c).ncss :=
  (W22_of_ne m ρ c main_v59 (by decide)).trans ((keep2 (W20 m ρ c) main_v59 (by decide)).trans ((W20_of_ne m ρ c main_v59 (by decide)).trans ((keep1 (W18 m ρ c) main_v59 (by decide)).trans ((W18_of_ne m ρ c main_v59 (by decide)).trans ((keep0_16 (W16 m ρ c) main_v59 (by decide)).trans ((keep0_15 (W15 m ρ c) main_v59 (by decide)).trans ((keep0_14 (W14 m ρ c) main_v59 (by decide)).trans ((keep0_13 (W13 m ρ c) main_v59 (by decide)).trans ((keep0_12 (W12 m ρ c) main_v59 (by decide)).trans ((keep0_11 (W11 m ρ c) main_v59 (by decide)).trans ((keep0_10 (W10 m ρ c) main_v59 (by decide)).trans ((keep0_9 (W9 m ρ c) main_v59 (by decide)).trans ((keep0_8 (W8 m ρ c) main_v59 (by decide)).trans (at8_v59 m ρ c))))))))))))))

theorem at23_v173 : W23 m ρ c (Proc.devRef .tc main_v173) = col (inputsOf m c).ncss := by
  refine (made_v173 (W22 m ρ c)).trans ?_
  rw [at22_v59 m ρ c]
  try rfl

theorem at20_v15 : W20 m ρ c (Proc.devRef .tc main_v15) = (inputsOf m c).rds :=
  (W20_of_ne m ρ c main_v15 (by decide)).trans ((keep1 (W18 m ρ c) main_v15 (by decide)).trans ((W18_of_ne m ρ c main_v15 (by decide)).trans ((keep0_16 (W16 m ρ c) main_v15 (by decide)).trans ((keep0_15 (W15 m ρ c) main_v15 (by decide)).trans ((keep0_14 (W14 m ρ c) main_v15 (by decide)).trans ((keep0_13 (W13 m ρ c) main_v15 (by decide)).trans ((keep0_12 (W12 m ρ c) main_v15 (by decide)).trans ((keep0_11 (W11 m ρ c) main_v15 (by decide)).trans ((keep0_10 (W10 m ρ c) main_v15 (by decide)).trans ((keep0_9 (W9 m ρ c) main_v15 (by decide)).trans ((keep0_8 (W8 m ρ c) main_v15 (by decide)).trans (at8_v15 m ρ c))))))))))))

theorem at1_v17 : W1 m ρ c (Proc.devRef .tc main_v17) = (inputsOf m c).cds := by
  refine (made_v17 (W0 m ρ c)).trans ?_
  rw [at0_arg4 m ρ c]
  try rfl

theorem at20_v17 : W20 m ρ c (Proc.devRef .tc main_v17) = (inputsOf m c).cds :=
  (W20_of_ne m ρ c main_v17 (by decide)).trans ((keep1 (W18 m ρ c) main_v17 (by decide)).trans ((W18_of_ne m ρ c main_v17 (by decide)).trans ((keep0_16 (W16 m ρ c) main_v17 (by decide)).trans ((keep0_15 (W15 m ρ c) main_v17 (by decide)).trans ((keep0_14 (W14 m ρ c) main_v17 (by decide)).trans ((keep0_13 (W13 m ρ c) main_v17 (by decide)).trans ((keep0_12 (W12 m ρ c) main_v17 (by decide)).trans ((keep0_11 (W11 m ρ c) main_v17 (by decide)).trans ((keep0_10 (W10 m ρ c) main_v17 (by decide)).trans ((keep0_9 (W9 m ρ c) main_v17 (by decide)).trans ((keep0_8 (W8 m ρ c) main_v17 (by decide)).trans ((keep0_7 (W7 m ρ c) main_v17 (by decide)).trans ((keep0_6 (W6 m ρ c) main_v17 (by decide)).trans ((keep0_5 (W5 m ρ c) main_v17 (by decide)).trans ((keep0_4 (W4 m ρ c) main_v17 (by decide)).trans ((keep0_3 (W3 m ρ c) main_v17 (by decide)).trans ((keep0_2 (W2 m ρ c) main_v17 (by decide)).trans ((keep0_1 (W1 m ρ c) main_v17 (by decide)).trans (at1_v17 m ρ c)))))))))))))))))))

theorem at21_v158 : W21 m ρ c (Proc.devRef .tc main_v158) = agg800 (rightHalf (inputsOf m c).H1d) (inputsOf m c).rds (inputsOf m c).cds := by
  refine (made_v158 (W20 m ρ c)).trans ?_
  rw [at20_v111 m ρ c, at20_v15 m ρ c, at20_v17 m ρ c]
  try rfl

theorem at23_v158 : W23 m ρ c (Proc.devRef .tc main_v158) = agg800 (rightHalf (inputsOf m c).H1d) (inputsOf m c).rds (inputsOf m c).cds :=
  (keep3 (W22 m ρ c) main_v158 (by decide)).trans ((W22_of_ne m ρ c main_v158 (by decide)).trans (at21_v158 m ρ c))

theorem at8_v17 : W8 m ρ c (Proc.devRef .tc main_v17) = (inputsOf m c).cds :=
  (keep0_7 (W7 m ρ c) main_v17 (by decide)).trans ((keep0_6 (W6 m ρ c) main_v17 (by decide)).trans ((keep0_5 (W5 m ρ c) main_v17 (by decide)).trans ((keep0_4 (W4 m ρ c) main_v17 (by decide)).trans ((keep0_3 (W3 m ρ c) main_v17 (by decide)).trans ((keep0_2 (W2 m ρ c) main_v17 (by decide)).trans ((keep0_1 (W1 m ρ c) main_v17 (by decide)).trans (at1_v17 m ρ c)))))))

theorem at12_v78 : W12 m ρ c (Proc.devRef .tc main_v78) = (inputsOf m c).ncds := by
  refine (made_v78 (W8 m ρ c)).trans ?_
  rw [at8_v17 m ρ c]
  try rfl

theorem at22_v78 : W22 m ρ c (Proc.devRef .tc main_v78) = (inputsOf m c).ncds :=
  (W22_of_ne m ρ c main_v78 (by decide)).trans ((keep2 (W20 m ρ c) main_v78 (by decide)).trans ((W20_of_ne m ρ c main_v78 (by decide)).trans ((keep1 (W18 m ρ c) main_v78 (by decide)).trans ((W18_of_ne m ρ c main_v78 (by decide)).trans ((keep0_16 (W16 m ρ c) main_v78 (by decide)).trans ((keep0_15 (W15 m ρ c) main_v78 (by decide)).trans ((keep0_14 (W14 m ρ c) main_v78 (by decide)).trans ((keep0_13 (W13 m ρ c) main_v78 (by decide)).trans ((keep0_12 (W12 m ρ c) main_v78 (by decide)).trans (at12_v78 m ρ c))))))))))

theorem at23_v174 : W23 m ρ c (Proc.devRef .tc main_v174) = col (inputsOf m c).ncds := by
  refine (made_v174 (W22 m ρ c)).trans ?_
  rw [at22_v78 m ρ c]
  try rfl

theorem at21_v168 : W21 m ρ c (Proc.devRef .tc main_v168) = addf (b01 (inputsOf m c).bs) (b02 (inputsOf m c).bs) := by
  refine (made_v168 (W20 m ρ c)).trans ?_
  rw [at20_arg7 m ρ c]
  try rfl

theorem at22_v168 : W22 m ρ c (Proc.devRef .tc main_v168) = addf (b01 (inputsOf m c).bs) (b02 (inputsOf m c).bs) :=
  (W22_of_ne m ρ c main_v168 (by decide)).trans (at21_v168 m ρ c)

theorem at23_v175 : W23 m ρ c (Proc.devRef .tc main_v175) = shapeCast S1x128 (addf (b01 (inputsOf m c).bs) (b02 (inputsOf m c).bs)) shapeCasts_S128_S1x128 := by
  refine (made_v175 (W22 m ρ c)).trans ?_
  rw [at22_v168 m ρ c]
  try rfl

theorem at24_v176 : W24 m ρ c (Proc.devRef .tc main_v176) = (inputsOf m c).X1s := by
  refine (W24_arr m ρ c 5).trans ?_
  refine (RegionValue.stage_combine3 (V23 m ρ) c).trans ?_
  show Stage.combine (W23 m ρ c (Proc.devRef .tc main_v148)) (W23 m ρ c (Proc.devRef .tc main_v173)) (W23 m ρ c (Proc.devRef .tc main_v158)) (W23 m ρ c (Proc.devRef .tc main_v174)) (W23 m ρ c (Proc.devRef .tc main_v175)) = _
  rw [at23_v148 m ρ c, at23_v173 m ρ c, at23_v158 m ρ c, at23_v174 m ρ c, at23_v175 m ρ c]
  try rfl

theorem at27_v176 : W27 m ρ c (Proc.devRef .tc main_v176) = (inputsOf m c).X1s :=
  (keep5 (W26 m ρ c) main_v176 (by decide)).trans ((W26_of_ne m ρ c main_v176 (by decide)).trans ((keep4 (W24 m ρ c) main_v176 (by decide)).trans (at24_v176 m ρ c)))

theorem at25_v186 : W25 m ρ c (Proc.devRef .tc main_v186) = wcat (w13 (inputsOf m c).Ws) (w11 (inputsOf m c).Ws) := by
  refine (made_v186 (W24 m ρ c)).trans ?_
  rw [at24_arg6 m ρ c]
  try rfl

theorem at27_v186 : W27 m ρ c (Proc.devRef .tc main_v186) = wcat (w13 (inputsOf m c).Ws) (w11 (inputsOf m c).Ws) :=
  (keep5 (W26 m ρ c) main_v186 (by decide)).trans ((W26_of_ne m ρ c main_v186 (by decide)).trans (at25_v186 m ρ c))

theorem at26_v91 : W26 m ρ c (Proc.devRef .tc main_v91) = (inputsOf m c).nrsd :=
  (W26_of_ne m ρ c main_v91 (by decide)).trans ((keep4 (W24 m ρ c) main_v91 (by decide)).trans ((W24_of_ne m ρ c main_v91 (by decide)).trans ((keep3 (W22 m ρ c) main_v91 (by decide)).trans ((W22_of_ne m ρ c main_v91 (by decide)).trans ((keep2 (W20 m ρ c) main_v91 (by decide)).trans ((W20_of_ne m ρ c main_v91 (by decide)).trans ((keep1 (W18 m ρ c) main_v91 (by decide)).trans (at18_v91 m ρ c))))))))

theorem at27_v190 : W27 m ρ c (Proc.devRef .tc main_v190) = col (inputsOf m c).nrsd := by
  refine (made_v190 (W26 m ρ c)).trans ?_
  rw [at26_v91 m ρ c]
  try rfl

theorem at26_v53 : W26 m ρ c (Proc.devRef .tc main_v53) = (inputsOf m c).nrss :=
  (W26_of_ne m ρ c main_v53 (by decide)).trans ((keep4 (W24 m ρ c) main_v53 (by decide)).trans ((W24_of_ne m ρ c main_v53 (by decide)).trans ((keep3 (W22 m ρ c) main_v53 (by decide)).trans ((W22_of_ne m ρ c main_v53 (by decide)).trans ((keep2 (W20 m ρ c) main_v53 (by decide)).trans ((W20_of_ne m ρ c main_v53 (by decide)).trans ((keep1 (W18 m ρ c) main_v53 (by decide)).trans (at18_v53 m ρ c))))))))

theorem at27_v191 : W27 m ρ c (Proc.devRef .tc main_v191) = col (inputsOf m c).nrss := by
  refine (made_v191 (W26 m ρ c)).trans ?_
  rw [at26_v53 m ρ c]
  try rfl

theorem at28_v192 : W28 m ρ c (Proc.devRef .tc main_v192) = (inputsOf m c).H2s := by
  refine (W28_arr m ρ c 4).trans ?_
  refine (RegionValue.stage_scale5 (V27 m ρ) c).trans ?_
  show Stage.scaleProj (W27 m ρ c (Proc.devRef .tc main_v176)) (W27 m ρ c (Proc.devRef .tc main_v186)) (W27 m ρ c (Proc.devRef .tc main_v190)) (W27 m ρ c (Proc.devRef .tc main_v191)) = _
  rw [at27_v176 m ρ c, at27_v186 m ρ c, at27_v190 m ρ c, at27_v191 m ρ c]
  try rfl

theorem at28_v19 : W28 m ρ c (Proc.devRef .tc main_v19) = (inputsOf m c).rsd :=
  (W28_of_ne m ρ c main_v19 (by decide)).trans ((keep5 (W26 m ρ c) main_v19 (by decide)).trans ((W26_of_ne m ρ c main_v19 (by decide)).trans ((keep4 (W24 m ρ c) main_v19 (by decide)).trans ((W24_of_ne m ρ c main_v19 (by decide)).trans ((keep3 (W22 m ρ c) main_v19 (by decide)).trans ((W22_of_ne m ρ c main_v19 (by decide)).trans ((keep2 (W20 m ρ c) main_v19 (by decide)).trans (at20_v19 m ρ c))))))))

theorem at28_v21 : W28 m ρ c (Proc.devRef .tc main_v21) = (inputsOf m c).csd :=
  (W28_of_ne m ρ c main_v21 (by decide)).trans ((keep5 (W26 m ρ c) main_v21 (by decide)).trans ((W26_of_ne m ρ c main_v21 (by decide)).trans ((keep4 (W24 m ρ c) main_v21 (by decide)).trans ((W24_of_ne m ρ c main_v21 (by decide)).trans ((keep3 (W22 m ρ c) main_v21 (by decide)).trans ((W22_of_ne m ρ c main_v21 (by decide)).trans ((keep2 (W20 m ρ c) main_v21 (by decide)).trans (at20_v21 m ρ c))))))))

theorem at29_v216 : W29 m ρ c (Proc.devRef .tc main_v216) = agg800 (leftHalf (inputsOf m c).H2s) (inputsOf m c).rsd (inputsOf m c).csd := by
  refine (made_v216 (W28 m ρ c)).trans ?_
  rw [at28_v192 m ρ c, at28_v19 m ρ c, at28_v21 m ρ c]
  try rfl

theorem at28_v97 : W28 m ρ c (Proc.devRef .tc main_v97) = (inputsOf m c).ncsd :=
  (W28_of_ne m ρ c main_v97 (by decide)).trans ((keep5 (W26 m ρ c) main_v97 (by decide)).trans ((W26_of_ne m ρ c main_v97 (by decide)).trans ((keep4 (W24 m ρ c) main_v97 (by decide)).trans ((W24_of_ne m ρ c main_v97 (by decide)).trans ((keep3 (W22 m ρ c) main_v97 (by decide)).trans ((W22_of_ne m ρ c main_v97 (by decide)).trans ((keep2 (W20 m ρ c) main_v97 (by decide)).trans (at20_v97 m ρ c))))))))

theorem at29_v248 : W29 m ρ c (Proc.devRef .tc main_v248) = col (inputsOf m c).ncsd := by
  refine (made_v248 (W28 m ρ c)).trans ?_
  rw [at28_v97 m ρ c]
  try rfl

theorem at28_arg7 : W28 m ρ c (Proc.devRef .tc main_arg7) = (inputsOf m c).bs :=
  (W28_of_ne m ρ c main_arg7 (by decide)).trans ((keep5 (W26 m ρ c) main_arg7 (by decide)).trans ((W26_of_ne m ρ c main_arg7 (by decide)).trans ((keep4 (W24 m ρ c) main_arg7 (by decide)).trans ((W24_of_ne m ρ c main_arg7 (by decide)).trans ((keep3 (W22 m ρ c) main_arg7 (by decide)).trans ((W22_of_ne m ρ c main_arg7 (by decide)).trans ((keep2 (W20 m ρ c) main_arg7 (by decide)).trans (at20_arg7 m ρ c))))))))

theorem at29_v249 : W29 m ρ c (Proc.devRef .tc main_v249) = biasRow (b10 (inputsOf m c).bs) (b13 (inputsOf m c).bs) := by
  refine (made_v249 (W28 m ρ c)).trans ?_
  rw [at28_arg7 m ρ c]
  try rfl

theorem at0_arg8 : W0 m ρ c (Proc.devRef .tc main_arg8) = (inputsOf m c).lw := rfl

theorem at16_arg8 : W16 m ρ c (Proc.devRef .tc main_arg8) = (inputsOf m c).lw :=
  (keep0_15 (W15 m ρ c) main_arg8 (by decide)).trans ((keep0_14 (W14 m ρ c) main_arg8 (by decide)).trans ((keep0_13 (W13 m ρ c) main_arg8 (by decide)).trans ((keep0_12 (W12 m ρ c) main_arg8 (by decide)).trans ((keep0_11 (W11 m ρ c) main_arg8 (by decide)).trans ((keep0_10 (W10 m ρ c) main_arg8 (by decide)).trans ((keep0_9 (W9 m ρ c) main_arg8 (by decide)).trans ((keep0_8 (W8 m ρ c) main_arg8 (by decide)).trans ((keep0_7 (W7 m ρ c) main_arg8 (by decide)).trans ((keep0_6 (W6 m ρ c) main_arg8 (by decide)).trans ((keep0_5 (W5 m ρ c) main_arg8 (by decide)).trans ((keep0_4 (W4 m ρ c) main_arg8 (by decide)).trans ((keep0_3 (W3 m ρ c) main_arg8 (by decide)).trans ((keep0_2 (W2 m ρ c) main_arg8 (by decide)).trans ((keep0_1 (W1 m ρ c) main_arg8 (by decide)).trans ((keep0 (W0 m ρ c) main_arg8 (by decide)).trans (at0_arg8 m ρ c))))))))))))))))

theorem at17_v98 : W17 m ρ c (Proc.devRef .tc main_v98) = lwT (inputsOf m c).lw := by
  refine (made_v98 (W16 m ρ c)).trans ?_
  rw [at16_arg8 m ρ c]
  try rfl

theorem at29_v98 : W29 m ρ c (Proc.devRef .tc main_v98) = lwT (inputsOf m c).lw :=
  (keep6 (W28 m ρ c) main_v98 (by decide)).trans ((W28_of_ne m ρ c main_v98 (by decide)).trans ((keep5 (W26 m ρ c) main_v98 (by decide)).trans ((W26_of_ne m ρ c main_v98 (by decide)).trans ((keep4 (W24 m ρ c) main_v98 (by decide)).trans ((W24_of_ne m ρ c main_v98 (by decide)).trans ((keep3 (W22 m ρ c) main_v98 (by decide)).trans ((W22_of_ne m ρ c main_v98 (by decide)).trans ((keep2 (W20 m ρ c) main_v98 (by decide)).trans ((W20_of_ne m ρ c main_v98 (by decide)).trans ((keep1 (W18 m ρ c) main_v98 (by decide)).trans ((W18_of_ne m ρ c main_v98 (by decide)).trans (at17_v98 m ρ c))))))))))))

theorem at0_arg9 : W0 m ρ c (Proc.devRef .tc main_arg9) = (inputsOf m c).lb := rfl

theorem at28_arg9 : W28 m ρ c (Proc.devRef .tc main_arg9) = (inputsOf m c).lb :=
  (W28_of_ne m ρ c main_arg9 (by decide)).trans ((keep5 (W26 m ρ c) main_arg9 (by decide)).trans ((W26_of_ne m ρ c main_arg9 (by decide)).trans ((keep4 (W24 m ρ c) main_arg9 (by decide)).trans ((W24_of_ne m ρ c main_arg9 (by decide)).trans ((keep3 (W22 m ρ c) main_arg9 (by decide)).trans ((W22_of_ne m ρ c main_arg9 (by decide)).trans ((keep2 (W20 m ρ c) main_arg9 (by decide)).trans ((W20_of_ne m ρ c main_arg9 (by decide)).trans ((keep1 (W18 m ρ c) main_arg9 (by decide)).trans ((W18_of_ne m ρ c main_arg9 (by decide)).trans ((keep0_16 (W16 m ρ c) main_arg9 (by decide)).trans ((keep0_15 (W15 m ρ c) main_arg9 (by decide)).trans ((keep0_14 (W14 m ρ c) main_arg9 (by decide)).trans ((keep0_13 (W13 m ρ c) main_arg9 (by decide)).trans ((keep0_12 (W12 m ρ c) main_arg9 (by decide)).trans ((keep0_11 (W11 m ρ c) main_arg9 (by decide)).trans ((keep0_10 (W10 m ρ c) main_arg9 (by decide)).trans ((keep0_9 (W9 m ρ c) main_arg9 (by decide)).trans ((keep0_8 (W8 m ρ c) main_arg9 (by decide)).trans ((keep0_7 (W7 m ρ c) main_arg9 (by decide)).trans ((keep0_6 (W6 m ρ c) main_arg9 (by decide)).trans ((keep0_5 (W5 m ρ c) main_arg9 (by decide)).trans ((keep0_4 (W4 m ρ c) main_arg9 (by decide)).trans ((keep0_3 (W3 m ρ c) main_arg9 (by decide)).trans ((keep0_2 (W2 m ρ c) main_arg9 (by decide)).trans ((keep0_1 (W1 m ρ c) main_arg9 (by decide)).trans ((keep0 (W0 m ρ c) main_arg9 (by decide)).trans (at0_arg9 m ρ c))))))))))))))))))))))))))))

theorem at29_v250 : W29 m ρ c (Proc.devRef .tc main_v250) = lbRow (inputsOf m c).lb := by
  refine (made_v250 (W28 m ρ c)).trans ?_
  rw [at28_arg9 m ρ c]
  try rfl

theorem at30_v251 : W30 m ρ c (Proc.devRef .tc main_v251) = (inputsOf m c).Yd := by
  refine (W30_arr m ρ c 7).trans ?_
  refine (RegionValue.final_head6 (V29 m ρ) c).trans ?_
  show Stage.combineHead (W29 m ρ c (Proc.devRef .tc main_v206)) (W29 m ρ c (Proc.devRef .tc main_v247)) (W29 m ρ c (Proc.devRef .tc main_v216)) (W29 m ρ c (Proc.devRef .tc main_v248)) (W29 m ρ c (Proc.devRef .tc main_v249)) (W29 m ρ c (Proc.devRef .tc main_v98)) (W29 m ρ c (Proc.devRef .tc main_v250)) = _
  rw [at29_v206 m ρ c, at29_v247 m ρ c, at29_v216 m ρ c, at29_v248 m ρ c, at29_v249 m ρ c, at29_v98 m ρ c, at29_v250 m ρ c]
  try rfl

theorem at32_v251 : W32 m ρ c (Proc.devRef .tc main_v251) = (inputsOf m c).Yd :=
  (W32_of_ne m ρ c main_v251 (by decide)).trans ((keep7 (W30 m ρ c) main_v251 (by decide)).trans (at30_v251 m ρ c))

theorem at28_v10 : W28 m ρ c (Proc.devRef .tc main_v10) = (inputsOf m c).rss :=
  (W28_of_ne m ρ c main_v10 (by decide)).trans ((keep5 (W26 m ρ c) main_v10 (by decide)).trans ((W26_of_ne m ρ c main_v10 (by decide)).trans ((keep4 (W24 m ρ c) main_v10 (by decide)).trans ((W24_of_ne m ρ c main_v10 (by decide)).trans ((keep3 (W22 m ρ c) main_v10 (by decide)).trans ((W22_of_ne m ρ c main_v10 (by decide)).trans ((keep2 (W20 m ρ c) main_v10 (by decide)).trans (at20_v10 m ρ c))))))))

theorem at28_v13 : W28 m ρ c (Proc.devRef .tc main_v13) = (inputsOf m c).css :=
  (W28_of_ne m ρ c main_v13 (by decide)).trans ((keep5 (W26 m ρ c) main_v13 (by decide)).trans ((W26_of_ne m ρ c main_v13 (by decide)).trans ((keep4 (W24 m ρ c) main_v13 (by decide)).trans ((W24_of_ne m ρ c main_v13 (by decide)).trans ((keep3 (W22 m ρ c) main_v13 (by decide)).trans ((W22_of_ne m ρ c main_v13 (by decide)).trans ((keep2 (W20 m ρ c) main_v13 (by decide)).trans (at20_v13 m ρ c))))))))

theorem at29_v226 : W29 m ρ c (Proc.devRef .tc main_v226) = agg850 (rightHalf (inputsOf m c).H2s) (inputsOf m c).rss (inputsOf m c).css := by
  refine (made_v226 (W28 m ρ c)).trans ?_
  rw [at28_v192 m ρ c, at28_v10 m ρ c, at28_v13 m ρ c]
  try rfl

theorem at31_v226 : W31 m ρ c (Proc.devRef .tc main_v226) = agg850 (rightHalf (inputsOf m c).H2s) (inputsOf m c).rss (inputsOf m c).css :=
  (keep7 (W30 m ρ c) main_v226 (by decide)).trans ((W30_of_ne m ρ c main_v226 (by decide)).trans (at29_v226 m ρ c))

theorem at30_v59 : W30 m ρ c (Proc.devRef .tc main_v59) = (inputsOf m c).ncss :=
  (W30_of_ne m ρ c main_v59 (by decide)).trans ((keep6 (W28 m ρ c) main_v59 (by decide)).trans ((W28_of_ne m ρ c main_v59 (by decide)).trans ((keep5 (W26 m ρ c) main_v59 (by decide)).trans ((W26_of_ne m ρ c main_v59 (by decide)).trans ((keep4 (W24 m ρ c) main_v59 (by decide)).trans ((W24_of_ne m ρ c main_v59 (by decide)).trans ((keep3 (W22 m ρ c) main_v59 (by decide)).trans (at22_v59 m ρ c))))))))

theorem at31_v252 : W31 m ρ c (Proc.devRef .tc main_v252) = col (inputsOf m c).ncss := by
  refine (made_v252 (W30 m ρ c)).trans ?_
  rw [at30_v59 m ρ c]
  try rfl

theorem at28_v15 : W28 m ρ c (Proc.devRef .tc main_v15) = (inputsOf m c).rds :=
  (W28_of_ne m ρ c main_v15 (by decide)).trans ((keep5 (W26 m ρ c) main_v15 (by decide)).trans ((W26_of_ne m ρ c main_v15 (by decide)).trans ((keep4 (W24 m ρ c) main_v15 (by decide)).trans ((W24_of_ne m ρ c main_v15 (by decide)).trans ((keep3 (W22 m ρ c) main_v15 (by decide)).trans ((W22_of_ne m ρ c main_v15 (by decide)).trans ((keep2 (W20 m ρ c) main_v15 (by decide)).trans (at20_v15 m ρ c))))))))

theorem at28_v17 : W28 m ρ c (Proc.devRef .tc main_v17) = (inputsOf m c).cds :=
  (W28_of_ne m ρ c main_v17 (by decide)).trans ((keep5 (W26 m ρ c) main_v17 (by decide)).trans ((W26_of_ne m ρ c main_v17 (by decide)).trans ((keep4 (W24 m ρ c) main_v17 (by decide)).trans ((W24_of_ne m ρ c main_v17 (by decide)).trans ((keep3 (W22 m ρ c) main_v17 (by decide)).trans ((W22_of_ne m ρ c main_v17 (by decide)).trans ((keep2 (W20 m ρ c) main_v17 (by decide)).trans (at20_v17 m ρ c))))))))

theorem at29_v236 : W29 m ρ c (Proc.devRef .tc main_v236) = agg800 (rightHalf (inputsOf m c).H2d) (inputsOf m c).rds (inputsOf m c).cds := by
  refine (made_v236 (W28 m ρ c)).trans ?_
  rw [at28_v189 m ρ c, at28_v15 m ρ c, at28_v17 m ρ c]
  try rfl

theorem at31_v236 : W31 m ρ c (Proc.devRef .tc main_v236) = agg800 (rightHalf (inputsOf m c).H2d) (inputsOf m c).rds (inputsOf m c).cds :=
  (keep7 (W30 m ρ c) main_v236 (by decide)).trans ((W30_of_ne m ρ c main_v236 (by decide)).trans (at29_v236 m ρ c))

theorem at30_v78 : W30 m ρ c (Proc.devRef .tc main_v78) = (inputsOf m c).ncds :=
  (W30_of_ne m ρ c main_v78 (by decide)).trans ((keep6 (W28 m ρ c) main_v78 (by decide)).trans ((W28_of_ne m ρ c main_v78 (by decide)).trans ((keep5 (W26 m ρ c) main_v78 (by decide)).trans ((W26_of_ne m ρ c main_v78 (by decide)).trans ((keep4 (W24 m ρ c) main_v78 (by decide)).trans ((W24_of_ne m ρ c main_v78 (by decide)).trans ((keep3 (W22 m ρ c) main_v78 (by decide)).trans (at22_v78 m ρ c))))))))

theorem at31_v253 : W31 m ρ c (Proc.devRef .tc main_v253) = col (inputsOf m c).ncds := by
  refine (made_v253 (W30 m ρ c)).trans ?_
  rw [at30_v78 m ρ c]
  try rfl

theorem at29_v246 : W29 m ρ c (Proc.devRef .tc main_v246) = addf (b11 (inputsOf m c).bs) (b12 (inputsOf m c).bs) := by
  refine (made_v246 (W28 m ρ c)).trans ?_
  rw [at28_arg7 m ρ c]
  try rfl

theorem at30_v246 : W30 m ρ c (Proc.devRef .tc main_v246) = addf (b11 (inputsOf m c).bs) (b12 (inputsOf m c).bs) :=
  (W30_of_ne m ρ c main_v246 (by decide)).trans (at29_v246 m ρ c)

theorem at31_v254 : W31 m ρ c (Proc.devRef .tc main_v254) = shapeCast S1x128 (addf (b11 (inputsOf m c).bs) (b12 (inputsOf m c).bs)) shapeCasts_S128_S1x128 := by
  refine (made_v254 (W30 m ρ c)).trans ?_
  rw [at30_v246 m ρ c]
  try rfl

theorem at31_v98 : W31 m ρ c (Proc.devRef .tc main_v98) = lwT (inputsOf m c).lw :=
  (keep7 (W30 m ρ c) main_v98 (by decide)).trans (((W30_arr m ρ c 5).trans (((dat6 (V29 m ρ) c).arrAt_in 5 rfl _).trans (A_eq6 (V29 m ρ) c 5))).trans (at29_v98 m ρ c))

theorem at30_arg9 : W30 m ρ c (Proc.devRef .tc main_arg9) = (inputsOf m c).lb :=
  (W30_of_ne m ρ c main_arg9 (by decide)).trans ((keep6 (W28 m ρ c) main_arg9 (by decide)).trans (at28_arg9 m ρ c))

theorem at31_v255 : W31 m ρ c (Proc.devRef .tc main_v255) = lbRow (inputsOf m c).lb := by
  refine (made_v255 (W30 m ρ c)).trans ?_
  rw [at30_arg9 m ρ c]
  try rfl

theorem at32_v256 : W32 m ρ c (Proc.devRef .tc main_v256) = (inputsOf m c).Ys := by
  refine (W32_arr m ρ c 7).trans ?_
  refine (RegionValue.final_head7 (V31 m ρ) c).trans ?_
  show Stage.combineHead (W31 m ρ c (Proc.devRef .tc main_v226)) (W31 m ρ c (Proc.devRef .tc main_v252)) (W31 m ρ c (Proc.devRef .tc main_v236)) (W31 m ρ c (Proc.devRef .tc main_v253)) (W31 m ρ c (Proc.devRef .tc main_v254)) (W31 m ρ c (Proc.devRef .tc main_v98)) (W31 m ρ c (Proc.devRef .tc main_v255)) = _
  rw [at31_v226 m ρ c, at31_v252 m ρ c, at31_v236 m ρ c, at31_v253 m ρ c, at31_v254 m ρ c, at31_v98 m ρ c, at31_v255 m ρ c]
  try rfl

/-- The drug nodes' result buffer at the last boundary is the network's first result over the arguments. -/
theorem W32_v251 : (W32 m ρ c (Proc.devRef .tc main_v251) : FVec Ideal S50000x64 .f32) = (inputsOf m c).Yd := at32_v251 m ρ c
/-- The disease nodes' result buffer at the last boundary is the network's second result over the arguments. -/
theorem W32_v256 : (W32 m ρ c (Proc.devRef .tc main_v256) : FVec Ideal S50000x64 .f32) = (inputsOf m c).Ys := at32_v256 m ρ c

end Cert.KernelIdeal.Fold

end
-- ==== Proof.RefStages.lean ====
/-
  The reference's sub-computations as array functions: each definition is the composition of the host operations that
  compute one array, over the arrays it is computed from.

  `words0` / `words1` are the two rows of an edge list (sources, destinations) as flat lists of 800000 words; `looped`
  appends the node numbers (a self loop per node). `deg850000` / `deg800000` count, per node, the words of a list landing on
  it (a scatter-add of ones into zeros); `norm` turns a degree array into the normalisation array (the reciprocal square
  root of the degree raised to at least one where the degree is positive, zero elsewhere). `wrapped` is a list of start
  words with the negative ones wrapped by the node count; `pick` reads a per-node array at the wrapped words of a list;
  `edgeNorm` is the product of the source's and the destination's normalisation, edge by edge; `pass` gathers the rows
  of the projected features the wrapped source words name, scales row `e` by the edge's normalisation and scatter-adds
  it to the row the destination word names. `proj` is the projection by a weight matrix, `biasRows` a bias vector as
  one row per node. `convLoops` / `convPlain` are one relation's convolution with and without the self loops.
-/
import proofs.«122068_j1322849927480_2_alg».proof.Proof.Gen.ReferenceIdeal

noncomputable section

namespace Cert.ReferenceIdeal.Stage

open Idealize.ShloMosaic Cert.ReferenceIdeal Cert.ReferenceIdeal.Gen

variable {F : FTy → Type} [FloatOps F]

def words0 (ei : IVec S2x800000 32) : IVec S800000 32 :=
  shapeCast S800000 (extractStridedSlice S1x800000 ![0, 0] ei slices_S2x800000_S1x800000_0_0) shapeCasts_S1x800000_S800000
def words1 (ei : IVec S2x800000 32) : IVec S800000 32 :=
  shapeCast S800000 (extractStridedSlice S1x800000 ![1, 0] ei slices_S2x800000_S1x800000_1_0) shapeCasts_S1x800000_S800000
def looped (w : IVec S800000 32) : IVec S850000 32 :=
  concatenate S850000 0 [⟨S800000, w⟩, ⟨S50000, iotaInDim S50000 32 0⟩] concatenates_S800000_S50000_S850000_d0

def zeros50000 : FVec F S50000 .f32 := broadcastInDim S50000 ![] bcast_S_S50000 (constant S_ .f32 0x00000000#32)
def ones50000 : FVec F S50000 .f32 := broadcastInDim S50000 ![] bcast_S_S50000 (constant S_ .f32 0x3F800000#32)

def deg850000 (idx : IVec S850000 32) : FVec F S50000 .f32 :=
  Host.scatterAdd scatter_S50000_S850000x1_S850000_n_0_0_1 zeros50000
    (broadcastInDim S850000x1 ![0] bcast_S850000_S850000x1_0 idx)
    (broadcastInDim S850000 ![] bcast_S_S850000 (constant S_ .f32 0x3F800000#32))
def deg800000 (idx : IVec S800000 32) : FVec F S50000 .f32 :=
  Host.scatterAdd scatter_S50000_S800000x1_S800000_n_0_0_1 zeros50000
    (broadcastInDim S800000x1 ![0] bcast_S800000_S800000x1_0 idx)
    (broadcastInDim S800000 ![] bcast_S_S800000 (constant S_ .f32 0x3F800000#32))

def norm (deg : FVec F S50000 .f32) : FVec F S50000 .f32 :=
  select (cmpf .ogt deg zeros50000) (Host.rsqrt (maximumf deg ones50000))
    (broadcastInDim S50000 ![] bcast_S_S50000 (id (constant S_ .f32 0x00000000#32)))

def wrapped850000 (r : IVec S850000 32) : IVec S850000 32 :=
  select (cmpi .slt r (broadcastInDim S850000 ![] bcast_S_S850000 (constantI S_ 32 0#32)))
    (addi r (broadcastInDim S850000 ![] bcast_S_S850000 (constantI S_ 32 50000#32))) r
def wrapped800000 (r : IVec S800000 32) : IVec S800000 32 :=
  select (cmpi .slt r (broadcastInDim S800000 ![] bcast_S_S800000 (constantI S_ 32 0#32)))
    (addi r (broadcastInDim S800000 ![] bcast_S_S800000 (constantI S_ 32 50000#32))) r

def pick850000 (d : FVec F S50000 .f32) (w : IVec S850000 32) : FVec F S850000 .f32 :=
  Host.gather gather_S50000_S850000x1_S850000_n_0_n_n_0_1_1 d
    (broadcastInDim S850000x1 ![0] bcast_S850000_S850000x1_0 (wrapped850000 w))
def pick800000 (d : FVec F S50000 .f32) (w : IVec S800000 32) : FVec F S800000 .f32 :=
  Host.gather gather_S50000_S800000x1_S800000_n_0_n_n_0_1_1 d
    (broadcastInDim S800000x1 ![0] bcast_S800000_S800000x1_0 (wrapped800000 w))

def edgeNorm850000 (r c : IVec S850000 32) : FVec F S850000 .f32 :=
  mulf (pick850000 (norm (deg850000 r)) r) (pick850000 (norm (deg850000 c)) c)
def edgeNorm800000 (r c : IVec S800000 32) : FVec F S800000 .f32 :=
  mulf (pick800000 (norm (deg800000 r)) r) (pick800000 (norm (deg800000 c)) c)

def pass850000 (h : FVec F S50000x128 .f32) (r c : IVec S850000 32) : FVec F S50000x128 .f32 :=
  Host.scatterAdd scatter_S50000x128_S850000x1_S850000x128_1_0_0_1
    (broadcastInDim S50000x128 ![] bcast_S_S50000x128 (constant S_ .f32 0x00000000#32))
    (broadcastInDim S850000x1 ![0] bcast_S850000_S850000x1_0 c)
    (mulf
      (Host.gather gather_S50000x128_S850000x1_S850000x128_1_0_n_n_0_1_1128 h
        (broadcastInDim S850000x1 ![0] bcast_S850000_S850000x1_0 (wrapped850000 r)))
      (broadcastInDim S850000x128 ![0, 1] bcast_S850000x1_S850000x128_0_1
        (broadcastInDim S850000x1 ![0] bcast_S850000_S850000x1_0 (edgeNorm850000 r c))))
def pass800000 (h : FVec F S50000x128 .f32) (r c : IVec S800000 32) : FVec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 c)
    (mulf
      (Host.gather gather_S50000x128_S800000x1_S800000x128_1_0_n_n_0_1_1128 h
        (broadcastInDim S800000x1 ![0] bcast_S800000_S800000x1_0 (wrapped800000 r)))
      (broadcastInDim S800000x128 ![0, 1] bcast_S800000x1_S800000x128_0_1
        (broadcastInDim S800000x1 ![0] bcast_S800000_S800000x1_0 (edgeNorm800000 r c))))

def proj (x : FVec F S50000x128 .f32) (W : FVec F S128x128 .f32) : FVec F S50000x128 .f32 :=
  Host.dotGeneral dot_S50000x128_S128x128_S50000x128_1_0_0_1_n_n none x W

def biasRows (b : FVec F S128 .f32) : FVec F S50000x128 .f32 :=
  broadcastInDim S50000x128 ![0, 1] bcast_S1x128_S50000x128_0_1 (broadcastInDim S1x128 ![1] bcast_S128_S1x128_1 b)

/-- One relation's convolution, a self loop appended for every node. -/
def convLoops (x : FVec F S50000x128 .f32) (ei : IVec S2x800000 32) (W : FVec F S128x128 .f32) (b : FVec F S128 .f32) :
    FVec F S50000x128 .f32 :=
  addf (pass850000 (proj x W) (looped (words0 ei)) (looped (words1 ei))) (biasRows b)
/-- One relation's convolution over the given edges alone. -/
def convPlain (x : FVec F S50000x128 .f32) (ei : IVec S2x800000 32) (W : FVec F S128x128 .f32) (b : FVec F S128 .f32) :
    FVec F S50000x128 .f32 :=
  addf (pass800000 (proj x W) (words0 ei) (words1 ei)) (biasRows b)

end Cert.ReferenceIdeal.Stage

end
-- ==== Proof.RefLayers.lean ====
/-
  The reference's layers and head as array functions: the weight and bias slices W[l, q] and b[l, q], the positive
  part, one layer's two sums of convolutions, the two layers, and the linear head.
-/
import proofs.«122068_j1322849927480_2_alg».proof.Proof.RefStages

noncomputable section

namespace Cert.ReferenceIdeal.Stage

open Idealize.ShloMosaic Cert.ReferenceIdeal Cert.ReferenceIdeal.Gen

variable {F : FTy → Type} [FloatOps F]

def wSlice_0_0 (x6 : FVec F S2x4x128x128 .f32) : FVec F S128x128 .f32 :=
  shapeCast S128x128 (extractStridedSlice S1x1x128x128 ![0, 0, 0, 0] x6 slices_S2x4x128x128_S1x1x128x128_0_0_0_0) shapeCasts_S1x1x128x128_S128x128
def bSlice_0_0 (x7 : FVec F S2x4x128 .f32) : FVec F S128 .f32 :=
  shapeCast S128 (extractStridedSlice S1x1x128 ![0, 0, 0] x7 slices_S2x4x128_S1x1x128_0_0_0) shapeCasts_S1x1x128_S128

def wSlice_0_1 (x6 : FVec F S2x4x128x128 .f32) : FVec F S128x128 .f32 :=
  shapeCast S128x128 (extractStridedSlice S1x1x128x128 ![0, 1, 0, 0] x6 slices_S2x4x128x128_S1x1x128x128_0_1_0_0) shapeCasts_S1x1x128x128_S128x128
def bSlice_0_1 (x7 : FVec F S2x4x128 .f32) : FVec F S128 .f32 :=
  shapeCast S128 (extractStridedSlice S1x1x128 ![0, 1, 0] x7 slices_S2x4x128_S1x1x128_0_1_0) shapeCasts_S1x1x128_S128

def wSlice_0_2 (x6 : FVec F S2x4x128x128 .f32) : FVec F S128x128 .f32 :=
  shapeCast S128x128 (extractStridedSlice S1x1x128x128 ![0, 2, 0, 0] x6 slices_S2x4x128x128_S1x1x128x128_0_2_0_0) shapeCasts_S1x1x128x128_S128x128
def bSlice_0_2 (x7 : FVec F S2x4x128 .f32) : FVec F S128 .f32 :=
  shapeCast S128 (extractStridedSlice S1x1x128 ![0, 2, 0] x7 slices_S2x4x128_S1x1x128_0_2_0) shapeCasts_S1x1x128_S128

def wSlice_0_3 (x6 : FVec F S2x4x128x128 .f32) : FVec F S128x128 .f32 :=
  shapeCast S128x128 (extractStridedSlice S1x1x128x128 ![0, 3, 0, 0] x6 slices_S2x4x128x128_S1x1x128x128_0_3_0_0) shapeCasts_S1x1x128x128_S128x128
def bSlice_0_3 (x7 : FVec F S2x4x128 .f32) : FVec F S128 .f32 :=
  shapeCast S128 (extractStridedSlice S1x1x128 ![0, 3, 0] x7 slices_S2x4x128_S1x1x128_0_3_0) shapeCasts_S1x1x128_S128

def wSlice_1_0 (x6 : FVec F S2x4x128x128 .f32) : FVec F S128x128 .f32 :=
  shapeCast S128x128 (extractStridedSlice S1x1x128x128 ![1, 0, 0, 0] x6 slices_S2x4x128x128_S1x1x128x128_1_0_0_0) shapeCasts_S1x1x128x128_S128x128
def bSlice_1_0 (x7 : FVec F S2x4x128 .f32) : FVec F S128 .f32 :=
  shapeCast S128 (extractStridedSlice S1x1x128 ![1, 0, 0] x7 slices_S2x4x128_S1x1x128_1_0_0) shapeCasts_S1x1x128_S128

def wSlice_1_1 (x6 : FVec F S2x4x128x128 .f32) : FVec F S128x128 .f32 :=
  shapeCast S128x128 (extractStridedSlice S1x1x128x128 ![1, 1, 0, 0] x6 slices_S2x4x128x128_S1x1x128x128_1_1_0_0) shapeCasts_S1x1x128x128_S128x128
def bSlice_1_1 (x7 : FVec F S2x4x128 .f32) : FVec F S128 .f32 :=
  shapeCast S128 (extractStridedSlice S1x1x128 ![1, 1, 0] x7 slices_S2x4x128_S1x1x128_1_1_0) shapeCasts_S1x1x128_S128

def wSlice_1_2 (x6 : FVec F S2x4x128x128 .f32) : FVec F S128x128 .f32 :=
  shapeCast S128x128 (extractStridedSlice S1x1x128x128 ![1, 2, 0, 0] x6 slices_S2x4x128x128_S1x1x128x128_1_2_0_0) shapeCasts_S1x1x128x128_S128x128
def bSlice_1_2 (x7 : FVec F S2x4x128 .f32) : FVec F S128 .f32 :=
  shapeCast S128 (extractStridedSlice S1x1x128 ![1, 2, 0] x7 slices_S2x4x128_S1x1x128_1_2_0) shapeCasts_S1x1x128_S128

def wSlice_1_3 (x6 : FVec F S2x4x128x128 .f32) : FVec F S128x128 .f32 :=
  shapeCast S128x128 (extractStridedSlice S1x1x128x128 ![1, 3, 0, 0] x6 slices_S2x4x128x128_S1x1x128x128_1_3_0_0) shapeCasts_S1x1x128x128_S128x128
def bSlice_1_3 (x7 : FVec F S2x4x128 .f32) : FVec F S128 .f32 :=
  shapeCast S128 (extractStridedSlice S1x1x128 ![1, 3, 0] x7 slices_S2x4x128_S1x1x128_1_3_0) shapeCasts_S1x1x128_S128

/-- The positive part. -/
def relu (y : FVec F S50000x128 .f32) : FVec F S50000x128 .f32 :=
  maximumf y (broadcastInDim S50000x128 ![] bcast_S_S50000x128 (constant S_ .f32 0x00000000#32))

/-- The linear head: the contraction with the transposed head weight, plus the head bias as rows. -/
def headOut (y : FVec F S50000x128 .f32) (x8 : FVec F S64x128 .f32) (x9 : FVec F S64 .f32) : FVec F S50000x64 .f32 :=
  addf (Host.dotGeneral dot_S50000x128_S128x64_S50000x64_1_0_0_1_n_n none y (transpose S128x64 [1, 0] x8 transposes_S64x128_S128x64_1_0))
    (broadcastInDim S50000x64 ![0, 1] bcast_S1x64_S50000x64_0_1 (broadcastInDim S1x64 ![1] bcast_S64_S1x64_1 x9))

/-- One layer's sum into the first node type: the looped relation on its own features plus the plain relation from the
    second type's, with the weights and biases of layer l, relations 0 and 3. -/
def sumD0 (xd xs : FVec F S50000x128 .f32) (x2 x5 : IVec S2x800000 32) (x6 : FVec F S2x4x128x128 .f32) (x7 : FVec F S2x4x128 .f32) :
    FVec F S50000x128 .f32 :=
  addf (convLoops xd x2 (wSlice_0_0 x6) (bSlice_0_0 x7)) (convPlain xs x5 (wSlice_0_3 x6) (bSlice_0_3 x7))
/-- … and into the second node type: relations 1 and 2. -/
def sumS0 (xd xs : FVec F S50000x128 .f32) (x3 x4 : IVec S2x800000 32) (x6 : FVec F S2x4x128x128 .f32) (x7 : FVec F S2x4x128 .f32) :
    FVec F S50000x128 .f32 :=
  addf (convLoops xs x3 (wSlice_0_1 x6) (bSlice_0_1 x7)) (convPlain xd x4 (wSlice_0_2 x6) (bSlice_0_2 x7))
def sumD1 (xd xs : FVec F S50000x128 .f32) (x2 x5 : IVec S2x800000 32) (x6 : FVec F S2x4x128x128 .f32) (x7 : FVec F S2x4x128 .f32) :
    FVec F S50000x128 .f32 :=
  addf (convLoops xd x2 (wSlice_1_0 x6) (bSlice_1_0 x7)) (convPlain xs x5 (wSlice_1_3 x6) (bSlice_1_3 x7))
def sumS1 (xd xs : FVec F S50000x128 .f32) (x3 x4 : IVec S2x800000 32) (x6 : FVec F S2x4x128x128 .f32) (x7 : FVec F S2x4x128 .f32) :
    FVec F S50000x128 .f32 :=
  addf (convLoops xs x3 (wSlice_1_1 x6) (bSlice_1_1 x7)) (convPlain xd x4 (wSlice_1_2 x6) (bSlice_1_2 x7))

/-- The first layer's two outputs. -/
def hidD (x0 x1 : FVec F S50000x128 .f32) (x2 x3 x4 x5 : IVec S2x800000 32) (x6 : FVec F S2x4x128x128 .f32) (x7 : FVec F S2x4x128 .f32) : FVec F S50000x128 .f32 :=
  relu (sumD0 x0 x1 x2 x5 x6 x7)
def hidS (x0 x1 : FVec F S50000x128 .f32) (x2 x3 x4 x5 : IVec S2x800000 32) (x6 : FVec F S2x4x128x128 .f32) (x7 : FVec F S2x4x128 .f32) : FVec F S50000x128 .f32 :=
  relu (sumS0 x0 x1 x3 x4 x6 x7)

/-- The two results. -/
def out1 (x0 x1 : FVec F S50000x128 .f32) (x2 x3 x4 x5 : IVec S2x800000 32) (x6 : FVec F S2x4x128x128 .f32) (x7 : FVec F S2x4x128 .f32) (x8 : FVec F S64x128 .f32) (x9 : FVec F S64 .f32) : FVec F S50000x64 .f32 :=
  headOut (relu (sumD1 (hidD x0 x1 x2 x3 x4 x5 x6 x7) (hidS x0 x1 x2 x3 x4 x5 x6 x7) x2 x5 x6 x7)) x8 x9
def out2 (x0 x1 : FVec F S50000x128 .f32) (x2 x3 x4 x5 : IVec S2x800000 32) (x6 : FVec F S2x4x128x128 .f32) (x7 : FVec F S2x4x128 .f32) (x8 : FVec F S64x128 .f32) (x9 : FVec F S64 .f32) : FVec F S50000x64 .f32 :=
  headOut (relu (sumS1 (hidD x0 x1 x2 x3 x4 x5 x6 x7) (hidS x0 x1 x2 x3 x4 x5 x6 x7) x3 x4 x6 x7)) x8 x9

end Cert.ReferenceIdeal.Stage

end
-- ==== Proof.RefTactic.lean ====
/-
  A closing step for reading a stretch of host operations: where the one-pass simplification of the operations' results
  stops (inside a concatenation's operand list), each remaining operation's result at its own buffer is its function's
  value, and at any other buffer what was there.
-/
import Idealize.ShloMosaic.Lib.StableHlo.Run

namespace Cert.ReferenceIdeal.RefValue

open Idealize.ShloMosaic Idealize.ShloMosaic.StableHlo

macro "ref_results_leftover" : tactic =>
  `(tactic| repeat (first
      | rw [nullary_result] | rw [unary_result] | rw [binary_result] | rw [ternary_result] | rw [quaternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide)))

/-- An operation whose one written buffer is in a list of references writes inside that list's buffers. -/
theorem writes_sub_of_mem {τ : Topo} {sig : RefSig} {W : List (Ref sig .tc)} {y : Ref sig .tc} (h : y ∈ W) :
    ({Proc.devRef .tc y} : Finset (DevRef τ sig)) ⊆ (W.map (Proc.devRef (τ := τ) .tc)).toFinset :=
  Finset.singleton_subset_iff.2 (List.mem_toFinset.2 (List.mem_map_of_mem h))

end Cert.ReferenceIdeal.RefValue
-- ==== Proof.RefBack0.lean ====
/-
  The reference's run read back, stretches 0, 1, 2 of nine, over a GENERIC valuation X: the buffer a stretch
  computes is the stage function of X at the buffers it reads (s<k>_<buffer>); a buffer it does not write is X there
  (k<k>_<buffer>: the stretch's operations write the buffers of wr<k> only).
-/
import proofs.«122068_j1322849927480_2_alg».proof.Proof.RefOps
import proofs.«122068_j1322849927480_2_alg».proof.Proof.RefLayers
import proofs.«122068_j1322849927480_2_alg».proof.Proof.RefTactic

set_option maxRecDepth 8192

noncomputable section

namespace Cert.ReferenceIdeal.RefValue

open Cert.ReferenceIdeal Cert.ReferenceIdeal.Gen Cert.ReferenceIdeal.ValueP Cert.ReferenceIdeal.Stage
open Idealize.ShloMosaic Idealize.ShloMosaic.TcCoe Idealize.SL.Sem Idealize.ShloMosaic.StableHlo

variable {F : FTy → Type} [FloatOps F]

/-! ## Stretch 0 -/

set_option maxHeartbeats 4000000 in
theorem s0_v61 (X : Valuation τ sig (Elt F)) :
    after seg0 X (Proc.devRef .tc main_v61) = convLoops (X (Proc.devRef .tc main_arg0)) (X (Proc.devRef .tc main_arg2)) (wSlice_0_0 (X (Proc.devRef .tc main_arg6))) (bSlice_0_0 (X (Proc.devRef .tc main_arg7))) := by
  unfold seg0
  after_results_simp
  try ref_results_leftover
  unfold convLoops pass850000 edgeNorm850000 pick850000 norm deg850000 wrapped850000 zeros50000 ones50000 looped words0 words1 proj biasRows wSlice_0_0 bSlice_0_0
  rfl

/-- The buffers stretch 0 writes, one per operation, in order. -/
def wr0 : List (Ref sig .tc) :=
  [main_v0, main_v1, main_v2, main_v3, main_v4, main_v5, main_v6, main_v7, main_v8, main_v9, main_v10, main_cst, main_v11, main_cst_0, main_v12, main_v13, main_v14, main_cst_1, main_v15, main_v16, main_v17, main_cst_2, main_v18, main_v19, main_cst_3, main_v20, main_v21, main_v22, main_cst_4, main_call0_v0, main_call0_v1, main_v23, main_cst_5, main_v24, main_v25, main_cst_6, main_v26, main_v27, main_v28, main_cst_7, main_call1_v0, main_call1_v1, main_v29, main_c, main_v30, main_v31, main_c_8, main_v32, main_v33, main_v34, main_v35, main_v36, main_c_9, main_v37, main_v38, main_c_10, main_v39, main_v40, main_v41, main_v42, main_v43, main_v44, main_v45, main_c_11, main_v46, main_v47, main_c_12, main_v48, main_v49, main_v50, main_v51, main_v52, main_v53, main_v54, main_v55, main_cst_13, main_v56, main_v57, main_v58, main_v59, main_v60, main_v61]
theorem seg0_writes : (seg0 : List (HloOp τ sig (Elt F))).Forall fun op =>
    op.writes ⊆ ((wr0).map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩
theorem k0_arg0 (X : Valuation τ sig (Elt F)) : after seg0 X (Proc.devRef .tc main_arg0) = X (Proc.devRef .tc main_arg0) :=
  after_of_writes_sub seg0 X seg0_writes (by decide)
theorem k0_arg1 (X : Valuation τ sig (Elt F)) : after seg0 X (Proc.devRef .tc main_arg1) = X (Proc.devRef .tc main_arg1) :=
  after_of_writes_sub seg0 X seg0_writes (by decide)
theorem k0_arg2 (X : Valuation τ sig (Elt F)) : after seg0 X (Proc.devRef .tc main_arg2) = X (Proc.devRef .tc main_arg2) :=
  after_of_writes_sub seg0 X seg0_writes (by decide)
theorem k0_arg3 (X : Valuation τ sig (Elt F)) : after seg0 X (Proc.devRef .tc main_arg3) = X (Proc.devRef .tc main_arg3) :=
  after_of_writes_sub seg0 X seg0_writes (by decide)
theorem k0_arg4 (X : Valuation τ sig (Elt F)) : after seg0 X (Proc.devRef .tc main_arg4) = X (Proc.devRef .tc main_arg4) :=
  after_of_writes_sub seg0 X seg0_writes (by decide)
theorem k0_arg5 (X : Valuation τ sig (Elt F)) : after seg0 X (Proc.devRef .tc main_arg5) = X (Proc.devRef .tc main_arg5) :=
  after_of_writes_sub seg0 X seg0_writes (by decide)
theorem k0_arg6 (X : Valuation τ sig (Elt F)) : after seg0 X (Proc.devRef .tc main_arg6) = X (Proc.devRef .tc main_arg6) :=
  after_of_writes_sub seg0 X seg0_writes (by decide)
theorem k0_arg7 (X : Valuation τ sig (Elt F)) : after seg0 X (Proc.devRef .tc main_arg7) = X (Proc.devRef .tc main_arg7) :=
  after_of_writes_sub seg0 X seg0_writes (by decide)
theorem k0_arg8 (X : Valuation τ sig (Elt F)) : after seg0 X (Proc.devRef .tc main_arg8) = X (Proc.devRef .tc main_arg8) :=
  after_of_writes_sub seg0 X seg0_writes (by decide)
theorem k0_arg9 (X : Valuation τ sig (Elt F)) : after seg0 X (Proc.devRef .tc main_arg9) = X (Proc.devRef .tc main_arg9) :=
  after_of_writes_sub seg0 X seg0_writes (by decide)

/-! ## Stretch 1 -/

set_option maxHeartbeats 4000000 in
theorem s1_v121 (X : Valuation τ sig (Elt F)) :
    after seg1 X (Proc.devRef .tc main_v121) = addf (X (Proc.devRef .tc main_v61)) (convPlain (X (Proc.devRef .tc main_arg1)) (X (Proc.devRef .tc main_arg5)) (wSlice_0_3 (X (Proc.devRef .tc main_arg6))) (bSlice_0_3 (X (Proc.devRef .tc main_arg7)))) := by
  unfold seg1
  after_results_simp
  try ref_results_leftover
  unfold convPlain pass800000 edgeNorm800000 pick800000 norm deg800000 wrapped800000 zeros50000 ones50000 words0 words1 proj biasRows wSlice_0_3 bSlice_0_3
  rfl

/-- The buffers stretch 1 writes, one per operation, in order. -/
def wr1 : List (Ref sig .tc) :=
  [main_v62, main_v63, main_v64, main_v65, main_v66, main_v67, main_v68, main_v69, main_cst_14, main_v70, main_cst_15, main_v71, main_v72, main_v73, main_cst_16, main_v74, main_v75, main_v76, main_cst_17, main_v77, main_v78, main_cst_18, main_v79, main_v80, main_v81, main_cst_19, main_call2_v0, main_call2_v1, main_v82, main_cst_20, main_v83, main_v84, main_cst_21, main_v85, main_v86, main_v87, main_cst_22, main_call3_v0, main_call3_v1, main_v88, main_c_23, main_v89, main_v90, main_c_24, main_v91, main_v92, main_v93, main_v94, main_v95, main_c_25, main_v96, main_v97, main_c_26, main_v98, main_v99, main_v100, main_v101, main_v102, main_v103, main_v104, main_c_27, main_v105, main_v106, main_c_28, main_v107, main_v108, main_v109, main_v110, main_v111, main_v112, main_v113, main_v114, main_cst_29, main_v115, main_v116, main_v117, main_v118, main_v119, main_v120, main_v121]
theorem seg1_writes : (seg1 : List (HloOp τ sig (Elt F))).Forall fun op =>
    op.writes ⊆ ((wr1).map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩
theorem k1_arg0 (X : Valuation τ sig (Elt F)) : after seg1 X (Proc.devRef .tc main_arg0) = X (Proc.devRef .tc main_arg0) :=
  after_of_writes_sub seg1 X seg1_writes (by decide)
theorem k1_arg1 (X : Valuation τ sig (Elt F)) : after seg1 X (Proc.devRef .tc main_arg1) = X (Proc.devRef .tc main_arg1) :=
  after_of_writes_sub seg1 X seg1_writes (by decide)
theorem k1_arg2 (X : Valuation τ sig (Elt F)) : after seg1 X (Proc.devRef .tc main_arg2) = X (Proc.devRef .tc main_arg2) :=
  after_of_writes_sub seg1 X seg1_writes (by decide)
theorem k1_arg3 (X : Valuation τ sig (Elt F)) : after seg1 X (Proc.devRef .tc main_arg3) = X (Proc.devRef .tc main_arg3) :=
  after_of_writes_sub seg1 X seg1_writes (by decide)
theorem k1_arg4 (X : Valuation τ sig (Elt F)) : after seg1 X (Proc.devRef .tc main_arg4) = X (Proc.devRef .tc main_arg4) :=
  after_of_writes_sub seg1 X seg1_writes (by decide)
theorem k1_arg5 (X : Valuation τ sig (Elt F)) : after seg1 X (Proc.devRef .tc main_arg5) = X (Proc.devRef .tc main_arg5) :=
  after_of_writes_sub seg1 X seg1_writes (by decide)
theorem k1_arg6 (X : Valuation τ sig (Elt F)) : after seg1 X (Proc.devRef .tc main_arg6) = X (Proc.devRef .tc main_arg6) :=
  after_of_writes_sub seg1 X seg1_writes (by decide)
theorem k1_arg7 (X : Valuation τ sig (Elt F)) : after seg1 X (Proc.devRef .tc main_arg7) = X (Proc.devRef .tc main_arg7) :=
  after_of_writes_sub seg1 X seg1_writes (by decide)
theorem k1_arg8 (X : Valuation τ sig (Elt F)) : after seg1 X (Proc.devRef .tc main_arg8) = X (Proc.devRef .tc main_arg8) :=
  after_of_writes_sub seg1 X seg1_writes (by decide)
theorem k1_arg9 (X : Valuation τ sig (Elt F)) : after seg1 X (Proc.devRef .tc main_arg9) = X (Proc.devRef .tc main_arg9) :=
  after_of_writes_sub seg1 X seg1_writes (by decide)

/-! ## Stretch 2 -/

set_option maxHeartbeats 4000000 in
theorem s2_v183 (X : Valuation τ sig (Elt F)) :
    after seg2 X (Proc.devRef .tc main_v183) = convLoops (X (Proc.devRef .tc main_arg1)) (X (Proc.devRef .tc main_arg3)) (wSlice_0_1 (X (Proc.devRef .tc main_arg6))) (bSlice_0_1 (X (Proc.devRef .tc main_arg7))) := by
  unfold seg2
  after_results_simp
  try ref_results_leftover
  unfold convLoops pass850000 edgeNorm850000 pick850000 norm deg850000 wrapped850000 zeros50000 ones50000 looped words0 words1 proj biasRows wSlice_0_1 bSlice_0_1
  rfl

/-- The buffers stretch 2 writes, one per operation, in order. -/
def wr2 : List (Ref sig .tc) :=
  [main_v122, main_v123, main_v124, main_v125, main_v126, main_v127, main_v128, main_v129, main_v130, main_v131, main_v132, main_cst_30, main_v133, main_cst_31, main_v134, main_v135, main_v136, main_cst_32, main_v137, main_v138, main_v139, main_cst_33, main_v140, main_v141, main_cst_34, main_v142, main_v143, main_v144, main_cst_35, main_call4_v0, main_call4_v1, main_v145, main_cst_36, main_v146, main_v147, main_cst_37, main_v148, main_v149, main_v150, main_cst_38, main_call5_v0, main_call5_v1, main_v151, main_c_39, main_v152, main_v153, main_c_40, main_v154, main_v155, main_v156, main_v157, main_v158, main_c_41, main_v159, main_v160, main_c_42, main_v161, main_v162, main_v163, main_v164, main_v165, main_v166, main_v167, main_c_43, main_v168, main_v169, main_c_44, main_v170, main_v171, main_v172, main_v173, main_v174, main_v175, main_v176, main_v177, main_cst_45, main_v178, main_v179, main_v180, main_v181, main_v182, main_v183]
theorem seg2_writes : (seg2 : List (HloOp τ sig (Elt F))).Forall fun op =>
    op.writes ⊆ ((wr2).map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩
theorem k2_arg0 (X : Valuation τ sig (Elt F)) : after seg2 X (Proc.devRef .tc main_arg0) = X (Proc.devRef .tc main_arg0) :=
  after_of_writes_sub seg2 X seg2_writes (by decide)
theorem k2_arg1 (X : Valuation τ sig (Elt F)) : after seg2 X (Proc.devRef .tc main_arg1) = X (Proc.devRef .tc main_arg1) :=
  after_of_writes_sub seg2 X seg2_writes (by decide)
theorem k2_arg2 (X : Valuation τ sig (Elt F)) : after seg2 X (Proc.devRef .tc main_arg2) = X (Proc.devRef .tc main_arg2) :=
  after_of_writes_sub seg2 X seg2_writes (by decide)
theorem k2_arg3 (X : Valuation τ sig (Elt F)) : after seg2 X (Proc.devRef .tc main_arg3) = X (Proc.devRef .tc main_arg3) :=
  after_of_writes_sub seg2 X seg2_writes (by decide)
theorem k2_arg4 (X : Valuation τ sig (Elt F)) : after seg2 X (Proc.devRef .tc main_arg4) = X (Proc.devRef .tc main_arg4) :=
  after_of_writes_sub seg2 X seg2_writes (by decide)
theorem k2_arg5 (X : Valuation τ sig (Elt F)) : after seg2 X (Proc.devRef .tc main_arg5) = X (Proc.devRef .tc main_arg5) :=
  after_of_writes_sub seg2 X seg2_writes (by decide)
theorem k2_arg6 (X : Valuation τ sig (Elt F)) : after seg2 X (Proc.devRef .tc main_arg6) = X (Proc.devRef .tc main_arg6) :=
  after_of_writes_sub seg2 X seg2_writes (by decide)
theorem k2_arg7 (X : Valuation τ sig (Elt F)) : after seg2 X (Proc.devRef .tc main_arg7) = X (Proc.devRef .tc main_arg7) :=
  after_of_writes_sub seg2 X seg2_writes (by decide)
theorem k2_arg8 (X : Valuation τ sig (Elt F)) : after seg2 X (Proc.devRef .tc main_arg8) = X (Proc.devRef .tc main_arg8) :=
  after_of_writes_sub seg2 X seg2_writes (by decide)
theorem k2_arg9 (X : Valuation τ sig (Elt F)) : after seg2 X (Proc.devRef .tc main_arg9) = X (Proc.devRef .tc main_arg9) :=
  after_of_writes_sub seg2 X seg2_writes (by decide)
theorem k2_v121 (X : Valuation τ sig (Elt F)) : after seg2 X (Proc.devRef .tc main_v121) = X (Proc.devRef .tc main_v121) :=
  after_of_writes_sub seg2 X seg2_writes (by decide)

end Cert.ReferenceIdeal.RefValue

end
-- ==== Proof.RefBack1.lean ====
/-
  The reference's run read back, stretches 3, 4, 5 of nine, over a GENERIC valuation X: the buffer a stretch
  computes is the stage function of X at the buffers it reads (s<k>_<buffer>); a buffer it does not write is X there
  (k<k>_<buffer>: the stretch's operations write the buffers of wr<k> only).
-/
import proofs.«122068_j1322849927480_2_alg».proof.Proof.RefOps
import proofs.«122068_j1322849927480_2_alg».proof.Proof.RefLayers
import proofs.«122068_j1322849927480_2_alg».proof.Proof.RefTactic

set_option maxRecDepth 8192

noncomputable section

namespace Cert.ReferenceIdeal.RefValue

open Cert.ReferenceIdeal Cert.ReferenceIdeal.Gen Cert.ReferenceIdeal.ValueP Cert.ReferenceIdeal.Stage
open Idealize.ShloMosaic Idealize.ShloMosaic.TcCoe Idealize.SL.Sem Idealize.ShloMosaic.StableHlo

variable {F : FTy → Type} [FloatOps F]

/-! ## Stretch 3 -/

set_option maxHeartbeats 4000000 in
theorem s3_v244 (X : Valuation τ sig (Elt F)) :
    after seg3 X (Proc.devRef .tc main_v244) = relu (X (Proc.devRef .tc main_v121)) := by
  unfold seg3
  after_results_simp
  try ref_results_leftover
  unfold relu
  rfl

set_option maxHeartbeats 4000000 in
theorem s3_v245 (X : Valuation τ sig (Elt F)) :
    after seg3 X (Proc.devRef .tc main_v245) = relu (addf (X (Proc.devRef .tc main_v183)) (convPlain (X (Proc.devRef .tc main_arg0)) (X (Proc.devRef .tc main_arg4)) (wSlice_0_2 (X (Proc.devRef .tc main_arg6))) (bSlice_0_2 (X (Proc.devRef .tc main_arg7))))) := by
  unfold seg3
  after_results_simp
  try ref_results_leftover
  unfold relu convPlain pass800000 edgeNorm800000 pick800000 norm deg800000 wrapped800000 zeros50000 ones50000 words0 words1 proj biasRows wSlice_0_2 bSlice_0_2
  rfl

/-- The buffers stretch 3 writes, one per operation, in order. -/
def wr3 : List (Ref sig .tc) :=
  [main_v184, main_v185, main_v186, main_v187, main_v188, main_v189, main_v190, main_v191, main_cst_46, main_v192, main_cst_47, main_v193, main_v194, main_v195, main_cst_48, main_v196, main_v197, main_v198, main_cst_49, main_v199, main_v200, main_cst_50, main_v201, main_v202, main_v203, main_cst_51, main_call6_v0, main_call6_v1, main_v204, main_cst_52, main_v205, main_v206, main_cst_53, main_v207, main_v208, main_v209, main_cst_54, main_call7_v0, main_call7_v1, main_v210, main_c_55, main_v211, main_v212, main_c_56, main_v213, main_v214, main_v215, main_v216, main_v217, main_c_57, main_v218, main_v219, main_c_58, main_v220, main_v221, main_v222, main_v223, main_v224, main_v225, main_v226, main_c_59, main_v227, main_v228, main_c_60, main_v229, main_v230, main_v231, main_v232, main_v233, main_v234, main_v235, main_v236, main_cst_61, main_v237, main_v238, main_v239, main_v240, main_v241, main_v242, main_v243, main_call8_cst, main_call8_v0, main_v244, main_call9_cst, main_call9_v0, main_v245]
theorem seg3_writes : (seg3 : List (HloOp τ sig (Elt F))).Forall fun op =>
    op.writes ⊆ ((wr3).map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩
theorem k3_arg0 (X : Valuation τ sig (Elt F)) : after seg3 X (Proc.devRef .tc main_arg0) = X (Proc.devRef .tc main_arg0) :=
  after_of_writes_sub seg3 X seg3_writes (by decide)
theorem k3_arg1 (X : Valuation τ sig (Elt F)) : after seg3 X (Proc.devRef .tc main_arg1) = X (Proc.devRef .tc main_arg1) :=
  after_of_writes_sub seg3 X seg3_writes (by decide)
theorem k3_arg2 (X : Valuation τ sig (Elt F)) : after seg3 X (Proc.devRef .tc main_arg2) = X (Proc.devRef .tc main_arg2) :=
  after_of_writes_sub seg3 X seg3_writes (by decide)
theorem k3_arg3 (X : Valuation τ sig (Elt F)) : after seg3 X (Proc.devRef .tc main_arg3) = X (Proc.devRef .tc main_arg3) :=
  after_of_writes_sub seg3 X seg3_writes (by decide)
theorem k3_arg4 (X : Valuation τ sig (Elt F)) : after seg3 X (Proc.devRef .tc main_arg4) = X (Proc.devRef .tc main_arg4) :=
  after_of_writes_sub seg3 X seg3_writes (by decide)
theorem k3_arg5 (X : Valuation τ sig (Elt F)) : after seg3 X (Proc.devRef .tc main_arg5) = X (Proc.devRef .tc main_arg5) :=
  after_of_writes_sub seg3 X seg3_writes (by decide)
theorem k3_arg6 (X : Valuation τ sig (Elt F)) : after seg3 X (Proc.devRef .tc main_arg6) = X (Proc.devRef .tc main_arg6) :=
  after_of_writes_sub seg3 X seg3_writes (by decide)
theorem k3_arg7 (X : Valuation τ sig (Elt F)) : after seg3 X (Proc.devRef .tc main_arg7) = X (Proc.devRef .tc main_arg7) :=
  after_of_writes_sub seg3 X seg3_writes (by decide)
theorem k3_arg8 (X : Valuation τ sig (Elt F)) : after seg3 X (Proc.devRef .tc main_arg8) = X (Proc.devRef .tc main_arg8) :=
  after_of_writes_sub seg3 X seg3_writes (by decide)
theorem k3_arg9 (X : Valuation τ sig (Elt F)) : after seg3 X (Proc.devRef .tc main_arg9) = X (Proc.devRef .tc main_arg9) :=
  after_of_writes_sub seg3 X seg3_writes (by decide)

/-! ## Stretch 4 -/

set_option maxHeartbeats 4000000 in
theorem s4_v307 (X : Valuation τ sig (Elt F)) :
    after seg4 X (Proc.devRef .tc main_v307) = convLoops (X (Proc.devRef .tc main_v244)) (X (Proc.devRef .tc main_arg2)) (wSlice_1_0 (X (Proc.devRef .tc main_arg6))) (bSlice_1_0 (X (Proc.devRef .tc main_arg7))) := by
  unfold seg4
  after_results_simp
  try ref_results_leftover
  unfold convLoops pass850000 edgeNorm850000 pick850000 norm deg850000 wrapped850000 zeros50000 ones50000 looped words0 words1 proj biasRows wSlice_1_0 bSlice_1_0
  rfl

/-- The buffers stretch 4 writes, one per operation, in order. -/
def wr4 : List (Ref sig .tc) :=
  [main_v246, main_v247, main_v248, main_v249, main_v250, main_v251, main_v252, main_v253, main_v254, main_v255, main_v256, main_cst_62, main_v257, main_cst_63, main_v258, main_v259, main_v260, main_cst_64, main_v261, main_v262, main_v263, main_cst_65, main_v264, main_v265, main_cst_66, main_v266, main_v267, main_v268, main_cst_67, main_call10_v0, main_call10_v1, main_v269, main_cst_68, main_v270, main_v271, main_cst_69, main_v272, main_v273, main_v274, main_cst_70, main_call11_v0, main_call11_v1, main_v275, main_c_71, main_v276, main_v277, main_c_72, main_v278, main_v279, main_v280, main_v281, main_v282, main_c_73, main_v283, main_v284, main_c_74, main_v285, main_v286, main_v287, main_v288, main_v289, main_v290, main_v291, main_c_75, main_v292, main_v293, main_c_76, main_v294, main_v295, main_v296, main_v297, main_v298, main_v299, main_v300, main_v301, main_cst_77, main_v302, main_v303, main_v304, main_v305, main_v306, main_v307]
theorem seg4_writes : (seg4 : List (HloOp τ sig (Elt F))).Forall fun op =>
    op.writes ⊆ ((wr4).map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩
theorem k4_arg0 (X : Valuation τ sig (Elt F)) : after seg4 X (Proc.devRef .tc main_arg0) = X (Proc.devRef .tc main_arg0) :=
  after_of_writes_sub seg4 X seg4_writes (by decide)
theorem k4_arg1 (X : Valuation τ sig (Elt F)) : after seg4 X (Proc.devRef .tc main_arg1) = X (Proc.devRef .tc main_arg1) :=
  after_of_writes_sub seg4 X seg4_writes (by decide)
theorem k4_arg2 (X : Valuation τ sig (Elt F)) : after seg4 X (Proc.devRef .tc main_arg2) = X (Proc.devRef .tc main_arg2) :=
  after_of_writes_sub seg4 X seg4_writes (by decide)
theorem k4_arg3 (X : Valuation τ sig (Elt F)) : after seg4 X (Proc.devRef .tc main_arg3) = X (Proc.devRef .tc main_arg3) :=
  after_of_writes_sub seg4 X seg4_writes (by decide)
theorem k4_arg4 (X : Valuation τ sig (Elt F)) : after seg4 X (Proc.devRef .tc main_arg4) = X (Proc.devRef .tc main_arg4) :=
  after_of_writes_sub seg4 X seg4_writes (by decide)
theorem k4_arg5 (X : Valuation τ sig (Elt F)) : after seg4 X (Proc.devRef .tc main_arg5) = X (Proc.devRef .tc main_arg5) :=
  after_of_writes_sub seg4 X seg4_writes (by decide)
theorem k4_arg6 (X : Valuation τ sig (Elt F)) : after seg4 X (Proc.devRef .tc main_arg6) = X (Proc.devRef .tc main_arg6) :=
  after_of_writes_sub seg4 X seg4_writes (by decide)
theorem k4_arg7 (X : Valuation τ sig (Elt F)) : after seg4 X (Proc.devRef .tc main_arg7) = X (Proc.devRef .tc main_arg7) :=
  after_of_writes_sub seg4 X seg4_writes (by decide)
theorem k4_arg8 (X : Valuation τ sig (Elt F)) : after seg4 X (Proc.devRef .tc main_arg8) = X (Proc.devRef .tc main_arg8) :=
  after_of_writes_sub seg4 X seg4_writes (by decide)
theorem k4_arg9 (X : Valuation τ sig (Elt F)) : after seg4 X (Proc.devRef .tc main_arg9) = X (Proc.devRef .tc main_arg9) :=
  after_of_writes_sub seg4 X seg4_writes (by decide)
theorem k4_v245 (X : Valuation τ sig (Elt F)) : after seg4 X (Proc.devRef .tc main_v245) = X (Proc.devRef .tc main_v245) :=
  after_of_writes_sub seg4 X seg4_writes (by decide)
theorem k4_v244 (X : Valuation τ sig (Elt F)) : after seg4 X (Proc.devRef .tc main_v244) = X (Proc.devRef .tc main_v244) :=
  after_of_writes_sub seg4 X seg4_writes (by decide)

/-! ## Stretch 5 -/

set_option maxHeartbeats 4000000 in
theorem s5_v367 (X : Valuation τ sig (Elt F)) :
    after seg5 X (Proc.devRef .tc main_v367) = addf (X (Proc.devRef .tc main_v307)) (convPlain (X (Proc.devRef .tc main_v245)) (X (Proc.devRef .tc main_arg5)) (wSlice_1_3 (X (Proc.devRef .tc main_arg6))) (bSlice_1_3 (X (Proc.devRef .tc main_arg7)))) := by
  unfold seg5
  after_results_simp
  try ref_results_leftover
  unfold convPlain pass800000 edgeNorm800000 pick800000 norm deg800000 wrapped800000 zeros50000 ones50000 words0 words1 proj biasRows wSlice_1_3 bSlice_1_3
  rfl

/-- The buffers stretch 5 writes, one per operation, in order. -/
def wr5 : List (Ref sig .tc) :=
  [main_v308, main_v309, main_v310, main_v311, main_v312, main_v313, main_v314, main_v315, main_cst_78, main_v316, main_cst_79, main_v317, main_v318, main_v319, main_cst_80, main_v320, main_v321, main_v322, main_cst_81, main_v323, main_v324, main_cst_82, main_v325, main_v326, main_v327, main_cst_83, main_call12_v0, main_call12_v1, main_v328, main_cst_84, main_v329, main_v330, main_cst_85, main_v331, main_v332, main_v333, main_cst_86, main_call13_v0, main_call13_v1, main_v334, main_c_87, main_v335, main_v336, main_c_88, main_v337, main_v338, main_v339, main_v340, main_v341, main_c_89, main_v342, main_v343, main_c_90, main_v344, main_v345, main_v346, main_v347, main_v348, main_v349, main_v350, main_c_91, main_v351, main_v352, main_c_92, main_v353, main_v354, main_v355, main_v356, main_v357, main_v358, main_v359, main_v360, main_cst_93, main_v361, main_v362, main_v363, main_v364, main_v365, main_v366, main_v367]
theorem seg5_writes : (seg5 : List (HloOp τ sig (Elt F))).Forall fun op =>
    op.writes ⊆ ((wr5).map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩
theorem k5_arg0 (X : Valuation τ sig (Elt F)) : after seg5 X (Proc.devRef .tc main_arg0) = X (Proc.devRef .tc main_arg0) :=
  after_of_writes_sub seg5 X seg5_writes (by decide)
theorem k5_arg1 (X : Valuation τ sig (Elt F)) : after seg5 X (Proc.devRef .tc main_arg1) = X (Proc.devRef .tc main_arg1) :=
  after_of_writes_sub seg5 X seg5_writes (by decide)
theorem k5_arg2 (X : Valuation τ sig (Elt F)) : after seg5 X (Proc.devRef .tc main_arg2) = X (Proc.devRef .tc main_arg2) :=
  after_of_writes_sub seg5 X seg5_writes (by decide)
theorem k5_arg3 (X : Valuation τ sig (Elt F)) : after seg5 X (Proc.devRef .tc main_arg3) = X (Proc.devRef .tc main_arg3) :=
  after_of_writes_sub seg5 X seg5_writes (by decide)
theorem k5_arg4 (X : Valuation τ sig (Elt F)) : after seg5 X (Proc.devRef .tc main_arg4) = X (Proc.devRef .tc main_arg4) :=
  after_of_writes_sub seg5 X seg5_writes (by decide)
theorem k5_arg5 (X : Valuation τ sig (Elt F)) : after seg5 X (Proc.devRef .tc main_arg5) = X (Proc.devRef .tc main_arg5) :=
  after_of_writes_sub seg5 X seg5_writes (by decide)
theorem k5_arg6 (X : Valuation τ sig (Elt F)) : after seg5 X (Proc.devRef .tc main_arg6) = X (Proc.devRef .tc main_arg6) :=
  after_of_writes_sub seg5 X seg5_writes (by decide)
theorem k5_arg7 (X : Valuation τ sig (Elt F)) : after seg5 X (Proc.devRef .tc main_arg7) = X (Proc.devRef .tc main_arg7) :=
  after_of_writes_sub seg5 X seg5_writes (by decide)
theorem k5_arg8 (X : Valuation τ sig (Elt F)) : after seg5 X (Proc.devRef .tc main_arg8) = X (Proc.devRef .tc main_arg8) :=
  after_of_writes_sub seg5 X seg5_writes (by decide)
theorem k5_arg9 (X : Valuation τ sig (Elt F)) : after seg5 X (Proc.devRef .tc main_arg9) = X (Proc.devRef .tc main_arg9) :=
  after_of_writes_sub seg5 X seg5_writes (by decide)
theorem k5_v245 (X : Valuation τ sig (Elt F)) : after seg5 X (Proc.devRef .tc main_v245) = X (Proc.devRef .tc main_v245) :=
  after_of_writes_sub seg5 X seg5_writes (by decide)
theorem k5_v244 (X : Valuation τ sig (Elt F)) : after seg5 X (Proc.devRef .tc main_v244) = X (Proc.devRef .tc main_v244) :=
  after_of_writes_sub seg5 X seg5_writes (by decide)

end Cert.ReferenceIdeal.RefValue

end
-- ==== Proof.RefBack2.lean ====
/-
  The reference's run read back, stretches 6, 7, 8 of nine, over a GENERIC valuation X: the buffer a stretch
  computes is the stage function of X at the buffers it reads (s<k>_<buffer>); a buffer it does not write is X there
  (k<k>_<buffer>: the stretch's operations write the buffers of wr<k> only).
-/
import proofs.«122068_j1322849927480_2_alg».proof.Proof.RefOps
import proofs.«122068_j1322849927480_2_alg».proof.Proof.RefLayers
import proofs.«122068_j1322849927480_2_alg».proof.Proof.RefTactic

set_option maxRecDepth 8192

noncomputable section

namespace Cert.ReferenceIdeal.RefValue

open Cert.ReferenceIdeal Cert.ReferenceIdeal.Gen Cert.ReferenceIdeal.ValueP Cert.ReferenceIdeal.Stage
open Idealize.ShloMosaic Idealize.ShloMosaic.TcCoe Idealize.SL.Sem Idealize.ShloMosaic.StableHlo

variable {F : FTy → Type} [FloatOps F]

/-! ## Stretch 6 -/

set_option maxHeartbeats 4000000 in
theorem s6_v429 (X : Valuation τ sig (Elt F)) :
    after seg6 X (Proc.devRef .tc main_v429) = convLoops (X (Proc.devRef .tc main_v245)) (X (Proc.devRef .tc main_arg3)) (wSlice_1_1 (X (Proc.devRef .tc main_arg6))) (bSlice_1_1 (X (Proc.devRef .tc main_arg7))) := by
  unfold seg6
  after_results_simp
  try ref_results_leftover
  unfold convLoops pass850000 edgeNorm850000 pick850000 norm deg850000 wrapped850000 zeros50000 ones50000 looped words0 words1 proj biasRows wSlice_1_1 bSlice_1_1
  rfl

/-- The buffers stretch 6 writes, one per operation, in order. -/
def wr6 : List (Ref sig .tc) :=
  [main_v368, main_v369, main_v370, main_v371, main_v372, main_v373, main_v374, main_v375, main_v376, main_v377, main_v378, main_cst_94, main_v379, main_cst_95, main_v380, main_v381, main_v382, main_cst_96, main_v383, main_v384, main_v385, main_cst_97, main_v386, main_v387, main_cst_98, main_v388, main_v389, main_v390, main_cst_99, main_call14_v0, main_call14_v1, main_v391, main_cst_100, main_v392, main_v393, main_cst_101, main_v394, main_v395, main_v396, main_cst_102, main_call15_v0, main_call15_v1, main_v397, main_c_103, main_v398, main_v399, main_c_104, main_v400, main_v401, main_v402, main_v403, main_v404, main_c_105, main_v405, main_v406, main_c_106, main_v407, main_v408, main_v409, main_v410, main_v411, main_v412, main_v413, main_c_107, main_v414, main_v415, main_c_108, main_v416, main_v417, main_v418, main_v419, main_v420, main_v421, main_v422, main_v423, main_cst_109, main_v424, main_v425, main_v426, main_v427, main_v428, main_v429]
theorem seg6_writes : (seg6 : List (HloOp τ sig (Elt F))).Forall fun op =>
    op.writes ⊆ ((wr6).map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩
theorem k6_arg0 (X : Valuation τ sig (Elt F)) : after seg6 X (Proc.devRef .tc main_arg0) = X (Proc.devRef .tc main_arg0) :=
  after_of_writes_sub seg6 X seg6_writes (by decide)
theorem k6_arg1 (X : Valuation τ sig (Elt F)) : after seg6 X (Proc.devRef .tc main_arg1) = X (Proc.devRef .tc main_arg1) :=
  after_of_writes_sub seg6 X seg6_writes (by decide)
theorem k6_arg2 (X : Valuation τ sig (Elt F)) : after seg6 X (Proc.devRef .tc main_arg2) = X (Proc.devRef .tc main_arg2) :=
  after_of_writes_sub seg6 X seg6_writes (by decide)
theorem k6_arg3 (X : Valuation τ sig (Elt F)) : after seg6 X (Proc.devRef .tc main_arg3) = X (Proc.devRef .tc main_arg3) :=
  after_of_writes_sub seg6 X seg6_writes (by decide)
theorem k6_arg4 (X : Valuation τ sig (Elt F)) : after seg6 X (Proc.devRef .tc main_arg4) = X (Proc.devRef .tc main_arg4) :=
  after_of_writes_sub seg6 X seg6_writes (by decide)
theorem k6_arg5 (X : Valuation τ sig (Elt F)) : after seg6 X (Proc.devRef .tc main_arg5) = X (Proc.devRef .tc main_arg5) :=
  after_of_writes_sub seg6 X seg6_writes (by decide)
theorem k6_arg6 (X : Valuation τ sig (Elt F)) : after seg6 X (Proc.devRef .tc main_arg6) = X (Proc.devRef .tc main_arg6) :=
  after_of_writes_sub seg6 X seg6_writes (by decide)
theorem k6_arg7 (X : Valuation τ sig (Elt F)) : after seg6 X (Proc.devRef .tc main_arg7) = X (Proc.devRef .tc main_arg7) :=
  after_of_writes_sub seg6 X seg6_writes (by decide)
theorem k6_arg8 (X : Valuation τ sig (Elt F)) : after seg6 X (Proc.devRef .tc main_arg8) = X (Proc.devRef .tc main_arg8) :=
  after_of_writes_sub seg6 X seg6_writes (by decide)
theorem k6_arg9 (X : Valuation τ sig (Elt F)) : after seg6 X (Proc.devRef .tc main_arg9) = X (Proc.devRef .tc main_arg9) :=
  after_of_writes_sub seg6 X seg6_writes (by decide)
theorem k6_v244 (X : Valuation τ sig (Elt F)) : after seg6 X (Proc.devRef .tc main_v244) = X (Proc.devRef .tc main_v244) :=
  after_of_writes_sub seg6 X seg6_writes (by decide)
theorem k6_v367 (X : Valuation τ sig (Elt F)) : after seg6 X (Proc.devRef .tc main_v367) = X (Proc.devRef .tc main_v367) :=
  after_of_writes_sub seg6 X seg6_writes (by decide)

/-! ## Stretch 7 -/

set_option maxHeartbeats 4000000 in
theorem s7_v490 (X : Valuation τ sig (Elt F)) :
    after seg7 X (Proc.devRef .tc main_v490) = relu (X (Proc.devRef .tc main_v367)) := by
  unfold seg7
  after_results_simp
  try ref_results_leftover
  unfold relu
  rfl

set_option maxHeartbeats 4000000 in
theorem s7_v491 (X : Valuation τ sig (Elt F)) :
    after seg7 X (Proc.devRef .tc main_v491) = relu (addf (X (Proc.devRef .tc main_v429)) (convPlain (X (Proc.devRef .tc main_v244)) (X (Proc.devRef .tc main_arg4)) (wSlice_1_2 (X (Proc.devRef .tc main_arg6))) (bSlice_1_2 (X (Proc.devRef .tc main_arg7))))) := by
  unfold seg7
  after_results_simp
  try ref_results_leftover
  unfold relu convPlain pass800000 edgeNorm800000 pick800000 norm deg800000 wrapped800000 zeros50000 ones50000 words0 words1 proj biasRows wSlice_1_2 bSlice_1_2
  rfl

/-- The buffers stretch 7 writes, one per operation, in order. -/
def wr7 : List (Ref sig .tc) :=
  [main_v430, main_v431, main_v432, main_v433, main_v434, main_v435, main_v436, main_v437, main_cst_110, main_v438, main_cst_111, main_v439, main_v440, main_v441, main_cst_112, main_v442, main_v443, main_v444, main_cst_113, main_v445, main_v446, main_cst_114, main_v447, main_v448, main_v449, main_cst_115, main_call16_v0, main_call16_v1, main_v450, main_cst_116, main_v451, main_v452, main_cst_117, main_v453, main_v454, main_v455, main_cst_118, main_call17_v0, main_call17_v1, main_v456, main_c_119, main_v457, main_v458, main_c_120, main_v459, main_v460, main_v461, main_v462, main_v463, main_c_121, main_v464, main_v465, main_c_122, main_v466, main_v467, main_v468, main_v469, main_v470, main_v471, main_v472, main_c_123, main_v473, main_v474, main_c_124, main_v475, main_v476, main_v477, main_v478, main_v479, main_v480, main_v481, main_v482, main_cst_125, main_v483, main_v484, main_v485, main_v486, main_v487, main_v488, main_v489, main_call18_cst, main_call18_v0, main_v490, main_call19_cst, main_call19_v0, main_v491]
theorem seg7_writes : (seg7 : List (HloOp τ sig (Elt F))).Forall fun op =>
    op.writes ⊆ ((wr7).map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩
theorem k7_arg0 (X : Valuation τ sig (Elt F)) : after seg7 X (Proc.devRef .tc main_arg0) = X (Proc.devRef .tc main_arg0) :=
  after_of_writes_sub seg7 X seg7_writes (by decide)
theorem k7_arg1 (X : Valuation τ sig (Elt F)) : after seg7 X (Proc.devRef .tc main_arg1) = X (Proc.devRef .tc main_arg1) :=
  after_of_writes_sub seg7 X seg7_writes (by decide)
theorem k7_arg2 (X : Valuation τ sig (Elt F)) : after seg7 X (Proc.devRef .tc main_arg2) = X (Proc.devRef .tc main_arg2) :=
  after_of_writes_sub seg7 X seg7_writes (by decide)
theorem k7_arg3 (X : Valuation τ sig (Elt F)) : after seg7 X (Proc.devRef .tc main_arg3) = X (Proc.devRef .tc main_arg3) :=
  after_of_writes_sub seg7 X seg7_writes (by decide)
theorem k7_arg4 (X : Valuation τ sig (Elt F)) : after seg7 X (Proc.devRef .tc main_arg4) = X (Proc.devRef .tc main_arg4) :=
  after_of_writes_sub seg7 X seg7_writes (by decide)
theorem k7_arg5 (X : Valuation τ sig (Elt F)) : after seg7 X (Proc.devRef .tc main_arg5) = X (Proc.devRef .tc main_arg5) :=
  after_of_writes_sub seg7 X seg7_writes (by decide)
theorem k7_arg6 (X : Valuation τ sig (Elt F)) : after seg7 X (Proc.devRef .tc main_arg6) = X (Proc.devRef .tc main_arg6) :=
  after_of_writes_sub seg7 X seg7_writes (by decide)
theorem k7_arg7 (X : Valuation τ sig (Elt F)) : after seg7 X (Proc.devRef .tc main_arg7) = X (Proc.devRef .tc main_arg7) :=
  after_of_writes_sub seg7 X seg7_writes (by decide)
theorem k7_arg8 (X : Valuation τ sig (Elt F)) : after seg7 X (Proc.devRef .tc main_arg8) = X (Proc.devRef .tc main_arg8) :=
  after_of_writes_sub seg7 X seg7_writes (by decide)
theorem k7_arg9 (X : Valuation τ sig (Elt F)) : after seg7 X (Proc.devRef .tc main_arg9) = X (Proc.devRef .tc main_arg9) :=
  after_of_writes_sub seg7 X seg7_writes (by decide)

/-! ## Stretch 8 -/

set_option maxHeartbeats 4000000 in
theorem s8_v496 (X : Valuation τ sig (Elt F)) :
    after seg8 X (Proc.devRef .tc main_v496) = headOut (X (Proc.devRef .tc main_v490)) (X (Proc.devRef .tc main_arg8)) (X (Proc.devRef .tc main_arg9)) := by
  unfold seg8
  after_results_simp
  try ref_results_leftover
  unfold headOut
  rfl

set_option maxHeartbeats 4000000 in
theorem s8_v501 (X : Valuation τ sig (Elt F)) :
    after seg8 X (Proc.devRef .tc main_v501) = headOut (X (Proc.devRef .tc main_v491)) (X (Proc.devRef .tc main_arg8)) (X (Proc.devRef .tc main_arg9)) := by
  unfold seg8
  after_results_simp
  try ref_results_leftover
  unfold headOut
  rfl

/-- The buffers stretch 8 writes, one per operation, in order. -/
def wr8 : List (Ref sig .tc) :=
  [main_v492, main_v493, main_v494, main_v495, main_v496, main_v497, main_v498, main_v499, main_v500, main_v501]
theorem seg8_writes : (seg8 : List (HloOp τ sig (Elt F))).Forall fun op =>
    op.writes ⊆ ((wr8).map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩
theorem k8_arg0 (X : Valuation τ sig (Elt F)) : after seg8 X (Proc.devRef .tc main_arg0) = X (Proc.devRef .tc main_arg0) :=
  after_of_writes_sub seg8 X seg8_writes (by decide)
theorem k8_arg1 (X : Valuation τ sig (Elt F)) : after seg8 X (Proc.devRef .tc main_arg1) = X (Proc.devRef .tc main_arg1) :=
  after_of_writes_sub seg8 X seg8_writes (by decide)
theorem k8_arg2 (X : Valuation τ sig (Elt F)) : after seg8 X (Proc.devRef .tc main_arg2) = X (Proc.devRef .tc main_arg2) :=
  after_of_writes_sub seg8 X seg8_writes (by decide)
theorem k8_arg3 (X : Valuation τ sig (Elt F)) : after seg8 X (Proc.devRef .tc main_arg3) = X (Proc.devRef .tc main_arg3) :=
  after_of_writes_sub seg8 X seg8_writes (by decide)
theorem k8_arg4 (X : Valuation τ sig (Elt F)) : after seg8 X (Proc.devRef .tc main_arg4) = X (Proc.devRef .tc main_arg4) :=
  after_of_writes_sub seg8 X seg8_writes (by decide)
theorem k8_arg5 (X : Valuation τ sig (Elt F)) : after seg8 X (Proc.devRef .tc main_arg5) = X (Proc.devRef .tc main_arg5) :=
  after_of_writes_sub seg8 X seg8_writes (by decide)
theorem k8_arg6 (X : Valuation τ sig (Elt F)) : after seg8 X (Proc.devRef .tc main_arg6) = X (Proc.devRef .tc main_arg6) :=
  after_of_writes_sub seg8 X seg8_writes (by decide)
theorem k8_arg7 (X : Valuation τ sig (Elt F)) : after seg8 X (Proc.devRef .tc main_arg7) = X (Proc.devRef .tc main_arg7) :=
  after_of_writes_sub seg8 X seg8_writes (by decide)
theorem k8_arg8 (X : Valuation τ sig (Elt F)) : after seg8 X (Proc.devRef .tc main_arg8) = X (Proc.devRef .tc main_arg8) :=
  after_of_writes_sub seg8 X seg8_writes (by decide)
theorem k8_arg9 (X : Valuation τ sig (Elt F)) : after seg8 X (Proc.devRef .tc main_arg9) = X (Proc.devRef .tc main_arg9) :=
  after_of_writes_sub seg8 X seg8_writes (by decide)

end Cert.ReferenceIdeal.RefValue

end
-- ==== Proof.RefBack.lean ====
/-
  The reference's run read back: the fold of its 670 operations, as nine stretches in a row, ends with the two result
  buffers at out1 and out2 of the launch contents of the ten arguments, and every argument as launched.

  From the launch valuation V on: a<k>_<K> says argument K is unchanged after the first k stretches; f<k>_<buffer> gives an
  intermediate buffer after the first k stretches as the stage function of the arguments.
-/
import proofs.«122068_j1322849927480_2_alg».proof.Proof.RefBack0
import proofs.«122068_j1322849927480_2_alg».proof.Proof.RefBack1
import proofs.«122068_j1322849927480_2_alg».proof.Proof.RefBack2

set_option maxRecDepth 8192

noncomputable section

namespace Cert.ReferenceIdeal.RefValue

open Cert.ReferenceIdeal Cert.ReferenceIdeal.Gen Cert.ReferenceIdeal.ValueP Cert.ReferenceIdeal.Stage
open Idealize.ShloMosaic Idealize.ShloMosaic.TcCoe Idealize.SL.Sem Idealize.ShloMosaic.StableHlo

variable {F : FTy → Type} [FloatOps F]

variable (V : Valuation τ sig (Elt F))

/-! ## The arguments through the stretches -/
theorem a1_0 : (after seg0 V) (Proc.devRef .tc main_arg0) = V (Proc.devRef .tc main_arg0) := k0_arg0 V
theorem a2_0 : (after seg1 (after seg0 V)) (Proc.devRef .tc main_arg0) = V (Proc.devRef .tc main_arg0) := (k1_arg0 _).trans (a1_0 V)
theorem a3_0 : (after seg2 (after seg1 (after seg0 V))) (Proc.devRef .tc main_arg0) = V (Proc.devRef .tc main_arg0) := (k2_arg0 _).trans (a2_0 V)
theorem a4_0 : (after seg3 (after seg2 (after seg1 (after seg0 V)))) (Proc.devRef .tc main_arg0) = V (Proc.devRef .tc main_arg0) := (k3_arg0 _).trans (a3_0 V)
theorem a5_0 : (after seg4 (after seg3 (after seg2 (after seg1 (after seg0 V))))) (Proc.devRef .tc main_arg0) = V (Proc.devRef .tc main_arg0) := (k4_arg0 _).trans (a4_0 V)
theorem a6_0 : (after seg5 (after seg4 (after seg3 (after seg2 (after seg1 (after seg0 V)))))) (Proc.devRef .tc main_arg0) = V (Proc.devRef .tc main_arg0) := (k5_arg0 _).trans (a5_0 V)
theorem a7_0 : (after seg6 (after seg5 (after seg4 (after seg3 (after seg2 (after seg1 (after seg0 V))))))) (Proc.devRef .tc main_arg0) = V (Proc.devRef .tc main_arg0) := (k6_arg0 _).trans (a6_0 V)
theorem a8_0 : (after seg7 (after seg6 (after seg5 (after seg4 (after seg3 (after seg2 (after seg1 (after seg0 V)))))))) (Proc.devRef .tc main_arg0) = V (Proc.devRef .tc main_arg0) := (k7_arg0 _).trans (a7_0 V)
theorem a9_0 : (after seg8 (after seg7 (after seg6 (after seg5 (after seg4 (after seg3 (after seg2 (after seg1 (after seg0 V))))))))) (Proc.devRef .tc main_arg0) = V (Proc.devRef .tc main_arg0) := (k8_arg0 _).trans (a8_0 V)
theorem a1_1 : (after seg0 V) (Proc.devRef .tc main_arg1) = V (Proc.devRef .tc main_arg1) := k0_arg1 V
theorem a2_1 : (after seg1 (after seg0 V)) (Proc.devRef .tc main_arg1) = V (Proc.devRef .tc main_arg1) := (k1_arg1 _).trans (a1_1 V)
theorem a3_1 : (after seg2 (after seg1 (after seg0 V))) (Proc.devRef .tc main_arg1) = V (Proc.devRef .tc main_arg1) := (k2_arg1 _).trans (a2_1 V)
theorem a4_1 : (after seg3 (after seg2 (after seg1 (after seg0 V)))) (Proc.devRef .tc main_arg1) = V (Proc.devRef .tc main_arg1) := (k3_arg1 _).trans (a3_1 V)
theorem a5_1 : (after seg4 (after seg3 (after seg2 (after seg1 (after seg0 V))))) (Proc.devRef .tc main_arg1) = V (Proc.devRef .tc main_arg1) := (k4_arg1 _).trans (a4_1 V)
theorem a6_1 : (after seg5 (after seg4 (after seg3 (after seg2 (after seg1 (after seg0 V)))))) (Proc.devRef .tc main_arg1) = V (Proc.devRef .tc main_arg1) := (k5_arg1 _).trans (a5_1 V)
theorem a7_1 : (after seg6 (after seg5 (after seg4 (after seg3 (after seg2 (after seg1 (after seg0 V))))))) (Proc.devRef .tc main_arg1) = V (Proc.devRef .tc main_arg1) := (k6_arg1 _).trans (a6_1 V)
theorem a8_1 : (after seg7 (after seg6 (after seg5 (after seg4 (after seg3 (after seg2 (after seg1 (after seg0 V)))))))) (Proc.devRef .tc main_arg1) = V (Proc.devRef .tc main_arg1) := (k7_arg1 _).trans (a7_1 V)
theorem a9_1 : (after seg8 (after seg7 (after seg6 (after seg5 (after seg4 (after seg3 (after seg2 (after seg1 (after seg0 V))))))))) (Proc.devRef .tc main_arg1) = V (Proc.devRef .tc main_arg1) := (k8_arg1 _).trans (a8_1 V)
theorem a1_2 : (after seg0 V) (Proc.devRef .tc main_arg2) = V (Proc.devRef .tc main_arg2) := k0_arg2 V
theorem a2_2 : (after seg1 (after seg0 V)) (Proc.devRef .tc main_arg2) = V (Proc.devRef .tc main_arg2) := (k1_arg2 _).trans (a1_2 V)
theorem a3_2 : (after seg2 (after seg1 (after seg0 V))) (Proc.devRef .tc main_arg2) = V (Proc.devRef .tc main_arg2) := (k2_arg2 _).trans (a2_2 V)
theorem a4_2 : (after seg3 (after seg2 (after seg1 (after seg0 V)))) (Proc.devRef .tc main_arg2) = V (Proc.devRef .tc main_arg2) := (k3_arg2 _).trans (a3_2 V)
theorem a5_2 : (after seg4 (after seg3 (after seg2 (after seg1 (after seg0 V))))) (Proc.devRef .tc main_arg2) = V (Proc.devRef .tc main_arg2) := (k4_arg2 _).trans (a4_2 V)
theorem a6_2 : (after seg5 (after seg4 (after seg3 (after seg2 (after seg1 (after seg0 V)))))) (Proc.devRef .tc main_arg2) = V (Proc.devRef .tc main_arg2) := (k5_arg2 _).trans (a5_2 V)
theorem a7_2 : (after seg6 (after seg5 (after seg4 (after seg3 (after seg2 (after seg1 (after seg0 V))))))) (Proc.devRef .tc main_arg2) = V (Proc.devRef .tc main_arg2) := (k6_arg2 _).trans (a6_2 V)
theorem a8_2 : (after seg7 (after seg6 (after seg5 (after seg4 (after seg3 (after seg2 (after seg1 (after seg0 V)))))))) (Proc.devRef .tc main_arg2) = V (Proc.devRef .tc main_arg2) := (k7_arg2 _).trans (a7_2 V)
theorem a9_2 : (after seg8 (after seg7 (after seg6 (after seg5 (after seg4 (after seg3 (after seg2 (after seg1 (after seg0 V))))))))) (Proc.devRef .tc main_arg2) = V (Proc.devRef .tc main_arg2) := (k8_arg2 _).trans (a8_2 V)
theorem a1_3 : (after seg0 V) (Proc.devRef .tc main_arg3) = V (Proc.devRef .tc main_arg3) := k0_arg3 V
theorem a2_3 : (after seg1 (after seg0 V)) (Proc.devRef .tc main_arg3) = V (Proc.devRef .tc main_arg3) := (k1_arg3 _).trans (a1_3 V)
theorem a3_3 : (after seg2 (after seg1 (after seg0 V))) (Proc.devRef .tc main_arg3) = V (Proc.devRef .tc main_arg3) := (k2_arg3 _).trans (a2_3 V)
theorem a4_3 : (after seg3 (after seg2 (after seg1 (after seg0 V)))) (Proc.devRef .tc main_arg3) = V (Proc.devRef .tc main_arg3) := (k3_arg3 _).trans (a3_3 V)
theorem a5_3 : (after seg4 (after seg3 (after seg2 (after seg1 (after seg0 V))))) (Proc.devRef .tc main_arg3) = V (Proc.devRef .tc main_arg3) := (k4_arg3 _).trans (a4_3 V)
theorem a6_3 : (after seg5 (after seg4 (after seg3 (after seg2 (after seg1 (after seg0 V)))))) (Proc.devRef .tc main_arg3) = V (Proc.devRef .tc main_arg3) := (k5_arg3 _).trans (a5_3 V)
theorem a7_3 : (after seg6 (after seg5 (after seg4 (after seg3 (after seg2 (after seg1 (after seg0 V))))))) (Proc.devRef .tc main_arg3) = V (Proc.devRef .tc main_arg3) := (k6_arg3 _).trans (a6_3 V)
theorem a8_3 : (after seg7 (after seg6 (after seg5 (after seg4 (after seg3 (after seg2 (after seg1 (after seg0 V)))))))) (Proc.devRef .tc main_arg3) = V (Proc.devRef .tc main_arg3) := (k7_arg3 _).trans (a7_3 V)
theorem a9_3 : (after seg8 (after seg7 (after seg6 (after seg5 (after seg4 (after seg3 (after seg2 (after seg1 (after seg0 V))))))))) (Proc.devRef .tc main_arg3) = V (Proc.devRef .tc main_arg3) := (k8_arg3 _).trans (a8_3 V)
theorem a1_4 : (after seg0 V) (Proc.devRef .tc main_arg4) = V (Proc.devRef .tc main_arg4) := k0_arg4 V
theorem a2_4 : (after seg1 (after seg0 V)) (Proc.devRef .tc main_arg4) = V (Proc.devRef .tc main_arg4) := (k1_arg4 _).trans (a1_4 V)
theorem a3_4 : (after seg2 (after seg1 (after seg0 V))) (Proc.devRef .tc main_arg4) = V (Proc.devRef .tc main_arg4) := (k2_arg4 _).trans (a2_4 V)
theorem a4_4 : (after seg3 (after seg2 (after seg1 (after seg0 V)))) (Proc.devRef .tc main_arg4) = V (Proc.devRef .tc main_arg4) := (k3_arg4 _).trans (a3_4 V)
theorem a5_4 : (after seg4 (after seg3 (after seg2 (after seg1 (after seg0 V))))) (Proc.devRef .tc main_arg4) = V (Proc.devRef .tc main_arg4) := (k4_arg4 _).trans (a4_4 V)
theorem a6_4 : (after seg5 (after seg4 (after seg3 (after seg2 (after seg1 (after seg0 V)))))) (Proc.devRef .tc main_arg4) = V (Proc.devRef .tc main_arg4) := (k5_arg4 _).trans (a5_4 V)
theorem a7_4 : (after seg6 (after seg5 (after seg4 (after seg3 (after seg2 (after seg1 (after seg0 V))))))) (Proc.devRef .tc main_arg4) = V (Proc.devRef .tc main_arg4) := (k6_arg4 _).trans (a6_4 V)
theorem a8_4 : (after seg7 (after seg6 (after seg5 (after seg4 (after seg3 (after seg2 (after seg1 (after seg0 V)))))))) (Proc.devRef .tc main_arg4) = V (Proc.devRef .tc main_arg4) := (k7_arg4 _).trans (a7_4 V)
theorem a9_4 : (after seg8 (after seg7 (after seg6 (after seg5 (after seg4 (after seg3 (after seg2 (after seg1 (after seg0 V))))))))) (Proc.devRef .tc main_arg4) = V (Proc.devRef .tc main_arg4) := (k8_arg4 _).trans (a8_4 V)
theorem a1_5 : (after seg0 V) (Proc.devRef .tc main_arg5) = V (Proc.devRef .tc main_arg5) := k0_arg5 V
theorem a2_5 : (after seg1 (after seg0 V)) (Proc.devRef .tc main_arg5) = V (Proc.devRef .tc main_arg5) := (k1_arg5 _).trans (a1_5 V)
theorem a3_5 : (after seg2 (after seg1 (after seg0 V))) (Proc.devRef .tc main_arg5) = V (Proc.devRef .tc main_arg5) := (k2_arg5 _).trans (a2_5 V)
theorem a4_5 : (after seg3 (after seg2 (after seg1 (after seg0 V)))) (Proc.devRef .tc main_arg5) = V (Proc.devRef .tc main_arg5) := (k3_arg5 _).trans (a3_5 V)
theorem a5_5 : (after seg4 (after seg3 (after seg2 (after seg1 (after seg0 V))))) (Proc.devRef .tc main_arg5) = V (Proc.devRef .tc main_arg5) := (k4_arg5 _).trans (a4_5 V)
theorem a6_5 : (after seg5 (after seg4 (after seg3 (after seg2 (after seg1 (after seg0 V)))))) (Proc.devRef .tc main_arg5) = V (Proc.devRef .tc main_arg5) := (k5_arg5 _).trans (a5_5 V)
theorem a7_5 : (after seg6 (after seg5 (after seg4 (after seg3 (after seg2 (after seg1 (after seg0 V))))))) (Proc.devRef .tc main_arg5) = V (Proc.devRef .tc main_arg5) := (k6_arg5 _).trans (a6_5 V)
theorem a8_5 : (after seg7 (after seg6 (after seg5 (after seg4 (after seg3 (after seg2 (after seg1 (after seg0 V)))))))) (Proc.devRef .tc main_arg5) = V (Proc.devRef .tc main_arg5) := (k7_arg5 _).trans (a7_5 V)
theorem a9_5 : (after seg8 (after seg7 (after seg6 (after seg5 (after seg4 (after seg3 (after seg2 (after seg1 (after seg0 V))))))))) (Proc.devRef .tc main_arg5) = V (Proc.devRef .tc main_arg5) := (k8_arg5 _).trans (a8_5 V)
theorem a1_6 : (after seg0 V) (Proc.devRef .tc main_arg6) = V (Proc.devRef .tc main_arg6) := k0_arg6 V
theorem a2_6 : (after seg1 (after seg0 V)) (Proc.devRef .tc main_arg6) = V (Proc.devRef .tc main_arg6) := (k1_arg6 _).trans (a1_6 V)
theorem a3_6 : (after seg2 (after seg1 (after seg0 V))) (Proc.devRef .tc main_arg6) = V (Proc.devRef .tc main_arg6) := (k2_arg6 _).trans (a2_6 V)
theorem a4_6 : (after seg3 (after seg2 (after seg1 (after seg0 V)))) (Proc.devRef .tc main_arg6) = V (Proc.devRef .tc main_arg6) := (k3_arg6 _).trans (a3_6 V)
theorem a5_6 : (after seg4 (after seg3 (after seg2 (after seg1 (after seg0 V))))) (Proc.devRef .tc main_arg6) = V (Proc.devRef .tc main_arg6) := (k4_arg6 _).trans (a4_6 V)
theorem a6_6 : (after seg5 (after seg4 (after seg3 (after seg2 (after seg1 (after seg0 V)))))) (Proc.devRef .tc main_arg6) = V (Proc.devRef .tc main_arg6) := (k5_arg6 _).trans (a5_6 V)
theorem a7_6 : (after seg6 (after seg5 (after seg4 (after seg3 (after seg2 (after seg1 (after seg0 V))))))) (Proc.devRef .tc main_arg6) = V (Proc.devRef .tc main_arg6) := (k6_arg6 _).trans (a6_6 V)
theorem a8_6 : (after seg7 (after seg6 (after seg5 (after seg4 (after seg3 (after seg2 (after seg1 (after seg0 V)))))))) (Proc.devRef .tc main_arg6) = V (Proc.devRef .tc main_arg6) := (k7_arg6 _).trans (a7_6 V)
theorem a9_6 : (after seg8 (after seg7 (after seg6 (after seg5 (after seg4 (after seg3 (after seg2 (after seg1 (after seg0 V))))))))) (Proc.devRef .tc main_arg6) = V (Proc.devRef .tc main_arg6) := (k8_arg6 _).trans (a8_6 V)
theorem a1_7 : (after seg0 V) (Proc.devRef .tc main_arg7) = V (Proc.devRef .tc main_arg7) := k0_arg7 V
theorem a2_7 : (after seg1 (after seg0 V)) (Proc.devRef .tc main_arg7) = V (Proc.devRef .tc main_arg7) := (k1_arg7 _).trans (a1_7 V)
theorem a3_7 : (after seg2 (after seg1 (after seg0 V))) (Proc.devRef .tc main_arg7) = V (Proc.devRef .tc main_arg7) := (k2_arg7 _).trans (a2_7 V)
theorem a4_7 : (after seg3 (after seg2 (after seg1 (after seg0 V)))) (Proc.devRef .tc main_arg7) = V (Proc.devRef .tc main_arg7) := (k3_arg7 _).trans (a3_7 V)
theorem a5_7 : (after seg4 (after seg3 (after seg2 (after seg1 (after seg0 V))))) (Proc.devRef .tc main_arg7) = V (Proc.devRef .tc main_arg7) := (k4_arg7 _).trans (a4_7 V)
theorem a6_7 : (after seg5 (after seg4 (after seg3 (after seg2 (after seg1 (after seg0 V)))))) (Proc.devRef .tc main_arg7) = V (Proc.devRef .tc main_arg7) := (k5_arg7 _).trans (a5_7 V)
theorem a7_7 : (after seg6 (after seg5 (after seg4 (after seg3 (after seg2 (after seg1 (after seg0 V))))))) (Proc.devRef .tc main_arg7) = V (Proc.devRef .tc main_arg7) := (k6_arg7 _).trans (a6_7 V)
theorem a8_7 : (after seg7 (after seg6 (after seg5 (after seg4 (after seg3 (after seg2 (after seg1 (after seg0 V)))))))) (Proc.devRef .tc main_arg7) = V (Proc.devRef .tc main_arg7) := (k7_arg7 _).trans (a7_7 V)
theorem a9_7 : (after seg8 (after seg7 (after seg6 (after seg5 (after seg4 (after seg3 (after seg2 (after seg1 (after seg0 V))))))))) (Proc.devRef .tc main_arg7) = V (Proc.devRef .tc main_arg7) := (k8_arg7 _).trans (a8_7 V)
theorem a1_8 : (after seg0 V) (Proc.devRef .tc main_arg8) = V (Proc.devRef .tc main_arg8) := k0_arg8 V
theorem a2_8 : (after seg1 (after seg0 V)) (Proc.devRef .tc main_arg8) = V (Proc.devRef .tc main_arg8) := (k1_arg8 _).trans (a1_8 V)
theorem a3_8 : (after seg2 (after seg1 (after seg0 V))) (Proc.devRef .tc main_arg8) = V (Proc.devRef .tc main_arg8) := (k2_arg8 _).trans (a2_8 V)
theorem a4_8 : (after seg3 (after seg2 (after seg1 (after seg0 V)))) (Proc.devRef .tc main_arg8) = V (Proc.devRef .tc main_arg8) := (k3_arg8 _).trans (a3_8 V)
theorem a5_8 : (after seg4 (after seg3 (after seg2 (after seg1 (after seg0 V))))) (Proc.devRef .tc main_arg8) = V (Proc.devRef .tc main_arg8) := (k4_arg8 _).trans (a4_8 V)
theorem a6_8 : (after seg5 (after seg4 (after seg3 (after seg2 (after seg1 (after seg0 V)))))) (Proc.devRef .tc main_arg8) = V (Proc.devRef .tc main_arg8) := (k5_arg8 _).trans (a5_8 V)
theorem a7_8 : (after seg6 (after seg5 (after seg4 (after seg3 (after seg2 (after seg1 (after seg0 V))))))) (Proc.devRef .tc main_arg8) = V (Proc.devRef .tc main_arg8) := (k6_arg8 _).trans (a6_8 V)
theorem a8_8 : (after seg7 (after seg6 (after seg5 (after seg4 (after seg3 (after seg2 (after seg1 (after seg0 V)))))))) (Proc.devRef .tc main_arg8) = V (Proc.devRef .tc main_arg8) := (k7_arg8 _).trans (a7_8 V)
theorem a9_8 : (after seg8 (after seg7 (after seg6 (after seg5 (after seg4 (after seg3 (after seg2 (after seg1 (after seg0 V))))))))) (Proc.devRef .tc main_arg8) = V (Proc.devRef .tc main_arg8) := (k8_arg8 _).trans (a8_8 V)
theorem a1_9 : (after seg0 V) (Proc.devRef .tc main_arg9) = V (Proc.devRef .tc main_arg9) := k0_arg9 V
theorem a2_9 : (after seg1 (after seg0 V)) (Proc.devRef .tc main_arg9) = V (Proc.devRef .tc main_arg9) := (k1_arg9 _).trans (a1_9 V)
theorem a3_9 : (after seg2 (after seg1 (after seg0 V))) (Proc.devRef .tc main_arg9) = V (Proc.devRef .tc main_arg9) := (k2_arg9 _).trans (a2_9 V)
theorem a4_9 : (after seg3 (after seg2 (after seg1 (after seg0 V)))) (Proc.devRef .tc main_arg9) = V (Proc.devRef .tc main_arg9) := (k3_arg9 _).trans (a3_9 V)
theorem a5_9 : (after seg4 (after seg3 (after seg2 (after seg1 (after seg0 V))))) (Proc.devRef .tc main_arg9) = V (Proc.devRef .tc main_arg9) := (k4_arg9 _).trans (a4_9 V)
theorem a6_9 : (after seg5 (after seg4 (after seg3 (after seg2 (after seg1 (after seg0 V)))))) (Proc.devRef .tc main_arg9) = V (Proc.devRef .tc main_arg9) := (k5_arg9 _).trans (a5_9 V)
theorem a7_9 : (after seg6 (after seg5 (after seg4 (after seg3 (after seg2 (after seg1 (after seg0 V))))))) (Proc.devRef .tc main_arg9) = V (Proc.devRef .tc main_arg9) := (k6_arg9 _).trans (a6_9 V)
theorem a8_9 : (after seg7 (after seg6 (after seg5 (after seg4 (after seg3 (after seg2 (after seg1 (after seg0 V)))))))) (Proc.devRef .tc main_arg9) = V (Proc.devRef .tc main_arg9) := (k7_arg9 _).trans (a7_9 V)
theorem a9_9 : (after seg8 (after seg7 (after seg6 (after seg5 (after seg4 (after seg3 (after seg2 (after seg1 (after seg0 V))))))))) (Proc.devRef .tc main_arg9) = V (Proc.devRef .tc main_arg9) := (k8_arg9 _).trans (a8_9 V)

/-! ## The intermediate buffers -/

theorem f1_v61 : (after seg0 V) (Proc.devRef .tc main_v61) = convLoops (V (Proc.devRef .tc main_arg0)) (V (Proc.devRef .tc main_arg2)) (wSlice_0_0 (V (Proc.devRef .tc main_arg6))) (bSlice_0_0 (V (Proc.devRef .tc main_arg7))) := s0_v61 V
theorem f2_v121 : (after seg1 (after seg0 V)) (Proc.devRef .tc main_v121) = sumD0 (V (Proc.devRef .tc main_arg0)) (V (Proc.devRef .tc main_arg1)) (V (Proc.devRef .tc main_arg2)) (V (Proc.devRef .tc main_arg5)) (V (Proc.devRef .tc main_arg6)) (V (Proc.devRef .tc main_arg7)) := by
  rw [s1_v121, f1_v61 V, a1_1 V, a1_5 V, a1_6 V, a1_7 V]
  rfl
theorem f3_v121 : (after seg2 (after seg1 (after seg0 V))) (Proc.devRef .tc main_v121) = sumD0 (V (Proc.devRef .tc main_arg0)) (V (Proc.devRef .tc main_arg1)) (V (Proc.devRef .tc main_arg2)) (V (Proc.devRef .tc main_arg5)) (V (Proc.devRef .tc main_arg6)) (V (Proc.devRef .tc main_arg7)) :=
  (k2_v121 _).trans (f2_v121 V)
theorem f3_v183 : (after seg2 (after seg1 (after seg0 V))) (Proc.devRef .tc main_v183) = convLoops (V (Proc.devRef .tc main_arg1)) (V (Proc.devRef .tc main_arg3)) (wSlice_0_1 (V (Proc.devRef .tc main_arg6))) (bSlice_0_1 (V (Proc.devRef .tc main_arg7))) := by
  rw [s2_v183, a2_1 V, a2_3 V, a2_6 V, a2_7 V]
theorem f4_v244 : (after seg3 (after seg2 (after seg1 (after seg0 V)))) (Proc.devRef .tc main_v244) = hidD (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [s3_v244, f3_v121 V]
  rfl
theorem f4_v245 : (after seg3 (after seg2 (after seg1 (after seg0 V)))) (Proc.devRef .tc main_v245) = hidS (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [s3_v245, f3_v183 V, a3_0 V, a3_4 V, a3_6 V, a3_7 V]
  rfl
theorem f5_v307 : (after seg4 (after seg3 (after seg2 (after seg1 (after seg0 V))))) (Proc.devRef .tc main_v307) = convLoops (hidD (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) (V (Proc.devRef .tc main_arg2)) (wSlice_1_0 (V (Proc.devRef .tc main_arg6))) (bSlice_1_0 (V (Proc.devRef .tc main_arg7))) := by
  rw [s4_v307, f4_v244 V, a4_2 V, a4_6 V, a4_7 V]
theorem f5_v244 : (after seg4 (after seg3 (after seg2 (after seg1 (after seg0 V))))) (Proc.devRef .tc main_v244) = hidD (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (k4_v244 _).trans (f4_v244 V)
theorem f5_v245 : (after seg4 (after seg3 (after seg2 (after seg1 (after seg0 V))))) (Proc.devRef .tc main_v245) = hidS (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (k4_v245 _).trans (f4_v245 V)
theorem f6_v367 : (after seg5 (after seg4 (after seg3 (after seg2 (after seg1 (after seg0 V)))))) (Proc.devRef .tc main_v367) = sumD1 (hidD (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) (hidS (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) (V (Proc.devRef .tc main_arg2)) (V (Proc.devRef .tc main_arg5)) (V (Proc.devRef .tc main_arg6)) (V (Proc.devRef .tc main_arg7)) := by
  rw [s5_v367, f5_v307 V, f5_v245 V, a5_5 V, a5_6 V, a5_7 V]
  rfl
theorem f6_v244 : (after seg5 (after seg4 (after seg3 (after seg2 (after seg1 (after seg0 V)))))) (Proc.devRef .tc main_v244) = hidD (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (k5_v244 _).trans (f5_v244 V)
theorem f6_v245 : (after seg5 (after seg4 (after seg3 (after seg2 (after seg1 (after seg0 V)))))) (Proc.devRef .tc main_v245) = hidS (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (k5_v245 _).trans (f5_v245 V)
theorem f7_v429 : (after seg6 (after seg5 (after seg4 (after seg3 (after seg2 (after seg1 (after seg0 V))))))) (Proc.devRef .tc main_v429) = convLoops (hidS (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) (V (Proc.devRef .tc main_arg3)) (wSlice_1_1 (V (Proc.devRef .tc main_arg6))) (bSlice_1_1 (V (Proc.devRef .tc main_arg7))) := by
  rw [s6_v429, f6_v245 V, a6_3 V, a6_6 V, a6_7 V]
theorem f7_v367 : (after seg6 (after seg5 (after seg4 (after seg3 (after seg2 (after seg1 (after seg0 V))))))) (Proc.devRef .tc main_v367) = sumD1 (hidD (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) (hidS (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) (V (Proc.devRef .tc main_arg2)) (V (Proc.devRef .tc main_arg5)) (V (Proc.devRef .tc main_arg6)) (V (Proc.devRef .tc main_arg7)) :=
  (k6_v367 _).trans (f6_v367 V)
theorem f7_v244 : (after seg6 (after seg5 (after seg4 (after seg3 (after seg2 (after seg1 (after seg0 V))))))) (Proc.devRef .tc main_v244) = hidD (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (k6_v244 _).trans (f6_v244 V)
theorem f8_v490 : (after seg7 (after seg6 (after seg5 (after seg4 (after seg3 (after seg2 (after seg1 (after seg0 V)))))))) (Proc.devRef .tc main_v490) = relu (sumD1 (hidD (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) (hidS (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) (V (Proc.devRef .tc main_arg2)) (V (Proc.devRef .tc main_arg5)) (V (Proc.devRef .tc main_arg6)) (V (Proc.devRef .tc main_arg7))) := by
  rw [s7_v490, f7_v367 V]
theorem f8_v491 : (after seg7 (after seg6 (after seg5 (after seg4 (after seg3 (after seg2 (after seg1 (after seg0 V)))))))) (Proc.devRef .tc main_v491) = relu (sumS1 (hidD (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) (hidS (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) (V (Proc.devRef .tc main_arg3)) (V (Proc.devRef .tc main_arg4)) (V (Proc.devRef .tc main_arg6)) (V (Proc.devRef .tc main_arg7))) := by
  rw [s7_v491, f7_v429 V, f7_v244 V, a7_4 V, a7_6 V, a7_7 V]
  rfl

/-! ## The whole fold -/

theorem ops_after : after (ops : List (HloOp τ sig (Elt F))) V = (after seg8 (after seg7 (after seg6 (after seg5 (after seg4 (after seg3 (after seg2 (after seg1 (after seg0 V))))))))) := by
  unfold ops
  rw [after_append, after_append, after_append, after_append, after_append, after_append, after_append, after_append]

theorem back_v496 : after (ops : List (HloOp τ sig (Elt F))) V (Proc.devRef .tc main_v496) = out1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  rw [ops_after, s8_v496, f8_v490 V, a8_8 V, a8_9 V]
  rfl
theorem back_v501 : after (ops : List (HloOp τ sig (Elt F))) V (Proc.devRef .tc main_v501) = out2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  rw [ops_after, s8_v501, f8_v491 V, a8_8 V, a8_9 V]
  rfl
theorem back_arg0 : after (ops : List (HloOp τ sig (Elt F))) V (Proc.devRef .tc main_arg0) = V (Proc.devRef .tc main_arg0) := by
  rw [ops_after]; exact a9_0 V
theorem back_arg1 : after (ops : List (HloOp τ sig (Elt F))) V (Proc.devRef .tc main_arg1) = V (Proc.devRef .tc main_arg1) := by
  rw [ops_after]; exact a9_1 V
theorem back_arg2 : after (ops : List (HloOp τ sig (Elt F))) V (Proc.devRef .tc main_arg2) = V (Proc.devRef .tc main_arg2) := by
  rw [ops_after]; exact a9_2 V
theorem back_arg3 : after (ops : List (HloOp τ sig (Elt F))) V (Proc.devRef .tc main_arg3) = V (Proc.devRef .tc main_arg3) := by
  rw [ops_after]; exact a9_3 V
theorem back_arg4 : after (ops : List (HloOp τ sig (Elt F))) V (Proc.devRef .tc main_arg4) = V (Proc.devRef .tc main_arg4) := by
  rw [ops_after]; exact a9_4 V
theorem back_arg5 : after (ops : List (HloOp τ sig (Elt F))) V (Proc.devRef .tc main_arg5) = V (Proc.devRef .tc main_arg5) := by
  rw [ops_after]; exact a9_5 V
theorem back_arg6 : after (ops : List (HloOp τ sig (Elt F))) V (Proc.devRef .tc main_arg6) = V (Proc.devRef .tc main_arg6) := by
  rw [ops_after]; exact a9_6 V
theorem back_arg7 : after (ops : List (HloOp τ sig (Elt F))) V (Proc.devRef .tc main_arg7) = V (Proc.devRef .tc main_arg7) := by
  rw [ops_after]; exact a9_7 V
theorem back_arg8 : after (ops : List (HloOp τ sig (Elt F))) V (Proc.devRef .tc main_arg8) = V (Proc.devRef .tc main_arg8) := by
  rw [ops_after]; exact a9_8 V
theorem back_arg9 : after (ops : List (HloOp τ sig (Elt F))) V (Proc.devRef .tc main_arg9) = V (Proc.devRef .tc main_arg9) := by
  rw [ops_after]; exact a9_9 V

end Cert.ReferenceIdeal.RefValue

end
-- ==== Proof.RefReadsA.lean ====
/-
  The reference's layout stages and pointwise stages read at an index.

  An edge list's row q read at edge e is the word ei[q, e]; the list with the self loops appended is
  GraphSpec.withLoops; the wrapped word is GraphSpec.wrap; the normalisation of a degree array is
  GraphSpec.dinvOf of the degree, node by node; a bias vector as rows reads the vector at the column; the projection
  is the sum over the contracted axis.
-/
import proofs.«122068_j1322849927480_2_alg».proof.Proof.RefStages
import proofs.«122068_j1322849927480_2_alg».proof.Proof.GraphSpec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

open scoped BigOperators

namespace Cert.ReferenceIdeal.Stage

open Idealize.ShloMosaic Idealize.ShloMosaic.ValueIdx Cert.ReferenceIdeal Cert.ReferenceIdeal.Gen

/-! ## The edge words -/

theorem words0_apply (ei : IVec S2x800000 32) (e : Fin 800000) : words0 ei (ix1 e) = ei (ix2 0 e) := by
  unfold words0
  rw [shapeCast_1a_a_apply]
  exact slice2_axis0_apply 0 ei _ 0 e 0 rfl

theorem words1_apply (ei : IVec S2x800000 32) (e : Fin 800000) : words1 ei (ix1 e) = ei (ix2 1 e) := by
  unfold words1
  rw [shapeCast_1a_a_apply]
  exact slice2_axis0_apply 1 ei _ 0 e 1 rfl

/-- The list with the node numbers appended, read at an edge. -/
theorem looped_apply (w : IVec S800000 32) (e : Fin 850000) :
    looped w (ix1 e) = GraphSpec.withLoops (fun e => w (ix1 e)) e := by
  unfold looped GraphSpec.withLoops
  by_cases h : e.val < 800000
  · rw [dif_pos h]
    exact concatenate_pair_apply_left _ w _ _ (ix1 e) rfl (ix1 ⟨e.val, h⟩) (fun b => match b with | ⟨0, _⟩ => rfl)
  · rw [dif_neg h]
    have h2 : e.val - 800000 < 50000 := by have := e.isLt; omega
    refine (concatenate_pair_apply_right (s₂ := S50000) _ w _ _ (ix1 e) rfl rfl (ix1 (n := 50000) ⟨e.val - 800000, h2⟩)
      (fun b hb => ?_) ?_).trans ?_
    · have hb1 : b.val < 1 := b.isLt
      exact absurd (Fin.ext (by show b.val = 0; omega)) hb
    · show (e.val - 800000) + 800000 = e.val
      omega
    · rfl

/-! ## The wrapped start words -/

theorem wrapped850000_apply (r : IVec S850000 32) (e : Fin 850000) : wrapped850000 r (ix1 e) = GraphSpec.wrap (r (ix1 e)) := by
  unfold wrapped850000 GraphSpec.wrap
  rw [select_apply]
  show Scalar.select (BitVec.ofBool ((r (ix1 e)).slt 0#32)) (r (ix1 e) + 50000#32) (r (ix1 e)) = _
  cases (r (ix1 e)).slt 0#32
  · rw [show BitVec.ofBool false = 0#1 from rfl, select_zero]; simp
  · rw [show BitVec.ofBool true = 1#1 from rfl, select_one]; simp

theorem wrapped800000_apply (r : IVec S800000 32) (e : Fin 800000) : wrapped800000 r (ix1 e) = GraphSpec.wrap (r (ix1 e)) := by
  unfold wrapped800000 GraphSpec.wrap
  rw [select_apply]
  show Scalar.select (BitVec.ofBool ((r (ix1 e)).slt 0#32)) (r (ix1 e) + 50000#32) (r (ix1 e)) = _
  cases (r (ix1 e)).slt 0#32
  · rw [show BitVec.ofBool false = 0#1 from rfl, select_zero]; simp
  · rw [show BitVec.ofBool true = 1#1 from rfl, select_one]; simp

/-! ## The normalisation of a degree array -/

theorem norm_apply (d : FVec Ideal S50000 .f32) (u : Fin 50000) :
    Stage.norm (F := Ideal) d (ix1 u) = GraphSpec.dinvOf (d (ix1 u)) := by
  unfold Stage.norm GraphSpec.dinvOf
  rw [select_apply]
  show Scalar.select (BitVec.ofBool (decide (GraphSpec.zero32 < d (ix1 u)))) (Ideal.rsqrt (max (d (ix1 u)) GraphSpec.one32))
    GraphSpec.zero32 = _
  by_cases h : GraphSpec.zero32 < d (ix1 u)
  · rw [if_pos h, decide_eq_true h, show BitVec.ofBool true = 1#1 from rfl, select_one]
  · rw [if_neg h, decide_eq_false h, show BitVec.ofBool false = 0#1 from rfl, select_zero]

/-! ## The bias rows and the projection -/

theorem biasRows_apply (b : FVec Ideal S128 .f32) (v : Fin 50000) (j : Fin 128) : biasRows (F := Ideal) b (ix2 v j) = b (ix1 j) := by
  unfold biasRows
  rw [broadcastInDim_apply _ bcast_S1x128_S50000x128_0_1 _ (ix2 v j) (ix2 (0 : Fin 1) j) (fun a => match a with
    | ⟨0, _⟩ => by show 0 = if (1 : Nat) = 1 then 0 else v.val; rw [if_pos rfl]
    | ⟨1, _⟩ => by show j.val = if (128 : Nat) = 1 then 0 else j.val; rw [if_neg (by decide)])]
  exact broadcastInDim_apply _ bcast_S128_S1x128_1 b (ix2 (0 : Fin 1) j) (ix1 j) (fun a => match a with
    | ⟨0, _⟩ => by show j.val = if (128 : Nat) = 1 then 0 else j.val; rw [if_neg (by decide)])

/-- The projection at (u, j): the sum over the contracted axis. -/
theorem proj_apply (x : FVec Ideal S50000x128 .f32) (W : FVec Ideal S128x128 .f32) (u : Fin 50000) (j : Fin 128) :
    proj (F := Ideal) x W (ix2 u j) = ∑ k : Fin 128, x (ix2 u k) * W (ix2 k j) := by
  unfold proj
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx (ix2 u j) ((ValueIdx.contrEquiv1 dot_S50000x128_S128x128_S50000x128_1_0_0_1_n_n 128 rfl rfl).symm k) = ix2 u k := funext fun a => Fin.ext (by
    match a with
    | ⟨0, _⟩ =>
      show (dot_S50000x128_S128x128_S50000x128_1_0_0_1_n_n.lhsIdx (ix2 u j) _ 0).val = u.val
      unfold DotDims.lhsIdx
      rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
      rfl
    | ⟨1, _⟩ => exact (dot_S50000x128_S128x128_S50000x128_1_0_0_1_n_n.lhsIdx_val_of_single rfl (ix2 u j) _).trans hk)
  have er : dot_S50000x128_S128x128_S50000x128_1_0_0_1_n_n.rhsIdx (ix2 u j) ((ValueIdx.contrEquiv1 dot_S50000x128_S128x128_S50000x128_1_0_0_1_n_n 128 rfl rfl).symm k) = ix2 k j := funext fun a => Fin.ext (by
    match a with
    | ⟨0, _⟩ => exact (dot_S50000x128_S128x128_S50000x128_1_0_0_1_n_n.rhsIdx_val_of_single rfl (ix2 u j) _).trans hk
    | ⟨1, _⟩ =>
      show (dot_S50000x128_S128x128_S50000x128_1_0_0_1_n_n.rhsIdx (ix2 u j) _ 1).val = j.val
      unfold DotDims.rhsIdx
      rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
      rfl)
  rw [el, er]

end Cert.ReferenceIdeal.Stage

end
-- ==== Proof.RefReadsB.lean ====
/-
  The reference's degree, normalisation, gather and scatter stages read at an index, and with them one relation's
  convolution: at node v and feature j it is GraphSpec.gcnRef of the relation's source and destination words, the
  features, the weight matrix and the bias.
-/
import proofs.«122068_j1322849927480_2_alg».proof.Proof.RefReadsA
import proofs.«122068_j1322849927480_2_alg».proof.Proof.LibEdgeScatter

noncomputable section

open scoped BigOperators

namespace Cert.ReferenceIdeal.Stage

open Idealize.ShloMosaic Idealize.ShloMosaic.ValueIdx Cert.ReferenceIdeal Cert.ReferenceIdeal.Gen

open Idealize.ShloMosaic.EdgeScatter

/-! ## The lists of 850000 words -/

theorem bcol850000_apply {α : Type} (y : S850000.Idx → α) (e : Fin 850000) :
    broadcastInDim S850000x1 ![0] bcast_S850000_S850000x1_0 y (ix2 e (0 : Fin 1)) = y (ix1 e) :=
  broadcastInDim_apply _ bcast_S850000_S850000x1_0 y (ix2 e (0 : Fin 1)) (ix1 e) (fun a => match a with
    | ⟨0, _⟩ => by show e.val = if (850000 : Nat) = 1 then 0 else e.val; rw [if_neg (by decide)])

theorem brow850000_apply {α : Type} (y : S850000.Idx → α) (e : Fin 850000) (j : Fin 128) :
    broadcastInDim S850000x128 ![0, 1] bcast_S850000x1_S850000x128_0_1
      (broadcastInDim S850000x1 ![0] bcast_S850000_S850000x1_0 y) (ix2 e j) = y (ix1 e) := by
  rw [broadcastInDim_apply _ bcast_S850000x1_S850000x128_0_1 _ (ix2 e j) (ix2 e (0 : Fin 1)) (fun a => match a with
    | ⟨0, _⟩ => by show e.val = if (850000 : Nat) = 1 then 0 else e.val; rw [if_neg (by decide)]
    | ⟨1, _⟩ => by show 0 = if (1 : Nat) = 1 then 0 else j.val; rw [if_pos rfl])]
  exact bcol850000_apply y e

/-- A node's degree in a list: the number of its words landing on the node. -/
theorem deg850000_apply (idx : IVec S850000 32) (u : Fin 50000) :
    deg850000 (F := Ideal) idx (ix1 u) = GraphSpec.deg (fun e => idx (ix1 e)) u := by
  unfold deg850000 GraphSpec.deg
  have hwf : ScatterDims.WF ⟨1, ![50000]⟩ ⟨2, ![850000, 1]⟩ ⟨1, ![850000]⟩ [] [0] [0] 1 :=
    scatter_S50000_S850000x1_S850000_n_0_0_1_wf
  have hs : scatter_S50000_S850000x1_S850000_n_0_0_1 = scatFlat 50000 850000 hwf := rfl
  rw [hs, scatterAdd_flat_apply]
  refine congrArg₂ (· + ·) rfl (Finset.sum_congr ?_ fun e _ => rfl)
  ext e
  rw [Finset.mem_filter, bcol850000_apply]
  exact (Finset.mem_filter (s := Finset.univ) (p := fun e => GraphSpec.lands (idx (ix1 e)) u)).symm

/-- The start word of edge `e` as the gathers read it: the wrapped word. -/
theorem start850000_apply (w : IVec S850000 32) (e : Fin 850000) :
    broadcastInDim S850000x1 ![0] bcast_S850000_S850000x1_0 (wrapped850000 w) (ix2 e (0 : Fin 1)) = GraphSpec.wrap (w (ix1 e)) := by
  rw [bcol850000_apply, wrapped850000_apply]

/-- A per-node array read at the node a list's word names as a gather's start word. -/
theorem pick850000_apply (d : FVec Ideal S50000 .f32) (w : IVec S850000 32) (e : Fin 850000) :
    pick850000 (F := Ideal) d w (ix1 e) = d (ix1 (GraphSpec.row (w (ix1 e)))) := by
  unfold pick850000
  have hwf : GatherDims.WF ⟨1, ![50000]⟩ ⟨2, ![850000, 1]⟩ ⟨1, ![850000]⟩ [] [0] [] [0] [] 1 ![1] :=
    gather_S50000_S850000x1_S850000_n_0_n_n_0_1_1_wf
  have hg : gather_S50000_S850000x1_S850000_n_0_n_n_0_1_1 = gathFlat 50000 850000 hwf := rfl
  rw [hg, gather_flat_apply (by decide)]
  -- the gather's clamp of the wrapped word is the node the word reads
  refine congrArg d (congrArg (fun a : Fin 50000 => (ix1 a : S50000.Idx)) (Fin.ext ?_))
  show min (broadcastInDim S850000x1 ![0] bcast_S850000_S850000x1_0 (wrapped850000 w) (ix2 e (0 : Fin 1))).toInt.toNat (50000 - 1)
    = min (GraphSpec.wrap (w (ix1 e))).toInt.toNat 49999
  rw [start850000_apply]

/-- The product of the two normalisations, edge by edge. -/
theorem edgeNorm850000_apply (r c : IVec S850000 32) (e : Fin 850000) :
    edgeNorm850000 (F := Ideal) r c (ix1 e)
      = GraphSpec.dinv (fun e => r (ix1 e)) (GraphSpec.row (r (ix1 e)))
        * GraphSpec.dinv (fun e => c (ix1 e)) (GraphSpec.row (c (ix1 e))) := by
  unfold edgeNorm850000
  rw [mulf_apply, pick850000_apply, pick850000_apply, norm_apply, norm_apply, deg850000_apply, deg850000_apply]
  rfl

/-- One relation's message passing over a list of 850000 edges. -/
theorem pass850000_apply (h : FVec Ideal S50000x128 .f32) (r c : IVec S850000 32) (v : Fin 50000) (j : Fin 128) :
    pass850000 (F := Ideal) h r c (ix2 v j)
      = GraphSpec.passRef (fun e => r (ix1 e)) (fun e => c (ix1 e)) (fun u j => h (ix2 u j))
          (GraphSpec.dinv (fun e => r (ix1 e))) (GraphSpec.dinv (fun e => c (ix1 e))) v j := by
  unfold pass850000 GraphSpec.passRef
  have hswf : ScatterDims.WF ⟨2, ![50000, 128]⟩ ⟨2, ![850000, 1]⟩ ⟨2, ![850000, 128]⟩ [1] [0] [0] 1 :=
    scatter_S50000x128_S850000x1_S850000x128_1_0_0_1_wf
  have hs : scatter_S50000x128_S850000x1_S850000x128_1_0_0_1 = scatRows 50000 850000 128 hswf := rfl
  have hgwf : GatherDims.WF ⟨2, ![50000, 128]⟩ ⟨2, ![850000, 1]⟩ ⟨2, ![850000, 128]⟩ [1] [0] [] [0] [] 1 ![1, 128] :=
    gather_S50000x128_S850000x1_S850000x128_1_0_n_n_0_1_1128_wf
  have hg : gather_S50000x128_S850000x1_S850000x128_1_0_n_n_0_1_1128 = gathRows 50000 850000 128 hgwf := rfl
  rw [hs, hg, scatterAdd_rows_apply]
  refine congrArg₂ (· + ·) rfl (Finset.sum_congr ?_ fun e _ => ?_)
  · ext e
    rw [Finset.mem_filter, bcol850000_apply]
    exact (Finset.mem_filter (s := Finset.univ) (p := fun e => GraphSpec.lands (c (ix1 e)) v)).symm
  · rw [mulf_apply, brow850000_apply, edgeNorm850000_apply, gather_rows_apply (by decide)]
    refine congrArg₂ (· * ·) (congrArg h (congrArg (fun a : Fin 50000 => (ix2 a j : S50000x128.Idx)) (Fin.ext ?_))) ?_
    · show min (broadcastInDim S850000x1 ![0] bcast_S850000_S850000x1_0 (wrapped850000 r) (ix2 e (0 : Fin 1))).toInt.toNat (50000 - 1)
        = min (GraphSpec.wrap (r (ix1 e))).toInt.toNat 49999
      rw [start850000_apply]
    · rfl

/-! ## The lists of 800000 words -/

theorem bcol800000_apply {α : Type} (y : S800000.Idx → α) (e : Fin 800000) :
    broadcastInDim S800000x1 ![0] bcast_S800000_S800000x1_0 y (ix2 e (0 : Fin 1)) = y (ix1 e) :=
  broadcastInDim_apply _ bcast_S800000_S800000x1_0 y (ix2 e (0 : Fin 1)) (ix1 e) (fun a => match a with
    | ⟨0, _⟩ => by show e.val = if (800000 : Nat) = 1 then 0 else e.val; rw [if_neg (by decide)])

theorem brow800000_apply {α : Type} (y : S800000.Idx → α) (e : Fin 800000) (j : Fin 128) :
    broadcastInDim S800000x128 ![0, 1] bcast_S800000x1_S800000x128_0_1
      (broadcastInDim S800000x1 ![0] bcast_S800000_S800000x1_0 y) (ix2 e j) = y (ix1 e) := by
  rw [broadcastInDim_apply _ bcast_S800000x1_S800000x128_0_1 _ (ix2 e j) (ix2 e (0 : Fin 1)) (fun a => match a with
    | ⟨0, _⟩ => by show e.val = if (800000 : Nat) = 1 then 0 else e.val; rw [if_neg (by decide)]
    | ⟨1, _⟩ => by show 0 = if (1 : Nat) = 1 then 0 else j.val; rw [if_pos rfl])]
  exact bcol800000_apply y e

/-- A node's degree in a list: the number of its words landing on the node. -/
theorem deg800000_apply (idx : IVec S800000 32) (u : Fin 50000) :
    deg800000 (F := Ideal) idx (ix1 u) = GraphSpec.deg (fun e => idx (ix1 e)) u := by
  unfold deg800000 GraphSpec.deg
  have hwf : ScatterDims.WF ⟨1, ![50000]⟩ ⟨2, ![800000, 1]⟩ ⟨1, ![800000]⟩ [] [0] [0] 1 :=
    scatter_S50000_S800000x1_S800000_n_0_0_1_wf
  have hs : scatter_S50000_S800000x1_S800000_n_0_0_1 = scatFlat 50000 800000 hwf := rfl
  rw [hs, scatterAdd_flat_apply]
  refine congrArg₂ (· + ·) rfl (Finset.sum_congr ?_ fun e _ => rfl)
  ext e
  rw [Finset.mem_filter, bcol800000_apply]
  exact (Finset.mem_filter (s := Finset.univ) (p := fun e => GraphSpec.lands (idx (ix1 e)) u)).symm

/-- The start word of edge `e` as the gathers read it: the wrapped word. -/
theorem start800000_apply (w : IVec S800000 32) (e : Fin 800000) :
    broadcastInDim S800000x1 ![0] bcast_S800000_S800000x1_0 (wrapped800000 w) (ix2 e (0 : Fin 1)) = GraphSpec.wrap (w (ix1 e)) := by
  rw [bcol800000_apply, wrapped800000_apply]

/-- A per-node array read at the node a list's word names as a gather's start word. -/
theorem pick800000_apply (d : FVec Ideal S50000 .f32) (w : IVec S800000 32) (e : Fin 800000) :
    pick800000 (F := Ideal) d w (ix1 e) = d (ix1 (GraphSpec.row (w (ix1 e)))) := by
  unfold pick800000
  have hwf : GatherDims.WF ⟨1, ![50000]⟩ ⟨2, ![800000, 1]⟩ ⟨1, ![800000]⟩ [] [0] [] [0] [] 1 ![1] :=
    gather_S50000_S800000x1_S800000_n_0_n_n_0_1_1_wf
  have hg : gather_S50000_S800000x1_S800000_n_0_n_n_0_1_1 = gathFlat 50000 800000 hwf := rfl
  rw [hg, gather_flat_apply (by decide)]
  -- the gather's clamp of the wrapped word is the node the word reads
  refine congrArg d (congrArg (fun a : Fin 50000 => (ix1 a : S50000.Idx)) (Fin.ext ?_))
  show min (broadcastInDim S800000x1 ![0] bcast_S800000_S800000x1_0 (wrapped800000 w) (ix2 e (0 : Fin 1))).toInt.toNat (50000 - 1)
    = min (GraphSpec.wrap (w (ix1 e))).toInt.toNat 49999
  rw [start800000_apply]

/-- The product of the two normalisations, edge by edge. -/
theorem edgeNorm800000_apply (r c : IVec S800000 32) (e : Fin 800000) :
    edgeNorm800000 (F := Ideal) r c (ix1 e)
      = GraphSpec.dinv (fun e => r (ix1 e)) (GraphSpec.row (r (ix1 e)))
        * GraphSpec.dinv (fun e => c (ix1 e)) (GraphSpec.row (c (ix1 e))) := by
  unfold edgeNorm800000
  rw [mulf_apply, pick800000_apply, pick800000_apply, norm_apply, norm_apply, deg800000_apply, deg800000_apply]
  rfl

/-- One relation's message passing over a list of 800000 edges. -/
theorem pass800000_apply (h : FVec Ideal S50000x128 .f32) (r c : IVec S800000 32) (v : Fin 50000) (j : Fin 128) :
    pass800000 (F := Ideal) h r c (ix2 v j)
      = GraphSpec.passRef (fun e => r (ix1 e)) (fun e => c (ix1 e)) (fun u j => h (ix2 u j))
          (GraphSpec.dinv (fun e => r (ix1 e))) (GraphSpec.dinv (fun e => c (ix1 e))) v j := by
  unfold pass800000 GraphSpec.passRef
  have hswf : ScatterDims.WF ⟨2, ![50000, 128]⟩ ⟨2, ![800000, 1]⟩ ⟨2, ![800000, 128]⟩ [1] [0] [0] 1 :=
    scatter_S50000x128_S800000x1_S800000x128_1_0_0_1_wf
  have hs : scatter_S50000x128_S800000x1_S800000x128_1_0_0_1 = scatRows 50000 800000 128 hswf := rfl
  have hgwf : GatherDims.WF ⟨2, ![50000, 128]⟩ ⟨2, ![800000, 1]⟩ ⟨2, ![800000, 128]⟩ [1] [0] [] [0] [] 1 ![1, 128] :=
    gather_S50000x128_S800000x1_S800000x128_1_0_n_n_0_1_1128_wf
  have hg : gather_S50000x128_S800000x1_S800000x128_1_0_n_n_0_1_1128 = gathRows 50000 800000 128 hgwf := rfl
  rw [hs, hg, scatterAdd_rows_apply]
  refine congrArg₂ (· + ·) rfl (Finset.sum_congr ?_ fun e _ => ?_)
  · ext e
    rw [Finset.mem_filter, bcol800000_apply]
    exact (Finset.mem_filter (s := Finset.univ) (p := fun e => GraphSpec.lands (c (ix1 e)) v)).symm
  · rw [mulf_apply, brow800000_apply, edgeNorm800000_apply, gather_rows_apply (by decide)]
    refine congrArg₂ (· * ·) (congrArg h (congrArg (fun a : Fin 50000 => (ix2 a j : S50000x128.Idx)) (Fin.ext ?_))) ?_
    · show min (broadcastInDim S800000x1 ![0] bcast_S800000_S800000x1_0 (wrapped800000 r) (ix2 e (0 : Fin 1))).toInt.toNat (50000 - 1)
        = min (GraphSpec.wrap (r (ix1 e))).toInt.toNat 49999
      rw [start800000_apply]
    · rfl

/-! ## One relation's convolution -/

theorem proj_eq (x : FVec Ideal S50000x128 .f32) (W : FVec Ideal S128x128 .f32) :
    (fun u j => proj (F := Ideal) x W (ix2 u j)) = GraphSpec.proj (fun u k => x (ix2 u k)) (fun k j => W (ix2 k j)) := by
  funext u j
  rw [proj_apply]
  rfl

theorem convLoops_apply (x : FVec Ideal S50000x128 .f32) (ei : IVec S2x800000 32) (W : FVec Ideal S128x128 .f32)
    (b : FVec Ideal S128 .f32) (v : Fin 50000) (j : Fin 128) :
    convLoops (F := Ideal) x ei W b (ix2 v j)
      = GraphSpec.gcnRef (GraphSpec.withLoops (fun e => ei (ix2 0 e))) (GraphSpec.withLoops (fun e => ei (ix2 1 e)))
          (fun u k => x (ix2 u k)) (fun k j => W (ix2 k j)) (fun j => b (ix1 j)) v j := by
  unfold convLoops
  rw [addf_apply, pass850000_apply, biasRows_apply]
  have e0 : (fun e => looped (words0 ei) (ix1 e)) = GraphSpec.withLoops (fun e => ei (ix2 0 e)) :=
    funext fun e => (looped_apply _ e).trans
      (congrArg (fun r => GraphSpec.withLoops r e) (funext fun e' => words0_apply ei e'))
  have e1 : (fun e => looped (words1 ei) (ix1 e)) = GraphSpec.withLoops (fun e => ei (ix2 1 e)) :=
    funext fun e => (looped_apply _ e).trans
      (congrArg (fun r => GraphSpec.withLoops r e) (funext fun e' => words1_apply ei e'))
  rw [e0, e1, proj_eq]
  rfl

theorem convPlain_apply (x : FVec Ideal S50000x128 .f32) (ei : IVec S2x800000 32) (W : FVec Ideal S128x128 .f32)
    (b : FVec Ideal S128 .f32) (v : Fin 50000) (j : Fin 128) :
    convPlain (F := Ideal) x ei W b (ix2 v j)
      = GraphSpec.gcnRef (fun e => ei (ix2 0 e)) (fun e => ei (ix2 1 e))
          (fun u k => x (ix2 u k)) (fun k j => W (ix2 k j)) (fun j => b (ix1 j)) v j := by
  unfold convPlain
  rw [addf_apply, pass800000_apply, biasRows_apply]
  have e0 : (fun e => words0 ei (ix1 e)) = (fun e => ei (ix2 0 e)) := funext fun e => words0_apply ei e
  have e1 : (fun e => words1 ei (ix1 e)) = (fun e => ei (ix2 1 e)) := funext fun e => words1_apply ei e
  rw [e0, e1, proj_eq]
  rfl

end Cert.ReferenceIdeal.Stage

end
-- ==== Proof.RefNet.lean ====
/-
  The reference's two results as functions of its ten arguments, index by index: GraphSpec.netRef of the arguments
  read as node features, edge words, weights and biases.

  A weight slice W[l, q] and a bias slice b[l, q] read the argument at (l, q, k, j) and (l, q, j); the positive part is the
  maximum with zero; the head is the contraction with the transposed head weight plus the head bias; each of the eight
  convolutions is GraphSpec.gcnRef by the stage lemmas.
-/
import proofs.«122068_j1322849927480_2_alg».proof.Proof.RefLayers
import proofs.«122068_j1322849927480_2_alg».proof.Proof.RefReadsB

noncomputable section

open scoped BigOperators

namespace Cert.ReferenceIdeal.Stage

open Idealize.ShloMosaic Idealize.ShloMosaic.ValueIdx Cert.ReferenceIdeal Cert.ReferenceIdeal.Gen

/-! ## The weight and bias slices -/

theorem wSlice_0_0_apply {F : FTy → Type} [FloatOps F] (x6 : FVec F S2x4x128x128 .f32) (k j : Fin 128) :
    wSlice_0_0 x6 (ix2 k j) = x6 (ix4 0 0 k j) := by
  unfold wSlice_0_0
  rw [shapeCast_apply _ shapeCasts_S1x1x128x128_S128x128 (ix2 k j) (ix4 (0 : Fin 1) (0 : Fin 1) k j)
    (by rewrite [Shape.rowMajor_val_four, Shape.rowMajor_val_two]
        show ((0 * 1 + 0) * 128 + k.val) * 128 + j.val = k.val * 128 + j.val; omega)]
  exact extractStridedSlice_apply ![0, 0, 0, 0] x6 slices_S2x4x128x128_S1x1x128x128_0_0_0_0
    (ix4 (0 : Fin 1) (0 : Fin 1) k j) (ix4 (0 : Fin 2) (0 : Fin 4) k j)
    (fun a => match a with
      | ⟨0, _⟩ => by show (0 : Nat) = 0 + 0; omega
      | ⟨1, _⟩ => by show (0 : Nat) = 0 + 0; omega
      | ⟨2, _⟩ => by show k.val = 0 + k.val; omega
      | ⟨3, _⟩ => by show j.val = 0 + j.val; omega)
theorem bSlice_0_0_apply {F : FTy → Type} [FloatOps F] (x7 : FVec F S2x4x128 .f32) (j : Fin 128) :
    bSlice_0_0 x7 (ix1 j) = x7 (ix3 0 0 j) := by
  unfold bSlice_0_0
  rw [shapeCast_apply _ shapeCasts_S1x1x128_S128 (ix1 j) (ix3 (0 : Fin 1) (0 : Fin 1) j)
    (by rewrite [Shape.rowMajor_val_three, Shape.rowMajor_val_one]
        show (0 * 1 + 0) * 128 + j.val = j.val; omega)]
  exact extractStridedSlice_apply ![0, 0, 0] x7 slices_S2x4x128_S1x1x128_0_0_0
    (ix3 (0 : Fin 1) (0 : Fin 1) j) (ix3 (0 : Fin 2) (0 : Fin 4) j)
    (fun a => match a with
      | ⟨0, _⟩ => by show (0 : Nat) = 0 + 0; omega
      | ⟨1, _⟩ => by show (0 : Nat) = 0 + 0; omega
      | ⟨2, _⟩ => by show j.val = 0 + j.val; omega)

theorem wSlice_0_1_apply {F : FTy → Type} [FloatOps F] (x6 : FVec F S2x4x128x128 .f32) (k j : Fin 128) :
    wSlice_0_1 x6 (ix2 k j) = x6 (ix4 0 1 k j) := by
  unfold wSlice_0_1
  rw [shapeCast_apply _ shapeCasts_S1x1x128x128_S128x128 (ix2 k j) (ix4 (0 : Fin 1) (0 : Fin 1) k j)
    (by rewrite [Shape.rowMajor_val_four, Shape.rowMajor_val_two]
        show ((0 * 1 + 0) * 128 + k.val) * 128 + j.val = k.val * 128 + j.val; omega)]
  exact extractStridedSlice_apply ![0, 1, 0, 0] x6 slices_S2x4x128x128_S1x1x128x128_0_1_0_0
    (ix4 (0 : Fin 1) (0 : Fin 1) k j) (ix4 (0 : Fin 2) (1 : Fin 4) k j)
    (fun a => match a with
      | ⟨0, _⟩ => by show (0 : Nat) = 0 + 0; omega
      | ⟨1, _⟩ => by show (1 : Nat) = 1 + 0; omega
      | ⟨2, _⟩ => by show k.val = 0 + k.val; omega
      | ⟨3, _⟩ => by show j.val = 0 + j.val; omega)
theorem bSlice_0_1_apply {F : FTy → Type} [FloatOps F] (x7 : FVec F S2x4x128 .f32) (j : Fin 128) :
    bSlice_0_1 x7 (ix1 j) = x7 (ix3 0 1 j) := by
  unfold bSlice_0_1
  rw [shapeCast_apply _ shapeCasts_S1x1x128_S128 (ix1 j) (ix3 (0 : Fin 1) (0 : Fin 1) j)
    (by rewrite [Shape.rowMajor_val_three, Shape.rowMajor_val_one]
        show (0 * 1 + 0) * 128 + j.val = j.val; omega)]
  exact extractStridedSlice_apply ![0, 1, 0] x7 slices_S2x4x128_S1x1x128_0_1_0
    (ix3 (0 : Fin 1) (0 : Fin 1) j) (ix3 (0 : Fin 2) (1 : Fin 4) j)
    (fun a => match a with
      | ⟨0, _⟩ => by show (0 : Nat) = 0 + 0; omega
      | ⟨1, _⟩ => by show (1 : Nat) = 1 + 0; omega
      | ⟨2, _⟩ => by show j.val = 0 + j.val; omega)

theorem wSlice_0_2_apply {F : FTy → Type} [FloatOps F] (x6 : FVec F S2x4x128x128 .f32) (k j : Fin 128) :
    wSlice_0_2 x6 (ix2 k j) = x6 (ix4 0 2 k j) := by
  unfold wSlice_0_2
  rw [shapeCast_apply _ shapeCasts_S1x1x128x128_S128x128 (ix2 k j) (ix4 (0 : Fin 1) (0 : Fin 1) k j)
    (by rewrite [Shape.rowMajor_val_four, Shape.rowMajor_val_two]
        show ((0 * 1 + 0) * 128 + k.val) * 128 + j.val = k.val * 128 + j.val; omega)]
  exact extractStridedSlice_apply ![0, 2, 0, 0] x6 slices_S2x4x128x128_S1x1x128x128_0_2_0_0
    (ix4 (0 : Fin 1) (0 : Fin 1) k j) (ix4 (0 : Fin 2) (2 : Fin 4) k j)
    (fun a => match a with
      | ⟨0, _⟩ => by show (0 : Nat) = 0 + 0; omega
      | ⟨1, _⟩ => by show (2 : Nat) = 2 + 0; omega
      | ⟨2, _⟩ => by show k.val = 0 + k.val; omega
      | ⟨3, _⟩ => by show j.val = 0 + j.val; omega)
theorem bSlice_0_2_apply {F : FTy → Type} [FloatOps F] (x7 : FVec F S2x4x128 .f32) (j : Fin 128) :
    bSlice_0_2 x7 (ix1 j) = x7 (ix3 0 2 j) := by
  unfold bSlice_0_2
  rw [shapeCast_apply _ shapeCasts_S1x1x128_S128 (ix1 j) (ix3 (0 : Fin 1) (0 : Fin 1) j)
    (by rewrite [Shape.rowMajor_val_three, Shape.rowMajor_val_one]
        show (0 * 1 + 0) * 128 + j.val = j.val; omega)]
  exact extractStridedSlice_apply ![0, 2, 0] x7 slices_S2x4x128_S1x1x128_0_2_0
    (ix3 (0 : Fin 1) (0 : Fin 1) j) (ix3 (0 : Fin 2) (2 : Fin 4) j)
    (fun a => match a with
      | ⟨0, _⟩ => by show (0 : Nat) = 0 + 0; omega
      | ⟨1, _⟩ => by show (2 : Nat) = 2 + 0; omega
      | ⟨2, _⟩ => by show j.val = 0 + j.val; omega)

theorem wSlice_0_3_apply {F : FTy → Type} [FloatOps F] (x6 : FVec F S2x4x128x128 .f32) (k j : Fin 128) :
    wSlice_0_3 x6 (ix2 k j) = x6 (ix4 0 3 k j) := by
  unfold wSlice_0_3
  rw [shapeCast_apply _ shapeCasts_S1x1x128x128_S128x128 (ix2 k j) (ix4 (0 : Fin 1) (0 : Fin 1) k j)
    (by rewrite [Shape.rowMajor_val_four, Shape.rowMajor_val_two]
        show ((0 * 1 + 0) * 128 + k.val) * 128 + j.val = k.val * 128 + j.val; omega)]
  exact extractStridedSlice_apply ![0, 3, 0, 0] x6 slices_S2x4x128x128_S1x1x128x128_0_3_0_0
    (ix4 (0 : Fin 1) (0 : Fin 1) k j) (ix4 (0 : Fin 2) (3 : Fin 4) k j)
    (fun a => match a with
      | ⟨0, _⟩ => by show (0 : Nat) = 0 + 0; omega
      | ⟨1, _⟩ => by show (3 : Nat) = 3 + 0; omega
      | ⟨2, _⟩ => by show k.val = 0 + k.val; omega
      | ⟨3, _⟩ => by show j.val = 0 + j.val; omega)
theorem bSlice_0_3_apply {F : FTy → Type} [FloatOps F] (x7 : FVec F S2x4x128 .f32) (j : Fin 128) :
    bSlice_0_3 x7 (ix1 j) = x7 (ix3 0 3 j) := by
  unfold bSlice_0_3
  rw [shapeCast_apply _ shapeCasts_S1x1x128_S128 (ix1 j) (ix3 (0 : Fin 1) (0 : Fin 1) j)
    (by rewrite [Shape.rowMajor_val_three, Shape.rowMajor_val_one]
        show (0 * 1 + 0) * 128 + j.val = j.val; omega)]
  exact extractStridedSlice_apply ![0, 3, 0] x7 slices_S2x4x128_S1x1x128_0_3_0
    (ix3 (0 : Fin 1) (0 : Fin 1) j) (ix3 (0 : Fin 2) (3 : Fin 4) j)
    (fun a => match a with
      | ⟨0, _⟩ => by show (0 : Nat) = 0 + 0; omega
      | ⟨1, _⟩ => by show (3 : Nat) = 3 + 0; omega
      | ⟨2, _⟩ => by show j.val = 0 + j.val; omega)

theorem wSlice_1_0_apply {F : FTy → Type} [FloatOps F] (x6 : FVec F S2x4x128x128 .f32) (k j : Fin 128) :
    wSlice_1_0 x6 (ix2 k j) = x6 (ix4 1 0 k j) := by
  unfold wSlice_1_0
  rw [shapeCast_apply _ shapeCasts_S1x1x128x128_S128x128 (ix2 k j) (ix4 (0 : Fin 1) (0 : Fin 1) k j)
    (by rewrite [Shape.rowMajor_val_four, Shape.rowMajor_val_two]
        show ((0 * 1 + 0) * 128 + k.val) * 128 + j.val = k.val * 128 + j.val; omega)]
  exact extractStridedSlice_apply ![1, 0, 0, 0] x6 slices_S2x4x128x128_S1x1x128x128_1_0_0_0
    (ix4 (0 : Fin 1) (0 : Fin 1) k j) (ix4 (1 : Fin 2) (0 : Fin 4) k j)
    (fun a => match a with
      | ⟨0, _⟩ => by show (1 : Nat) = 1 + 0; omega
      | ⟨1, _⟩ => by show (0 : Nat) = 0 + 0; omega
      | ⟨2, _⟩ => by show k.val = 0 + k.val; omega
      | ⟨3, _⟩ => by show j.val = 0 + j.val; omega)
theorem bSlice_1_0_apply {F : FTy → Type} [FloatOps F] (x7 : FVec F S2x4x128 .f32) (j : Fin 128) :
    bSlice_1_0 x7 (ix1 j) = x7 (ix3 1 0 j) := by
  unfold bSlice_1_0
  rw [shapeCast_apply _ shapeCasts_S1x1x128_S128 (ix1 j) (ix3 (0 : Fin 1) (0 : Fin 1) j)
    (by rewrite [Shape.rowMajor_val_three, Shape.rowMajor_val_one]
        show (0 * 1 + 0) * 128 + j.val = j.val; omega)]
  exact extractStridedSlice_apply ![1, 0, 0] x7 slices_S2x4x128_S1x1x128_1_0_0
    (ix3 (0 : Fin 1) (0 : Fin 1) j) (ix3 (1 : Fin 2) (0 : Fin 4) j)
    (fun a => match a with
      | ⟨0, _⟩ => by show (1 : Nat) = 1 + 0; omega
      | ⟨1, _⟩ => by show (0 : Nat) = 0 + 0; omega
      | ⟨2, _⟩ => by show j.val = 0 + j.val; omega)

theorem wSlice_1_1_apply {F : FTy → Type} [FloatOps F] (x6 : FVec F S2x4x128x128 .f32) (k j : Fin 128) :
    wSlice_1_1 x6 (ix2 k j) = x6 (ix4 1 1 k j) := by
  unfold wSlice_1_1
  rw [shapeCast_apply _ shapeCasts_S1x1x128x128_S128x128 (ix2 k j) (ix4 (0 : Fin 1) (0 : Fin 1) k j)
    (by rewrite [Shape.rowMajor_val_four, Shape.rowMajor_val_two]
        show ((0 * 1 + 0) * 128 + k.val) * 128 + j.val = k.val * 128 + j.val; omega)]
  exact extractStridedSlice_apply ![1, 1, 0, 0] x6 slices_S2x4x128x128_S1x1x128x128_1_1_0_0
    (ix4 (0 : Fin 1) (0 : Fin 1) k j) (ix4 (1 : Fin 2) (1 : Fin 4) k j)
    (fun a => match a with
      | ⟨0, _⟩ => by show (1 : Nat) = 1 + 0; omega
      | ⟨1, _⟩ => by show (1 : Nat) = 1 + 0; omega
      | ⟨2, _⟩ => by show k.val = 0 + k.val; omega
      | ⟨3, _⟩ => by show j.val = 0 + j.val; omega)
theorem bSlice_1_1_apply {F : FTy → Type} [FloatOps F] (x7 : FVec F S2x4x128 .f32) (j : Fin 128) :
    bSlice_1_1 x7 (ix1 j) = x7 (ix3 1 1 j) := by
  unfold bSlice_1_1
  rw [shapeCast_apply _ shapeCasts_S1x1x128_S128 (ix1 j) (ix3 (0 : Fin 1) (0 : Fin 1) j)
    (by rewrite [Shape.rowMajor_val_three, Shape.rowMajor_val_one]
        show (0 * 1 + 0) * 128 + j.val = j.val; omega)]
  exact extractStridedSlice_apply ![1, 1, 0] x7 slices_S2x4x128_S1x1x128_1_1_0
    (ix3 (0 : Fin 1) (0 : Fin 1) j) (ix3 (1 : Fin 2) (1 : Fin 4) j)
    (fun a => match a with
      | ⟨0, _⟩ => by show (1 : Nat) = 1 + 0; omega
      | ⟨1, _⟩ => by show (1 : Nat) = 1 + 0; omega
      | ⟨2, _⟩ => by show j.val = 0 + j.val; omega)

theorem wSlice_1_2_apply {F : FTy → Type} [FloatOps F] (x6 : FVec F S2x4x128x128 .f32) (k j : Fin 128) :
    wSlice_1_2 x6 (ix2 k j) = x6 (ix4 1 2 k j) := by
  unfold wSlice_1_2
  rw [shapeCast_apply _ shapeCasts_S1x1x128x128_S128x128 (ix2 k j) (ix4 (0 : Fin 1) (0 : Fin 1) k j)
    (by rewrite [Shape.rowMajor_val_four, Shape.rowMajor_val_two]
        show ((0 * 1 + 0) * 128 + k.val) * 128 + j.val = k.val * 128 + j.val; omega)]
  exact extractStridedSlice_apply ![1, 2, 0, 0] x6 slices_S2x4x128x128_S1x1x128x128_1_2_0_0
    (ix4 (0 : Fin 1) (0 : Fin 1) k j) (ix4 (1 : Fin 2) (2 : Fin 4) k j)
    (fun a => match a with
      | ⟨0, _⟩ => by show (1 : Nat) = 1 + 0; omega
      | ⟨1, _⟩ => by show (2 : Nat) = 2 + 0; omega
      | ⟨2, _⟩ => by show k.val = 0 + k.val; omega
      | ⟨3, _⟩ => by show j.val = 0 + j.val; omega)
theorem bSlice_1_2_apply {F : FTy → Type} [FloatOps F] (x7 : FVec F S2x4x128 .f32) (j : Fin 128) :
    bSlice_1_2 x7 (ix1 j) = x7 (ix3 1 2 j) := by
  unfold bSlice_1_2
  rw [shapeCast_apply _ shapeCasts_S1x1x128_S128 (ix1 j) (ix3 (0 : Fin 1) (0 : Fin 1) j)
    (by rewrite [Shape.rowMajor_val_three, Shape.rowMajor_val_one]
        show (0 * 1 + 0) * 128 + j.val = j.val; omega)]
  exact extractStridedSlice_apply ![1, 2, 0] x7 slices_S2x4x128_S1x1x128_1_2_0
    (ix3 (0 : Fin 1) (0 : Fin 1) j) (ix3 (1 : Fin 2) (2 : Fin 4) j)
    (fun a => match a with
      | ⟨0, _⟩ => by show (1 : Nat) = 1 + 0; omega
      | ⟨1, _⟩ => by show (2 : Nat) = 2 + 0; omega
      | ⟨2, _⟩ => by show j.val = 0 + j.val; omega)

theorem wSlice_1_3_apply {F : FTy → Type} [FloatOps F] (x6 : FVec F S2x4x128x128 .f32) (k j : Fin 128) :
    wSlice_1_3 x6 (ix2 k j) = x6 (ix4 1 3 k j) := by
  unfold wSlice_1_3
  rw [shapeCast_apply _ shapeCasts_S1x1x128x128_S128x128 (ix2 k j) (ix4 (0 : Fin 1) (0 : Fin 1) k j)
    (by rewrite [Shape.rowMajor_val_four, Shape.rowMajor_val_two]
        show ((0 * 1 + 0) * 128 + k.val) * 128 + j.val = k.val * 128 + j.val; omega)]
  exact extractStridedSlice_apply ![1, 3, 0, 0] x6 slices_S2x4x128x128_S1x1x128x128_1_3_0_0
    (ix4 (0 : Fin 1) (0 : Fin 1) k j) (ix4 (1 : Fin 2) (3 : Fin 4) k j)
    (fun a => match a with
      | ⟨0, _⟩ => by show (1 : Nat) = 1 + 0; omega
      | ⟨1, _⟩ => by show (3 : Nat) = 3 + 0; omega
      | ⟨2, _⟩ => by show k.val = 0 + k.val; omega
      | ⟨3, _⟩ => by show j.val = 0 + j.val; omega)
theorem bSlice_1_3_apply {F : FTy → Type} [FloatOps F] (x7 : FVec F S2x4x128 .f32) (j : Fin 128) :
    bSlice_1_3 x7 (ix1 j) = x7 (ix3 1 3 j) := by
  unfold bSlice_1_3
  rw [shapeCast_apply _ shapeCasts_S1x1x128_S128 (ix1 j) (ix3 (0 : Fin 1) (0 : Fin 1) j)
    (by rewrite [Shape.rowMajor_val_three, Shape.rowMajor_val_one]
        show (0 * 1 + 0) * 128 + j.val = j.val; omega)]
  exact extractStridedSlice_apply ![1, 3, 0] x7 slices_S2x4x128_S1x1x128_1_3_0
    (ix3 (0 : Fin 1) (0 : Fin 1) j) (ix3 (1 : Fin 2) (3 : Fin 4) j)
    (fun a => match a with
      | ⟨0, _⟩ => by show (1 : Nat) = 1 + 0; omega
      | ⟨1, _⟩ => by show (3 : Nat) = 3 + 0; omega
      | ⟨2, _⟩ => by show j.val = 0 + j.val; omega)

/-! ## The positive part and the head -/

theorem relu_apply (y : FVec Ideal S50000x128 .f32) (v : Fin 50000) (j : Fin 128) :
    relu (F := Ideal) y (ix2 v j) = max (y (ix2 v j)) GraphSpec.zero32 := rfl

theorem headOut_apply (y : FVec Ideal S50000x128 .f32) (x8 : FVec Ideal S64x128 .f32) (x9 : FVec Ideal S64 .f32)
    (v : Fin 50000) (o : Fin 64) :
    headOut (F := Ideal) y x8 x9 (ix2 v o) = (∑ k : Fin 128, y (ix2 v k) * x8 (ix2 o k)) + x9 (ix1 o) := by
  unfold headOut
  rw [addf_apply]
  congr 1
  · simp only [Host.dotGeneral]
    rw [Ideal.dotGeneral_apply, ← Equiv.sum_comp (ValueIdx.contrEquiv1 dot_S50000x128_S128x64_S50000x64_1_0_0_1_n_n 128 rfl rfl).symm]
    refine Finset.sum_congr rfl fun k _ => ?_
    have hk := ValueIdx.contrEquiv1_symm_val dot_S50000x128_S128x64_S50000x64_1_0_0_1_n_n 128 rfl rfl k
    have el : dot_S50000x128_S128x64_S50000x64_1_0_0_1_n_n.lhsIdx (ix2 v o) ((ValueIdx.contrEquiv1 dot_S50000x128_S128x64_S50000x64_1_0_0_1_n_n 128 rfl rfl).symm k) = ix2 v k := funext fun a => Fin.ext (by
      match a with
      | ⟨0, _⟩ =>
        show (dot_S50000x128_S128x64_S50000x64_1_0_0_1_n_n.lhsIdx (ix2 v o) _ 0).val = v.val
        unfold DotDims.lhsIdx
        rw [dif_neg (show ¬(0 : Fin S50000x128.rank) ∈ dot_S50000x128_S128x64_S50000x64_1_0_0_1_n_n.lhsBatch by decide), dif_pos (show (0 : Fin S50000x128.rank) ∈ dot_S50000x128_S128x64_S50000x64_1_0_0_1_n_n.lhsNonContracting by decide)]
        rfl
      | ⟨1, _⟩ => exact (dot_S50000x128_S128x64_S50000x64_1_0_0_1_n_n.lhsIdx_val_of_single rfl (ix2 v o) _).trans hk)
    have er : dot_S50000x128_S128x64_S50000x64_1_0_0_1_n_n.rhsIdx (ix2 v o) ((ValueIdx.contrEquiv1 dot_S50000x128_S128x64_S50000x64_1_0_0_1_n_n 128 rfl rfl).symm k) = ix2 k o := funext fun a => Fin.ext (by
      match a with
      | ⟨0, _⟩ => exact (dot_S50000x128_S128x64_S50000x64_1_0_0_1_n_n.rhsIdx_val_of_single rfl (ix2 v o) _).trans hk
      | ⟨1, _⟩ =>
        show (dot_S50000x128_S128x64_S50000x64_1_0_0_1_n_n.rhsIdx (ix2 v o) _ 1).val = o.val
        unfold DotDims.rhsIdx
        rw [dif_neg (show ¬(1 : Fin S128x64.rank) ∈ dot_S50000x128_S128x64_S50000x64_1_0_0_1_n_n.rhsBatch by decide), dif_pos (show (1 : Fin S128x64.rank) ∈ dot_S50000x128_S128x64_S50000x64_1_0_0_1_n_n.rhsNonContracting by decide)]
        rfl)
    rw [el, er]
    congr 1
    exact transpose_apply [1, 0] x8 transposes_S64x128_S128x64_1_0 (ix2 k o) (ix2 o k) (fun b => match b with
      | ⟨0, _⟩ => rfl
      | ⟨1, _⟩ => rfl)
  · rw [broadcastInDim_apply _ bcast_S1x64_S50000x64_0_1 _ (ix2 v o) (ix2 (0 : Fin 1) o) (fun a => match a with
      | ⟨0, _⟩ => by show 0 = if (1 : Nat) = 1 then 0 else v.val; rw [if_pos rfl]
      | ⟨1, _⟩ => by show o.val = if (64 : Nat) = 1 then 0 else o.val; rw [if_neg (by decide)])]
    exact broadcastInDim_apply _ bcast_S64_S1x64_1 x9 (ix2 (0 : Fin 1) o) (ix1 o) (fun a => match a with
      | ⟨0, _⟩ => by show o.val = if (64 : Nat) = 1 then 0 else o.val; rw [if_neg (by decide)])

/-! ## The arguments of the mathematics, and the layers -/

/-- The ten argument arrays read as the mathematics' arguments. -/
def argsOf (x0 x1 : FVec Ideal S50000x128 .f32) (x2 x3 x4 x5 : IVec S2x800000 32) (x6 : FVec Ideal S2x4x128x128 .f32) (x7 : FVec Ideal S2x4x128 .f32) (x8 : FVec Ideal S64x128 .f32) (x9 : FVec Ideal S64 .f32) : GraphSpec.Args where
  xd := fun u k => x0 (ix2 u k)
  xs := fun u k => x1 (ix2 u k)
  rdd := fun e => x2 (ix2 0 e)
  cdd := fun e => x2 (ix2 1 e)
  rss := fun e => x3 (ix2 0 e)
  css := fun e => x3 (ix2 1 e)
  rds := fun e => x4 (ix2 0 e)
  cds := fun e => x4 (ix2 1 e)
  rsd := fun e => x5 (ix2 0 e)
  csd := fun e => x5 (ix2 1 e)
  W := fun l q k j => x6 (ix4 l q k j)
  b := fun l q j => x7 (ix3 l q j)
  lw := fun o k => x8 (ix2 o k)
  lb := fun o => x9 (ix1 o)

theorem hidD_apply (x0 x1 : FVec Ideal S50000x128 .f32) (x2 x3 x4 x5 : IVec S2x800000 32) (x6 : FVec Ideal S2x4x128x128 .f32) (x7 : FVec Ideal S2x4x128 .f32) (x8 : FVec Ideal S64x128 .f32) (x9 : FVec Ideal S64 .f32) (v : Fin 50000) (j : Fin 128) :
    hidD (F := Ideal) x0 x1 x2 x3 x4 x5 x6 x7 (ix2 v j) = (GraphSpec.layerRef (argsOf x0 x1 x2 x3 x4 x5 x6 x7 x8 x9) 0 (argsOf x0 x1 x2 x3 x4 x5 x6 x7 x8 x9).xd (argsOf x0 x1 x2 x3 x4 x5 x6 x7 x8 x9).xs).1 v j := by
  unfold hidD sumD0
  rw [relu_apply, addf_apply, convLoops_apply, convPlain_apply]
  simp only [wSlice_0_0_apply, bSlice_0_0_apply, wSlice_0_3_apply, bSlice_0_3_apply]
  rfl

theorem hidS_apply (x0 x1 : FVec Ideal S50000x128 .f32) (x2 x3 x4 x5 : IVec S2x800000 32) (x6 : FVec Ideal S2x4x128x128 .f32) (x7 : FVec Ideal S2x4x128 .f32) (x8 : FVec Ideal S64x128 .f32) (x9 : FVec Ideal S64 .f32) (v : Fin 50000) (j : Fin 128) :
    hidS (F := Ideal) x0 x1 x2 x3 x4 x5 x6 x7 (ix2 v j) = (GraphSpec.layerRef (argsOf x0 x1 x2 x3 x4 x5 x6 x7 x8 x9) 0 (argsOf x0 x1 x2 x3 x4 x5 x6 x7 x8 x9).xd (argsOf x0 x1 x2 x3 x4 x5 x6 x7 x8 x9).xs).2 v j := by
  unfold hidS sumS0
  rw [relu_apply, addf_apply, convLoops_apply, convPlain_apply]
  simp only [wSlice_0_1_apply, bSlice_0_1_apply, wSlice_0_2_apply, bSlice_0_2_apply]
  rfl

theorem hidD_fn (x0 x1 : FVec Ideal S50000x128 .f32) (x2 x3 x4 x5 : IVec S2x800000 32) (x6 : FVec Ideal S2x4x128x128 .f32) (x7 : FVec Ideal S2x4x128 .f32) (x8 : FVec Ideal S64x128 .f32) (x9 : FVec Ideal S64 .f32) :
    (fun u k => (hidD (F := Ideal) x0 x1 x2 x3 x4 x5 x6 x7) (ix2 u k)) = (GraphSpec.layerRef (argsOf x0 x1 x2 x3 x4 x5 x6 x7 x8 x9) 0 (argsOf x0 x1 x2 x3 x4 x5 x6 x7 x8 x9).xd (argsOf x0 x1 x2 x3 x4 x5 x6 x7 x8 x9).xs).1 :=
  funext fun u => funext fun k => hidD_apply x0 x1 x2 x3 x4 x5 x6 x7 x8 x9 u k
theorem hidS_fn (x0 x1 : FVec Ideal S50000x128 .f32) (x2 x3 x4 x5 : IVec S2x800000 32) (x6 : FVec Ideal S2x4x128x128 .f32) (x7 : FVec Ideal S2x4x128 .f32) (x8 : FVec Ideal S64x128 .f32) (x9 : FVec Ideal S64 .f32) :
    (fun u k => (hidS (F := Ideal) x0 x1 x2 x3 x4 x5 x6 x7) (ix2 u k)) = (GraphSpec.layerRef (argsOf x0 x1 x2 x3 x4 x5 x6 x7 x8 x9) 0 (argsOf x0 x1 x2 x3 x4 x5 x6 x7 x8 x9).xd (argsOf x0 x1 x2 x3 x4 x5 x6 x7 x8 x9).xs).2 :=
  funext fun u => funext fun k => hidS_apply x0 x1 x2 x3 x4 x5 x6 x7 x8 x9 u k

theorem hid_eq (x0 x1 : FVec Ideal S50000x128 .f32) (x2 x3 x4 x5 : IVec S2x800000 32) (x6 : FVec Ideal S2x4x128x128 .f32) (x7 : FVec Ideal S2x4x128 .f32) (x8 : FVec Ideal S64x128 .f32) (x9 : FVec Ideal S64 .f32) :
    (fun u k => (hidD (F := Ideal) x0 x1 x2 x3 x4 x5 x6 x7) (ix2 u k)) = (GraphSpec.layerRef (argsOf x0 x1 x2 x3 x4 x5 x6 x7 x8 x9) 0 (argsOf x0 x1 x2 x3 x4 x5 x6 x7 x8 x9).xd (argsOf x0 x1 x2 x3 x4 x5 x6 x7 x8 x9).xs).1 ∧ (fun u k => (hidS (F := Ideal) x0 x1 x2 x3 x4 x5 x6 x7) (ix2 u k)) = (GraphSpec.layerRef (argsOf x0 x1 x2 x3 x4 x5 x6 x7 x8 x9) 0 (argsOf x0 x1 x2 x3 x4 x5 x6 x7 x8 x9).xd (argsOf x0 x1 x2 x3 x4 x5 x6 x7 x8 x9).xs).2 :=
  ⟨hidD_fn x0 x1 x2 x3 x4 x5 x6 x7 x8 x9, hidS_fn x0 x1 x2 x3 x4 x5 x6 x7 x8 x9⟩

theorem lastD_apply (x0 x1 : FVec Ideal S50000x128 .f32) (x2 x3 x4 x5 : IVec S2x800000 32) (x6 : FVec Ideal S2x4x128x128 .f32) (x7 : FVec Ideal S2x4x128 .f32) (x8 : FVec Ideal S64x128 .f32) (x9 : FVec Ideal S64 .f32) (v : Fin 50000) (j : Fin 128) :
    relu (sumD1 (hidD (F := Ideal) x0 x1 x2 x3 x4 x5 x6 x7) (hidS (F := Ideal) x0 x1 x2 x3 x4 x5 x6 x7) x2 x5 x6 x7) (ix2 v j)
      = (GraphSpec.layerRef (argsOf x0 x1 x2 x3 x4 x5 x6 x7 x8 x9) 1 (GraphSpec.layerRef (argsOf x0 x1 x2 x3 x4 x5 x6 x7 x8 x9) 0 (argsOf x0 x1 x2 x3 x4 x5 x6 x7 x8 x9).xd (argsOf x0 x1 x2 x3 x4 x5 x6 x7 x8 x9).xs).1 (GraphSpec.layerRef (argsOf x0 x1 x2 x3 x4 x5 x6 x7 x8 x9) 0 (argsOf x0 x1 x2 x3 x4 x5 x6 x7 x8 x9).xd (argsOf x0 x1 x2 x3 x4 x5 x6 x7 x8 x9).xs).2).1 v j := by
  unfold sumD1
  rw [relu_apply, addf_apply, convLoops_apply, convPlain_apply]
  simp only [wSlice_1_0_apply, bSlice_1_0_apply, wSlice_1_3_apply, bSlice_1_3_apply]
  rw [hidD_fn x0 x1 x2 x3 x4 x5 x6 x7 x8 x9, hidS_fn x0 x1 x2 x3 x4 x5 x6 x7 x8 x9]
  rfl

theorem lastS_apply (x0 x1 : FVec Ideal S50000x128 .f32) (x2 x3 x4 x5 : IVec S2x800000 32) (x6 : FVec Ideal S2x4x128x128 .f32) (x7 : FVec Ideal S2x4x128 .f32) (x8 : FVec Ideal S64x128 .f32) (x9 : FVec Ideal S64 .f32) (v : Fin 50000) (j : Fin 128) :
    relu (sumS1 (hidD (F := Ideal) x0 x1 x2 x3 x4 x5 x6 x7) (hidS (F := Ideal) x0 x1 x2 x3 x4 x5 x6 x7) x3 x4 x6 x7) (ix2 v j)
      = (GraphSpec.layerRef (argsOf x0 x1 x2 x3 x4 x5 x6 x7 x8 x9) 1 (GraphSpec.layerRef (argsOf x0 x1 x2 x3 x4 x5 x6 x7 x8 x9) 0 (argsOf x0 x1 x2 x3 x4 x5 x6 x7 x8 x9).xd (argsOf x0 x1 x2 x3 x4 x5 x6 x7 x8 x9).xs).1 (GraphSpec.layerRef (argsOf x0 x1 x2 x3 x4 x5 x6 x7 x8 x9) 0 (argsOf x0 x1 x2 x3 x4 x5 x6 x7 x8 x9).xd (argsOf x0 x1 x2 x3 x4 x5 x6 x7 x8 x9).xs).2).2 v j := by
  unfold sumS1
  rw [relu_apply, addf_apply, convLoops_apply, convPlain_apply]
  simp only [wSlice_1_1_apply, bSlice_1_1_apply, wSlice_1_2_apply, bSlice_1_2_apply]
  rw [hidD_fn x0 x1 x2 x3 x4 x5 x6 x7 x8 x9, hidS_fn x0 x1 x2 x3 x4 x5 x6 x7 x8 x9]
  rfl

/-! ## The two results -/

theorem out1_apply (x0 x1 : FVec Ideal S50000x128 .f32) (x2 x3 x4 x5 : IVec S2x800000 32) (x6 : FVec Ideal S2x4x128x128 .f32) (x7 : FVec Ideal S2x4x128 .f32) (x8 : FVec Ideal S64x128 .f32) (x9 : FVec Ideal S64 .f32) (v : Fin 50000) (o : Fin 64) :
    out1 (F := Ideal) x0 x1 x2 x3 x4 x5 x6 x7 x8 x9 (ix2 v o) = (GraphSpec.netRef (argsOf x0 x1 x2 x3 x4 x5 x6 x7 x8 x9)).1 v o := by
  unfold out1
  rw [headOut_apply]
  simp only [lastD_apply x0 x1 x2 x3 x4 x5 x6 x7 x8 x9]
  rfl

theorem out2_apply (x0 x1 : FVec Ideal S50000x128 .f32) (x2 x3 x4 x5 : IVec S2x800000 32) (x6 : FVec Ideal S2x4x128x128 .f32) (x7 : FVec Ideal S2x4x128 .f32) (x8 : FVec Ideal S64x128 .f32) (x9 : FVec Ideal S64 .f32) (v : Fin 50000) (o : Fin 64) :
    out2 (F := Ideal) x0 x1 x2 x3 x4 x5 x6 x7 x8 x9 (ix2 v o) = (GraphSpec.netRef (argsOf x0 x1 x2 x3 x4 x5 x6 x7 x8 x9)).2 v o := by
  unfold out2
  rw [headOut_apply]
  simp only [lastS_apply x0 x1 x2 x3 x4 x5 x6 x7 x8 x9]
  rfl

end Cert.ReferenceIdeal.Stage

end
-- ==== Proof.RefRun.lean ====
/-
  The reference program's run: every weakly fair execution terminates with the two result buffers at R1 and R2, array
  functions of the launch contents of the ten arguments, and the arguments unchanged; and R1, R2 at node v and output o
  are the two components of GraphSpec.netRef of the arguments read as node features, edge words, weights and biases.
-/
import proofs.«122068_j1322849927480_2_alg».proof.Proof.RefBack
import proofs.«122068_j1322849927480_2_alg».proof.Proof.RefNet

noncomputable section

namespace Cert.ReferenceIdeal.RefValue

open Cert.ReferenceIdeal Cert.ReferenceIdeal.Gen Cert.ReferenceIdeal.ValueP Cert.ReferenceIdeal.Stage
open Idealize.ShloMosaic Idealize.ShloMosaic.ValueIdx Idealize.ShloMosaic.TcCoe Idealize.SL.Sem Idealize.ShloMosaic.StableHlo

/-- The arguments of the mathematics, read off a launch memory on device c. -/
def refArgs (m : (ℓ : Loc nD τ sig) → Buf (Elt Ideal) ℓ) (c : Dev nD) : GraphSpec.Args :=
  argsOf (m ((c.tc : Thread nD τ).loc main_arg0))
    (m ((c.tc : Thread nD τ).loc main_arg1))
    (m ((c.tc : Thread nD τ).loc main_arg2))
    (m ((c.tc : Thread nD τ).loc main_arg3))
    (m ((c.tc : Thread nD τ).loc main_arg4))
    (m ((c.tc : Thread nD τ).loc main_arg5))
    (m ((c.tc : Thread nD τ).loc main_arg6))
    (m ((c.tc : Thread nD τ).loc main_arg7))
    (m ((c.tc : Thread nD τ).loc main_arg8))
    (m ((c.tc : Thread nD τ).loc main_arg9))

/-- The first result as an array function of the launch memory. -/
def R1 (m : (ℓ : Loc nD τ sig) → Buf (Elt Ideal) ℓ) (c : Dev nD) : Buf (Elt Ideal) ((c.tc : Thread nD τ).loc main_v496) :=
  out1 (F := Ideal) (m ((c.tc : Thread nD τ).loc main_arg0))
    (m ((c.tc : Thread nD τ).loc main_arg1))
    (m ((c.tc : Thread nD τ).loc main_arg2))
    (m ((c.tc : Thread nD τ).loc main_arg3))
    (m ((c.tc : Thread nD τ).loc main_arg4))
    (m ((c.tc : Thread nD τ).loc main_arg5))
    (m ((c.tc : Thread nD τ).loc main_arg6))
    (m ((c.tc : Thread nD τ).loc main_arg7))
    (m ((c.tc : Thread nD τ).loc main_arg8))
    (m ((c.tc : Thread nD τ).loc main_arg9))
/-- The second result. -/
def R2 (m : (ℓ : Loc nD τ sig) → Buf (Elt Ideal) ℓ) (c : Dev nD) : Buf (Elt Ideal) ((c.tc : Thread nD τ).loc main_v501) :=
  out2 (F := Ideal) (m ((c.tc : Thread nD τ).loc main_arg0))
    (m ((c.tc : Thread nD τ).loc main_arg1))
    (m ((c.tc : Thread nD τ).loc main_arg2))
    (m ((c.tc : Thread nD τ).loc main_arg3))
    (m ((c.tc : Thread nD τ).loc main_arg4))
    (m ((c.tc : Thread nD τ).loc main_arg5))
    (m ((c.tc : Thread nD τ).loc main_arg6))
    (m ((c.tc : Thread nD τ).loc main_arg7))
    (m ((c.tc : Thread nD τ).loc main_arg8))
    (m ((c.tc : Thread nD τ).loc main_arg9))

theorem R1_apply (m : (ℓ : Loc nD τ sig) → Buf (Elt Ideal) ℓ) (c : Dev nD) (v : Fin 50000) (o : Fin 64) :
    R1 m c (ix2 v o) = (GraphSpec.netRef (refArgs m c)).1 v o := out1_apply _ _ _ _ _ _ _ _ _ _ v o
theorem R2_apply (m : (ℓ : Loc nD τ sig) → Buf (Elt Ideal) ℓ) (c : Dev nD) (v : Fin 50000) (o : Fin 64) :
    R2 m c (ix2 v o) = (GraphSpec.netRef (refArgs m c)).2 v o := out2_apply _ _ _ _ _ _ _ _ _ _ v o

/-- Every weakly fair execution of the reference terminates with its two results at R1 and R2 and its ten arguments
    unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v496) = R1 m c
      ∧ r.2.mem ((c.tc : Thread nD τ).loc main_v501) = R2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    ⟨(h c main_v496).trans (back_v496 (launchContents m c)),
     (h c main_v501).trans (back_v501 (launchContents m c)),
     (h c main_arg0).trans (back_arg0 (launchContents m c)),
     (h c main_arg1).trans (back_arg1 (launchContents m c)),
     (h c main_arg2).trans (back_arg2 (launchContents m c)),
     (h c main_arg3).trans (back_arg3 (launchContents m c)),
     (h c main_arg4).trans (back_arg4 (launchContents m c)),
     (h c main_arg5).trans (back_arg5 (launchContents m c)),
     (h c main_arg6).trans (back_arg6 (launchContents m c)),
     (h c main_arg7).trans (back_arg7 (launchContents m c)),
     (h c main_arg8).trans (back_arg8 (launchContents m c)),
     (h c main_arg9).trans (back_arg9 (launchContents m c))⟩)
    (run_after (F := Ideal) m ρ)

end Cert.ReferenceIdeal.RefValue

end
-- ==== Proof.lean ====
/-
  The certificate's claim: the kernel as printed, its idealization and the idealized reference each run and leave their
  ten arguments unchanged; the idealization rewrote nothing; and at the instance of the extended reals the idealized
  kernel and the idealized reference, from memories agreeing on the arguments, end with equal results.

  The kernel is a two-layer graph convolution over two node types with a linear head. Its eight regions and the host
  stretches between them compute, per relation, the projected features scaled by the source normalisation, summed over
  the edges landing on a node and scaled by the destination normalisation afterwards; the reference multiplies each
  edge's message by both normalisations inside the sum. A normalisation is a real number in [0, 1], and a nonnegative
  real factor moves out of a finite sum of extended reals: that law, with associativity and commutativity, is the whole
  difference between the two programs.

  The modules: GraphSpec (the mathematics and the law), KernelStages / StageReads / KernelSpec (the kernel's host stages
  as arrays, read at an index, equal to the kernel-side network), the region modules and FoldIdeal (the run's two result
  values read back as those arrays), RefStages / RefReads / RefNet / RefRun (the reference's run read as the reference-side
  network), Assembly (the five claims from these).
-/
import proofs.«122068_j1322849927480_2_alg».proof.Defs
import proofs.«122068_j1322849927480_2_alg».proof.Proof.Gen.Kernel
import proofs.«122068_j1322849927480_2_alg».proof.Proof.Gen.Kernel.Skeleton
import proofs.«122068_j1322849927480_2_alg».proof.Proof.Gen.Kernel.Launch
import proofs.«122068_j1322849927480_2_alg».proof.Proof.Gen.Kernel.Points
import proofs.«122068_j1322849927480_2_alg».proof.Proof.Gen.Kernel.Frame
import proofs.«122068_j1322849927480_2_alg».proof.Proof.Gen.KernelIdeal
import proofs.«122068_j1322849927480_2_alg».proof.Proof.Gen.KernelIdeal.Skeleton
import proofs.«122068_j1322849927480_2_alg».proof.Proof.Gen.KernelIdeal.Launch
import proofs.«122068_j1322849927480_2_alg».proof.Proof.Gen.KernelIdeal.Points
import proofs.«122068_j1322849927480_2_alg».proof.Proof.Gen.KernelIdeal.Frame
import proofs.«122068_j1322849927480_2_alg».proof.Proof.Gen.ReferenceIdeal
import proofs.«122068_j1322849927480_2_alg».proof.Proof.Gen.Pre_finite_inputs
import proofs.«122068_j1322849927480_2_alg».proof.Proof.Assembly
import proofs.«122068_j1322849927480_2_alg».proof.Proof.FoldIdeal
import proofs.«122068_j1322849927480_2_alg».proof.Proof.RefRun
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Assembly.frame_k, Assembly.frame_ki,
    Assembly.frame_ri_of Cert.ReferenceIdeal.RefValue.R1 Cert.ReferenceIdeal.RefValue.R2 Cert.ReferenceIdeal.RefValue.ref_run,
    Assembly.preserves,
    Assembly.algebraic_of Cert.ReferenceIdeal.RefValue.R1 Cert.ReferenceIdeal.RefValue.R2 Cert.ReferenceIdeal.RefValue.ref_run
      Cert.KernelIdeal.Fold.W32_v251 Cert.KernelIdeal.Fold.W32_v256
      Cert.ReferenceIdeal.RefValue.R1_apply Cert.ReferenceIdeal.RefValue.R2_apply⟩

end Cert.Proof

end
